-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg1 : IVec S2x320000 32) (main_v13 : IVec S_ 1) (main_v15 : IVec S2x320000 1) (main_c_5 : IVec S_ 32) : IVec S_ 1 :=
  let main_v16 : IVec S2x320000 32 := broadcastInDim S2x320000 ![] bcast_S_S2x320000 main_c_5
  let main_v17 : IVec S2x320000 1 := cmpi .sle main_arg1 main_v16
  let main_v18 : IVec S2x320000 1 := andi main_v15 main_v17
  let main_c_6 : IVec S_ 1 := constantI S_ 1 1#1
  let main_v19 : IVec S_ 1 := (fun x v => Host.reduce IntOp.andi x v reducesTo_S2x320000_S_d0_1 h_S_) main_v18 main_c_6
  let main_v20 : IVec S_ 1 := andi main_v13 main_v19
  main_v20

def fn {F : FTy → Type} [FloatOps F] (main_arg0 : FVec F S10000x128 .f32) (main_arg1 : IVec S2x320000 32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S2x320000 32 := broadcastInDim S2x320000 ![] bcast_S_S2x320000 main_c_4
  let main_v15 : IVec S2x320000 1 := cmpi .sge main_arg1 main_v14
  let main_c_5 : IVec S_ 32 := constantI S_ 32 9999#32
  fn_part1 (F := F) main_arg1 main_v13 main_v15 main_c_5
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x128 : Shape := ⟨2, ![1, 128]⟩
abbrev S8x128 : Shape := ⟨2, ![8, 128]⟩
abbrev S2000x128 : Shape := ⟨2, ![2000, 128]⟩
abbrev S1x320000 : Shape := ⟨2, ![1, 320000]⟩
abbrev S320000 : Shape := ⟨1, ![320000]⟩
abbrev S320000x128 : Shape := ⟨2, ![320000, 128]⟩
abbrev S10000 : Shape := ⟨1, ![10000]⟩
abbrev S80x128 : Shape := ⟨2, ![80, 128]⟩
abbrev S_ : Shape := ⟨0, ![]⟩
abbrev S80 : Shape := ⟨1, ![80]⟩

abbrev nBuf : Table → Nat
  | .hbm => 10
  | .local .tc .vmem => 6
  | .local .scVector .vmem => 6
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S8x128, .f32⟩
  | .hbm, ⟨6, _⟩ => ⟨S10000x128, .f32⟩
  | .hbm, ⟨7, _⟩ => ⟨S1x320000, .i32⟩
  | .hbm, ⟨8, _⟩ => ⟨S320000, .i32⟩
  | .hbm, ⟨9, _⟩ => ⟨S320000x128, .f32⟩
  | .local .tc .vmem, ⟨0, _⟩ => ⟨S2000x128, .f32⟩
  | .local .tc .vmem, ⟨1, _⟩ => ⟨S2000x128, .f32⟩
  | .local .tc .vmem, ⟨2, _⟩ => ⟨S128x128, .f32⟩
  | .local .tc .vmem, ⟨3, _⟩ => ⟨S8x128, .f32⟩
  | .local .tc .vmem, ⟨4, _⟩ => ⟨S2000x128, .f32⟩
  | .local .tc .vmem, ⟨5, _⟩ => ⟨S2000x128, .f32⟩
  | .local .scVector .vmem, ⟨0, _⟩ => ⟨S10000, .i32⟩
  | .local .scVector .vmem, ⟨1, _⟩ => ⟨S80x128, .f32⟩
  | .local .scVector .vmem, ⟨2, _⟩ => ⟨S80x128, .f32⟩
  | .local .scVector .vmem, ⟨3, _⟩ => ⟨S80x128, .f32⟩
  | .local .scVector .vmem, ⟨4, _⟩ => ⟨S80x128, .f32⟩
  | .local .scVector .vmem, ⟨5, _⟩ => ⟨S80x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v2_scv : Ref sig .scVector := ⟨.hbm, 6, rfl⟩
abbrev main_v4_scv : Ref sig .scVector := ⟨.hbm, 8, rfl⟩
abbrev main_v5_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
@[reducible] def k1_t1_loop : Scf.Loop 32 :=
  let c0_i32_8 : BitVec 32 := 0#32
  let c25_i32 : BitVec 32 := 25#32
  let v11 : BitVec 32 := Scalar.addi c0_i32_8 c25_i32
  let c1_i32 : BitVec 32 := 1#32
  ⟨c0_i32_8, v11, c1_i32⟩
def k1_off2 (k1_t1 : Fin k1_t1_loop.trips) (c0_i32_21 : BitVec 32) : Fin 1 → Nat :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let v29 : BitVec 32 := Scalar.addi v28 c0_i32_21
  let c80_i32_22 : BitVec 32 := 80#32
  let v30 : BitVec 32 := Scalar.muli v29 c80_i32_22
  ![v30.toNat]
def k1_off3 (i : grid1.Coords) (k1_t1 : Fin k1_t1_loop.trips) (c0_i32_21 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let v29 : BitVec 32 := Scalar.addi v28 c0_i32_21
  let c80_i32_25 : BitVec 32 := 80#32
  let v33 : BitVec 32 := Scalar.muli v29 c80_i32_25
  let v34 : BitVec 32 := Scalar.addi v2 v33
  let c0_i32_26 : BitVec 32 := 0#32
  ![v34.toNat, 0]
def k1_cond1 (k1_t1 : Fin k1_t1_loop.trips) : BitVec 1 :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c0_i32_21 : BitVec 32 := 0#32
  let v29 : BitVec 32 := Scalar.addi v28 c0_i32_21
  let c4_i32 : BitVec 32 := 4#32
  let v37 : BitVec 32 := Scalar.addi v29 c4_i32
  let c125_i32 : BitVec 32 := 125#32
  let v38 : BitVec 1 := Scalar.cmpi .slt v37 c125_i32
  let v39 : BitVec 32 := Scalar.extui v38
  let c0_i32_28 : BitVec 32 := 0#32
  let v40 : BitVec 1 := Scalar.cmpi .ne v39 c0_i32_28
  v40

def k1_cond2 (k1_t1 : Fin k1_t1_loop.trips) : BitVec 1 :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c0_i32_21 : BitVec 32 := 0#32
  let v29 : BitVec 32 := Scalar.addi v28 c0_i32_21
  let c4_i32_68 : BitVec 32 := 4#32
  let v89 : BitVec 32 := Scalar.addi v29 c4_i32_68
  let c5_i32_69 : BitVec 32 := 5#32
  let v90 : BitVec 1 := Scalar.cmpi .sge v89 c5_i32_69
  let v91 : BitVec 32 := Scalar.extui v90
  let c0_i32_70 : BitVec 32 := 0#32
  let v92 : BitVec 1 := Scalar.cmpi .ne v91 c0_i32_70
  v92

def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c0_i32_21 : BitVec 32 := 0#32
  let v29 : BitVec 32 := Scalar.addi v28 c0_i32_21
  let c4_i32_75 : BitVec 32 := 4#32
  let v97 : BitVec 32 := Scalar.addi v29 c4_i32_75
  let c5_i32_76 : BitVec 32 := 5#32
  let v98 : BitVec 32 := Scalar.subi v97 c5_i32_76
  let c80_i32_77 : BitVec 32 := 80#32
  let v99 : BitVec 32 := Scalar.muli v98 c80_i32_77
  let v100 : BitVec 32 := Scalar.addi v2 v99
  let c0_i32_78 : BitVec 32 := 0#32
  ![v100.toNat, 0]
def k1_off5 (k1_t1 : Fin k1_t1_loop.trips) : Fin 1 → Nat :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c0_i32_21 : BitVec 32 := 0#32
  let v29 : BitVec 32 := Scalar.addi v28 c0_i32_21
  let c4_i32_71 : BitVec 32 := 4#32
  let v93 : BitVec 32 := Scalar.addi v29 c4_i32_71
  let c80_i32_72 : BitVec 32 := 80#32
  let v94 : BitVec 32 := Scalar.muli v93 c80_i32_72
  ![v94.toNat]
def k1_cond3 (k1_t1 : Fin k1_t1_loop.trips) : BitVec 1 :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c1_i32_29 : BitVec 32 := 1#32
  let v41 : BitVec 32 := Scalar.addi v28 c1_i32_29
  let c4_i32_36 : BitVec 32 := 4#32
  let v49 : BitVec 32 := Scalar.addi v41 c4_i32_36
  let c125_i32_37 : BitVec 32 := 125#32
  let v50 : BitVec 1 := Scalar.cmpi .slt v49 c125_i32_37
  let v51 : BitVec 32 := Scalar.extui v50
  let c0_i32_38 : BitVec 32 := 0#32
  let v52 : BitVec 1 := Scalar.cmpi .ne v51 c0_i32_38
  v52

def k1_cond4 (k1_t1 : Fin k1_t1_loop.trips) : BitVec 1 :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c1_i32_29 : BitVec 32 := 1#32
  let v41 : BitVec 32 := Scalar.addi v28 c1_i32_29
  let c4_i32_68 : BitVec 32 := 4#32
  let v89 : BitVec 32 := Scalar.addi v41 c4_i32_68
  let c5_i32_69 : BitVec 32 := 5#32
  let v90 : BitVec 1 := Scalar.cmpi .sge v89 c5_i32_69
  let v91 : BitVec 32 := Scalar.extui v90
  let c0_i32_70 : BitVec 32 := 0#32
  let v92 : BitVec 1 := Scalar.cmpi .ne v91 c0_i32_70
  v92

def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c1_i32_29 : BitVec 32 := 1#32
  let v41 : BitVec 32 := Scalar.addi v28 c1_i32_29
  let c4_i32_75 : BitVec 32 := 4#32
  let v97 : BitVec 32 := Scalar.addi v41 c4_i32_75
  let c5_i32_76 : BitVec 32 := 5#32
  let v98 : BitVec 32 := Scalar.subi v97 c5_i32_76
  let c80_i32_77 : BitVec 32 := 80#32
  let v99 : BitVec 32 := Scalar.muli v98 c80_i32_77
  let v100 : BitVec 32 := Scalar.addi v2 v99
  let c0_i32_78 : BitVec 32 := 0#32
  ![v100.toNat, 0]
def k1_off7 (k1_t1 : Fin k1_t1_loop.trips) : Fin 1 → Nat :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c1_i32_29 : BitVec 32 := 1#32
  let v41 : BitVec 32 := Scalar.addi v28 c1_i32_29
  let c4_i32_71 : BitVec 32 := 4#32
  let v93 : BitVec 32 := Scalar.addi v41 c4_i32_71
  let c80_i32_72 : BitVec 32 := 80#32
  let v94 : BitVec 32 := Scalar.muli v93 c80_i32_72
  ![v94.toNat]
def k1_cond5 (k1_t1 : Fin k1_t1_loop.trips) : BitVec 1 :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c2_i32_39 : BitVec 32 := 2#32
  let v53 : BitVec 32 := Scalar.addi v28 c2_i32_39
  let c4_i32_46 : BitVec 32 := 4#32
  let v61 : BitVec 32 := Scalar.addi v53 c4_i32_46
  let c125_i32_47 : BitVec 32 := 125#32
  let v62 : BitVec 1 := Scalar.cmpi .slt v61 c125_i32_47
  let v63 : BitVec 32 := Scalar.extui v62
  let c0_i32_48 : BitVec 32 := 0#32
  let v64 : BitVec 1 := Scalar.cmpi .ne v63 c0_i32_48
  v64

def k1_cond6 (k1_t1 : Fin k1_t1_loop.trips) : BitVec 1 :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c2_i32_39 : BitVec 32 := 2#32
  let v53 : BitVec 32 := Scalar.addi v28 c2_i32_39
  let c4_i32_68 : BitVec 32 := 4#32
  let v89 : BitVec 32 := Scalar.addi v53 c4_i32_68
  let c5_i32_69 : BitVec 32 := 5#32
  let v90 : BitVec 1 := Scalar.cmpi .sge v89 c5_i32_69
  let v91 : BitVec 32 := Scalar.extui v90
  let c0_i32_70 : BitVec 32 := 0#32
  let v92 : BitVec 1 := Scalar.cmpi .ne v91 c0_i32_70
  v92

def k1_off8 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c2_i32_39 : BitVec 32 := 2#32
  let v53 : BitVec 32 := Scalar.addi v28 c2_i32_39
  let c4_i32_75 : BitVec 32 := 4#32
  let v97 : BitVec 32 := Scalar.addi v53 c4_i32_75
  let c5_i32_76 : BitVec 32 := 5#32
  let v98 : BitVec 32 := Scalar.subi v97 c5_i32_76
  let c80_i32_77 : BitVec 32 := 80#32
  let v99 : BitVec 32 := Scalar.muli v98 c80_i32_77
  let v100 : BitVec 32 := Scalar.addi v2 v99
  let c0_i32_78 : BitVec 32 := 0#32
  ![v100.toNat, 0]
def k1_off9 (k1_t1 : Fin k1_t1_loop.trips) : Fin 1 → Nat :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c2_i32_39 : BitVec 32 := 2#32
  let v53 : BitVec 32 := Scalar.addi v28 c2_i32_39
  let c4_i32_71 : BitVec 32 := 4#32
  let v93 : BitVec 32 := Scalar.addi v53 c4_i32_71
  let c80_i32_72 : BitVec 32 := 80#32
  let v94 : BitVec 32 := Scalar.muli v93 c80_i32_72
  ![v94.toNat]
def k1_cond7 (k1_t1 : Fin k1_t1_loop.trips) : BitVec 1 :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c3_i32 : BitVec 32 := 3#32
  let v65 : BitVec 32 := Scalar.addi v28 c3_i32
  let c4_i32_55 : BitVec 32 := 4#32
  let v73 : BitVec 32 := Scalar.addi v65 c4_i32_55
  let c125_i32_56 : BitVec 32 := 125#32
  let v74 : BitVec 1 := Scalar.cmpi .slt v73 c125_i32_56
  let v75 : BitVec 32 := Scalar.extui v74
  let c0_i32_57 : BitVec 32 := 0#32
  let v76 : BitVec 1 := Scalar.cmpi .ne v75 c0_i32_57
  v76

def k1_cond8 (k1_t1 : Fin k1_t1_loop.trips) : BitVec 1 :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c3_i32 : BitVec 32 := 3#32
  let v65 : BitVec 32 := Scalar.addi v28 c3_i32
  let c4_i32_68 : BitVec 32 := 4#32
  let v89 : BitVec 32 := Scalar.addi v65 c4_i32_68
  let c5_i32_69 : BitVec 32 := 5#32
  let v90 : BitVec 1 := Scalar.cmpi .sge v89 c5_i32_69
  let v91 : BitVec 32 := Scalar.extui v90
  let c0_i32_70 : BitVec 32 := 0#32
  let v92 : BitVec 1 := Scalar.cmpi .ne v91 c0_i32_70
  v92

def k1_off10 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c3_i32 : BitVec 32 := 3#32
  let v65 : BitVec 32 := Scalar.addi v28 c3_i32
  let c4_i32_75 : BitVec 32 := 4#32
  let v97 : BitVec 32 := Scalar.addi v65 c4_i32_75
  let c5_i32_76 : BitVec 32 := 5#32
  let v98 : BitVec 32 := Scalar.subi v97 c5_i32_76
  let c80_i32_77 : BitVec 32 := 80#32
  let v99 : BitVec 32 := Scalar.muli v98 c80_i32_77
  let v100 : BitVec 32 := Scalar.addi v2 v99
  let c0_i32_78 : BitVec 32 := 0#32
  ![v100.toNat, 0]
def k1_off11 (k1_t1 : Fin k1_t1_loop.trips) : Fin 1 → Nat :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c3_i32 : BitVec 32 := 3#32
  let v65 : BitVec 32 := Scalar.addi v28 c3_i32
  let c4_i32_71 : BitVec 32 := 4#32
  let v93 : BitVec 32 := Scalar.addi v65 c4_i32_71
  let c80_i32_72 : BitVec 32 := 80#32
  let v94 : BitVec 32 := Scalar.muli v93 c80_i32_72
  ![v94.toNat]
def k1_cond9 (k1_t1 : Fin k1_t1_loop.trips) : BitVec 1 :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c4_i32_58 : BitVec 32 := 4#32
  let v77 : BitVec 32 := Scalar.addi v28 c4_i32_58
  let c4_i32_65 : BitVec 32 := 4#32
  let v85 : BitVec 32 := Scalar.addi v77 c4_i32_65
  let c125_i32_66 : BitVec 32 := 125#32
  let v86 : BitVec 1 := Scalar.cmpi .slt v85 c125_i32_66
  let v87 : BitVec 32 := Scalar.extui v86
  let c0_i32_67 : BitVec 32 := 0#32
  let v88 : BitVec 1 := Scalar.cmpi .ne v87 c0_i32_67
  v88

def k1_cond10 (k1_t1 : Fin k1_t1_loop.trips) : BitVec 1 :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c4_i32_58 : BitVec 32 := 4#32
  let v77 : BitVec 32 := Scalar.addi v28 c4_i32_58
  let c4_i32_68 : BitVec 32 := 4#32
  let v89 : BitVec 32 := Scalar.addi v77 c4_i32_68
  let c5_i32_69 : BitVec 32 := 5#32
  let v90 : BitVec 1 := Scalar.cmpi .sge v89 c5_i32_69
  let v91 : BitVec 32 := Scalar.extui v90
  let c0_i32_70 : BitVec 32 := 0#32
  let v92 : BitVec 1 := Scalar.cmpi .ne v91 c0_i32_70
  v92

def k1_off12 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c4_i32_58 : BitVec 32 := 4#32
  let v77 : BitVec 32 := Scalar.addi v28 c4_i32_58
  let c4_i32_75 : BitVec 32 := 4#32
  let v97 : BitVec 32 := Scalar.addi v77 c4_i32_75
  let c5_i32_76 : BitVec 32 := 5#32
  let v98 : BitVec 32 := Scalar.subi v97 c5_i32_76
  let c80_i32_77 : BitVec 32 := 80#32
  let v99 : BitVec 32 := Scalar.muli v98 c80_i32_77
  let v100 : BitVec 32 := Scalar.addi v2 v99
  let c0_i32_78 : BitVec 32 := 0#32
  ![v100.toNat, 0]
def k1_off13 (k1_t1 : Fin k1_t1_loop.trips) : Fin 1 → Nat :=
  let c0_i32_20 : BitVec 32 := 0#32
  let c0_i32_8 : BitVec 32 := 0#32
  let c1_i32 : BitVec 32 := 1#32
  let arg21 : BitVec 32 := Scf.iv c0_i32_8 c1_i32 k1_t1
  let c5_i32 : BitVec 32 := 5#32
  let v27 : BitVec 32 := Scalar.muli arg21 c5_i32
  let v28 : BitVec 32 := Scalar.addi c0_i32_20 v27
  let c4_i32_58 : BitVec 32 := 4#32
  let v77 : BitVec 32 := Scalar.addi v28 c4_i32_58
  let c4_i32_71 : BitVec 32 := 4#32
  let v93 : BitVec 32 := Scalar.addi v77 c4_i32_71
  let c80_i32_72 : BitVec 32 := 80#32
  let v94 : BitVec 32 := Scalar.muli v93 c80_i32_72
  ![v94.toNat]
def k1_off14 (i : grid1.Coords) (c9600_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v12 : BitVec 32 := Scalar.addi v2 c9600_i32
  let c0_i32_10 : BitVec 32 := 0#32
  ![v12.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128_S1x128 : S128.ShapeCasts S1x128
  bcast_S1x128_S8x128_0_1 : S1x128.BroadcastsInDim S8x128 (![0, 1] : Fin 2 → Fin S8x128.rank)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S8x128_S1x128_0_0 : ∀ a, (![0, 0] : Fin 2 → Nat) a + S1x128.size a ≤ S8x128.size a
  h_S1x128 : 0 < S1x128.numel
  shapeCasts_S1x128_S1x128 : S1x128.ShapeCasts S1x128
  broadcasts_S1x128_S2000x128 : S1x128.Broadcasts S2000x128
  slices_S2x320000_S1x320000_1_0 : S2x320000.Slices ![1, 0] S1x320000
  shapeCasts_S1x320000_S320000 : S1x320000.ShapeCasts S320000
  inb_S10000_S80_0 : ∀ a, (![0] : Fin 1 → Nat) a + S80.size a ≤ S10000.size a
  inb_S10000x128_S10000x128_0_0 : ∀ a, (![0, 0] : Fin 2 → Nat) a + S10000x128.size a ≤ S10000x128.size a
  gathers_S10000x128_S80x128 : S10000x128.Gathers 0 S80x128
  inb_S10000_S80_80 : ∀ a, (![80] : Fin 1 → Nat) a + S80.size a ≤ S10000.size a
  inb_S10000_S80_160 : ∀ a, (![160] : Fin 1 → Nat) a + S80.size a ≤ S10000.size a
  inb_S10000_S80_240 : ∀ a, (![240] : Fin 1 → Nat) a + S80.size a ≤ S10000.size a
  dot_S2000x128_S128x128_S2000x128_1_1_0_0_n_n_wf : DotDims.WF S2000x128 S128x128 S2000x128 [1] [1] [0] [0] [] []
  hcc1_scratch6 : 6 + S_.numel ≤ 17
  hcc1_scratch7 : 7 + S_.numel ≤ 17
  hcc1_scratch8 : 8 + S_.numel ≤ 17
  hcc1_scratch9 : 9 + S_.numel ≤ 17
  hcc1_scratch10 : 10 + S_.numel ≤ 17
  hcc1_scratch11 : 11 + S_.numel ≤ 17
  hcc1_scratch12 : 12 + S_.numel ≤ 17
  hcc1_scratch13 : 13 + S_.numel ≤ 17
  hcc1_scratch14 : 14 + S_.numel ≤ 17
  hcc1_scratch15 : 15 + S_.numel ≤ 17
  hcc1_scoped0 : 16 + S_.numel ≤ 17
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .f32 = 32 ∨ (Rect.block (s := S10000x128) S2000x128.size (cc0_transform_3 i) (hinb0_3 i)).WholeWords (EltTy.packing .f32)
  hcore1 : grid1.bound 0 ≤ τ.nSC
  hsub1 : grid1.bound 1 ≤ τ.nSub
  k1_off1_inb : ∀ i : grid1.Coords, ∀ a, (k1_off1 i) a + S10000.size a ≤ S320000.size a
  k1_t1_ok : k1_t1_loop.OK
  k1_off2_inb : ∀ k1_t1 : Fin k1_t1_loop.trips, ∀ (r : Fin 5), ∀ a, (k1_off2 k1_t1 (BitVec.ofNat 32 r.val)) a + S80.size a ≤ S10000.size a
  k1_off3_inb : ∀ (i : grid1.Coords) (k1_t1 : Fin k1_t1_loop.trips), ∀ (r : Fin 5), ∀ a, (k1_off3 i k1_t1 (BitVec.ofNat 32 r.val)) a + S80x128.size a ≤ S320000x128.size a
  k1_off4_inb : ∀ (i : grid1.Coords) (k1_t1 : Fin k1_t1_loop.trips), ∀ (k1_h1 : k1_cond1 k1_t1 = 1#1), ∀ (k1_h2 : k1_cond2 k1_t1 = 1#1), ∀ a, (k1_off4 i k1_t1) a + S80x128.size a ≤ S320000x128.size a
  k1_off5_inb : ∀ k1_t1 : Fin k1_t1_loop.trips, ∀ (k1_h1 : k1_cond1 k1_t1 = 1#1), ∀ a, (k1_off5 k1_t1) a + S80.size a ≤ S10000.size a
  k1_off6_inb : ∀ (i : grid1.Coords) (k1_t1 : Fin k1_t1_loop.trips), ∀ (k1_h3 : k1_cond3 k1_t1 = 1#1), ∀ (k1_h4 : k1_cond4 k1_t1 = 1#1), ∀ a, (k1_off6 i k1_t1) a + S80x128.size a ≤ S320000x128.size a
  k1_off7_inb : ∀ k1_t1 : Fin k1_t1_loop.trips, ∀ (k1_h3 : k1_cond3 k1_t1 = 1#1), ∀ a, (k1_off7 k1_t1) a + S80.size a ≤ S10000.size a
  k1_off8_inb : ∀ (i : grid1.Coords) (k1_t1 : Fin k1_t1_loop.trips), ∀ (k1_h5 : k1_cond5 k1_t1 = 1#1), ∀ (k1_h6 : k1_cond6 k1_t1 = 1#1), ∀ a, (k1_off8 i k1_t1) a + S80x128.size a ≤ S320000x128.size a
  k1_off9_inb : ∀ k1_t1 : Fin k1_t1_loop.trips, ∀ (k1_h5 : k1_cond5 k1_t1 = 1#1), ∀ a, (k1_off9 k1_t1) a + S80.size a ≤ S10000.size a
  k1_off10_inb : ∀ (i : grid1.Coords) (k1_t1 : Fin k1_t1_loop.trips), ∀ (k1_h7 : k1_cond7 k1_t1 = 1#1), ∀ (k1_h8 : k1_cond8 k1_t1 = 1#1), ∀ a, (k1_off10 i k1_t1) a + S80x128.size a ≤ S320000x128.size a
  k1_off11_inb : ∀ k1_t1 : Fin k1_t1_loop.trips, ∀ (k1_h7 : k1_cond7 k1_t1 = 1#1), ∀ a, (k1_off11 k1_t1) a + S80.size a ≤ S10000.size a
  k1_off12_inb : ∀ (i : grid1.Coords) (k1_t1 : Fin k1_t1_loop.trips), ∀ (k1_h9 : k1_cond9 k1_t1 = 1#1), ∀ (k1_h10 : k1_cond10 k1_t1 = 1#1), ∀ a, (k1_off12 i k1_t1) a + S80x128.size a ≤ S320000x128.size a
  k1_off13_inb : ∀ k1_t1 : Fin k1_t1_loop.trips, ∀ (k1_h9 : k1_cond9 k1_t1 = 1#1), ∀ a, (k1_off13 k1_t1) a + S80.size a ≤ S10000.size a
  k1_off14_inb : ∀ i : grid1.Coords, ∀ (r : Fin 5), ∀ a, (k1_off14 i (BitVec.ofNat 32 (9600 + 80 * r.val))) a + S80x128.size a ≤ S320000x128.size a

variable [Facts₀]

abbrev cc1_scratch6 : DmaSems sig S_ := SemArray.consecutive 6 S_ hcc1_scratch6
abbrev cc1_scratch7 : DmaSems sig S_ := SemArray.consecutive 7 S_ hcc1_scratch7
abbrev cc1_scratch8 : DmaSems sig S_ := SemArray.consecutive 8 S_ hcc1_scratch8
abbrev cc1_scratch9 : DmaSems sig S_ := SemArray.consecutive 9 S_ hcc1_scratch9
abbrev cc1_scratch10 : DmaSems sig S_ := SemArray.consecutive 10 S_ hcc1_scratch10
abbrev cc1_scratch11 : DmaSems sig S_ := SemArray.consecutive 11 S_ hcc1_scratch11
abbrev cc1_scratch12 : DmaSems sig S_ := SemArray.consecutive 12 S_ hcc1_scratch12
abbrev cc1_scratch13 : DmaSems sig S_ := SemArray.consecutive 13 S_ hcc1_scratch13
abbrev cc1_scratch14 : DmaSems sig S_ := SemArray.consecutive 14 S_ hcc1_scratch14
abbrev cc1_scratch15 : DmaSems sig S_ := SemArray.consecutive 15 S_ hcc1_scratch15
abbrev cc1_scoped0 : DmaSems sig S_ := SemArray.consecutive 16 S_ hcc1_scoped0
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S1x320000, .i32⟩
  | .hbm, ⟨5, _⟩ => ⟨S320000, .i32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S1, .i32⟩
  | .hbm, ⟨15, _⟩ => ⟨S_, .i32⟩
  | .hbm, ⟨16, _⟩ => ⟨S320000x1, .i32⟩
  | .hbm, ⟨17, _⟩ => ⟨S320000x1, .i1⟩
  | .hbm, ⟨18, _⟩ => ⟨S1x1, .i32⟩
  | .hbm, ⟨19, _⟩ => ⟨S320000x1, .i32⟩
  | .hbm, ⟨20, _⟩ => ⟨S320000x1, .i1⟩
  | .hbm, ⟨21, _⟩ => ⟨S320000x1, .i1⟩
  | .hbm, ⟨22, _⟩ => ⟨S_, .i1⟩
  | .hbm, ⟨23, _⟩ => ⟨S320000, .i1⟩
  | .hbm, ⟨24, _⟩ => ⟨S320000x128, .f32⟩
  | .hbm, ⟨25, _⟩ => ⟨S320000x128, .i1⟩
  | .hbm, ⟨26, _⟩ => ⟨S_, .f32⟩
  | .hbm, ⟨27, _⟩ => ⟨S320000x128, .f32⟩
  | .hbm, ⟨28, _⟩ => ⟨S320000x128, .f32⟩
  | .hbm, ⟨29, _⟩ => ⟨S128x128, .f32⟩
  | .hbm, ⟨30, _⟩ => ⟨S320000x128, .f32⟩
  | .hbm, ⟨31, _⟩ => ⟨S1x128, .f32⟩
  | .hbm, ⟨32, _⟩ => ⟨S320000x128, .f32⟩
  | .hbm, ⟨33, _⟩ => ⟨S320000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩

abbrev nD : Nat := 1
abbrev τ : Topo := Topo.v7x

variable {F : FTy → Type} [FloatOps F]

class Facts₀ : Prop where
  slices_S2x320000_S1x320000_1_0 : S2x320000.Slices ![1, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  transposes_S128x128_S128x128_1_0 : S128x128.Transposes [1, 0] S128x128
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  gather_S10000x128_S320000x1_S320000x128_1_0_n_n_0_1_1128_wf : GatherDims.WF S10000x128 S320000x1 S320000x128 [1] [0] [] [0] [] 1 ![1, 128]
  dot_S320000x128_S128x128_S320000x128_1_0_0_1_n_n_wf : DotDims.WF S320000x128 S128x128 S320000x128 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf

class Facts : Prop extends Facts₀ where

variable [Facts]
-- ==== Proof.CommonI.lean ====
/-
  Shared set-up for the frame of this program: the SparseCore call's configuration, the resource algebra the
  proof runs in (the launch handshakes' rounds, the TensorCore pipeline's staging cells, the transfers' counters),
  and the arrays and scratch buffers by name.  The program: on the TensorCore, y = x·Wᵀ + b by a five-step
  pipelined matrix product; then thirty-two vector subcores each copy 10000 entries of the edge list's second row
  and gather the rows of y they name, eighty at a time through five row buffers, out to their slice of the result.
-/
import proofs.«207968_g22119081574525_cont_sun_m_427_17_alg».proof.KernelIdeal
import proofs.«207968_g22119081574525_cont_sun_m_427_17_alg».proof.Proof.Gen.KernelIdeal
import proofs.«207968_g22119081574525_cont_sun_m_427_17_alg».proof.Proof.Gen.KernelIdeal.Skeleton
import proofs.«207968_g22119081574525_cont_sun_m_427_17_alg».proof.Proof.Gen.KernelIdeal.Launch
import proofs.«207968_g22119081574525_cont_sun_m_427_17_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

end Cert.KernelIdeal.Hand

end
-- ==== Proof.TcBodyI.lean ====
/-
  The body of the matrix-product kernel at a grid point.  At point t the body is handed the t-th block of
  2000 rows of x, the whole of W and the eight-row copy of the bias, each in its staging buffer, and leaves in
  the output's staging buffer the 2000 × 128 block  x_t · Wᵀ + b  (the product into a zero accumulator, the
  bias's row 0 broadcast down the rows).  Stated once at a symbolic point, for any float instance.

  The proof data of the pipeline: the four arrays as the region finds them; after the body each input's buffer
  at its block and the output's at the body's value of the three input blocks.  The invariant, what the core
  owes and the bound on its recorded waits are parameters: the body reads none of them.
-/
import proofs.«207968_g22119081574525_cont_sun_m_427_17_alg».proof.Proof.CommonI
import Idealize.ShloMosaic.Lib.Pipeline.FrameBody
import Idealize.ShloMosaic.Lib.Tactic

-- membership in a rectangle of 2000 rows: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The arrays at region entry, and the windows' blocks -/

section Data

variable (c : Dev nD)
  (xv : Buf (Elt F) ((c.tc : Thread nD τ).loc main_arg0)) (wv : Buf (Elt F) ((c.tc : Thread nD τ).loc main_arg2))
  (bv : Buf (Elt F) ((c.tc : Thread nD τ).loc main_v1)) (yv : Buf (Elt F) ((c.tc : Thread nD τ).loc main_v2))

/-- The four windowed arrays as the region finds them: x, W, the eight-row bias, and the result at anything. -/
def tcA : (w : Fin cfg0.W) → Buf (Elt F) ((cfg0.win w).arr.view.loc (c.tc : Thread nD τ))
  | ⟨0, _⟩ => xv
  | ⟨1, _⟩ => wv
  | ⟨2, _⟩ => bv
  | ⟨3, _⟩ => yv

/-- Window w's block at point t, read off its array as the region finds it. -/
def tcBlk (w : Fin cfg0.W) (t : Fin cfg0.N) : ((cfg0.win w).xblock (cfg0.grid.coords t)).Idx → Elt F (cfg0.win w).elt :=
  ((cfg0.win w).blk t).view.read (Elt F) (tcA c xv wv bv yv w)

end Data

/-! ## The body's accesses and what it leaves in the output's buffer -/

abbrev rX : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S8x128 := Rect.unit (s := S8x128) ![0, 0] S1x128.size inb_S8x128_S1x128_0_0

/-- The output's staging buffer after the body, from the three input blocks: its one store, of the product plus
    the broadcast bias row, over the whole buffer. -/
def tcOut (x0 : Vec F S2000x128 .f32) (x1 : Vec F S128x128 .f32) (x2 : Vec F S8x128 .f32) : Vec F S2000x128 .f32 :=
  View.canon [⟨rX, k0_pay1 (View.ld x0 rX) (View.ld x1 rW) (View.ld x2 rB)⟩]

/-- The store's rectangle is the whole buffer. -/
theorem tcCover (p0 : Vec F S2000x128 .f32) (y : S2000x128.Idx) :
    ∃ pc ∈ ([⟨rX, p0⟩] : List (View.Piece (Elt F) S2000x128 .f32)), y ∈ pc.1.set :=
  View.cover_of_tiled [⟨rX, p0⟩] S2000x128.size (by rfl) y

/-! ## The body's triple -/

set_option maxHeartbeats 1000000 in
/-- The body on whole staging memrefs, the inputs' at contents x0, x1, x2 and the output's at anything, runs to the
    continuation holding the inputs' as they were and the output's at tcOut of them. -/
theorem tcSoundKernel (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S8x128 .f32) (harg3 : arg3.IsWhole) (arg4 : Memref sig .tc .vmem S2000x128 .f32) (harg4 : arg4.IsWhole)
    (x0 : Vec F S2000x128 .f32) (x1 : Vec F S128x128 .f32) (x2 : Vec F S8x128 .f32) (Kc : PUnit → sProp 𝕄) :
    iprop(owns (c.tc : Thread nD τ) arg1 fullShare x0 ∗ owns (c.tc : Thread nD τ) arg2 fullShare x1 ∗ owns (c.tc : Thread nD τ) arg3 fullShare x2
        ∗ (∃ d, owns (c.tc : Thread nD τ) arg4 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare (tcOut x0 x1 x2)) -∗ Kc ⟨⟩))
      ⊢ wp frame (wpE (defs₀ (F := F)) Variants.none (c.tc : Thread nD τ) none) E (cc0__mm_body i arg1 harg1 arg2 harg2 arg3 harg3 arg4 harg4) Kc := by
  simp only [cc0__mm_body_eq_skeleton]; unfold cc0__mm_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tcCover _)

/-! ## The pipeline's proof data -/

section Dat

variable (c : Dev nD)
  (xv : Buf (Elt F) ((c.tc : Thread nD τ).loc main_arg0)) (wv : Buf (Elt F) ((c.tc : Thread nD τ).loc main_arg2))
  (bv : Buf (Elt F) ((c.tc : Thread nD τ).loc main_v1)) (yv : Buf (Elt F) ((c.tc : Thread nD τ).loc main_v2))
  (Φ₀ : sProp (MT nD τ sig (HIx 1) (Elt F) ℕ UU ℕ)) (O : CellTallies nD τ sig (HIx 1)) (B : Set (SemLoc sig × HIx 1))

/-- The proof data of the pipeline on core c: the arrays as the region finds them; after the body at point t each
    input's buffer at its block and the output's at tcOut of the input blocks; a constant invariant; the core owing
    the same tallies throughout, its recorded waits within the same bound; full shares. -/
def tcDat : Dat τ (Elt F) (HIx 1) ℕ UU ℕ cfg0 c where
  A := tcA c xv wv bv yv
  after w t := match w with
    | ⟨0, _⟩ => tcBlk c xv wv bv yv 0 t
    | ⟨1, _⟩ => tcBlk c xv wv bv yv 1 t
    | ⟨2, _⟩ => tcBlk c xv wv bv yv 2 t
    | ⟨3, _⟩ => tcOut (tcBlk c xv wv bv yv 0 t) (tcBlk c xv wv bv yv 1 t) (tcBlk c xv wv bv yv 2 t)
  Φ _ := Φ₀
  q _ := fullShare
  owed _ := O
  recorded _ := B

theorem tcDat_A (w : Fin cfg0.W) : (tcDat c xv wv bv yv Φ₀ O B).A w = tcA c xv wv bv yv w := by dsimp only [tcDat]

theorem tcAfter0 (t : Fin cfg0.N) : (tcDat c xv wv bv yv Φ₀ O B).after 0 t = tcBlk c xv wv bv yv 0 t := by dsimp only [tcDat]
theorem tcAfter1 (t : Fin cfg0.N) : (tcDat c xv wv bv yv Φ₀ O B).after 1 t = tcBlk c xv wv bv yv 1 t := by dsimp only [tcDat]
theorem tcAfter2 (t : Fin cfg0.N) : (tcDat c xv wv bv yv Φ₀ O B).after 2 t = tcBlk c xv wv bv yv 2 t := by dsimp only [tcDat]
theorem tcAfter3 (t : Fin cfg0.N) : (tcDat c xv wv bv yv Φ₀ O B).after 3 t
    = tcOut (tcBlk c xv wv bv yv 0 t) (tcBlk c xv wv bv yv 1 t) (tcBlk c xv wv bv yv 2 t) := by dsimp only [tcDat]

/-- Each input's current staging buffer holds its block at every point, fetched there or not: unfetched, the block
    index has not moved; the windows are uncut and never idle. -/
theorem tcBefore0 (t : Fin cfg0.N) (d) : (tcDat c xv wv bv yv Φ₀ O B).before 0 t d = tcBlk c xv wv bv yv 0 t :=
  ((tcDat c xv wv bv yv Φ₀ O B).before_in_eq_fetched 0 rfl (fun _ => rfl) (fun _ _ _ => rfl)
      (fun t => by rw [tcAfter0]; unfold Dat.blockOf tcBlk; rw [tcDat_A]; try rfl) t d).trans
    (by unfold Dat.fetched Dat.blockOf tcBlk; rw [tcDat_A]; try rfl)
theorem tcBefore1 (t : Fin cfg0.N) (d) : (tcDat c xv wv bv yv Φ₀ O B).before 1 t d = tcBlk c xv wv bv yv 1 t :=
  ((tcDat c xv wv bv yv Φ₀ O B).before_in_eq_fetched 1 rfl (fun _ => rfl) (fun _ _ _ => rfl)
      (fun t => by rw [tcAfter1]; unfold Dat.blockOf tcBlk; rw [tcDat_A]; try rfl) t d).trans
    (by unfold Dat.fetched Dat.blockOf tcBlk; rw [tcDat_A]; try rfl)
theorem tcBefore2 (t : Fin cfg0.N) (d) : (tcDat c xv wv bv yv Φ₀ O B).before 2 t d = tcBlk c xv wv bv yv 2 t :=
  ((tcDat c xv wv bv yv Φ₀ O B).before_in_eq_fetched 2 rfl (fun _ => rfl) (fun _ _ _ => rfl)
      (fun t => by rw [tcAfter2]; unfold Dat.blockOf tcBlk; rw [tcDat_A]; try rfl) t d).trans
    (by unfold Dat.fetched Dat.blockOf tcBlk; rw [tcDat_A]; try rfl)

/-! ## The body obligation, at a generic point -/

/-- What the body is called with at point t, the windows one by one, -/
def tcBodyPre (t : Fin cfg0.N) : sProp 𝕄 :=
  iprop((tcDat c xv wv bv yv Φ₀ O B).Φ t.castSucc ∗ (tcDat c xv wv bv yv Φ₀ O B).owesAt (none : HIx 1) t.castSucc
    ∗ (∃ d, owns (c.tc : Thread nD τ) (st0_0 t) fullShare ((tcDat c xv wv bv yv Φ₀ O B).before 0 t d))
    ∗ (∃ d, owns (c.tc : Thread nD τ) (st0_1 t) fullShare ((tcDat c xv wv bv yv Φ₀ O B).before 1 t d))
    ∗ (∃ d, owns (c.tc : Thread nD τ) (st0_2 t) fullShare ((tcDat c xv wv bv yv Φ₀ O B).before 2 t d))
    ∗ (∃ d, owns (c.tc : Thread nD τ) (st0_3 t) fullShare ((tcDat c xv wv bv yv Φ₀ O B).before 3 t d)))

/-- and what it returns. -/
def tcBodyPost (t : Fin cfg0.N) : sProp 𝕄 :=
  iprop((tcDat c xv wv bv yv Φ₀ O B).Φ t.succ ∗ (tcDat c xv wv bv yv Φ₀ O B).owesAt (none : HIx 1) t.succ
    ∗ owns (c.tc : Thread nD τ) (st0_0 t) fullShare ((tcDat c xv wv bv yv Φ₀ O B).after 0 t)
    ∗ owns (c.tc : Thread nD τ) (st0_1 t) fullShare ((tcDat c xv wv bv yv Φ₀ O B).after 1 t)
    ∗ owns (c.tc : Thread nD τ) (st0_2 t) fullShare ((tcDat c xv wv bv yv Φ₀ O B).after 2 t)
    ∗ owns (c.tc : Thread nD τ) (st0_3 t) fullShare ((tcDat c xv wv bv yv Φ₀ O B).after 3 t))

/-- The body at any point: the inputs' memrefs hold their blocks, so the body's triple applies; the invariant and
    the core's debts pass through unread. -/
theorem tcSoundBody (t : Fin cfg0.N) :
    tcBodyPre c xv wv bv yv Φ₀ O B t
      ⊢ wp frame (wpE (defs₀ (F := F)) Variants.none (c.tc : Thread nD τ) none) Set.univ (bodyAt0 t) (fun _ => tcBodyPost c xv wv bv yv Φ₀ O B t) := by
  unfold tcBodyPre tcBodyPost bodyAt0
  simp only [tcBefore0, tcBefore1, tcBefore2]
  rw [show (tcDat c xv wv bv yv Φ₀ O B).Φ t.succ = (tcDat c xv wv bv yv Φ₀ O B).Φ t.castSucc from rfl,
    show (tcDat c xv wv bv yv Φ₀ O B).owesAt (none : HIx 1) t.succ = (tcDat c xv wv bv yv Φ₀ O B).owesAt (none : HIx 1) t.castSucc from rfl,
    tcAfter0, tcAfter1, tcAfter2, tcAfter3]
  iintro ⟨HΦ, Ho, ⟨%d0, H0⟩, ⟨%d1, H1⟩, ⟨%d2, H2⟩, ⟨%d3, H3⟩⟩
  iapply (tcSoundKernel c Set.univ (grid0.coords t) _ _ _ _ _ _ _ _
    (tcBlk c xv wv bv yv 0 t) (tcBlk c xv wv bv yv 1 t) (tcBlk c xv wv bv yv 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem tcBodyObligation : BodyObligation (tcDat c xv wv bv yv Φ₀ O B) (defs₀ (F := F)) Variants.none (none : HIx 1) Set.univ := fun t => by
  rw [bigSep_W0, bigSep_W0]
  exact tcSoundBody c xv wv bv yv Φ₀ O B t

end Dat

end Cert.KernelIdeal.Hand

end
-- ==== Proof.TcArrayI.lean ====
/-
  The result array of the matrix-product pipeline as ONE function of the three input arrays, and the proof that
  the pipeline's write-backs build exactly it: point t writes back rows 2000 t … 2000 t + 1999, each the body's
  value on the t-th block of x, the whole of W and row 0 of the bias; the five blocks cover the array.
-/
import proofs.«207968_g22119081574525_cont_sun_m_427_17_alg».proof.Proof.TcBodyI
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.Sem Idealize.SL.BI
open Idealize.ShloMosaic.Pipeline (Dat)

variable {F : FTy → Type} [FloatOps F]

/-! ## The result array as one function of the arguments -/

/-- The result array: at (r, j), entry (r mod 2000, j) of the body's value on the block of 2000 rows of x that
    holds row r, the whole of W, and row 0 of the eight-row bias. -/
def Yarr (xv : S10000x128.Idx → Elt F .f32) (wv : S128x128.Idx → Elt F .f32) (bv : S8x128.Idx → Elt F .f32) :
    S10000x128.Idx → Elt F .f32 := fun i =>
  k0_pay1 (F := F)
    (fun y : S2000x128.Idx => xv (ix2 (⟨(i 0).val / 2000 * 2000 + (y 0).val, by
      have h0 : (i 0).val < 10000 := idx2_lt0 i
      have h1 : (y 0).val < 2000 := idx2_lt0 y
      omega⟩ : Fin 10000) (⟨(y 1).val, idx2_lt1 y⟩ : Fin 128)))
    wv
    (fun y : S1x128.Idx => bv (ix2 (0 : Fin 8) (⟨(y 1).val, idx2_lt1 y⟩ : Fin 128)))
    (ix2 (⟨(i 0).val % 2000, Nat.mod_lt _ (by decide)⟩ : Fin 2000) (⟨(i 1).val, idx2_lt1 i⟩ : Fin 128))

/-- Two indices of a rank-2 shape with equal coordinates are equal. -/
theorem idx2_ext {n0 n1 : Nat} (a b : (⟨2, ![n0, n1]⟩ : Shape).Idx) (h0 : (a 0).val = (b 0).val) (h1 : (a 1).val = (b 1).val) : a = b := by
  funext k; apply Fin.ext
  match k with
  | ⟨0, _⟩ => exact h0
  | ⟨1, _⟩ => exact h1

/-- The body's value at entry j of block tn is the result array at the entry of the array that block entry is:
    for any three vectors that read x at rows 2000 tn + ·, W entry by entry, and the bias at row 0. -/
theorem Yarr_block (xv : S10000x128.Idx → Elt F .f32) (wv : S128x128.Idx → Elt F .f32) (bv : S8x128.Idx → Elt F .f32)
    (tn : ℕ) (i : S10000x128.Idx) (j : S2000x128.Idx)
    (h0 : (i 0).val = tn * 2000 + (j 0).val) (h1 : (i 1).val = (j 1).val)
    (x0 : Vec F S2000x128 .f32) (x1 : Vec F S128x128 .f32) (x2 : Vec F S1x128 .f32)
    (hx0 : ∀ (y : S2000x128.Idx) (i' : S10000x128.Idx), (i' 0).val = tn * 2000 + (y 0).val → (i' 1).val = (y 1).val → x0 y = xv i')
    (hx1 : ∀ (y : S128x128.Idx) (i' : S128x128.Idx), (i' 0).val = (y 0).val → (i' 1).val = (y 1).val → x1 y = wv i')
    (hx2 : ∀ (y : S1x128.Idx) (i' : S8x128.Idx), (i' 0).val = 0 → (i' 1).val = (y 1).val → x2 y = bv i') :
    k0_pay1 x0 x1 x2 j = Yarr xv wv bv i := by
  have hj0 : (j 0).val < 2000 := idx2_lt0 j
  have e0 : x0 = fun y : S2000x128.Idx => xv (ix2 (⟨(i 0).val / 2000 * 2000 + (y 0).val, by
      have h0 : (i 0).val < 10000 := idx2_lt0 i
      have h1 : (y 0).val < 2000 := idx2_lt0 y
      omega⟩ : Fin 10000) (⟨(y 1).val, idx2_lt1 y⟩ : Fin 128)) :=
    funext fun y => hx0 y _ (by show (i 0).val / 2000 * 2000 + (y 0).val = _; omega) rfl
  have e1 : x1 = wv := funext fun y => hx1 y y rfl rfl
  have e2 : x2 = fun y : S1x128.Idx => bv (ix2 (0 : Fin 8) (⟨(y 1).val, idx2_lt1 y⟩ : Fin 128)) :=
    funext fun y => hx2 y _ rfl rfl
  have ej : j = ix2 (⟨(i 0).val % 2000, Nat.mod_lt _ (by decide)⟩ : Fin 2000) (⟨(i 1).val, idx2_lt1 i⟩ : Fin 128) :=
    idx2_ext _ _ (by show (j 0).val = (i 0).val % 2000; omega) (by show (j 1).val = (i 1).val; omega)
  unfold Yarr
  rw [e0, e1, e2]
  exact congrArg _ ej

/-! ## The write-backs build the result array -/

section Final

variable (c : Dev nD)
  (xv : Buf (Elt F) ((c.tc : Thread nD τ).loc main_arg0)) (wv : Buf (Elt F) ((c.tc : Thread nD τ).loc main_arg2))
  (bv : Buf (Elt F) ((c.tc : Thread nD τ).loc main_v1)) (yv : Buf (Elt F) ((c.tc : Thread nD τ).loc main_v2))
  (Φ₀ : sProp (MT nD τ sig (HIx 1) (Elt F) ℕ UU ℕ)) (O : CellTallies nD τ sig (HIx 1)) (B : Set (SemLoc sig × HIx 1))

theorem tcHz : (![0, 0] : Fin 2 → Nat) = fun _ => 0 := funext fun a => by fin_cases a <;> rfl

/-- The printed index maps over the grid: the window of x and the result's window are at block (t, 0); W's and the
    bias's at block (0, 0). -/
theorem tcIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the result array. -/
theorem tcFlushed (t : Fin cfg0.N) :
    (tcDat c xv wv bv yv Φ₀ O B).flushed 3 t = ((cfg0.win 3).blk t).view.read (Elt F) (Yarr xv wv bv) := by
  show (cfg0.win 3).cut (grid0.coords t) ((tcDat c xv wv bv yv Φ₀ O B).after 3 t) = _
  rw [tcAfter3]
  unfold tcOut
  rw [View.canon_unit_zero tcHz]
  simp only [View.ld_unit_zero (S := S2000x128) tcHz, View.ld_unit_zero (S := S128x128) tcHz]
  obtain ⟨e0, e1, e2, e3, e4, e5, e6, e7⟩ := tcIdx t
  funext j
  refine Yarr_block xv wv bv t.val (((cfg0.win 3).blk t).view.emb j) j ?_ ?_ _ _ _ ?_ ?_ ?_
  · show win0_3.index t (0 : Fin 2) * 2000 + 1 * (j 0).val = _; omega
  · show win0_3.index t (1 : Fin 2) * 128 + 1 * (j 1).val = _; omega
  · intro y i' hi0 hi1
    show xv (((cfg0.win 0).blk t).view.emb y) = xv i'
    refine congrArg xv (idx2_ext _ _ ?_ ?_)
    · show win0_0.index t (0 : Fin 2) * 2000 + 1 * (y 0).val = _; omega
    · show win0_0.index t (1 : Fin 2) * 128 + 1 * (y 1).val = _; omega
  · intro y i' hi0 hi1
    show wv (((cfg0.win 1).blk t).view.emb y) = wv i'
    refine congrArg wv (idx2_ext _ _ ?_ ?_)
    · show win0_1.index t (0 : Fin 2) * 128 + 1 * (y 0).val = _; omega
    · show win0_1.index t (1 : Fin 2) * 128 + 1 * (y 1).val = _; omega
  · intro y i' hi0 hi1
    show bv (((cfg0.win 2).blk t).view.emb (rB.idx y)) = bv i'
    refine congrArg bv (idx2_ext _ _ ?_ ?_)
    · show win0_2.index t (0 : Fin 2) * 8 + 1 * (0 + 1 * (y 0).val) = _
      have hy0 : (y 0).val < 1 := idx2_lt0 y
      omega
    · show win0_2.index t (1 : Fin 2) * 128 + 1 * (0 + 1 * (y 1).val) = _; omega

/-- An index of the array is in point t's block iff each coordinate is in the block's range on its axis. -/
theorem tcMemBlk (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v2).slice (win0_3.rect t)).set ↔ _
  rw [View.set_slice_whole, Rect.mem_set_unit]
  exact Iff.rfl

/-- Every index of the array is in the block of the point its row names. -/
theorem tcCoverAll (i : S10000x128.Idx) : ∃ t : Fin cfg0.N, (cfg0.win 3).flush t = true ∧ i ∈ ((cfg0.win 3).blk t).view.set := by
  have hi0 : (i 0).val < 10000 := idx2_lt0 i
  have hi1 : (i 1).val < 128 := idx2_lt1 i
  have hN : cfg0.N = 5 := N_0
  have ht : (i 0).val / 2000 < cfg0.N := by rw [hN]; omega
  obtain ⟨-, -, -, -, -, -, e6, e7⟩ := tcIdx ⟨(i 0).val / 2000, ht⟩
  refine ⟨⟨(i 0).val / 2000, ht⟩, flush0_3 _, ?_⟩
  rw [tcMemBlk]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    omega

/-- After the five points the result's array is the result array. -/
theorem tcFinal : (tcDat c xv wv bv yv Φ₀ O B).arrAt 3 cfg0.N = Yarr xv wv bv :=
  (tcDat c xv wv bv yv Φ₀ O B).arrAt_eq_of_cover 3 (Yarr xv wv bv) (fun t _ => tcFlushed c xv wv bv yv Φ₀ O B t) tcCoverAll

end Final

end Cert.KernelIdeal.Hand

end
-- ==== Proof.TcSegI.lean ====
/-
  The matrix-product pipeline's region as a record: its ghost state and the launch element that funds it, the
  proof data on every core, the thread states the region is entered from and leaves, and the four entailments
  between them.  The TensorCore's debts are all at a call's index, strictly above the level of the pipeline's own
  waits (the kernels' index, level 0): the waits may be recorded, and what the core owes passes through unchanged.
-/
import proofs.«207968_g22119081574525_cont_sun_m_427_17_alg».proof.Proof.TcArrayI

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The pipeline's ghost state, and the launch element that funds it -/

/-- The pipeline prefetches no table: its one admissible contents. -/
abbrev tcAdm : (p : Fin 1) → (pcfgs (F := F) p).Adm := fun q => (cfgs q).toPCfg_adm

/-- What core c holds of the pipeline's staging cells from launch to the call: each cell's launch state, its owner's
    position at round 0, and the duty tokens of the transfers the five points issue. -/
def tcGhost (c : Dev nD) : sProp 𝕄 :=
  iprop(Pipeline.cellsGhost (nD := nD) (τ := τ) cfgs (EP (F := F)) 0 c ∗ Pipeline.toksInit (nD := nD) (τ := τ) cfgs (EP (F := F)) 0 c)

/-- The launch element of the pipeline's rounds algebra: every staging cell at its launch state, every transfer's
    duty token. -/
def uP₀ : UP := initOf (Pipeline.cells (nD := nD) (τ := τ) cfgs cellOf_inj) (Pipeline.launchToks (nD := nD) (τ := τ) cfgs cellOf_inj)

/-- The launch element deals every core its ghost state. -/
theorem tcGhost_fund :
    (BI.own ((EP (F := F)) uP₀) : sProp 𝕄) ⊢ |={Set.univ}=> bigSep Finset.univ fun c : Dev nD => tcGhost (F := F) c := by
  have hg : (bigSep Finset.univ fun c : Dev nD => bigSep Finset.univ fun p : Fin 1 => (Pipeline.cellsGhost (nD := nD) (τ := τ) cfgs (EP (F := F)) p c : sProp 𝕄))
      = bigSep Finset.univ fun c : Dev nD => Pipeline.cellsGhost (nD := nD) (τ := τ) cfgs (EP (F := F)) 0 c :=
    bigSep_congr fun c _ => bigSep_univ_of_subsingleton (0 : Fin 1)
  have ht : (bigSep Finset.univ fun c : Dev nD => bigSep Finset.univ fun p : Fin 1 => (Pipeline.toksInit (nD := nD) (τ := τ) cfgs (EP (F := F)) p c : sProp 𝕄))
      = bigSep Finset.univ fun c : Dev nD => Pipeline.toksInit (nD := nD) (τ := τ) cfgs (EP (F := F)) 0 c :=
    bigSep_congr fun c _ => bigSep_univ_of_subsingleton (0 : Fin 1)
  have h := Pipeline.fund_ghost (nD := nD) (τ := τ) cfgs (EP (F := F)) cellOf_inj
  rw [hg, ht] at h
  unfold tcGhost uP₀
  rw [bigSep_sep']
  iintro H
  imod h $$ H with ⟨Hg, Ht⟩
  imodintro
  isplitl [Hg]; · iexact Hg
  iexact Ht

/-! ## What the TensorCore owes during the region -/

/-- The TensorCore of c before call 0 owes nothing at the kernels' own index. -/
theorem tcO_none (c : Dev nD) (g : GSem nD τ sig) : (K (F := F)).Otc c 0 g none = 0 := by
  by_contra h
  have := SparseCore.Cfg.lev_of_Otc_pos (K := K (F := F)) (Nat.pos_of_ne_zero h)
  rw [SparseCore.Cfg.lev_none] at this; omega

/-- What the TensorCore of c owes before call 0, its recorded waits at level 0. -/
def tcOwes (c : Dev nD) : sProp 𝕄 :=
  iprop(∃ W, ⌜(K (F := F)).WBelow (T c) W (8 * 0)⌝ ∗ owes (T c : Thread nD τ) ((K (F := F)).Otc c 0) W)

/-- The pipeline prefetches no table. -/
theorem tcPrefHeld (c : Dev nD) :
    (Pipeline.prefHeld (pcfgs (F := F) 0).pre c (fun _ => fullShare) (tcAdm (F := F) 0).1 : sProp 𝕄) = iprop(emp) := by
  unfold Pipeline.prefHeld
  show bigSep (Finset.univ : Finset (Fin 0)) _ = _
  rw [Finset.univ_eq_empty, bigSep_empty]; rfl

/-- The body has no semaphore of its own. -/
theorem tcOwnSems0 (c : Dev nD) : (Pipeline.ownSems0 (fun k : PEmpty => (k.elim : SemLoc sig)) c : sProp 𝕄) = iprop(emp) := by
  unfold Pipeline.ownSems0
  rw [Finset.univ_eq_empty, bigSep_empty]; rfl

/-- A buffer held at contents f is held at any equal contents. -/
theorem pt_congr {ℓ : Loc nD τ sig} {f g : Buf (Elt F) ℓ} (h : f = g) : (ℓ ↦{fullShare} f : sProp 𝕄) ⊢ ℓ ↦{fullShare} g := by
  rw [h]

/-! ## The region's record -/

section Region

variable (d : Dev nD)
  (xv : Buf (Elt F) ((T d : Thread nD τ).loc main_arg0)) (wv : Buf (Elt F) ((T d : Thread nD τ).loc main_arg2))
  (bv : Buf (Elt F) ((T d : Thread nD τ).loc main_v1)) (yv : Buf (Elt F) ((T d : Thread nD τ).loc main_v2))

/-- The contents given at device d, read at any device: there is one. -/
def xvAt (c : Dev nD) : Buf (Elt F) ((T c : Thread nD τ).loc main_arg0) := (Subsingleton.elim d c) ▸ xv
def wvAt (c : Dev nD) : Buf (Elt F) ((T c : Thread nD τ).loc main_arg2) := (Subsingleton.elim d c) ▸ wv
def bvAt (c : Dev nD) : Buf (Elt F) ((T c : Thread nD τ).loc main_v1) := (Subsingleton.elim d c) ▸ bv
def yvAt (c : Dev nD) : Buf (Elt F) ((T c : Thread nD τ).loc main_v2) := (Subsingleton.elim d c) ▸ yv

theorem xvAt_self : xvAt d xv d = xv := rfl
theorem wvAt_self : wvAt d wv d = wv := rfl
theorem bvAt_self : bvAt d bv d = bv := rfl
theorem yvAt_self : yvAt d yv d = yv := rfl

/-- The pipeline's proof data on every core: the arrays as given; the invariant the core's scoped buffers that are no
    staging buffer; the core owing its start signals throughout, its recorded waits at level 0. -/
def tcDats : (p : Fin 1) → (c : Dev nD) → Dat τ (Elt F) (HIx 1) ℕ UU ℕ (Pipeline.pin (pcfgs (F := F)) tcAdm p) c :=
  fun _ c => tcDat c (xvAt d xv c) (wvAt d wv c) (bvAt d bv c) (yvAt d yv c) (Pipeline.scopedRest spec0 c)
    ((K (F := F)).Otc c 0) {p | (K (F := F)).lev (T c, p.1) p.2 ≤ 0}

/-- The thread state the region is entered from: the core's debts and the four arrays, -/
def tcPre (c : Dev nD) : sProp 𝕄 :=
  iprop(tcOwes (F := F) c
    ∗ (((T c : Thread nD τ).loc main_arg0) ↦{fullShare} xvAt d xv c) ∗ (((T c : Thread nD τ).loc main_arg2) ↦{fullShare} wvAt d wv c)
    ∗ (((T c : Thread nD τ).loc main_v1) ↦{fullShare} bvAt d bv c) ∗ (((T c : Thread nD τ).loc main_v2) ↦{fullShare} yvAt d yv c))

/-- and the one it leaves: the same with the result array in the result's buffer. -/
def tcPost (c : Dev nD) : sProp 𝕄 :=
  iprop(tcOwes (F := F) c
    ∗ (((T c : Thread nD τ).loc main_arg0) ↦{fullShare} xvAt d xv c) ∗ (((T c : Thread nD τ).loc main_arg2) ↦{fullShare} wvAt d wv c)
    ∗ (((T c : Thread nD τ).loc main_v1) ↦{fullShare} bvAt d bv c)
    ∗ (((T c : Thread nD τ).loc main_v2) ↦{fullShare} Yarr (xvAt d xv c) (wvAt d wv c) (bvAt d bv c)))

theorem tcShare (c : Dev nD) (w) : (tcDats d xv wv bv yv 0 c).share w = fullShare :=
  Pipeline.Dat.share_full _ (fun _ => rfl) w

/-- ENTRY: the arrays at the proof data's entry contents, no table, the core's debts with its recorded waits inside
    the pipeline's bound. -/
theorem tcEntry (c : Dev nD) :
    iprop(tcPre d xv wv bv yv c ∗ Pipeline.ownSems0 (fun k : PEmpty => (k.elim : SemLoc sig)) c ∗ levAts (K (F := F)).L (K (F := F)).lev)
      ⊢ |={Set.univ}=> iprop((tcDats d xv wv bv yv 0 c).arrays ((tcDats d xv wv bv yv 0 c).arrAt · 0)
          ∗ Pipeline.prefHeld (pcfgs (F := F) 0).pre c (fun _ => fullShare) (tcAdm (F := F) 0).1
          ∗ (tcDats d xv wv bv yv 0 c).owesAt (none : HIx 1) 0 ∗ iprop(emp) ∗ iprop(emp)) := by
  rw [Pipeline.arrays_eq (Pipeline.pin (pcfgs (F := F)) tcAdm) (tcDats d xv wv bv yv) 0 c arr_whole0 (tcShare d xv wv bv yv c), tcPrefHeld]
  unfold tcPre tcOwes
  iintro ⟨⟨⟨%W, %hW, Ho⟩, H0, H1, H2, H3⟩, -, -⟩
  imodintro
  isplitl [H0 H1 H2 H3]
  · iapply (Entails.of_eq (bigSep_W0 _).symm)
    isplitl [H0]; · iexact H0
    isplitl [H1]; · iexact H1
    isplitl [H2]; · iexact H2
    iexact H3
  isplitr; · iempintro
  isplitl [Ho]
  · iexists W; isplitr
    · ipureintro
      intro p hp
      exact Or.inl (show (K (F := F)).lev (T c, p.1) p.2 ≤ 0 from hW p (Finset.mem_coe.mp hp))
    iexact Ho
  isplitr <;> iempintro

/-- EXIT: the inputs' arrays as they were, the result's at the result array, the core's debts with its recorded waits
    back at level 0 (the pipeline's own waits are at the kernels' index, level 0). -/
theorem tcExit (c : Dev nD) :
    iprop((tcDats d xv wv bv yv 0 c).arrays ((tcDats d xv wv bv yv 0 c).arrAt · (Pipeline.pin (pcfgs (F := F)) tcAdm 0).N)
        ∗ (tcDats d xv wv bv yv 0 c).owesAt (none : HIx 1) (Fin.last (Pipeline.pin (pcfgs (F := F)) tcAdm 0).N) ∗ iprop(emp) ∗ iprop(emp))
      ⊢ |={Set.univ}=> tcPost d xv wv bv c := by
  rw [Pipeline.arrays_eq (Pipeline.pin (pcfgs (F := F)) tcAdm) (tcDats d xv wv bv yv) 0 c arr_whole0 (tcShare d xv wv bv yv c)]
  have e0 : (tcDats d xv wv bv yv 0 c).arrAt 0 cfg0.N = xvAt d xv c := (tcDats d xv wv bv yv 0 c).arrAt_in 0 rfl _
  have e1 : (tcDats d xv wv bv yv 0 c).arrAt 1 cfg0.N = wvAt d wv c := (tcDats d xv wv bv yv 0 c).arrAt_in 1 rfl _
  have e2 : (tcDats d xv wv bv yv 0 c).arrAt 2 cfg0.N = bvAt d bv c := (tcDats d xv wv bv yv 0 c).arrAt_in 2 rfl _
  have e3 : (tcDats d xv wv bv yv 0 c).arrAt 3 cfg0.N = Yarr (xvAt d xv c) (wvAt d wv c) (bvAt d bv c) :=
    tcFinal c (xvAt d xv c) (wvAt d wv c) (bvAt d bv c) (yvAt d yv c) _ _ _
  unfold tcPost tcOwes
  iintro ⟨Ha, ⟨%W, %hW, Ho⟩, -, -⟩
  ihave Ha' := (Entails.of_eq (bigSep_W0 _)) $$ Ha
  icases Ha' with ⟨H0, H1, H2, H3⟩
  imodintro
  isplitl [Ho]
  · iexists W; isplitr
    · ipureintro
      intro p hp
      rcases hW (Finset.mem_coe.mpr hp) with h | ⟨w, s, rfl⟩
      · exact h
      · show (K (F := F)).lev _ none ≤ 8 * 0
        rw [SparseCore.Cfg.lev_none]
    iexact Ho
  isplitl [H0]; · iapply (pt_congr e0); iexact H0
  isplitl [H1]; · iapply (pt_congr e1); iexact H1
  isplitl [H2]; · iapply (pt_congr e2); iexact H2
  iapply (pt_congr e3); iexact H3

/-- The region's record: the decided layout, no semaphore of the body's own, the body obligation, the wait evidence
    (the pipeline's waits at the kernels' index, below every debt), the four entailments. -/
abbrev tcSeg : Pipeline.RegionSeg (pcfgs (F := F)) tcAdm (tcDats d xv wv bv yv) (none : HIx 1) (defs₀ (F := F)) 𝒱₀
    (K (F := F)).L (K (F := F)).lev (0 : Fin 1) where
  win := winFacts0.to₀
  block_pos := block_pos0
  stage_whole := stage_whole0
  K := PEmpty
  osem := fun k => k.elim
  ho := Pipeline.OwnSemFacts.none _
  hbody := fun c => (tcBodyObligation c _ _ _ _ _ _ _).loose
  hwaits := fun c => Pipeline.cellsWaits_intro (Pipeline.pin (pcfgs (F := F)) tcAdm) (tcDats d xv wv bv yv) (none : HIx 1) 0 c
    fun w s t => (K (F := F)).mayWait_none _ (tcO_none c)
  pre := tcPre d xv wv bv yv
  post := tcPost d xv wv bv
  X := fun _ => iprop(emp)
  Y := fun _ => iprop(emp)
  Z := fun _ => iprop(emp)
  hentry := tcEntry d xv wv bv yv
  hin := fun c => by
    rw [tcPrefHeld]
    show iprop(iprop(emp) ∗ iprop(emp) ∗ Pipeline.scopedRest spec0 c) ⊢ Pipeline.scopedRest spec0 c
    iintro ⟨-, -, H⟩; iexact H
  hout := fun c => by
    rw [tcOwnSems0]
    show Pipeline.scopedRest spec0 c ⊢ iprop(iprop(emp) ∗ iprop(emp) ∗ Pipeline.scopedRest spec0 c)
    iintro H
    isplitr; · iempintro
    isplitr; · iempintro
    iexact H
  hexit := tcExit d xv wv bv yv

end Region

end Cert.KernelIdeal.Hand

end
-- ==== Proof.TcRegionI.lean ====
/-
  The region of the matrix-product pipeline, entered from @main on the TensorCore while the TensorCore still
  owes the SparseCores their start signals: through the lift of the pipeline's body table to the program's, then
  the region rule on the region's record.
-/
import proofs.«207968_g22119081574525_cont_sun_m_427_17_alg».proof.Proof.TcSegI

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The handshakes' context holds the level facts. -/
theorem tcLevAts (P : (K (F := F)).Pay (nD := nD) (Val := Elt F) (Name := ℕ) (U := UU)) (κ : GSem nD τ sig → ℕ) :
    (K (F := F)).ctx EH P κ ⊢ (levAts (K (F := F)).L (K (F := F)).lev : sProp 𝕄) := by
  unfold SparseCore.Cfg.ctx
  exact sep_elim_left

/-- A proof about the call under the pipeline's body table is a proof about the call as @main prints it. -/
theorem tcLift (d : Dev nD) (Φ : PUnit → sProp 𝕄) :
    wp frame (wpE (D (F := F)) 𝒱 (T d : Thread nD τ) none) Set.univ (Prog.lift (.customCall (Pipeline.entry (0 : Fin 1)) ())) Φ
      ⊢ wp frame (wpE ((K (F := F)).defs (D (F := F))) 𝒱 (T d : Thread nD τ) none) Set.univ
          (Prog.lift (.customCall (SparseCore.inner (Pipeline.entry 0)) ())) Φ :=
  (K (F := F)).wp_liftProg (D (F := F)) 𝒱 (T d) Set.univ none (Prog.lift (.customCall (Pipeline.entry (0 : Fin 1)) ())) Φ

section Glue

variable (d : Dev nD)
  (xv : Buf (Elt F) ((T d : Thread nD τ).loc main_arg0)) (wv : Buf (Elt F) ((T d : Thread nD τ).loc main_arg2))
  (bv : Buf (Elt F) ((T d : Thread nD τ).loc main_v1)) (yv : Buf (Elt F) ((T d : Thread nD τ).loc main_v2))

theorem tcSeg_post (c : Dev nD) : (tcSeg d xv wv bv yv).post c = tcPost d xv wv bv c := rfl
theorem tcSeg_pre (c : Dev nD) : (tcSeg d xv wv bv yv).pre c = tcPre d xv wv bv yv c := rfl

set_option maxHeartbeats 400000 in
/-- The call under the pipeline's body table, by the region rule on the region's record: from the boundary, the
    entry state, the level facts and the pipeline's ghost state, to the boundary and the exit state. -/
theorem tcRegionStep (Φ : PUnit → sProp (MT nD τ sig (HIx 1) (Elt F) ℕ UU ℕ)) :
    iprop((iprop(boundary (T d : Thread nD τ) ∗ tcPost d xv wv bv d) -∗ |={Set.univ}=> Φ ⟨⟩)
        ∗ boundary (T d : Thread nD τ) ∗ tcPre d xv wv bv yv d ∗ levAts (K (F := F)).L (K (F := F)).lev ∗ tcGhost (F := F) d)
      ⊢ wp frame (wpE (D (F := F)) 𝒱 (T d : Thread nD τ) none) Set.univ (Prog.lift (.customCall (Pipeline.entry (0 : Fin 1)) ())) Φ := by
  have h := Pipeline.RegionSeg.wp (pcfgs (F := F)) tcAdm (tcDats d xv wv bv yv) (none : HIx 1) cellOf_inj (EP (F := F))
    (defs₀ (F := F)) 𝒱₀ (K (F := F)).L (K (F := F)).lev (tcSeg d xv wv bv yv) d none (fun _ h => nomatch h) (fun x => .ret x) Φ
  rw [tcSeg_post, tcSeg_pre] at h
  refine BIBase.Entails.trans ?_ h
  unfold tcGhost
  iintro ⟨Hk, Hb, Hpre, Hlev, Hcg, Htk⟩
  isplitl [Hk]; · iexact Hk
  isplitl [Hb]; · iexact Hb
  isplitl [Hpre]; · iexact Hpre
  isplitl [Hlev]; · iexact Hlev
  isplitl [Hcg]; · iexact Hcg
  iexact Htk

end Glue

set_option maxHeartbeats 400000 in
/-- The region on device d's TensorCore, from the pipeline's ghost state, the handshakes' records and level facts, the
    TensorCore's state before call 0 (its debts pass through unchanged), the region boundary and the four arrays: it
    runs to the same with the result array at Yarr of the three inputs. -/
theorem region_wp (P : (K (F := F)).Pay (nD := nD) (Val := Elt F) (Name := ℕ) (U := UU)) (κ : GSem nD τ sig → ℕ) (d : Dev nD)
    (xv : Buf (Elt F) ((T d : Thread nD τ).loc main_arg0)) (wv : Buf (Elt F) ((T d : Thread nD τ).loc main_arg2))
    (bv : Buf (Elt F) ((T d : Thread nD τ).loc main_v1)) (yv : Buf (Elt F) ((T d : Thread nD τ).loc main_v2))
    (Φ : PUnit → sProp 𝕄) :
    iprop(tcGhost (F := F) d ∗ (K (F := F)).ctx EH P κ ∗ (K (F := F)).tcSt EH d 0 ∗ boundary (T d : Thread nD τ)
        ∗ (((T d : Thread nD τ).loc main_arg0) ↦{fullShare} xv) ∗ (((T d : Thread nD τ).loc main_arg2) ↦{fullShare} wv)
        ∗ (((T d : Thread nD τ).loc main_v1) ↦{fullShare} bv) ∗ (((T d : Thread nD τ).loc main_v2) ↦{fullShare} yv)
        ∗ (iprop((K (F := F)).tcSt EH d 0 ∗ boundary (T d : Thread nD τ)
            ∗ (((T d : Thread nD τ).loc main_arg0) ↦{fullShare} xv) ∗ (((T d : Thread nD τ).loc main_arg2) ↦{fullShare} wv)
            ∗ (((T d : Thread nD τ).loc main_v1) ↦{fullShare} bv) ∗ (((T d : Thread nD τ).loc main_v2) ↦{fullShare} Yarr xv wv bv))
          -∗ Φ ⟨⟩))
      ⊢ wp frame (wpE ((K (F := F)).defs (D (F := F))) 𝒱 (T d : Thread nD τ) none) Set.univ
          (Prog.lift (.customCall (SparseCore.inner (Pipeline.entry 0)) ())) Φ := by
  refine BIBase.Entails.trans ?_ (tcLift d Φ)
  refine BIBase.Entails.trans ?_ (tcRegionStep d xv wv bv yv Φ)
  unfold SparseCore.Cfg.tcSt tcPre tcPost tcOwes
  rw [xvAt_self, wvAt_self, bvAt_self, yvAt_self]
  iintro ⟨Hg, #Hctx, ⟨Ho, Hrest⟩, Hb, H0, H1, H2, H3, Hk⟩
  isplitl [Hk Hrest]
  · iintro ⟨Hb, Ho, H0, H1, H2, H3⟩
    imodintro
    iapply Hk
    isplitl [Ho Hrest]
    · isplitl [Ho]; · iexact Ho
      iexact Hrest
    isplitl [Hb]; · iexact Hb
    isplitl [H0]; · iexact H0
    isplitl [H1]; · iexact H1
    isplitl [H2]; · iexact H2
    iexact H3
  isplitl [Hb]; · iexact Hb
  isplitl [Ho H0 H1 H2 H3]
  · isplitl [Ho]; · iexact Ho
    isplitl [H0]; · iexact H0
    isplitl [H1]; · iexact H1
    isplitl [H2]; · iexact H2
    iexact H3
  isplitr
  · iapply (tcLevAts P κ); iexact Hctx
  iexact Hg

end Cert.KernelIdeal.Hand

end
-- ==== Proof.TileDefsI.lean ====
/-
  One vector subcore's task: it copies its 10000 entries of the edge list's second row into its index scratch,
  then gathers the rows of y those entries name, eighty at a time, through five row buffers — four gathers ahead —
  and copies each filled buffer out to its eighty rows of the result.
-/
import proofs.«207968_g22119081574525_cont_sun_m_427_17_alg».proof.Proof.CommonI
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

abbrev yLoc (d : Dev nD) : Loc nD τ sig := (SparseCore.T d).loc main_v2
abbrev iLoc (d : Dev nD) : Loc nD τ sig := (SparseCore.T d).loc main_v4
abbrev oLoc (d : Dev nD) : Loc nD τ sig := (SparseCore.T d).loc main_v5

local notation "yV" => (Memref.whole Cert.KernelIdeal.main_v2_scv : Memref Cert.KernelIdeal.sig Kind.scVector Space.hbm Cert.KernelIdeal.S10000x128 EltTy.f32)
local notation "iV" => (Memref.whole Cert.KernelIdeal.main_v4_scv : Memref Cert.KernelIdeal.sig Kind.scVector Space.hbm Cert.KernelIdeal.S320000 EltTy.i32)
local notation "oV" => (Memref.whole Cert.KernelIdeal.main_v5_scv : Memref Cert.KernelIdeal.sig Kind.scVector Space.hbm Cert.KernelIdeal.S320000x128 EltTy.f32)
local notation "sV" => (Memref.whole Cert.KernelIdeal.cc1_scratch0 : Memref Cert.KernelIdeal.sig Kind.scVector Space.vmem Cert.KernelIdeal.S10000 EltTy.i32)
local notation "r0V" => (Memref.whole Cert.KernelIdeal.cc1_scratch1 : Memref Cert.KernelIdeal.sig Kind.scVector Space.vmem Cert.KernelIdeal.S80x128 EltTy.f32)
local notation "r1V" => (Memref.whole Cert.KernelIdeal.cc1_scratch2 : Memref Cert.KernelIdeal.sig Kind.scVector Space.vmem Cert.KernelIdeal.S80x128 EltTy.f32)
local notation "r2V" => (Memref.whole Cert.KernelIdeal.cc1_scratch3 : Memref Cert.KernelIdeal.sig Kind.scVector Space.vmem Cert.KernelIdeal.S80x128 EltTy.f32)
local notation "r3V" => (Memref.whole Cert.KernelIdeal.cc1_scratch4 : Memref Cert.KernelIdeal.sig Kind.scVector Space.vmem Cert.KernelIdeal.S80x128 EltTy.f32)
local notation "r4V" => (Memref.whole Cert.KernelIdeal.cc1_scratch5 : Memref Cert.KernelIdeal.sig Kind.scVector Space.vmem Cert.KernelIdeal.S80x128 EltTy.f32)

abbrev cV (L : grid1.Coords) : Fin τ.nSC := (L 0).castLE hcore1
abbrev jV (L : grid1.Coords) : Fin τ.nSub := (L 1).castLE hsub1

variable [FloatOps F]
variable (d : Dev nD) (L : grid1.Coords)

abbrev VT (d : Dev nD) (L : grid1.Coords) : Thread nD τ := V d (cV L) (jV L)

/-- the tile's 10000 entries of the edge list's second row, as the program slices them -/
abbrev iTileK (L : grid1.Coords) : Memref sig .scVector .hbm S10000 .i32 :=
  (iV).slice (Rect.unit (s := S320000) (k1_off1 L) S10000.size (k1_off1_inb L)) (fun _ => rfl)
/-- all of y, as a gather names its source -/
abbrev ySl : Memref sig .scVector .hbm S10000x128 .f32 :=
  (yV).slice (Rect.unit (s := S10000x128) ![0, 0] S10000x128.size inb_S10000x128_S10000x128_0_0) (fun _ => rfl)

omit [FloatOps F] in
theorem lst_inb (n : ℕ) (h : n + 80 ≤ 10000) : ∀ a, (![n] : Fin 1 → Nat) a + S80.size a ≤ S10000.size a := by
  intro a; match a with | 0 => exact h
/-- the eighty words of the index scratch from word n on -/
abbrev lstN (n : ℕ) (h : n + 80 ≤ 10000) : Memref sig .scVector .vmem S80 .i32 :=
  (sV).slice (Rect.unit (s := S10000) ![n] S80.size (lst_inb n h)) (fun _ => rfl)

/-- the eighty result rows chunk 5t + j of the tile is copied to, as the program slices them when it issues the copy -/
abbrev oC0 (L : grid1.Coords) (t : Fin k1_t1_loop.trips) : Memref sig .scVector .hbm S80x128 .f32 :=
  (oV).slice (Rect.unit (s := S320000x128) (k1_off3 L t 0#32) S80x128.size (k1_off3_inb L t 0)) (fun _ => rfl)
abbrev oC1 (L : grid1.Coords) (t : Fin k1_t1_loop.trips) : Memref sig .scVector .hbm S80x128 .f32 :=
  (oV).slice (Rect.unit (s := S320000x128) (k1_off3 L t 1#32) S80x128.size (k1_off3_inb L t 1)) (fun _ => rfl)
abbrev oC2 (L : grid1.Coords) (t : Fin k1_t1_loop.trips) : Memref sig .scVector .hbm S80x128 .f32 :=
  (oV).slice (Rect.unit (s := S320000x128) (k1_off3 L t 2#32) S80x128.size (k1_off3_inb L t 2)) (fun _ => rfl)
abbrev oC3 (L : grid1.Coords) (t : Fin k1_t1_loop.trips) : Memref sig .scVector .hbm S80x128 .f32 :=
  (oV).slice (Rect.unit (s := S320000x128) (k1_off3 L t 3#32) S80x128.size (k1_off3_inb L t 3)) (fun _ => rfl)
abbrev oC4 (L : grid1.Coords) (t : Fin k1_t1_loop.trips) : Memref sig .scVector .hbm S80x128 .f32 :=
  (oV).slice (Rect.unit (s := S320000x128) (k1_off3 L t 4#32) S80x128.size (k1_off3_inb L t 4)) (fun _ => rfl)

/-- what the index scratch holds once the tile's entries have been fetched into it -/
abbrev svalOf (pay : S10000.Idx → Elt F .i32) : Buf (Elt F) ((sV).view.loc (VT d L)) :=
  (sV).view.writes (Elt F) (sV).view.junk [⟨Rect.whole cc1_scratch0.ty.shape, pay⟩]

/-- every word the index scratch holds after the fetch is a node number, whichever eighty of them a gather lists -/
theorem idx_inb (g0 : Buf (Elt F) ((sV).view.loc (VT d L))) (pay : S10000.Idx → Elt F .i32) (hpay : ∀ j, (pay j).toNat < 10000)
    (off : Fin 1 → Nat) (h : ∀ a, off a + S80.size a ≤ S10000.size a) (hs : ∀ a, (Rect.unit (s := S10000) off S80.size h).stride a = 1) :
    ∀ x, (View.read (Elt F) ((sV).slice (Rect.unit (s := S10000) off S80.size h) hs).view
      ((sV).view.writes (Elt F) g0 [⟨Rect.whole cc1_scratch0.ty.shape, pay⟩]) x).toNat < 10000 := by
  intro x
  have e : View.read (Elt F) ((sV).slice (Rect.unit (s := S10000) off S80.size h) hs).view ((sV).view.writes (Elt F) g0 [⟨Rect.whole cc1_scratch0.ty.shape, pay⟩]) x
      = View.read (Elt F) (sV).view ((sV).view.writes (Elt F) g0 [⟨Rect.whole cc1_scratch0.ty.shape, pay⟩]) ((Rect.unit (s := S10000) off S80.size h).emb x) := by
    rw [View.read_apply, View.read_apply]; rfl
  rw [e, View.read_writes_whole]
  exact hpay _

/-- the rows of y a list of eighty words of the index scratch names: what a gather delivers -/
def GPv (yv : Buf (Elt F) (yLoc d)) (pay : S10000.Idx → Elt F .i32) (hpay : ∀ j, (pay j).toNat < 10000) (n : ℕ) (h : n + 80 ≤ 10000) :
    S80x128.Idx → Elt F .f32 :=
  SparseCore.gatherPayload gathers_S10000x128_S80x128 (View.read (Elt F) (ySl).view yv)
    (SparseCore.rows (View.read (Elt F) (lstN n h).view (svalOf d L pay)) rfl (idx_inb d L _ pay hpay ![n] (lst_inb n h) (fun _ => rfl)))

omit [FloatOps F] in
theorem c1 : ∀ k : Fin k1_t1_loop.trips, k1_cond1 k = 1#1 := by decide +kernel
omit [FloatOps F] in
theorem c2 : ∀ k : Fin k1_t1_loop.trips, 0 < k.val → k1_cond2 k = 1#1 := by decide +kernel
omit [FloatOps F] in
theorem c2' : ∀ k : Fin k1_t1_loop.trips, k.val = 0 → ¬ k1_cond2 k = 1#1 := by decide +kernel
omit [FloatOps F] in
theorem c3 : ∀ k : Fin k1_t1_loop.trips, k.val < 24 → k1_cond3 k = 1#1 ∧ k1_cond5 k = 1#1 ∧ k1_cond7 k = 1#1 ∧ k1_cond9 k = 1#1 := by decide +kernel
omit [FloatOps F] in
theorem c3' : ∀ k : Fin k1_t1_loop.trips, k.val = 24 → ¬ k1_cond3 k = 1#1 ∧ ¬ k1_cond5 k = 1#1 ∧ ¬ k1_cond7 k = 1#1 ∧ ¬ k1_cond9 k = 1#1 := by decide +kernel
omit [FloatOps F] in
theorem c4 : ∀ k : Fin k1_t1_loop.trips, k1_cond4 k = 1#1 ∧ k1_cond6 k = 1#1 ∧ k1_cond8 k = 1#1 ∧ k1_cond10 k = 1#1 := by decide +kernel

/-- slot 0: a gather in flight into row buffer 0 from the eighty words at n, with what stays outside it meanwhile -/
def GB0 (q : PosShare TreeShare) (yv : Buf (Elt F) (yLoc d)) (pay : S10000.Idx → Elt F .i32) (hpay : ∀ j, (pay j).toNat < 10000)
    (n : ℕ) (h : n + 80 ≤ 10000) (a : Buf (Elt F) ((r0V).view.loc (VT d L))) : sProp 𝕄 :=
  iprop(Transfers.Flight countersEmb (VT d L) (SemLoc.dma cc1_scratch6.sem) (default : HIx 1) 327680
      iprop((((r0V).view.loc (VT d L) ↦[(r0V).view.set]{fullShare}
                (r0V).view.writes (Elt F) a [⟨Rect.whole cc1_scratch1.ty.shape, GPv d L yv pay hpay n h⟩])
            ∗ ((sV).view.loc (VT d L) ↦[(lstN n h).view.set]{Transfers.shareTokN fullShare 6} svalOf d L pay))
          ∗ ((yV).view.loc (VT d L) ↦[(ySl).view.set]{Transfers.shareTokN q 6} yv))
    ∗ ((yV).view.loc (VT d L) ↦[Finset.univ \ (ySl).view.set]{Transfers.shareTokN q 6} yv)
    ∗ ((sV).view.loc (VT d L) ↦[(sV).view.set \ (lstN n h).view.set]{Transfers.shareTokN fullShare 6} svalOf d L pay)
    ∗ ((r0V).view.loc (VT d L) ↦[(r0V).view.set \ (r0V).view.set]{fullShare}
        (r0V).view.writes (Elt F) a [⟨Rect.whole cc1_scratch1.ty.shape, GPv d L yv pay hpay n h⟩]))
/-- slot 0 idle: its row buffer, its two read tokens, its gather semaphore at zero -/
def IB0 (q : PosShare TreeShare) (yv : Buf (Elt F) (yLoc d)) (pay : S10000.Idx → Elt F .i32) : sProp 𝕄 :=
  iprop((∃ a, (r0V).view.loc (VT d L) ↦[(r0V).view.set]{fullShare} a)
    ∗ ((yV).view.loc (VT d L) ↦{Transfers.shareTokN q 6} yv)
    ∗ ((sV).view.loc (VT d L) ↦[(sV).view.set]{Transfers.shareTokN fullShare 6} svalOf d L pay)
    ∗ semVal (VT d L, SemLoc.dma cc1_scratch6.sem) 0)
/-- the result rows of slot 0 not yet written, from trip n on; and those written and landed, before trip n -/
def Todo0 (ov : Buf (Elt F) (oLoc d)) (n : ℕ) : sProp 𝕄 :=
  bigSep (Ring.rangeSet k1_t1_loop.trips n 25) fun t => (oC0 L t).view.loc (VT d L) ↦[(oC0 L t).view.set]{fullShare} ov
def Done0 (yv : Buf (Elt F) (yLoc d)) (pay : S10000.Idx → Elt F .i32) (hpay : ∀ j, (pay j).toNat < 10000) (n : ℕ) : sProp 𝕄 :=
  bigSep (Ring.rangeSet k1_t1_loop.trips 0 n) fun t => iprop(∃ f, ((oC0 L t).view.loc (VT d L) ↦[(oC0 L t).view.set]{fullShare} f)
    ∗ ⌜∀ x, View.read (Elt F) (oC0 L t).view f x = GPv d L yv pay hpay (400 * t.val + 0) (by have := t.isLt; have : k1_t1_loop.trips = 25 := rfl; omega) x⌝)

/-- slot 1: a gather in flight into row buffer 1 from the eighty words at n, with what stays outside it meanwhile -/
def GB1 (q : PosShare TreeShare) (yv : Buf (Elt F) (yLoc d)) (pay : S10000.Idx → Elt F .i32) (hpay : ∀ j, (pay j).toNat < 10000)
    (n : ℕ) (h : n + 80 ≤ 10000) (a : Buf (Elt F) ((r1V).view.loc (VT d L))) : sProp 𝕄 :=
  iprop(Transfers.Flight countersEmb (VT d L) (SemLoc.dma cc1_scratch7.sem) (default : HIx 1) 327680
      iprop((((r1V).view.loc (VT d L) ↦[(r1V).view.set]{fullShare}
                (r1V).view.writes (Elt F) a [⟨Rect.whole cc1_scratch2.ty.shape, GPv d L yv pay hpay n h⟩])
            ∗ ((sV).view.loc (VT d L) ↦[(lstN n h).view.set]{Transfers.shareTokN fullShare 7} svalOf d L pay))
          ∗ ((yV).view.loc (VT d L) ↦[(ySl).view.set]{Transfers.shareTokN q 7} yv))
    ∗ ((yV).view.loc (VT d L) ↦[Finset.univ \ (ySl).view.set]{Transfers.shareTokN q 7} yv)
    ∗ ((sV).view.loc (VT d L) ↦[(sV).view.set \ (lstN n h).view.set]{Transfers.shareTokN fullShare 7} svalOf d L pay)
    ∗ ((r1V).view.loc (VT d L) ↦[(r1V).view.set \ (r1V).view.set]{fullShare}
        (r1V).view.writes (Elt F) a [⟨Rect.whole cc1_scratch2.ty.shape, GPv d L yv pay hpay n h⟩]))
/-- slot 1 idle: its row buffer, its two read tokens, its gather semaphore at zero -/
def IB1 (q : PosShare TreeShare) (yv : Buf (Elt F) (yLoc d)) (pay : S10000.Idx → Elt F .i32) : sProp 𝕄 :=
  iprop((∃ a, (r1V).view.loc (VT d L) ↦[(r1V).view.set]{fullShare} a)
    ∗ ((yV).view.loc (VT d L) ↦{Transfers.shareTokN q 7} yv)
    ∗ ((sV).view.loc (VT d L) ↦[(sV).view.set]{Transfers.shareTokN fullShare 7} svalOf d L pay)
    ∗ semVal (VT d L, SemLoc.dma cc1_scratch7.sem) 0)
/-- the result rows of slot 1 not yet written, from trip n on; and those written and landed, before trip n -/
def Todo1 (ov : Buf (Elt F) (oLoc d)) (n : ℕ) : sProp 𝕄 :=
  bigSep (Ring.rangeSet k1_t1_loop.trips n 25) fun t => (oC1 L t).view.loc (VT d L) ↦[(oC1 L t).view.set]{fullShare} ov
def Done1 (yv : Buf (Elt F) (yLoc d)) (pay : S10000.Idx → Elt F .i32) (hpay : ∀ j, (pay j).toNat < 10000) (n : ℕ) : sProp 𝕄 :=
  bigSep (Ring.rangeSet k1_t1_loop.trips 0 n) fun t => iprop(∃ f, ((oC1 L t).view.loc (VT d L) ↦[(oC1 L t).view.set]{fullShare} f)
    ∗ ⌜∀ x, View.read (Elt F) (oC1 L t).view f x = GPv d L yv pay hpay (400 * t.val + 80) (by have := t.isLt; have : k1_t1_loop.trips = 25 := rfl; omega) x⌝)

/-- slot 2: a gather in flight into row buffer 2 from the eighty words at n, with what stays outside it meanwhile -/
def GB2 (q : PosShare TreeShare) (yv : Buf (Elt F) (yLoc d)) (pay : S10000.Idx → Elt F .i32) (hpay : ∀ j, (pay j).toNat < 10000)
    (n : ℕ) (h : n + 80 ≤ 10000) (a : Buf (Elt F) ((r2V).view.loc (VT d L))) : sProp 𝕄 :=
  iprop(Transfers.Flight countersEmb (VT d L) (SemLoc.dma cc1_scratch8.sem) (default : HIx 1) 327680
      iprop((((r2V).view.loc (VT d L) ↦[(r2V).view.set]{fullShare}
                (r2V).view.writes (Elt F) a [⟨Rect.whole cc1_scratch3.ty.shape, GPv d L yv pay hpay n h⟩])
            ∗ ((sV).view.loc (VT d L) ↦[(lstN n h).view.set]{Transfers.shareTokN fullShare 8} svalOf d L pay))
          ∗ ((yV).view.loc (VT d L) ↦[(ySl).view.set]{Transfers.shareTokN q 8} yv))
    ∗ ((yV).view.loc (VT d L) ↦[Finset.univ \ (ySl).view.set]{Transfers.shareTokN q 8} yv)
    ∗ ((sV).view.loc (VT d L) ↦[(sV).view.set \ (lstN n h).view.set]{Transfers.shareTokN fullShare 8} svalOf d L pay)
    ∗ ((r2V).view.loc (VT d L) ↦[(r2V).view.set \ (r2V).view.set]{fullShare}
        (r2V).view.writes (Elt F) a [⟨Rect.whole cc1_scratch3.ty.shape, GPv d L yv pay hpay n h⟩]))
/-- slot 2 idle: its row buffer, its two read tokens, its gather semaphore at zero -/
def IB2 (q : PosShare TreeShare) (yv : Buf (Elt F) (yLoc d)) (pay : S10000.Idx → Elt F .i32) : sProp 𝕄 :=
  iprop((∃ a, (r2V).view.loc (VT d L) ↦[(r2V).view.set]{fullShare} a)
    ∗ ((yV).view.loc (VT d L) ↦{Transfers.shareTokN q 8} yv)
    ∗ ((sV).view.loc (VT d L) ↦[(sV).view.set]{Transfers.shareTokN fullShare 8} svalOf d L pay)
    ∗ semVal (VT d L, SemLoc.dma cc1_scratch8.sem) 0)
/-- the result rows of slot 2 not yet written, from trip n on; and those written and landed, before trip n -/
def Todo2 (ov : Buf (Elt F) (oLoc d)) (n : ℕ) : sProp 𝕄 :=
  bigSep (Ring.rangeSet k1_t1_loop.trips n 25) fun t => (oC2 L t).view.loc (VT d L) ↦[(oC2 L t).view.set]{fullShare} ov
def Done2 (yv : Buf (Elt F) (yLoc d)) (pay : S10000.Idx → Elt F .i32) (hpay : ∀ j, (pay j).toNat < 10000) (n : ℕ) : sProp 𝕄 :=
  bigSep (Ring.rangeSet k1_t1_loop.trips 0 n) fun t => iprop(∃ f, ((oC2 L t).view.loc (VT d L) ↦[(oC2 L t).view.set]{fullShare} f)
    ∗ ⌜∀ x, View.read (Elt F) (oC2 L t).view f x = GPv d L yv pay hpay (400 * t.val + 160) (by have := t.isLt; have : k1_t1_loop.trips = 25 := rfl; omega) x⌝)

/-- slot 3: a gather in flight into row buffer 3 from the eighty words at n, with what stays outside it meanwhile -/
def GB3 (q : PosShare TreeShare) (yv : Buf (Elt F) (yLoc d)) (pay : S10000.Idx → Elt F .i32) (hpay : ∀ j, (pay j).toNat < 10000)
    (n : ℕ) (h : n + 80 ≤ 10000) (a : Buf (Elt F) ((r3V).view.loc (VT d L))) : sProp 𝕄 :=
  iprop(Transfers.Flight countersEmb (VT d L) (SemLoc.dma cc1_scratch9.sem) (default : HIx 1) 327680
      iprop((((r3V).view.loc (VT d L) ↦[(r3V).view.set]{fullShare}
                (r3V).view.writes (Elt F) a [⟨Rect.whole cc1_scratch4.ty.shape, GPv d L yv pay hpay n h⟩])
            ∗ ((sV).view.loc (VT d L) ↦[(lstN n h).view.set]{Transfers.shareTokN fullShare 9} svalOf d L pay))
          ∗ ((yV).view.loc (VT d L) ↦[(ySl).view.set]{Transfers.shareTokN q 9} yv))
    ∗ ((yV).view.loc (VT d L) ↦[Finset.univ \ (ySl).view.set]{Transfers.shareTokN q 9} yv)
    ∗ ((sV).view.loc (VT d L) ↦[(sV).view.set \ (lstN n h).view.set]{Transfers.shareTokN fullShare 9} svalOf d L pay)
    ∗ ((r3V).view.loc (VT d L) ↦[(r3V).view.set \ (r3V).view.set]{fullShare}
        (r3V).view.writes (Elt F) a [⟨Rect.whole cc1_scratch4.ty.shape, GPv d L yv pay hpay n h⟩]))
/-- slot 3 idle: its row buffer, its two read tokens, its gather semaphore at zero -/
def IB3 (q : PosShare TreeShare) (yv : Buf (Elt F) (yLoc d)) (pay : S10000.Idx → Elt F .i32) : sProp 𝕄 :=
  iprop((∃ a, (r3V).view.loc (VT d L) ↦[(r3V).view.set]{fullShare} a)
    ∗ ((yV).view.loc (VT d L) ↦{Transfers.shareTokN q 9} yv)
    ∗ ((sV).view.loc (VT d L) ↦[(sV).view.set]{Transfers.shareTokN fullShare 9} svalOf d L pay)
    ∗ semVal (VT d L, SemLoc.dma cc1_scratch9.sem) 0)
/-- the result rows of slot 3 not yet written, from trip n on; and those written and landed, before trip n -/
def Todo3 (ov : Buf (Elt F) (oLoc d)) (n : ℕ) : sProp 𝕄 :=
  bigSep (Ring.rangeSet k1_t1_loop.trips n 25) fun t => (oC3 L t).view.loc (VT d L) ↦[(oC3 L t).view.set]{fullShare} ov
def Done3 (yv : Buf (Elt F) (yLoc d)) (pay : S10000.Idx → Elt F .i32) (hpay : ∀ j, (pay j).toNat < 10000) (n : ℕ) : sProp 𝕄 :=
  bigSep (Ring.rangeSet k1_t1_loop.trips 0 n) fun t => iprop(∃ f, ((oC3 L t).view.loc (VT d L) ↦[(oC3 L t).view.set]{fullShare} f)
    ∗ ⌜∀ x, View.read (Elt F) (oC3 L t).view f x = GPv d L yv pay hpay (400 * t.val + 240) (by have := t.isLt; have : k1_t1_loop.trips = 25 := rfl; omega) x⌝)

/-- slot 4: a gather in flight into row buffer 4 from the eighty words at n, with what stays outside it meanwhile -/
def GB4 (q : PosShare TreeShare) (yv : Buf (Elt F) (yLoc d)) (pay : S10000.Idx → Elt F .i32) (hpay : ∀ j, (pay j).toNat < 10000)
    (n : ℕ) (h : n + 80 ≤ 10000) (a : Buf (Elt F) ((r4V).view.loc (VT d L))) : sProp 𝕄 :=
  iprop(Transfers.Flight countersEmb (VT d L) (SemLoc.dma cc1_scratch10.sem) (default : HIx 1) 327680
      iprop((((r4V).view.loc (VT d L) ↦[(r4V).view.set]{fullShare}
                (r4V).view.writes (Elt F) a [⟨Rect.whole cc1_scratch5.ty.shape, GPv d L yv pay hpay n h⟩])
            ∗ ((sV).view.loc (VT d L) ↦[(lstN n h).view.set]{Transfers.shareTokN fullShare 10} svalOf d L pay))
          ∗ ((yV).view.loc (VT d L) ↦[(ySl).view.set]{Transfers.shareTokN q 10} yv))
    ∗ ((yV).view.loc (VT d L) ↦[Finset.univ \ (ySl).view.set]{Transfers.shareTokN q 10} yv)
    ∗ ((sV).view.loc (VT d L) ↦[(sV).view.set \ (lstN n h).view.set]{Transfers.shareTokN fullShare 10} svalOf d L pay)
    ∗ ((r4V).view.loc (VT d L) ↦[(r4V).view.set \ (r4V).view.set]{fullShare}
        (r4V).view.writes (Elt F) a [⟨Rect.whole cc1_scratch5.ty.shape, GPv d L yv pay hpay n h⟩]))
/-- slot 4 idle: its row buffer, its two read tokens, its gather semaphore at zero -/
def IB4 (q : PosShare TreeShare) (yv : Buf (Elt F) (yLoc d)) (pay : S10000.Idx → Elt F .i32) : sProp 𝕄 :=
  iprop((∃ a, (r4V).view.loc (VT d L) ↦[(r4V).view.set]{fullShare} a)
    ∗ ((yV).view.loc (VT d L) ↦{Transfers.shareTokN q 10} yv)
    ∗ ((sV).view.loc (VT d L) ↦[(sV).view.set]{Transfers.shareTokN fullShare 10} svalOf d L pay)
    ∗ semVal (VT d L, SemLoc.dma cc1_scratch10.sem) 0)
/-- the result rows of slot 4 not yet written, from trip n on; and those written and landed, before trip n -/
def Todo4 (ov : Buf (Elt F) (oLoc d)) (n : ℕ) : sProp 𝕄 :=
  bigSep (Ring.rangeSet k1_t1_loop.trips n 25) fun t => (oC4 L t).view.loc (VT d L) ↦[(oC4 L t).view.set]{fullShare} ov
def Done4 (yv : Buf (Elt F) (yLoc d)) (pay : S10000.Idx → Elt F .i32) (hpay : ∀ j, (pay j).toNat < 10000) (n : ℕ) : sProp 𝕄 :=
  bigSep (Ring.rangeSet k1_t1_loop.trips 0 n) fun t => iprop(∃ f, ((oC4 L t).view.loc (VT d L) ↦[(oC4 L t).view.set]{fullShare} f)
    ∗ ⌜∀ x, View.read (Elt F) (oC4 L t).view f x = GPv d L yv pay hpay (400 * t.val + 320) (by have := t.isLt; have : k1_t1_loop.trips = 25 := rfl; omega) x⌝)

end Cert.KernelIdeal.Hand
end
-- ==== Proof.PartsI.lean ====
/-
  How the result array and the flat edge row split among the 2 × 16 tiles, and a tile's result rows into its
  25 × 5 chunks of eighty: the chunks are pairwise disjoint and cover the array; likewise the tiles' 10000 entries.
-/
import proofs.«207968_g22119081574525_cont_sun_m_427_17_alg».proof.Proof.TileDefsI

noncomputable section

namespace Cert.KernelIdeal.Hand

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S320000 EltTy.i32)
local notation "oV" => (Memref.whole Cert.KernelIdeal.main_v5_scv : Memref Cert.KernelIdeal.sig Kind.scVector Space.hbm Cert.KernelIdeal.S320000x128 EltTy.f32)

/-- the tile of core c, subcore s -/
def coordsV (c : Fin (grid1.bound 0)) (s : Fin (grid1.bound 1)) : grid1.Coords :=
  fun | 0 => c | 1 => s | ⟨_ + 2, h⟩ => absurd h (Nat.not_lt.2 (Nat.le_add_left _ _))

/-- the first result row of chunk 5t + j of tile L -/
def oBase (L : grid1.Coords) (t : Fin k1_t1_loop.trips) (j : Fin 5) : ℕ :=
  20000 * (L 1).val + 10000 * (L 0).val + 400 * t.val + 80 * j.val

/-- the first entry of tile L in the flat edge row -/
def iBase (L : grid1.Coords) : ℕ := 20000 * (L 1).val + 10000 * (L 0).val

/-- the eighty result rows of chunk 5t + j of tile L, as a set of indices of the result -/
def oChunkSet (L : grid1.Coords) (t : Fin k1_t1_loop.trips) (j : Fin 5) : Finset S320000x128.Idx :=
  (Rect.unit (s := S320000x128) (k1_off3 L t (BitVec.ofNat 32 j.val)) S80x128.size (k1_off3_inb L t j)).set

/-- the 10000 entries of tile L, as a set of indices of the flat edge row -/
def iTileSet (L : grid1.Coords) : Finset S320000.Idx :=
  (Rect.unit (s := S320000) (k1_off1 L) S10000.size (k1_off1_inb L)).set

theorem mem_oChunkSet (L : grid1.Coords) (t : Fin k1_t1_loop.trips) (j : Fin 5) (i : S320000x128.Idx) :
    i ∈ oChunkSet L t j ↔ oBase L t j ≤ (i 0).val ∧ (i 0).val < oBase L t j + 80 := by
  unfold oChunkSet oBase
  rw [Rect.mem_set_unit, k1_off3_eq]
  constructor
  · intro h; exact h 0
  · intro h a
    match a with
    | ⟨0, _⟩ => exact h
    | ⟨1, _⟩ =>
      have := (i 1).isLt
      exact ⟨Nat.zero_le _, by show (i 1).val < 0 + 128; have : (i 1).val < 128 := this; omega⟩

theorem mem_iTileSet (L : grid1.Coords) (i : S320000.Idx) :
    i ∈ iTileSet L ↔ iBase L ≤ (i 0).val ∧ (i 0).val < iBase L + 10000 := by
  unfold iTileSet iBase
  rw [Rect.mem_set_unit, k1_off1_eq]
  constructor
  · intro h; exact h 0
  · intro h a
    match a with
    | ⟨0, _⟩ => exact h

/-! ## The chunks are disjoint and cover -/

/-- a chunk's name: core, subcore, trip, slot -/
abbrev OIx : Type := Fin (grid1.bound 0) × Fin (grid1.bound 1) × Fin k1_t1_loop.trips × Fin 5
/-- a tile's name: core, subcore -/
abbrev TIx : Type := Fin (grid1.bound 0) × Fin (grid1.bound 1)

def oSet (p : OIx) : Finset S320000x128.Idx := oChunkSet (coordsV p.1 p.2.1) p.2.2.1 p.2.2.2
def iSet (p : TIx) : Finset S320000.Idx := iTileSet (coordsV p.1 p.2)

theorem oBase_coordsV (c : Fin (grid1.bound 0)) (s : Fin (grid1.bound 1)) (t : Fin k1_t1_loop.trips) (j : Fin 5) :
    oBase (coordsV c s) t j = 20000 * s.val + 10000 * c.val + 400 * t.val + 80 * j.val := rfl
theorem iBase_coordsV (c : Fin (grid1.bound 0)) (s : Fin (grid1.bound 1)) :
    iBase (coordsV c s) = 20000 * s.val + 10000 * c.val := rfl

theorem oChunks_disjoint : ∀ p ∈ (Finset.univ : Finset OIx), ∀ p' ∈ (Finset.univ : Finset OIx), p ≠ p' → Disjoint (oSet p) (oSet p') := by
  intro p _ p' _ hne
  rw [Finset.disjoint_left]
  intro i hi hi'
  obtain ⟨c, s, t, j⟩ := p
  obtain ⟨c', s', t', j'⟩ := p'
  unfold oSet at hi hi'
  rw [mem_oChunkSet, oBase_coordsV] at hi hi'
  have hc : c.val < 2 := c.isLt
  have hc' : c'.val < 2 := c'.isLt
  have hs : s.val < 16 := s.isLt
  have hs' : s'.val < 16 := s'.isLt
  have ht : t.val < 25 := t.isLt
  have ht' : t'.val < 25 := t'.isLt
  have hj : j.val < 5 := j.isLt
  have hj' : j'.val < 5 := j'.isLt
  apply hne
  have h4 : c.val = c'.val ∧ s.val = s'.val ∧ t.val = t'.val ∧ j.val = j'.val := by
    dsimp only at hi hi'
    omega
  obtain ⟨h1, h2, h3, h4⟩ := h4
  exact Prod.ext (Fin.ext h1) (Prod.ext (Fin.ext h2) (Prod.ext (Fin.ext h3) (Fin.ext h4)))

theorem oChunks_cover : (Finset.univ : Finset OIx).biUnion oSet = Finset.univ := by
  ext i
  simp only [Finset.mem_biUnion, Finset.mem_univ, true_and, iff_true]
  have hx : (i 0).val < 320000 := (i 0).isLt
  refine ⟨((⟨(i 0).val / 80 % 250 / 125, by omega⟩ : Fin 2), (⟨(i 0).val / 80 / 250, by omega⟩ : Fin 16),
    (⟨(i 0).val / 80 % 125 / 5, by omega⟩ : Fin 25), (⟨(i 0).val / 80 % 5, by omega⟩ : Fin 5)), ?_⟩
  unfold oSet
  rw [mem_oChunkSet, oBase_coordsV]
  dsimp only
  omega

theorem iTiles_disjoint : ∀ p ∈ (Finset.univ : Finset TIx), ∀ p' ∈ (Finset.univ : Finset TIx), p ≠ p' → Disjoint (iSet p) (iSet p') := by
  intro p _ p' _ hne
  rw [Finset.disjoint_left]
  intro i hi hi'
  obtain ⟨c, s⟩ := p
  obtain ⟨c', s'⟩ := p'
  unfold iSet at hi hi'
  rw [mem_iTileSet, iBase_coordsV] at hi hi'
  have hc : c.val < 2 := c.isLt
  have hc' : c'.val < 2 := c'.isLt
  have hs : s.val < 16 := s.isLt
  have hs' : s'.val < 16 := s'.isLt
  apply hne
  have h2 : c.val = c'.val ∧ s.val = s'.val := by
    dsimp only at hi hi'
    omega
  exact Prod.ext (Fin.ext h2.1) (Fin.ext h2.2)

theorem iTiles_cover : (Finset.univ : Finset TIx).biUnion iSet = Finset.univ := by
  ext i
  simp only [Finset.mem_biUnion, Finset.mem_univ, true_and, iff_true]
  have hx : (i 0).val < 320000 := (i 0).isLt
  refine ⟨((⟨(i 0).val / 10000 % 2, by omega⟩ : Fin 2), (⟨(i 0).val / 20000, by omega⟩ : Fin 16)), ?_⟩
  unfold iSet
  rw [mem_iTileSet, iBase_coordsV]
  dsimp only
  omega

/-! ## The slices the program names are these sets -/

theorem set_oC0 (L : grid1.Coords) (t : Fin k1_t1_loop.trips) : (oC0 L t).view.set = oChunkSet L t 0 := by
  show ((View.whole (main_v5_scv : Ref sig .scVector)).slice _).set = _
  rw [View.set_slice]; exact Finset.map_refl
theorem set_oC1 (L : grid1.Coords) (t : Fin k1_t1_loop.trips) : (oC1 L t).view.set = oChunkSet L t 1 := by
  show ((View.whole (main_v5_scv : Ref sig .scVector)).slice _).set = _
  rw [View.set_slice]; exact Finset.map_refl
theorem set_oC2 (L : grid1.Coords) (t : Fin k1_t1_loop.trips) : (oC2 L t).view.set = oChunkSet L t 2 := by
  show ((View.whole (main_v5_scv : Ref sig .scVector)).slice _).set = _
  rw [View.set_slice]; exact Finset.map_refl
theorem set_oC3 (L : grid1.Coords) (t : Fin k1_t1_loop.trips) : (oC3 L t).view.set = oChunkSet L t 3 := by
  show ((View.whole (main_v5_scv : Ref sig .scVector)).slice _).set = _
  rw [View.set_slice]; exact Finset.map_refl
theorem set_oC4 (L : grid1.Coords) (t : Fin k1_t1_loop.trips) : (oC4 L t).view.set = oChunkSet L t 4 := by
  show ((View.whole (main_v5_scv : Ref sig .scVector)).slice _).set = _
  rw [View.set_slice]; exact Finset.map_refl
theorem set_iTileK (L : grid1.Coords) : (iTileK L).view.set = iTileSet L := by
  show ((View.whole (main_v4_scv : Ref sig .scVector)).slice _).set = _
  rw [View.set_slice]; exact Finset.map_refl

/-! ## The arrays as the separating conjunction of their parts -/

/-- a conjunction over all quadruples, nested -/
theorem bigSep_univ4 {M : Type} [URA M] {A B C D : Type} [Fintype A] [Fintype B] [Fintype C] [Fintype D]
    [DecidableEq A] [DecidableEq B] [DecidableEq C] [DecidableEq D] (Φ : A × B × C × D → sProp M) :
    bigSep Finset.univ Φ = bigSep Finset.univ fun a => bigSep Finset.univ fun b => bigSep Finset.univ fun c =>
      bigSep Finset.univ fun d => Φ (a, b, c, d) := by
  rw [← Finset.univ_product_univ, SparseCore.bigSep_product]
  refine congrArg (bigSep Finset.univ) (funext fun a => ?_)
  rw [← Finset.univ_product_univ, SparseCore.bigSep_product]
  refine congrArg (bigSep Finset.univ) (funext fun b => ?_)
  rw [← Finset.univ_product_univ, SparseCore.bigSep_product]

theorem oPts_chunks (d : Dev nD) (f : Buf (Elt F) (oLoc d)) :
    (oLoc d ↦{fullShare} f : sProp 𝕄) = bigSep Finset.univ fun c : Fin (grid1.bound 0) => bigSep Finset.univ fun s : Fin (grid1.bound 1) =>
      bigSep Finset.univ fun t : Fin k1_t1_loop.trips => bigSep Finset.univ fun j : Fin 5 =>
        oLoc d ↦[oChunkSet (coordsV c s) t j]{fullShare} f := by
  refine Eq.trans ?_ (bigSep_univ4 (fun p : OIx => (oLoc d ↦[oSet p]{fullShare} f : sProp 𝕄)))
  rw [← pointsTo_biUnion Finset.univ (ℓ := oLoc d) oSet oChunks_disjoint, oChunks_cover]; try rfl

theorem iPts_tiles (d : Dev nD) (f : Buf (Elt F) (iLoc d)) :
    (iLoc d ↦{fullShare} f : sProp 𝕄) = bigSep Finset.univ fun c : Fin (grid1.bound 0) => bigSep Finset.univ fun s : Fin (grid1.bound 1) =>
      iLoc d ↦[iTileSet (coordsV c s)]{fullShare} f := by
  refine Eq.trans ?_ (((congrArg (fun S : Finset TIx => bigSep S fun p : TIx => (iLoc d ↦[iSet p]{fullShare} f : sProp 𝕄))
    Finset.univ_product_univ.symm)).trans (SparseCore.bigSep_product Finset.univ Finset.univ _))
  rw [← pointsTo_biUnion Finset.univ (ℓ := iLoc d) iSet iTiles_disjoint, iTiles_cover]; try rfl

/-! ## A subcore's own names for the parts -/

theorem pts_oC0 (d : Dev nD) (L : grid1.Coords) (t : Fin k1_t1_loop.trips) (f : Buf (Elt F) (oLoc d)) :
    ((oC0 L t).view.loc (VT d L) ↦[(oC0 L t).view.set]{fullShare} f : sProp 𝕄) = oLoc d ↦[oChunkSet L t 0]{fullShare} f := by
  rw [set_oC0]
theorem pts_oC1 (d : Dev nD) (L : grid1.Coords) (t : Fin k1_t1_loop.trips) (f : Buf (Elt F) (oLoc d)) :
    ((oC1 L t).view.loc (VT d L) ↦[(oC1 L t).view.set]{fullShare} f : sProp 𝕄) = oLoc d ↦[oChunkSet L t 1]{fullShare} f := by
  rw [set_oC1]
theorem pts_oC2 (d : Dev nD) (L : grid1.Coords) (t : Fin k1_t1_loop.trips) (f : Buf (Elt F) (oLoc d)) :
    ((oC2 L t).view.loc (VT d L) ↦[(oC2 L t).view.set]{fullShare} f : sProp 𝕄) = oLoc d ↦[oChunkSet L t 2]{fullShare} f := by
  rw [set_oC2]
theorem pts_oC3 (d : Dev nD) (L : grid1.Coords) (t : Fin k1_t1_loop.trips) (f : Buf (Elt F) (oLoc d)) :
    ((oC3 L t).view.loc (VT d L) ↦[(oC3 L t).view.set]{fullShare} f : sProp 𝕄) = oLoc d ↦[oChunkSet L t 3]{fullShare} f := by
  rw [set_oC3]
theorem pts_oC4 (d : Dev nD) (L : grid1.Coords) (t : Fin k1_t1_loop.trips) (f : Buf (Elt F) (oLoc d)) :
    ((oC4 L t).view.loc (VT d L) ↦[(oC4 L t).view.set]{fullShare} f : sProp 𝕄) = oLoc d ↦[oChunkSet L t 4]{fullShare} f := by
  rw [set_oC4]
theorem pts_iTileK (d : Dev nD) (L : grid1.Coords) (q : PosShare TreeShare) (f : Buf (Elt F) (iLoc d)) :
    ((iTileK L).view.loc (VT d L) ↦[(iTileK L).view.set]{q} f : sProp 𝕄) = iLoc d ↦[iTileSet L]{q} f := by
  rw [set_iTileK]

end Cert.KernelIdeal.Hand

end
-- ==== Proof.PayI.lean ====
/-
  What the launch handshakes of the one SparseCore call carry: each tile's share of y, its 10000 entries of the
  flat edge row, and its 25 × 5 chunks of the result — before the call at what the result array held, after it at
  the rows of y the entries name.
-/
import proofs.«207968_g22119081574525_cont_sun_m_427_17_alg».proof.Proof.TileDefsI
import proofs.«207968_g22119081574525_cont_sun_m_427_17_alg».proof.Proof.PartsI
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The result's value -/

/-- row e of the result is row (edge word e, reduced mod 10000) of y -/
def outVal (yv : S10000x128.Idx → Elt F .f32) (iv : S320000.Idx → Elt F .i32) : S320000x128.Idx → Elt F .f32 :=
  fun x => yv (ValueIdx.ix2 (⟨(iv (ValueIdx.ix1 (⟨(x 0).val, (x 0).isLt⟩ : Fin 320000))).toNat % 10000, Nat.mod_lt _ (by norm_num)⟩ : Fin 10000)
    (⟨(x 1).val, (x 1).isLt⟩ : Fin 128))

/-- the same, as the contents of the result array on device d -/
def outBuf (d : Dev nD) (yb : Buf (Elt F) (yLoc d)) (ib : Buf (Elt F) (iLoc d)) : Buf (Elt F) (oLoc d) := outVal yb ib

theorem outBuf_eq (d : Dev nD) (yb : Buf (Elt F) (yLoc d)) (ib : Buf (Elt F) (iLoc d)) : outBuf d yb ib = outVal yb ib := rfl

/-! ## Shares of y: the full share halved five times -/

/-- leaf i of the depth-n halving of share q -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- the two halves of the leaves of depth n + 1 -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- a points-to at a share is its leaves' at once -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- the share of y of the tile of core c, subcore s: the half of core c, halved four times more -/
def yq (c : Fin 2) (s : Fin 16) : PosShare TreeShare := leaf 4 (leaf 1 fullShare c) s

theorem yPts_shares (d : Dev nD) (f : Buf (Elt F) (yLoc d)) :
    (yLoc d ↦{fullShare} f : sProp 𝕄) = bigSep Finset.univ fun c : Fin 2 => bigSep Finset.univ fun s : Fin 16 => yLoc d ↦{yq c s} f :=
  (pointsTo_leaves Finset.univ f 1 fullShare).trans (bigSep_congr fun c _ => pointsTo_leaves Finset.univ f 4 (leaf 1 fullShare c))

/-! ## What the handshakes carry -/

/-- a tile's part of the three arrays: its share of y, its entries of the flat edge row, its chunks of the result -/
abbrev tilePts (d : Dev nD) (c : Fin 2) (s : Fin 16) (yb : Buf (Elt F) (yLoc d)) (ib : Buf (Elt F) (iLoc d)) (ob : Buf (Elt F) (oLoc d)) : sProp 𝕄 :=
  iprop((yLoc d ↦{yq c s} yb) ∗ (iLoc d ↦[iTileSet (coordsV c s)]{fullShare} ib)
    ∗ bigSep Finset.univ fun t : Fin k1_t1_loop.trips => bigSep Finset.univ fun j : Fin 5 => oLoc d ↦[oChunkSet (coordsV c s) t j]{fullShare} ob)

variable (yv : (d : Dev nD) → Buf (Elt F) (yLoc d)) (iv : (d : Dev nD) → Buf (Elt F) (iLoc d)) (ov : (d : Dev nD) → Buf (Elt F) (oLoc d))

/-- what tile i of core c is handed: its parts, the result's at what the array held -/
def goP (d : Dev nD) (c : Fin ((K (F := F)).nCore 0)) (i : Fin ((K (F := F)).nSub 0)) : sProp 𝕄 :=
  tilePts d (Fin.cast nCore_zero c) (Fin.cast nSub_zero i) (yv d) (iv d) (ov d)
/-- what it brings back: the same, the result's at the rows of y its entries name -/
def tdP (d : Dev nD) (c : Fin ((K (F := F)).nCore 0)) (i : Fin ((K (F := F)).nSub 0)) : sProp 𝕄 :=
  tilePts d (Fin.cast nCore_zero c) (Fin.cast nSub_zero i) (yv d) (iv d) (outBuf d (yv d) (iv d))
/-- what core c is handed: its tiles' -/
def stP (d : Dev nD) (c : Fin ((K (F := F)).nCore 0)) : sProp 𝕄 :=
  bigSep Finset.univ fun i : Fin ((K (F := F)).nSub 0) => goP yv iv ov d c i
/-- what it brings back: its tiles' -/
def dnP (d : Dev nD) (c : Fin ((K (F := F)).nCore 0)) : sProp 𝕄 :=
  bigSep Finset.univ fun i : Fin ((K (F := F)).nSub 0) => tdP yv iv d c i

instance goP_storable (d : Dev nD) (c : Fin ((K (F := F)).nCore 0)) (i : Fin ((K (F := F)).nSub 0)) :
    BI.Storable (upEmb : UEmb _ 𝕄) (goP yv iv ov d c i) := by
  unfold goP; infer_instance
instance tdP_storable (d : Dev nD) (c : Fin ((K (F := F)).nCore 0)) (i : Fin ((K (F := F)).nSub 0)) :
    BI.Storable (upEmb : UEmb _ 𝕄) (tdP yv iv d c i) := by
  unfold tdP; infer_instance
instance stP_storable (d : Dev nD) (c : Fin ((K (F := F)).nCore 0)) : BI.Storable (upEmb : UEmb _ 𝕄) (stP yv iv ov d c) := by
  unfold stP; infer_instance
instance dnP_storable (d : Dev nD) (c : Fin ((K (F := F)).nCore 0)) : BI.Storable (upEmb : UEmb _ 𝕄) (dnP yv iv d c) := by
  unfold dnP; infer_instance

-- the four are compared by name from here on: opened, each is thousands of points-to
attribute [irreducible] goP tdP stP dnP

/-- The one call takes y, the flat edge row and the result array whole; each tile its parts, and brings them back,
    the result's at the rows of y its entries name. -/
def P : (K (F := F)).Pay (nD := nD) (Val := Elt F) (Name := ℕ) (U := UU) where
  st := fun q d c => match q with
    | 0 => stP yv iv ov d c
  dn := fun q d c => match q with
    | 0 => dnP yv iv d c
  go := fun q d c i => match q with
    | 0 => goP yv iv ov d c i
  td := fun q d c i => match q with
    | 0 => tdP yv iv d c i
  x := fun _ _ => iprop(emp)

theorem st_def (d : Dev nD) (c : Fin ((K (F := F)).nCore 0)) : (P yv iv ov).st 0 d c = stP yv iv ov d c := rfl
theorem dn_def (d : Dev nD) (c : Fin ((K (F := F)).nCore 0)) : (P yv iv ov).dn 0 d c = dnP yv iv d c := rfl
theorem go_def (d : Dev nD) (c : Fin ((K (F := F)).nCore 0)) (i : Fin ((K (F := F)).nSub 0)) : (P yv iv ov).go 0 d c i = goP yv iv ov d c i := rfl
theorem td_def (d : Dev nD) (c : Fin ((K (F := F)).nCore 0)) (i : Fin ((K (F := F)).nSub 0)) : (P yv iv ov).td 0 d c i = tdP yv iv d c i := rfl

instance P_storable : (P (F := F) yv iv ov).IsStorable where
  st q d c := match q with
    | 0 => stP_storable yv iv ov d c
  dn q d c := match q with
    | 0 => dnP_storable yv iv d c
  go q d c i := match q with
    | 0 => goP_storable yv iv ov d c i
  td q d c i := match q with
    | 0 => tdP_storable yv iv d c i

/-- the call's operands for a core are its tiles' parts, and its results are theirs -/
theorem vecSplit : (K (F := F)).VecSplit' (P yv iv ov) 0 := by
  intro d c
  simp only [st_def, dn_def, go_def, td_def]
  unfold stP dnP
  iintro H; imodintro
  isplitl [H]; · iexact H
  iintro H; iexact H

/-! ## The call's operands whole, and its results whole -/

/-- every tile's parts together are the three arrays whole -/
theorem tiles_eq (d : Dev nD) (yb : Buf (Elt F) (yLoc d)) (ib : Buf (Elt F) (iLoc d)) (ob : Buf (Elt F) (oLoc d)) :
    (bigSep Finset.univ fun c : Fin 2 => bigSep Finset.univ fun s : Fin 16 => tilePts d c s yb ib ob)
      = (iprop((yLoc d ↦{fullShare} yb) ∗ (iLoc d ↦{fullShare} ib) ∗ (oLoc d ↦{fullShare} ob)) : sProp 𝕄) := by
  have hy := yPts_shares (F := F) d yb
  have hi : (iLoc d ↦{fullShare} ib : sProp 𝕄) = bigSep Finset.univ fun c : Fin 2 => bigSep Finset.univ fun s : Fin 16 =>
      iLoc d ↦[iTileSet (coordsV c s)]{fullShare} ib := iPts_tiles d ib
  have ho : (oLoc d ↦{fullShare} ob : sProp 𝕄) = bigSep Finset.univ fun c : Fin 2 => bigSep Finset.univ fun s : Fin 16 =>
      bigSep Finset.univ fun t : Fin k1_t1_loop.trips => bigSep Finset.univ fun j : Fin 5 =>
        oLoc d ↦[oChunkSet (coordsV c s) t j]{fullShare} ob := oPts_chunks d ob
  rw [hy, hi, ho]
  simp only [bigSep_sep']

/-- a conjunction over the call's cores and tiles is one over Fin 2 and Fin 16 -/
theorem bigSep_cores_tiles (Φ : Fin 2 → Fin 16 → sProp 𝕄) :
    (bigSep Finset.univ fun c : Fin ((K (F := F)).nCore 0) => bigSep Finset.univ fun i : Fin ((K (F := F)).nSub 0) =>
        Φ (Fin.cast nCore_zero c) (Fin.cast nSub_zero i))
      = bigSep Finset.univ fun c : Fin 2 => bigSep Finset.univ fun s : Fin 16 => Φ c s :=
  bigSep_congr fun c _ => bigSep_congr fun s _ => congrArg₂ Φ (Fin.ext rfl) (Fin.ext rfl)

theorem st_eq (d : Dev nD) :
    (bigSep Finset.univ fun c : Fin ((K (F := F)).nCore 0) => (P yv iv ov).st 0 d c)
      = (iprop((yLoc d ↦{fullShare} yv d) ∗ (iLoc d ↦{fullShare} iv d) ∗ (oLoc d ↦{fullShare} ov d)) : sProp 𝕄) := by
  simp only [st_def]
  unfold stP goP
  exact (bigSep_cores_tiles (fun c s => tilePts d c s (yv d) (iv d) (ov d))).trans (tiles_eq d (yv d) (iv d) (ov d))

theorem dn_eq (d : Dev nD) :
    (bigSep Finset.univ fun c : Fin ((K (F := F)).nCore 0) => (P yv iv ov).dn 0 d c)
      = (iprop((yLoc d ↦{fullShare} yv d) ∗ (iLoc d ↦{fullShare} iv d) ∗ (oLoc d ↦{fullShare} outBuf d (yv d) (iv d))) : sProp 𝕄) := by
  simp only [dn_def]
  unfold dnP tdP
  exact (bigSep_cores_tiles (fun c s => tilePts d c s (yv d) (iv d) (outBuf d (yv d) (iv d)))).trans (tiles_eq d (yv d) (iv d) (outBuf d (yv d) (iv d)))

end Cert.KernelIdeal.Hand

end
-- ==== Proof.MainBufsI.lean ====
/-
  @main's ten arrays on a device as one separating conjunction, and what holding the four arguments and the result
  array whole at given contents says of the final memory.
-/
import proofs.«207968_g22119081574525_cont_sun_m_427_17_alg».proof.Proof.TileDefsI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v3Loc (d : Dev nD) : Loc nD τ sig := (SparseCore.T d).loc main_v3

/-- @main's arrays on device d, each whole at the full share -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (a2Loc d ↦{fullShare} W main_arg2) ∗ (a3Loc d ↦{fullShare} W main_arg3) ∗ (v0Loc d ↦{fullShare} W main_v0)
      ∗ (v1Loc d ↦{fullShare} W main_v1) ∗ (yLoc d ↦{fullShare} W main_v2) ∗ (v3Loc d ↦{fullShare} W main_v3)
      ∗ (iLoc d ↦{fullShare} W main_v4) ∗ oLoc d ↦{fullShare} W main_v5) := by
  unfold unscopedBufs
  rw [show (Finset.univ.filter fun b : Ref sig .tc => ¬ b.isScoped)
      = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

/-- the four arguments and the result array whole, at given contents -/
abbrev FINp (d : Dev nD) (b0 : Buf (Elt F) (a0Loc d)) (b1 : Buf (Elt F) (a1Loc d)) (b2 : Buf (Elt F) (a2Loc d))
    (b3 : Buf (Elt F) (a3Loc d)) (g : Buf (Elt F) (oLoc d)) : sProp 𝕄 :=
  iprop((a0Loc d ↦{fullShare} b0) ∗ (a1Loc d ↦{fullShare} b1) ∗ (a2Loc d ↦{fullShare} b2) ∗ (a3Loc d ↦{fullShare} b3)
    ∗ (oLoc d ↦{fullShare} g))

set_option maxRecDepth 16384 in
/-- held whole against the final state, they are what the final memory holds -/
theorem fin_read (d : Dev nD) (b0 : Buf (Elt F) (a0Loc d)) (b1 : Buf (Elt F) (a1Loc d)) (b2 : Buf (Elt F) (a2Loc d))
    (b3 : Buf (Elt F) (a3Loc d)) (g : Buf (Elt F) (oLoc d)) (s' : Phys nD τ sig (Elt F)) :
    iprop(FINp d b0 b1 b2 b3 g ∗ SI s') ⊢ (⌜s'.mem.mem (oLoc d) = g ∧ s'.mem.mem (a0Loc d) = b0 ∧ s'.mem.mem (a1Loc d) = b1
      ∧ s'.mem.mem (a2Loc d) = b2 ∧ s'.mem.mem (a3Loc d) = b3⌝ : sProp 𝕄) := by
  iintro ⟨⟨H0, H1, H2, H3, Ho⟩, HSI⟩
  ihave H := (persistent_entails_right (SI_pointsTo_agree (st := s') (ℓ := a0Loc d) (I := Finset.univ) (q := fullShare) (f := b0))) $$ [HSI H0]
  · isplitl [HSI] <;> iassumption
  icases H with ⟨%h0, HSI, -⟩
  ihave H := (persistent_entails_right (SI_pointsTo_agree (st := s') (ℓ := a1Loc d) (I := Finset.univ) (q := fullShare) (f := b1))) $$ [HSI H1]
  · isplitl [HSI] <;> iassumption
  icases H with ⟨%h1, HSI, -⟩
  ihave H := (persistent_entails_right (SI_pointsTo_agree (st := s') (ℓ := a2Loc d) (I := Finset.univ) (q := fullShare) (f := b2))) $$ [HSI H2]
  · isplitl [HSI] <;> iassumption
  icases H with ⟨%h2, HSI, -⟩
  ihave H := (persistent_entails_right (SI_pointsTo_agree (st := s') (ℓ := a3Loc d) (I := Finset.univ) (q := fullShare) (f := b3))) $$ [HSI H3]
  · isplitl [HSI] <;> iassumption
  icases H with ⟨%h3, HSI, -⟩
  ihave H := (SI_pointsTo_agree (st := s') (ℓ := oLoc d) (I := Finset.univ) (q := fullShare) (f := g)) $$ [HSI Ho]
  · isplitl [HSI] <;> iassumption
  icases H with %ho
  ipureintro
  exact ⟨funext fun i => ho i (Finset.mem_univ i), funext fun i => h0 i (Finset.mem_univ i), funext fun i => h1 i (Finset.mem_univ i),
    funext fun i => h2 i (Finset.mem_univ i), funext fun i => h3 i (Finset.mem_univ i)⟩

end Cert.KernelIdeal.Hand

end
-- ==== Proof.LaunchI.lean ====
/-
  @main on the TensorCore, and the launch.  @main reshapes the bias to one row and lays it along eight rows, runs the
  matrix-product pipeline (y = x · Wᵀ + b), slices the edge list's second row and flattens it, starts the SparseCores'
  gather of the rows of y the edge list names and waits for it.  The host lines are run over the TensorCore's ten
  arrays held whole; the pipeline by its region lemma; the SparseCore call by the launch library's rule for it.
-/
import proofs.«207968_g22119081574525_cont_sun_m_427_17_alg».proof.Proof.TcRegionI
import proofs.«207968_g22119081574525_cont_sun_m_427_17_alg».proof.Proof.TileDefsI
import proofs.«207968_g22119081574525_cont_sun_m_427_17_alg».proof.Proof.PayI
import proofs.«207968_g22119081574525_cont_sun_m_427_17_alg».proof.Proof.MainBufsI
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

/-! ## The TensorCore's arrays and @main's host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The bias as one row; that row along eight rows; the edge list's second row; that row flattened. -/
abbrev opRowB : HloOp τ sig (Elt F) := StableHlo.reshape main_arg3 main_v0 rfl shapeCasts_S128_S1x128
abbrev opEight : HloOp τ sig (Elt F) :=
  StableHlo.unary main_v0 main_v1 (broadcastInDim S8x128 ![0, 1] bcast_S1x128_S8x128_0_1 : (⟨S1x128, .f32⟩ : BufTy).Contents (Elt F) → (⟨S8x128, .f32⟩ : BufTy).Contents (Elt F))
abbrev opSlice : HloOp τ sig (Elt F) :=
  StableHlo.unary main_arg1 main_v3 ((extractStridedSlice S1x320000 ![1, 0] · slices_S2x320000_S1x320000_1_0) : (⟨S2x320000, .i32⟩ : BufTy).Contents (Elt F) → (⟨S1x320000, .i32⟩ : BufTy).Contents (Elt F))
abbrev opFlat : HloOp τ sig (Elt F) := StableHlo.reshape main_v3 main_v4 rfl shapeCasts_S1x320000_S320000

/-- The TensorCore's arrays, all unscoped. -/
abbrev S10 : Finset (DevRef τ sig) := {a0', a1', a2', a3', v0', v1', v2', v3', v4', v5'}

omit [FloatOps F] in
theorem held_S10 (d : Dev nD) (W : Valuation τ sig (Elt F)) :
    (held (T d) S10 W : sProp 𝕄)
      = iprop(((T d : Thread nD τ).loc main_arg0 ↦{fullShare} W a0') ∗ ((T d : Thread nD τ).loc main_arg1 ↦{fullShare} W a1')
          ∗ ((T d : Thread nD τ).loc main_arg2 ↦{fullShare} W a2') ∗ ((T d : Thread nD τ).loc main_arg3 ↦{fullShare} W a3')
          ∗ ((T d : Thread nD τ).loc main_v0 ↦{fullShare} W v0') ∗ ((T d : Thread nD τ).loc main_v1 ↦{fullShare} W v1')
          ∗ ((T d : Thread nD τ).loc main_v2 ↦{fullShare} W v2') ∗ ((T d : Thread nD τ).loc main_v3 ↦{fullShare} W v3')
          ∗ ((T d : Thread nD τ).loc main_v4 ↦{fullShare} W v4') ∗ ((T d : Thread nD τ).loc main_v5 ↦{fullShare} W v5')) := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem tcUnscopedBufs_eq (d : Dev nD) (W : (b : Ref sig .tc) → Buf (Elt F) ((d.tc : Thread nD τ).loc b)) :
    (unscopedBufs d W : sProp 𝕄)
      = iprop(((T d : Thread nD τ).loc main_arg0 ↦{fullShare} W main_arg0) ∗ ((T d : Thread nD τ).loc main_arg1 ↦{fullShare} W main_arg1)
          ∗ ((T d : Thread nD τ).loc main_arg2 ↦{fullShare} W main_arg2) ∗ ((T d : Thread nD τ).loc main_arg3 ↦{fullShare} W main_arg3)
          ∗ ((T d : Thread nD τ).loc main_v0 ↦{fullShare} W main_v0) ∗ ((T d : Thread nD τ).loc main_v1 ↦{fullShare} W main_v1)
          ∗ ((T d : Thread nD τ).loc main_v2 ↦{fullShare} W main_v2) ∗ ((T d : Thread nD τ).loc main_v3 ↦{fullShare} W main_v3)
          ∗ ((T d : Thread nD τ).loc main_v4 ↦{fullShare} W main_v4) ∗ ((T d : Thread nD τ).loc main_v5 ↦{fullShare} W main_v5)) := by
  unfold unscopedBufs
  rw [show (Finset.univ.filter fun b : Ref sig .tc => ¬ b.isScoped)
      = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem hRowB : (opRowB (F := F)).bufs ⊆ S10 := show ({a3', v0'} : Finset (DevRef τ sig)) ⊆ S10 by decide
theorem hEight : (opEight (F := F)).bufs ⊆ S10 := show ({v0', v1'} : Finset (DevRef τ sig)) ⊆ S10 by decide
theorem hSlice : (opSlice (F := F)).bufs ⊆ S10 := show ({a1', v3'} : Finset (DevRef τ sig)) ⊆ S10 by decide
theorem hFlat : (opFlat (F := F)).bufs ⊆ S10 := show ({v3', v4'} : Finset (DevRef τ sig)) ⊆ S10 by decide

/-! ## What the arrays hold along @main -/

section Vals

variable (m : (ℓ : Loc nD τ sig) → Buf (Elt F) ℓ)

/-- The bias along eight rows, as the two host lines leave it. -/
def bvOf (d : Dev nD) : Buf (Elt F) ((T d : Thread nD τ).loc main_v1) :=
  broadcastInDim S8x128 ![0, 1] bcast_S1x128_S8x128_0_1 (shapeCast S1x128 (m ((T d : Thread nD τ).loc main_arg3)) shapeCasts_S128_S1x128)

/-- y as the pipeline leaves it. -/
def yvOf (d : Dev nD) : Buf (Elt F) (yLoc d) :=
  Yarr (m ((T d : Thread nD τ).loc main_arg0)) (m ((T d : Thread nD τ).loc main_arg2)) (bvOf m d)

/-- The edge list's second row, flat, as the two host lines after the pipeline leave it. -/
def ivOf (d : Dev nD) : Buf (Elt F) (iLoc d) :=
  shapeCast S320000 (extractStridedSlice S1x320000 ![1, 0] (m ((T d : Thread nD τ).loc main_arg1)) slices_S2x320000_S1x320000_1_0) shapeCasts_S1x320000_S320000

/-- The result's buffer as launched. -/
def ovOf (d : Dev nD) : Buf (Elt F) (oLoc d) := m (oLoc d)

/-- The launch valuation; after the two lines on the bias; after the pipeline; after the two lines on the edge list. -/
def V0 (d : Dev nD) : Valuation τ sig (Elt F) := fun b => m (d, b)
def V2 (d : Dev nD) : Valuation τ sig (Elt F) := (opEight (F := F)).result ((opRowB (F := F)).result (V0 m d))
def V3 (d : Dev nD) : Valuation τ sig (Elt F) := Function.update (V2 m d) v2' (yvOf m d)
def V5 (d : Dev nD) : Valuation τ sig (Elt F) := (opFlat (F := F)).result ((opSlice (F := F)).result (V3 m d))

theorem tcUnscoped_held (d : Dev nD) : (unscopedBufs d (fun b => m ((T d : Thread nD τ).loc b)) : sProp 𝕄) = held (T d) S10 (V0 m d) := by
  rw [tcUnscopedBufs_eq, held_S10]; rfl

end Vals

/-! ## What the arrays hold along @main, array by array -/

section Reads

variable (m : (ℓ : Loc nD τ sig) → Buf (Elt F) ℓ) (d : Dev nD)

theorem V2_of (b : DevRef τ sig) (h0 : b ≠ v0') (h1 : b ≠ v1') : V2 m d b = V0 m d b := by
  unfold V2
  rw [(opEight (F := F)).result_of_not_mem _ (show b ∉ ({v1'} : Finset (DevRef τ sig)) from fun h => h1 (Finset.mem_singleton.mp h)),
    (opRowB (F := F)).result_of_not_mem _ (show b ∉ ({v0'} : Finset (DevRef τ sig)) from fun h => h0 (Finset.mem_singleton.mp h))]
theorem V2_v1 : V2 m d v1' = bvOf m d := by
  unfold V2 bvOf
  rw [StableHlo.unary_result', StableHlo.reshape_result']
  rfl
theorem V3_of (b : DevRef τ sig) (h2 : b ≠ v2') : V3 m d b = V2 m d b := Function.update_of_ne h2 _ _
theorem V3_v2 : V3 m d v2' = yvOf m d := Function.update_self _ _ _
theorem V5_of (b : DevRef τ sig) (h3 : b ≠ v3') (h4 : b ≠ v4') : V5 m d b = V3 m d b := by
  unfold V5
  rw [(opFlat (F := F)).result_of_not_mem _ (show b ∉ ({v4'} : Finset (DevRef τ sig)) from fun h => h4 (Finset.mem_singleton.mp h)),
    (opSlice (F := F)).result_of_not_mem _ (show b ∉ ({v3'} : Finset (DevRef τ sig)) from fun h => h3 (Finset.mem_singleton.mp h))]
theorem V5_v4 : V5 m d v4' = ivOf m d := by
  unfold V5 ivOf
  rw [StableHlo.reshape_result', StableHlo.unary_result', V3_of m d a1' (by decide), V2_of m d a1' (by decide) (by decide)]
  rfl

/-- An array no line of @main writes holds its launch contents throughout. -/
theorem V5_arg (b : DevRef τ sig) (h0 : b ≠ v0') (h1 : b ≠ v1') (h2 : b ≠ v2') (h3 : b ≠ v3') (h4 : b ≠ v4') : V5 m d b = V0 m d b :=
  (V5_of m d b h3 h4).trans ((V3_of m d b h2).trans (V2_of m d b h0 h1))
theorem V3_arg (b : DevRef τ sig) (h0 : b ≠ v0') (h1 : b ≠ v1') (h2 : b ≠ v2') : V3 m d b = V0 m d b :=
  (V3_of m d b h2).trans (V2_of m d b h0 h1)

/-- The ten arrays before the pipeline: the arguments and the result's buffer as launched, the bias along eight rows. -/
theorem held_V2 :
    (held (T d) S10 ((opEight (F := F)).result ((opRowB (F := F)).result (V0 m d))) : sProp 𝕄)
      = iprop(((T d : Thread nD τ).loc main_arg0 ↦{fullShare} m ((T d : Thread nD τ).loc main_arg0)) ∗ ((T d : Thread nD τ).loc main_arg1 ↦{fullShare} m ((T d : Thread nD τ).loc main_arg1))
          ∗ ((T d : Thread nD τ).loc main_arg2 ↦{fullShare} m ((T d : Thread nD τ).loc main_arg2)) ∗ ((T d : Thread nD τ).loc main_arg3 ↦{fullShare} m ((T d : Thread nD τ).loc main_arg3))
          ∗ ((T d : Thread nD τ).loc main_v0 ↦{fullShare} V2 m d v0') ∗ ((T d : Thread nD τ).loc main_v1 ↦{fullShare} bvOf m d)
          ∗ ((T d : Thread nD τ).loc main_v2 ↦{fullShare} V2 m d v2') ∗ ((T d : Thread nD τ).loc main_v3 ↦{fullShare} V2 m d v3')
          ∗ ((T d : Thread nD τ).loc main_v4 ↦{fullShare} V2 m d v4') ∗ ((T d : Thread nD τ).loc main_v5 ↦{fullShare} m (oLoc d))) := by
  show held (T d) S10 (V2 m d) = _
  rw [held_S10, V2_of m d a0' (by decide) (by decide), V2_of m d a1' (by decide) (by decide), V2_of m d a2' (by decide) (by decide),
    V2_of m d a3' (by decide) (by decide), V2_v1, V2_of m d v5' (by decide) (by decide)]
  rfl

/-- The ten arrays after the pipeline, y in its buffer: as the two lines on the edge list find them. -/
theorem held_V3 :
    (held (T d) S10 (V3 m d) : sProp 𝕄)
      = iprop(((T d : Thread nD τ).loc main_arg0 ↦{fullShare} m ((T d : Thread nD τ).loc main_arg0)) ∗ ((T d : Thread nD τ).loc main_arg1 ↦{fullShare} m ((T d : Thread nD τ).loc main_arg1))
          ∗ ((T d : Thread nD τ).loc main_arg2 ↦{fullShare} m ((T d : Thread nD τ).loc main_arg2)) ∗ ((T d : Thread nD τ).loc main_arg3 ↦{fullShare} m ((T d : Thread nD τ).loc main_arg3))
          ∗ ((T d : Thread nD τ).loc main_v0 ↦{fullShare} V2 m d v0') ∗ ((T d : Thread nD τ).loc main_v1 ↦{fullShare} bvOf m d)
          ∗ ((T d : Thread nD τ).loc main_v2 ↦{fullShare} yvOf m d) ∗ ((T d : Thread nD τ).loc main_v3 ↦{fullShare} V2 m d v3')
          ∗ ((T d : Thread nD τ).loc main_v4 ↦{fullShare} V2 m d v4') ∗ ((T d : Thread nD τ).loc main_v5 ↦{fullShare} m (oLoc d))) := by
  rw [held_S10, V3_arg m d a0' (by decide) (by decide) (by decide), V3_arg m d a1' (by decide) (by decide) (by decide),
    V3_arg m d a2' (by decide) (by decide) (by decide), V3_arg m d a3' (by decide) (by decide) (by decide),
    V3_of m d v0' (by decide), V3_of m d v1' (by decide), V2_v1, V3_v2, V3_of m d v3' (by decide), V3_of m d v4' (by decide),
    V3_arg m d v5' (by decide) (by decide) (by decide)]
  rfl

/-- The ten arrays before the SparseCore call: y, the flat edge row and the result's buffer are what the call takes. -/
theorem held_V5 :
    (held (T d) S10 ((opFlat (F := F)).result ((opSlice (F := F)).result (V3 m d))) : sProp 𝕄)
      = iprop(((T d : Thread nD τ).loc main_arg0 ↦{fullShare} m ((T d : Thread nD τ).loc main_arg0)) ∗ ((T d : Thread nD τ).loc main_arg1 ↦{fullShare} m ((T d : Thread nD τ).loc main_arg1))
          ∗ ((T d : Thread nD τ).loc main_arg2 ↦{fullShare} m ((T d : Thread nD τ).loc main_arg2)) ∗ ((T d : Thread nD τ).loc main_arg3 ↦{fullShare} m ((T d : Thread nD τ).loc main_arg3))
          ∗ ((T d : Thread nD τ).loc main_v0 ↦{fullShare} V5 m d v0') ∗ ((T d : Thread nD τ).loc main_v1 ↦{fullShare} V5 m d v1')
          ∗ (yLoc d ↦{fullShare} yvOf m d) ∗ ((T d : Thread nD τ).loc main_v3 ↦{fullShare} V5 m d v3')
          ∗ (iLoc d ↦{fullShare} ivOf m d) ∗ (oLoc d ↦{fullShare} ovOf m d)) := by
  show held (T d) S10 (V5 m d) = _
  rw [held_S10, V5_arg m d a0' (by decide) (by decide) (by decide) (by decide) (by decide), V5_arg m d a1' (by decide) (by decide) (by decide) (by decide) (by decide),
    V5_arg m d a2' (by decide) (by decide) (by decide) (by decide) (by decide), V5_arg m d a3' (by decide) (by decide) (by decide) (by decide) (by decide),
    V5_of m d v2' (by decide) (by decide), V3_v2, V5_v4, V5_arg m d v5' (by decide) (by decide) (by decide) (by decide) (by decide)]
  rfl

end Reads

/-! ## The launch element -/

omit [FloatOps F] in
theorem bigSep_emp' {I : Type} (s : Finset I) : (bigSep s fun _ => iprop(emp)) = (iprop(emp) : sProp 𝕄) := bigSep_emp_const s

/-- The launch element: the handshakes' cells and tokens, the pipeline's staging cells and tokens, no transfer counted. -/
def u₀ : UU := (initOf (K (F := F)).hsCells (K (F := F)).hsToks, (uP₀, (1 : Counters)))

/-- The launch element deals the handshakes their own, every device the pipeline's ghost state, and the kernels' proofs
    nothing (they hold nothing from the launch). -/
theorem hu₀_of (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (initOf (K (F := F)).hsCells (K (F := F)).hsToks)) ∗ (bigSep Finset.univ fun d : Dev nD => tcGhost (F := F) d)
          ∗ bigSep Finset.univ fun thr : Thread nD τ => bigSep Finset.univ fun q : Fin 1 => P.x q thr) := by
  unfold u₀
  rw [show (bigSep Finset.univ fun thr : Thread nD τ => bigSep Finset.univ fun q : Fin 1 => P.x q thr) = bigSep Finset.univ fun _ => iprop(emp) from
    bigSep_congr fun thr _ => (bigSep_univ_of_subsingleton (0 : Fin 1)).trans (hx 0 thr), bigSep_emp']
  iintro Hu
  ihave H := (ownU_pair _ _) $$ Hu
  icases H with ⟨HH, HR⟩
  ihave H2 := (own_pair_emb embR uP₀ (1 : Counters)) $$ HR
  icases H2 with ⟨HP, -⟩
  imod (tcGhost_fund (F := F)) $$ HP with Hg
  imodintro
  isplitl [HH]; · iexact HH
  isplitl [Hg]; · iexact Hg
  iempintro

/-! ## @main on the TensorCore -/

section Main

variable (m : (ℓ : Loc nD τ sig) → Buf (Elt F) ℓ) (ρ : Dev nD → PrngReg)
  (P : (K (F := F)).Pay (nD := nD) (Val := Elt F) (Name := ℕ) (U := UU)) (OUT : (d : Dev nD) → Buf (Elt F) (oLoc d))

/-- What @main leaves the claim: the four arguments as launched, the result's buffer at the result. -/
abbrev FIN (d : Dev nD) : sProp 𝕄 := FINp d (m (a0Loc d)) (m (a1Loc d)) (m (a2Loc d)) (m (a3Loc d)) (OUT d)

set_option maxHeartbeats 1000000 in
/-- @main on device d's TensorCore, for any payload record whose call takes y, the flat edge row and the result's
    buffer whole and gives them back with the result at OUT: the two lines on the bias, the pipeline, the two lines on
    the edge list, the SparseCore call; the arguments kept. -/
theorem hmain_of
    (hst : ∀ d, (bigSep Finset.univ fun c : Fin ((K (F := F)).nCore 0) => P.st 0 d c)
      = (iprop((yLoc d ↦{fullShare} yvOf m d) ∗ (iLoc d ↦{fullShare} ivOf m d) ∗ (oLoc d ↦{fullShare} ovOf m d)) : sProp 𝕄))
    (hdn : ∀ d, (bigSep Finset.univ fun c : Fin ((K (F := F)).nCore 0) => P.dn 0 d c)
      = (iprop((yLoc d ↦{fullShare} yvOf m d) ∗ (iLoc d ↦{fullShare} ivOf m d) ∗ (oLoc d ↦{fullShare} OUT d)) : sProp 𝕄))
    (κ : GSem nD τ sig → ℕ) (d : Dev nD) :
    iprop((K (F := F)).ctx EH P κ ∗ (K (F := F)).tcSt EH d 0 ∗ (K (F := F)).tcRes m ρ d ∗ tcGhost (F := F) d)
      ⊢ wp frame (wpE ((K (F := F)).defs (D (F := F))) 𝒱 (T d : Thread nD τ) none) Set.univ (main d)
          fun _ => iprop((K (F := F)).tcSt EH d 1 ∗ FIN m OUT d) := by
  unfold SparseCore.Cfg.tcRes
  rw [tcUnscoped_held]
  simp only [main, wp_bind, wp_pure]
  iintro ⟨#Hctx, Hst, ⟨Hb, Hheld, -, -⟩, Hg⟩
  -- the bias as one row, then along eight rows
  iapply (wp_hlo_within 𝒱 (T d) none Set.univ (op := opRowB) (S := S10) hRowB (V := V0 m d)) $$ [Hb Hheld]
  · isplitl [Hb] <;> iassumption
  iintro ⟨Hb, Hheld⟩
  rw [wp_ret]; imodintro
  iapply (wp_hlo_within 𝒱 (T d) none Set.univ (op := opEight) (S := S10) hEight (V := (opRowB (F := F)).result (V0 m d))) $$ [Hb Hheld]
  · isplitl [Hb] <;> iassumption
  iintro ⟨Hb, Hheld⟩
  rw [wp_ret]; imodintro
  -- the pipeline: x, W, the eight-row bias and the result's buffer in; y out
  ihave Hh := (Entails.of_eq (held_V2 (F := F) m d)) $$ Hheld
  icases Hh with ⟨Ha0, Ha1, Ha2, Ha3, Hv0, Hv1, Hv2, Hv3, Hv4, Hv5⟩
  iapply (region_wp P κ d (m ((T d : Thread nD τ).loc main_arg0)) (m ((T d : Thread nD τ).loc main_arg2)) (bvOf m d) (V2 m d v2') _)
  isplitl [Hg]; · iexact Hg
  isplitr; · iexact Hctx
  isplitl [Hst]; · iexact Hst
  isplitl [Hb]; · iexact Hb
  isplitl [Ha0]; · iexact Ha0
  isplitl [Ha2]; · iexact Ha2
  isplitl [Hv1]; · iexact Hv1
  isplitl [Hv2]; · iexact Hv2
  iintro ⟨Hst, Hb, Ha0, Ha2, Hv1, Hv2⟩
  -- the edge list's second row, then flat
  iapply (wp_hlo_within 𝒱 (T d) none Set.univ (op := opSlice) (S := S10) hSlice (V := V3 m d)) $$ [Hb Ha0 Ha1 Ha2 Ha3 Hv0 Hv1 Hv2 Hv3 Hv4 Hv5]
  · isplitl [Hb]; · iexact Hb
    rw [held_V3]
    isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    isplitl [Hv4]; · iexact Hv4
    iexact Hv5
  iintro ⟨Hb, Hheld⟩
  rw [wp_ret]; imodintro
  iapply (wp_hlo_within 𝒱 (T d) none Set.univ (op := opFlat) (S := S10) hFlat (V := (opSlice (F := F)).result (V3 m d))) $$ [Hb Hheld]
  · isplitl [Hb] <;> iassumption
  iintro ⟨Hb, Hheld⟩
  rw [wp_ret]; imodintro
  -- the SparseCore call: y, the flat edge row and the result's buffer to the SparseCores and back
  ihave Hh := (Entails.of_eq (held_V5 (F := F) m d)) $$ Hheld
  icases Hh with ⟨Ha0, Ha1, Ha2, Ha3, -, -, Hy, -, Hi, Ho⟩
  iapply ((K (F := F)).wp_run (D (F := F)) 𝒱 (EH := EH) (P := P) κ d 0)
  isplitr; · iexact Hctx
  isplitl [Hst]; · iexact Hst
  isplitl [Hy Hi Ho]
  · rw [hst]
    isplitl [Hy]; · iexact Hy
    isplitl [Hi]; · iexact Hi
    iexact Ho
  iintro ⟨Hst, Hdn⟩
  ihave Hdn' := (Entails.of_eq (hdn d)) $$ Hdn
  icases Hdn' with ⟨-, -, Ho⟩
  imodintro
  isplitl [Hst]; · iexact Hst
  isplitl [Ha0]; · iexact Ha0
  isplitl [Ha1]; · iexact Ha1
  isplitl [Ha2]; · iexact Ha2
  isplitl [Ha3]; · iexact Ha3
  iexact Ho

/-! ## The program's run -/

/-- What the final memory holds on device d: the result, and the four arguments as launched. -/
def fq (d : Dev nD) (s' : Phys nD τ sig (Elt F)) : Prop :=
  s'.mem.mem (oLoc d) = OUT d ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem hfin (d : Dev nD) (s' : Phys nD τ sig (Elt F)) : iprop(FIN m OUT d ∗ SI s') ⊢ (⌜fq m OUT d s'⌝ : sProp 𝕄) :=
  fin_read d (m (a0Loc d)) (m (a1Loc d)) (m (a2Loc d)) (m (a3Loc d)) (OUT d) s'

/-- The run, for any payload record as above whose tile obligation and split of the operands among the tiles are
    given: every weakly fair execution of the whole mesh terminates, with the result's buffer at OUT and the four
    arguments as launched. -/
theorem run_main_of [∀ e, Nonempty (Elt F e)] [P.IsStorable]
    (hst : ∀ d, (bigSep Finset.univ fun c : Fin ((K (F := F)).nCore 0) => P.st 0 d c)
      = (iprop((yLoc d ↦{fullShare} yvOf m d) ∗ (iLoc d ↦{fullShare} ivOf m d) ∗ (oLoc d ↦{fullShare} ovOf m d)) : sProp 𝕄))
    (hdn : ∀ d, (bigSep Finset.univ fun c : Fin ((K (F := F)).nCore 0) => P.dn 0 d c)
      = (iprop((yLoc d ↦{fullShare} yvOf m d) ∗ (iLoc d ↦{fullShare} ivOf m d) ∗ (oLoc d ↦{fullShare} OUT d)) : sProp 𝕄))
    (hx : ∀ q thr, P.x q thr = iprop(emp)) (hheld : P.held = ∅)
    (hvec : (K (F := F)).VecSplit' P 0) (hobl : (K (F := F)).TileObl (D (F := F)) 𝒱 P v₀ 0) :
    θ_run (Cert.KernelIdeal.defs (F := F)) (Cert.KernelIdeal.threads (F := F)) ⟨m, fun _ => 0, ρ⟩
      (fun r => ∀ c : Dev nD, r.2.mem ((c.tc : Thread nD τ).loc main_v5) = OUT c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  SparseCore.Cfg.θ_run_sc (K := K (F := F)) (D := D (F := F)) (𝒱 := 𝒱) (EH := EH) (P := P) facts v₀
    (fun q hq => match q with | 0 => nomatch hq)
    (fun q _ => match q with | 0 => hobl)
    (fun q _ => match q with | 0 => SparseCore.Cfg.VecSplit.of_plain hvec)
    m ρ main (fun d => tcGhost (F := F) d) (FIN m OUT) (u₀ (F := F)) (sep_elim_left.trans (hu₀_of P hx)) (hmain_of m ρ P OUT hst hdn)
    (fq m OUT) (hfin m OUT) _ (fun _ h c => h c) hheld

end Main

/-! ## At the certificate's payload record -/

section Cert

variable (m : (ℓ : Loc nD τ sig) → Buf (Elt F) ℓ) (ρ : Dev nD → PrngReg)

/-- The launch element, for the certificate's payload record. -/
theorem hu₀ :
    (ownU (u₀ (F := F)) : sProp 𝕄)
      ⊢ |={Set.univ}=> iprop(BI.own (EH (initOf (K (F := F)).hsCells (K (F := F)).hsToks)) ∗ (bigSep Finset.univ fun d : Dev nD => tcGhost (F := F) d)
          ∗ bigSep Finset.univ fun thr : Thread nD τ => bigSep Finset.univ fun q : Fin 1 => (P (F := F) (yvOf m) (ivOf m) (ovOf m)).x q thr) :=
  hu₀_of (P (F := F) (yvOf m) (ivOf m) (ovOf m)) (fun _ _ => rfl)

/-- @main on device d's TensorCore, for the certificate's payload record: the result's buffer ends at the rows of y
    the flat edge row names. -/
theorem hmain (κ : GSem nD τ sig → ℕ) (d : Dev nD) :
    iprop((K (F := F)).ctx EH (P (F := F) (yvOf m) (ivOf m) (ovOf m)) κ ∗ (K (F := F)).tcSt EH d 0 ∗ (K (F := F)).tcRes m ρ d ∗ tcGhost (F := F) d)
      ⊢ wp frame (wpE ((K (F := F)).defs (D (F := F))) 𝒱 (T d : Thread nD τ) none) Set.univ (main d)
          fun _ => iprop((K (F := F)).tcSt EH d 1 ∗ FIN m (fun d => outBuf d (yvOf m d) (ivOf m d)) d) :=
  hmain_of m ρ (P (F := F) (yvOf m) (ivOf m) (ovOf m)) (fun d => outBuf d (yvOf m d) (ivOf m d))
    (fun d => st_eq (yvOf m) (ivOf m) (ovOf m) d) (fun d => dn_eq (yvOf m) (ivOf m) (ovOf m) d) κ d

/-- THE RUN, given the tiles' obligation: every weakly fair execution of the whole mesh terminates; the result's buffer
    holds, row by row, the rows of y the edge list's second row names, and the four arguments are as launched. -/
theorem run_main [∀ e, Nonempty (Elt F e)]
    (hobl : (K (F := F)).TileObl (D (F := F)) 𝒱 (P (F := F) (yvOf m) (ivOf m) (ovOf m)) v₀ 0) :
    θ_run (Cert.KernelIdeal.defs (F := F)) (Cert.KernelIdeal.threads (F := F)) ⟨m, fun _ => 0, ρ⟩
      (fun r => ∀ c : Dev nD, r.2.mem ((c.tc : Thread nD τ).loc main_v5) = outVal (yvOf m c) (ivOf m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  run_main_of m ρ (P (F := F) (yvOf m) (ivOf m) (ovOf m)) (fun d => outBuf d (yvOf m d) (ivOf m d))
    (fun d => st_eq (yvOf m) (ivOf m) (ovOf m) d) (fun d => dn_eq (yvOf m) (ivOf m) (ovOf m) d) (fun _ _ => rfl) rfl
    (vecSplit (yvOf m) (ivOf m) (ovOf m)) hobl

end Cert

end Cert.KernelIdeal.Hand

end
-- ==== Proof.TileIdxI.lean ====
/-
  One vector subcore's task: it copies its 10000 entries of the edge list's second row into its index scratch,
  then gathers the rows of y those entries name, eighty at a time, through five row buffers — four gathers ahead —
  and copies each filled buffer out to its eighty rows of the result.
-/
import proofs.«207968_g22119081574525_cont_sun_m_427_17_alg».proof.Proof.TileDefsI
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "yV" => (Memref.whole Cert.KernelIdeal.main_v2_scv : Memref Cert.KernelIdeal.sig Kind.scVector Space.hbm Cert.KernelIdeal.S10000x128 EltTy.f32)
local notation "iV" => (Memref.whole Cert.KernelIdeal.main_v4_scv : Memref Cert.KernelIdeal.sig Kind.scVector Space.hbm Cert.KernelIdeal.S320000 EltTy.i32)
local notation "oV" => (Memref.whole Cert.KernelIdeal.main_v5_scv : Memref Cert.KernelIdeal.sig Kind.scVector Space.hbm Cert.KernelIdeal.S320000x128 EltTy.f32)
local notation "sV" => (Memref.whole Cert.KernelIdeal.cc1_scratch0 : Memref Cert.KernelIdeal.sig Kind.scVector Space.vmem Cert.KernelIdeal.S10000 EltTy.i32)
local notation "r0V" => (Memref.whole Cert.KernelIdeal.cc1_scratch1 : Memref Cert.KernelIdeal.sig Kind.scVector Space.vmem Cert.KernelIdeal.S80x128 EltTy.f32)
local notation "r1V" => (Memref.whole Cert.KernelIdeal.cc1_scratch2 : Memref Cert.KernelIdeal.sig Kind.scVector Space.vmem Cert.KernelIdeal.S80x128 EltTy.f32)
local notation "r2V" => (Memref.whole Cert.KernelIdeal.cc1_scratch3 : Memref Cert.KernelIdeal.sig Kind.scVector Space.vmem Cert.KernelIdeal.S80x128 EltTy.f32)
local notation "r3V" => (Memref.whole Cert.KernelIdeal.cc1_scratch4 : Memref Cert.KernelIdeal.sig Kind.scVector Space.vmem Cert.KernelIdeal.S80x128 EltTy.f32)
local notation "r4V" => (Memref.whole Cert.KernelIdeal.cc1_scratch5 : Memref Cert.KernelIdeal.sig Kind.scVector Space.vmem Cert.KernelIdeal.S80x128 EltTy.f32)

variable [FloatOps F]
variable (d : Dev nD) (L : grid1.Coords)

/-- the tile's fetched index words -/
def idxPay (iv : Buf (Elt F) (iLoc d)) : S10000.Idx → Elt F .i32 := ReadAs.same.apply (View.read (Elt F) (iTileK L).view iv)

theorem idxPay_lt (iv : Buf (Elt F) (iLoc d)) (hin : ∀ j, (iv j).toNat < 10000) : ∀ j, (idxPay d L iv j).toNat < 10000 := by
  intro j
  show ((View.read (Elt F) (iTileK L).view iv) j).toNat < 10000
  rw [show View.read (Elt F) (iTileK L).view iv j = iv ((iTileK L).view.emb j) from (View.read_apply _ _).trans (cast_eq _ _)]
  exact hin _

end Cert.KernelIdeal.Hand

end
-- ==== Proof.TileValueI.lean ====
/-
  What a gather of eighty listed rows delivers, and what the fetch of a tile's index entries delivers, read at an index.
-/
import proofs.«207968_g22119081574525_cont_sun_m_427_17_alg».proof.Proof.TileDefsI
import Idealize.ShloMosaic.Lib.ValueIdx

noncomputable section

namespace Cert.KernelIdeal.Hand

open Cert.KernelIdeal Cert.KernelIdeal.Gen
open Idealize.ShloMosaic
open Idealize.ShloMosaic.SparseCore (S V T)
open Idealize.ShloMosaic.ValueIdx

variable {F : FTy → Type} [FloatOps F]

local notation "sV" => (Memref.whole Cert.KernelIdeal.cc1_scratch0 : Memref Cert.KernelIdeal.sig Kind.scVector Space.vmem Cert.KernelIdeal.S10000 EltTy.i32)

/-- a rank-1 index read back from its row-major position has that position as its coordinate -/
theorem rowMajor_symm_one {n : Nat} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- the word a list of eighty from word n holds at position k is the fetched entry n + k -/
theorem lst_read (d : Dev nD) (L : grid1.Coords) (pay : S10000.Idx → Elt F .i32) (n : ℕ) (h : n + 80 ≤ 10000) (x : S80.Idx) :
    View.read (Elt F) (lstN n h).view (svalOf d L pay) x = pay (ix1 (⟨n + (x 0).val, by have := (x 0).isLt; have : (x 0).val < 80 := this; omega⟩ : Fin 10000)) := by
  have e : View.read (Elt F) (lstN n h).view (svalOf d L pay) x
      = View.read (Elt F) (sV).view (svalOf d L pay) ((Rect.unit (s := S10000) ![n] S80.size (lst_inb n h)).emb x) := by
    rw [View.read_apply, View.read_apply]; rfl
  rw [e, View.read_writes_whole]
  refine congrArg pay (funext fun a => Fin.ext ?_)
  match a with
  | ⟨0, _⟩ =>
    show n + 1 * (x 0).val = n + (x 0).val
    omega

/-- the source index of element (r, c) of a gather of eighty rows: row R r, column c -/
theorem gidx_apply (R : Fin 80 → Fin 10000) (r : Fin 80) (c : Fin 128) :
    Shape.Gathers.idx gathers_S10000x128_S80x128 R (ix2 r c) = (ix2 (R r) c : S10000x128.Idx) := by
  funext a
  match a with
  | ⟨0, _⟩ => exact Shape.Gathers.idx_axis gathers_S10000x128_S80x128 R (ix2 r c)
  | ⟨1, _⟩ =>
    refine Fin.ext ?_
    exact Shape.Gathers.idx_of_ne gathers_S10000x128_S80x128 R (ix2 r c) ⟨1, by decide⟩ (by decide)

/-- all of y read through its whole-array slice is y -/
theorem ySl_read (d : Dev nD) (yv : Buf (Elt F) (yLoc d)) (X : S10000x128.Idx) :
    View.read (Elt F) (ySl).view yv X = yv X := by
  rw [View.read_apply]
  show yv _ = yv _
  refine congrArg yv (funext fun a => Fin.ext ?_)
  simp only [Memref.view_slice, Memref.view_whole, View.emb_slice, View.emb_whole, Function.Embedding.trans_apply,
    Function.Embedding.refl_apply, Rect.emb_apply, Rect.off_unit, Rect.stride_unit]
  match a with
  | ⟨0, _⟩ => show 0 + 1 * (X 0).val = (X 0).val; omega
  | ⟨1, _⟩ => show 0 + 1 * (X 1).val = (X 1).val; omega

theorem GPv_apply (d : Dev nD) (L : grid1.Coords) (yv : Buf (Elt F) (yLoc d)) (pay : S10000.Idx → Elt F .i32)
    (hpay : ∀ j, (pay j).toNat < 10000) (n : ℕ) (h : n + 80 ≤ 10000) (r : Fin 80) (c : Fin 128) :
    GPv d L yv pay hpay n h (ix2 r c)
      = yv (ix2 (⟨(pay (ix1 (⟨n + r.val, by omega⟩ : Fin 10000))).toNat, hpay _⟩ : Fin 10000) c) := by
  have hRr : (SparseCore.rows (View.read (Elt F) (lstN n h).view (svalOf d L pay)) rfl
      (idx_inb d L _ pay hpay ![n] (lst_inb n h) (fun _ => rfl)) r) = (⟨(pay (ix1 (⟨n + r.val, by omega⟩ : Fin 10000))).toNat, hpay _⟩ : Fin 10000) := by
    refine Fin.ext ?_
    simp only [SparseCore.rows]
    rw [lst_read d L pay n h]
    refine congrArg (fun k : Fin 10000 => (pay (ix1 k)).toNat) (Fin.ext ?_)
    show n + ((S80.rowMajor.symm (r.cast rfl)) 0).val = n + r.val
    rw [rowMajor_symm_one]
    rfl
  unfold GPv SparseCore.gatherPayload
  rw [ySl_read]
  exact congrArg yv ((gidx_apply _ r c).trans (congrArg (fun k : Fin 10000 => (ix2 k c : S10000x128.Idx)) hRr))

/-- the fetched words of a tile: entry j is entry 20000·s + 10000·c + j of the flat edge row -/
theorem idxPay_apply (d : Dev nD) (L : grid1.Coords) (iv : Buf (Elt F) (iLoc d)) (j : Fin 10000) :
    ReadAs.same.apply (View.read (Elt F) (iTileK L).view iv) (ix1 j)
      = iv (ix1 (⟨20000 * (L 1).val + 10000 * (L 0).val + j.val, by
          have h0 : (L 0).val < 2 := (L 0).isLt
          have h1 : (L 1).val < 16 := (L 1).isLt
          omega⟩ : Fin 320000)) := by
  rw [ReadAs.apply_same, View.read_apply]
  show iv _ = iv _
  refine congrArg iv (funext fun a => Fin.ext ?_)
  simp only [Memref.view_slice, Memref.view_whole, View.emb_slice, View.emb_whole, Function.Embedding.trans_apply,
    Function.Embedding.refl_apply, Rect.emb_apply, Rect.off_unit, Rect.stride_unit, k1_off1_eq]
  match a with
  | ⟨0, _⟩ =>
    show ((Rect.unit (s := S320000) (k1_off1 L) S10000.size (k1_off1_inb L)).emb (ix1 j) 0 : ℕ) = 20000 * (L 1).val + 10000 * (L 0).val + j.val
    rw [Rect.emb_apply, Rect.off_unit, Rect.stride_unit]
    have e0 : k1_off1 L 0 = 20000 * (L 1).val + 10000 * (L 0).val := congrFun (k1_off1_eq L) 0
    show k1_off1 L 0 + 1 * j.val = 20000 * (L 1).val + 10000 * (L 0).val + j.val
    omega

end Cert.KernelIdeal.Hand

end
-- ==== Proof.TileJoinI.lean ====
/-
  A tile's result rows: not yet written they are its five slots' runs of chunks; all written and landed they hold
  the rows of y the tile's entries name, which is the result's value on the tile.
-/
import proofs.«207968_g22119081574525_cont_sun_m_427_17_alg».proof.Proof.TileDefsI
import proofs.«207968_g22119081574525_cont_sun_m_427_17_alg».proof.Proof.TileIdxI
import proofs.«207968_g22119081574525_cont_sun_m_427_17_alg».proof.Proof.TileValueI
import proofs.«207968_g22119081574525_cont_sun_m_427_17_alg».proof.Proof.PartsI
import proofs.«207968_g22119081574525_cont_sun_m_427_17_alg».proof.Proof.PayI
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- a conjunction over five slots, spelt out -/
theorem bigSep_fin5 (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide),
    SparseCore.bigSep_insert' (by decide), SparseCore.bigSep_insert' (by decide), SparseCore.bigSep_insert' (by decide), bigSep_singleton]

/-- trips of slots regrouped slot by slot -/
theorem chunks_regroup (Φ : Fin k1_t1_loop.trips → Fin 5 → sProp 𝕄) :
    (bigSep Finset.univ fun t => bigSep Finset.univ fun j => Φ t j)
      = iprop((bigSep Finset.univ fun t => Φ t 0) ∗ (bigSep Finset.univ fun t => Φ t 1) ∗ (bigSep Finset.univ fun t => Φ t 2)
        ∗ (bigSep Finset.univ fun t => Φ t 3) ∗ (bigSep Finset.univ fun t => Φ t 4)) := by
  simp only [bigSep_fin5, bigSep_sep']

/-- every trip: the run from 0 to 25 -/
theorem range_all : Ring.rangeSet k1_t1_loop.trips 0 25 = Finset.univ := Ring.rangeSet_univ (NB := k1_t1_loop.trips)

variable [FloatOps F]

/-- (1) a tile's result rows, none written yet, are its five slots' runs -/
theorem todo_eq (d : Dev nD) (L : grid1.Coords) (f : Buf (Elt F) (oLoc d)) :
    (bigSep Finset.univ fun t : Fin k1_t1_loop.trips => bigSep Finset.univ fun j : Fin 5 => oLoc d ↦[oChunkSet L t j]{fullShare} f : sProp 𝕄)
      = iprop(Todo0 d L f 0 ∗ Todo1 d L f 0 ∗ Todo2 d L f 0 ∗ Todo3 d L f 0 ∗ Todo4 d L f 0) := by
  have e0 : (Todo0 d L f 0 : sProp 𝕄) = bigSep Finset.univ fun t => oLoc d ↦[oChunkSet L t 0]{fullShare} f := by
    unfold Todo0; rw [range_all]; exact bigSep_congr fun t _ => pts_oC0 d L t f
  have e1 : (Todo1 d L f 0 : sProp 𝕄) = bigSep Finset.univ fun t => oLoc d ↦[oChunkSet L t 1]{fullShare} f := by
    unfold Todo1; rw [range_all]; exact bigSep_congr fun t _ => pts_oC1 d L t f
  have e2 : (Todo2 d L f 0 : sProp 𝕄) = bigSep Finset.univ fun t => oLoc d ↦[oChunkSet L t 2]{fullShare} f := by
    unfold Todo2; rw [range_all]; exact bigSep_congr fun t _ => pts_oC2 d L t f
  have e3 : (Todo3 d L f 0 : sProp 𝕄) = bigSep Finset.univ fun t => oLoc d ↦[oChunkSet L t 3]{fullShare} f := by
    unfold Todo3; rw [range_all]; exact bigSep_congr fun t _ => pts_oC3 d L t f
  have e4 : (Todo4 d L f 0 : sProp 𝕄) = bigSep Finset.univ fun t => oLoc d ↦[oChunkSet L t 4]{fullShare} f := by
    unfold Todo4; rw [range_all]; exact bigSep_congr fun t _ => pts_oC4 d L t f
  rw [e0, e1, e2, e3, e4]
  exact chunks_regroup (fun t j => oLoc d ↦[oChunkSet L t j]{fullShare} f)

/-! ## A landed chunk holds the result's value -/

/-- contents that read, through chunk 5t + r of tile L, as the rows of y its eighty entries name, are the result's
    value on that chunk -/
theorem chunk_agree (d : Dev nD) (L : grid1.Coords) (yv : Buf (Elt F) (yLoc d)) (iv : Buf (Elt F) (iLoc d))
    (hin : ∀ j, (iv j).toNat < 10000) (t : Fin k1_t1_loop.trips) (r : Fin 5) (n : ℕ) (hn : n = 400 * t.val + 80 * r.val)
    (h : n + 80 ≤ 10000) (f : Buf (Elt F) (oLoc d))
    (hf : ∀ x : S80x128.Idx, f ((Rect.unit (s := S320000x128) (k1_off3 L t (BitVec.ofNat 32 r.val)) S80x128.size (k1_off3_inb L t r)).emb x)
      = GPv d L yv (idxPay d L iv) (idxPay_lt d L iv hin) n h x) :
    ∀ i ∈ oChunkSet L t r, f i = outBuf d yv iv i := by
  intro i hi
  unfold oChunkSet at hi
  rw [← Rect.map_emb_univ] at hi
  obtain ⟨x, -, rfl⟩ := Finset.mem_map.mp hi
  obtain ⟨a, c, rfl⟩ : ∃ (a : Fin 80) (c : Fin 128), x = ix2 a c := ⟨x 0, x 1, eq_ix2 x⟩
  rw [hf, GPv_apply, outBuf_eq]
  unfold outVal
  have h0 : (L 0).val < 2 := (L 0).isLt
  have h1 : (L 1).val < 16 := (L 1).isLt
  have ht : t.val < 25 := t.isLt
  have hr : r.val < 5 := r.isLt
  have ha : a.val < 80 := a.isLt
  have k0 : k1_off3 L t (BitVec.ofNat 32 r.val) 0 = 20000 * (L 1).val + 10000 * (L 0).val + 400 * t.val + 80 * r.val :=
    congrFun (k1_off3_eq L t r) 0
  have k1 : k1_off3 L t (BitVec.ofNat 32 r.val) 1 = 0 := congrFun (k1_off3_eq L t r) 1
  have e0 : (((Rect.unit (s := S320000x128) (k1_off3 L t (BitVec.ofNat 32 r.val)) S80x128.size (k1_off3_inb L t r)).emb (ix2 a c)) 0 : ℕ)
      = 20000 * (L 1).val + 10000 * (L 0).val + n + a.val := by
    rw [Rect.emb_apply, Rect.off_unit, Rect.stride_unit]
    show k1_off3 L t (BitVec.ofNat 32 r.val) 0 + 1 * a.val = _
    omega
  have e1 : (((Rect.unit (s := S320000x128) (k1_off3 L t (BitVec.ofNat 32 r.val)) S80x128.size (k1_off3_inb L t r)).emb (ix2 a c)) 1 : ℕ) = c.val := by
    rw [Rect.emb_apply, Rect.off_unit, Rect.stride_unit]
    show k1_off3 L t (BitVec.ofNat 32 r.val) 1 + 1 * c.val = _
    omega
  have hw : idxPay d L iv (ix1 (⟨n + a.val, by omega⟩ : Fin 10000))
      = iv (ix1 (⟨20000 * (L 1).val + 10000 * (L 0).val + (n + a.val), by omega⟩ : Fin 320000)) :=
    idxPay_apply d L iv ⟨n + a.val, by omega⟩
  refine congrArg yv ?_
  funext k
  refine Fin.ext ?_
  match k with
  | ⟨0, _⟩ =>
    show (idxPay d L iv (ix1 (⟨n + a.val, by omega⟩ : Fin 10000))).toNat
      = (iv (ix1 (⟨(((Rect.unit (s := S320000x128) (k1_off3 L t (BitVec.ofNat 32 r.val)) S80x128.size (k1_off3_inb L t r)).emb (ix2 a c)) 0 : ℕ), _⟩ : Fin 320000))).toNat % 10000
    rw [hw, Nat.mod_eq_of_lt (hin _)]
    refine congrArg (fun q : Fin 320000 => (iv (ix1 q)).toNat) (Fin.ext ?_)
    show 20000 * (L 1).val + 10000 * (L 0).val + (n + a.val) = _
    rw [e0]; omega
  | ⟨1, _⟩ =>
    show c.val = (((Rect.unit (s := S320000x128) (k1_off3 L t (BitVec.ofNat 32 r.val)) S80x128.size (k1_off3_inb L t r)).emb (ix2 a c)) 1 : ℕ)
    rw [e1]

/-- a landed chunk, whatever it holds beyond what it reads as, is the result's value there -/
theorem chunk_done0 (d : Dev nD) (L : grid1.Coords) (yv : Buf (Elt F) (yLoc d)) (iv : Buf (Elt F) (iLoc d))
    (hin : ∀ j, (iv j).toNat < 10000) (t : Fin k1_t1_loop.trips) (h : 400 * t.val + 0 + 80 ≤ 10000) :
    (iprop(∃ f, ((oC0 L t).view.loc (VT d L) ↦[(oC0 L t).view.set]{fullShare} f)
      ∗ ⌜∀ x, View.read (Elt F) (oC0 L t).view f x = GPv d L yv (idxPay d L iv) (idxPay_lt d L iv hin) (400 * t.val + 0) h x⌝) : sProp 𝕄)
      ⊢ oLoc d ↦[oChunkSet L t 0]{fullShare} outBuf d yv iv := by
  iintro ⟨%f, H, %hf⟩
  have hag := chunk_agree d L yv iv hin t 0 (400 * t.val + 0) (by simp) h f (fun x => by
    have e := hf x
    rw [show View.read (Elt F) (oC0 L t).view f x = f ((oC0 L t).view.emb x) from (View.read_apply _ _).trans (cast_eq _ _)] at e
    exact e)
  have e : ((oC0 L t).view.loc (VT d L) ↦[(oC0 L t).view.set]{fullShare} f : sProp 𝕄) = oLoc d ↦[oChunkSet L t 0]{fullShare} outBuf d yv iv :=
    (pts_oC0 d L t f).trans (pointsTo_congr hag)
  iapply (Entails.of_eq e)
  iexact H

theorem chunk_done1 (d : Dev nD) (L : grid1.Coords) (yv : Buf (Elt F) (yLoc d)) (iv : Buf (Elt F) (iLoc d))
    (hin : ∀ j, (iv j).toNat < 10000) (t : Fin k1_t1_loop.trips) (h : 400 * t.val + 80 + 80 ≤ 10000) :
    (iprop(∃ f, ((oC1 L t).view.loc (VT d L) ↦[(oC1 L t).view.set]{fullShare} f)
      ∗ ⌜∀ x, View.read (Elt F) (oC1 L t).view f x = GPv d L yv (idxPay d L iv) (idxPay_lt d L iv hin) (400 * t.val + 80) h x⌝) : sProp 𝕄)
      ⊢ oLoc d ↦[oChunkSet L t 1]{fullShare} outBuf d yv iv := by
  iintro ⟨%f, H, %hf⟩
  have hag := chunk_agree d L yv iv hin t 1 (400 * t.val + 80) (by simp) h f (fun x => by
    have e := hf x
    rw [show View.read (Elt F) (oC1 L t).view f x = f ((oC1 L t).view.emb x) from (View.read_apply _ _).trans (cast_eq _ _)] at e
    exact e)
  have e : ((oC1 L t).view.loc (VT d L) ↦[(oC1 L t).view.set]{fullShare} f : sProp 𝕄) = oLoc d ↦[oChunkSet L t 1]{fullShare} outBuf d yv iv :=
    (pts_oC1 d L t f).trans (pointsTo_congr hag)
  iapply (Entails.of_eq e)
  iexact H

theorem chunk_done2 (d : Dev nD) (L : grid1.Coords) (yv : Buf (Elt F) (yLoc d)) (iv : Buf (Elt F) (iLoc d))
    (hin : ∀ j, (iv j).toNat < 10000) (t : Fin k1_t1_loop.trips) (h : 400 * t.val + 160 + 80 ≤ 10000) :
    (iprop(∃ f, ((oC2 L t).view.loc (VT d L) ↦[(oC2 L t).view.set]{fullShare} f)
      ∗ ⌜∀ x, View.read (Elt F) (oC2 L t).view f x = GPv d L yv (idxPay d L iv) (idxPay_lt d L iv hin) (400 * t.val + 160) h x⌝) : sProp 𝕄)
      ⊢ oLoc d ↦[oChunkSet L t 2]{fullShare} outBuf d yv iv := by
  iintro ⟨%f, H, %hf⟩
  have hag := chunk_agree d L yv iv hin t 2 (400 * t.val + 160) (by simp) h f (fun x => by
    have e := hf x
    rw [show View.read (Elt F) (oC2 L t).view f x = f ((oC2 L t).view.emb x) from (View.read_apply _ _).trans (cast_eq _ _)] at e
    exact e)
  have e : ((oC2 L t).view.loc (VT d L) ↦[(oC2 L t).view.set]{fullShare} f : sProp 𝕄) = oLoc d ↦[oChunkSet L t 2]{fullShare} outBuf d yv iv :=
    (pts_oC2 d L t f).trans (pointsTo_congr hag)
  iapply (Entails.of_eq e)
  iexact H

theorem chunk_done3 (d : Dev nD) (L : grid1.Coords) (yv : Buf (Elt F) (yLoc d)) (iv : Buf (Elt F) (iLoc d))
    (hin : ∀ j, (iv j).toNat < 10000) (t : Fin k1_t1_loop.trips) (h : 400 * t.val + 240 + 80 ≤ 10000) :
    (iprop(∃ f, ((oC3 L t).view.loc (VT d L) ↦[(oC3 L t).view.set]{fullShare} f)
      ∗ ⌜∀ x, View.read (Elt F) (oC3 L t).view f x = GPv d L yv (idxPay d L iv) (idxPay_lt d L iv hin) (400 * t.val + 240) h x⌝) : sProp 𝕄)
      ⊢ oLoc d ↦[oChunkSet L t 3]{fullShare} outBuf d yv iv := by
  iintro ⟨%f, H, %hf⟩
  have hag := chunk_agree d L yv iv hin t 3 (400 * t.val + 240) (by simp) h f (fun x => by
    have e := hf x
    rw [show View.read (Elt F) (oC3 L t).view f x = f ((oC3 L t).view.emb x) from (View.read_apply _ _).trans (cast_eq _ _)] at e
    exact e)
  have e : ((oC3 L t).view.loc (VT d L) ↦[(oC3 L t).view.set]{fullShare} f : sProp 𝕄) = oLoc d ↦[oChunkSet L t 3]{fullShare} outBuf d yv iv :=
    (pts_oC3 d L t f).trans (pointsTo_congr hag)
  iapply (Entails.of_eq e)
  iexact H

theorem chunk_done4 (d : Dev nD) (L : grid1.Coords) (yv : Buf (Elt F) (yLoc d)) (iv : Buf (Elt F) (iLoc d))
    (hin : ∀ j, (iv j).toNat < 10000) (t : Fin k1_t1_loop.trips) (h : 400 * t.val + 320 + 80 ≤ 10000) :
    (iprop(∃ f, ((oC4 L t).view.loc (VT d L) ↦[(oC4 L t).view.set]{fullShare} f)
      ∗ ⌜∀ x, View.read (Elt F) (oC4 L t).view f x = GPv d L yv (idxPay d L iv) (idxPay_lt d L iv hin) (400 * t.val + 320) h x⌝) : sProp 𝕄)
      ⊢ oLoc d ↦[oChunkSet L t 4]{fullShare} outBuf d yv iv := by
  iintro ⟨%f, H, %hf⟩
  have hag := chunk_agree d L yv iv hin t 4 (400 * t.val + 320) (by simp) h f (fun x => by
    have e := hf x
    rw [show View.read (Elt F) (oC4 L t).view f x = f ((oC4 L t).view.emb x) from (View.read_apply _ _).trans (cast_eq _ _)] at e
    exact e)
  have e : ((oC4 L t).view.loc (VT d L) ↦[(oC4 L t).view.set]{fullShare} f : sProp 𝕄) = oLoc d ↦[oChunkSet L t 4]{fullShare} outBuf d yv iv :=
    (pts_oC4 d L t f).trans (pointsTo_congr hag)
  iapply (Entails.of_eq e)
  iexact H

/-- (2) all of a tile's chunks written and landed: its result rows hold the result's value -/
theorem done_join (d : Dev nD) (L : grid1.Coords) (yv : Buf (Elt F) (yLoc d)) (iv : Buf (Elt F) (iLoc d)) (hin : ∀ j, (iv j).toNat < 10000) :
    (iprop(Done0 d L yv (idxPay d L iv) (idxPay_lt d L iv hin) 25 ∗ Done1 d L yv (idxPay d L iv) (idxPay_lt d L iv hin) 25
      ∗ Done2 d L yv (idxPay d L iv) (idxPay_lt d L iv hin) 25 ∗ Done3 d L yv (idxPay d L iv) (idxPay_lt d L iv hin) 25
      ∗ Done4 d L yv (idxPay d L iv) (idxPay_lt d L iv hin) 25) : sProp 𝕄)
      ⊢ bigSep Finset.univ fun t : Fin k1_t1_loop.trips => bigSep Finset.univ fun j : Fin 5 => oLoc d ↦[oChunkSet L t j]{fullShare} outBuf d yv iv := by
  rw [chunks_regroup (fun t j => oLoc d ↦[oChunkSet L t j]{fullShare} outBuf d yv iv)]
  unfold Done0 Done1 Done2 Done3 Done4
  rw [range_all]
  exact sep_mono (bigSep_mono fun t _ => chunk_done0 d L yv iv hin t _)
    (sep_mono (bigSep_mono fun t _ => chunk_done1 d L yv iv hin t _)
      (sep_mono (bigSep_mono fun t _ => chunk_done2 d L yv iv hin t _)
        (sep_mono (bigSep_mono fun t _ => chunk_done3 d L yv iv hin t _)
          (bigSep_mono fun t _ => chunk_done4 d L yv iv hin t _))))

end Cert.KernelIdeal.Hand

end
-- ==== Proof.TileRunI.lean ====
/-
  One vector subcore's task, run: the tile fetches its 10000 entries of the edge list's second row, keeps four gathers
  of eighty rows of y ahead in five row buffers, and copies each filled buffer out to its eighty result rows.  The
  loop's invariant names, before trip n, which chunks have landed, which gathers and which copy-out are under way, and
  what each row buffer and each result chunk holds: chunk 5t + j of the tile ends holding the rows of y that the index
  words 400 t + 80 j … 400 t + 80 j + 79 name.
-/
import proofs.«207968_g22119081574525_cont_sun_m_427_17_alg».proof.Proof.TileIdxI
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "yV" => (Memref.whole Cert.KernelIdeal.main_v2_scv : Memref Cert.KernelIdeal.sig Kind.scVector Space.hbm Cert.KernelIdeal.S10000x128 EltTy.f32)
local notation "iV" => (Memref.whole Cert.KernelIdeal.main_v4_scv : Memref Cert.KernelIdeal.sig Kind.scVector Space.hbm Cert.KernelIdeal.S320000 EltTy.i32)
local notation "oV" => (Memref.whole Cert.KernelIdeal.main_v5_scv : Memref Cert.KernelIdeal.sig Kind.scVector Space.hbm Cert.KernelIdeal.S320000x128 EltTy.f32)
local notation "sV" => (Memref.whole Cert.KernelIdeal.cc1_scratch0 : Memref Cert.KernelIdeal.sig Kind.scVector Space.vmem Cert.KernelIdeal.S10000 EltTy.i32)
local notation "r0V" => (Memref.whole Cert.KernelIdeal.cc1_scratch1 : Memref Cert.KernelIdeal.sig Kind.scVector Space.vmem Cert.KernelIdeal.S80x128 EltTy.f32)
local notation "r1V" => (Memref.whole Cert.KernelIdeal.cc1_scratch2 : Memref Cert.KernelIdeal.sig Kind.scVector Space.vmem Cert.KernelIdeal.S80x128 EltTy.f32)
local notation "r2V" => (Memref.whole Cert.KernelIdeal.cc1_scratch3 : Memref Cert.KernelIdeal.sig Kind.scVector Space.vmem Cert.KernelIdeal.S80x128 EltTy.f32)
local notation "r3V" => (Memref.whole Cert.KernelIdeal.cc1_scratch4 : Memref Cert.KernelIdeal.sig Kind.scVector Space.vmem Cert.KernelIdeal.S80x128 EltTy.f32)
local notation "r4V" => (Memref.whole Cert.KernelIdeal.cc1_scratch5 : Memref Cert.KernelIdeal.sig Kind.scVector Space.vmem Cert.KernelIdeal.S80x128 EltTy.f32)

variable [FloatOps F]
variable (d : Dev nD) (L : grid1.Coords)

/-- the rows of y the eighty index words at offset off name -/
def GPvO (yv : Buf (Elt F) (yLoc d)) (pay : S10000.Idx → Elt F .i32) (hpay : ∀ j, (pay j).toNat < 10000)
    (off : Fin 1 → ℕ) (h : ∀ a, off a + S80.size a ≤ S10000.size a) : S80x128.Idx → Elt F .f32 :=
  SparseCore.gatherPayload gathers_S10000x128_S80x128 (View.read (Elt F) (ySl).view yv)
    (SparseCore.rows (View.read (Elt F) ((sV).slice (Rect.unit (s := S10000) off S80.size h) (fun _ => rfl)).view (svalOf d L pay)) rfl (idx_inb d L _ pay hpay off h (fun _ => rfl)))

theorem GPvO_eq (yv : Buf (Elt F) (yLoc d)) (pay : S10000.Idx → Elt F .i32) (hpay : ∀ j, (pay j).toNat < 10000) (n : ℕ) (hn : n + 80 ≤ 10000)
    (off : Fin 1 → ℕ) (h : ∀ a, off a + S80.size a ≤ S10000.size a) (e : off = ![n]) : GPvO d L yv pay hpay off h = GPv d L yv pay hpay n hn := by
  subst e; rfl

/-- slot 0: a gather in flight into row buffer 0 from the eighty index words at off, with what stays outside it meanwhile -/
def GBO0 (q : PosShare TreeShare) (yv : Buf (Elt F) (yLoc d)) (pay : S10000.Idx → Elt F .i32) (hpay : ∀ j, (pay j).toNat < 10000)
    (off : Fin 1 → ℕ) (h : ∀ a, off a + S80.size a ≤ S10000.size a) (a : Buf (Elt F) ((r0V).view.loc (VT d L))) : sProp 𝕄 :=
  iprop(Transfers.Flight countersEmb (VT d L) (SemLoc.dma cc1_scratch6.sem) (default : HIx 1) 327680
      iprop((((r0V).view.loc (VT d L) ↦[(r0V).view.set]{fullShare}
                (r0V).view.writes (Elt F) a [⟨Rect.whole cc1_scratch1.ty.shape, GPvO d L yv pay hpay off h⟩])
            ∗ ((sV).view.loc (VT d L) ↦[((sV).slice (Rect.unit (s := S10000) off S80.size h) (fun _ => rfl)).view.set]{Transfers.shareTokN fullShare 6} svalOf d L pay))
          ∗ ((yV).view.loc (VT d L) ↦[(ySl).view.set]{Transfers.shareTokN q 6} yv))
    ∗ ((yV).view.loc (VT d L) ↦[Finset.univ \ (ySl).view.set]{Transfers.shareTokN q 6} yv)
    ∗ ((sV).view.loc (VT d L) ↦[(sV).view.set \ ((sV).slice (Rect.unit (s := S10000) off S80.size h) (fun _ => rfl)).view.set]{Transfers.shareTokN fullShare 6} svalOf d L pay)
    ∗ ((r0V).view.loc (VT d L) ↦[(r0V).view.set \ (r0V).view.set]{fullShare}
        (r0V).view.writes (Elt F) a [⟨Rect.whole cc1_scratch1.ty.shape, GPvO d L yv pay hpay off h⟩]))
/-- slot 0's gather resources at rest: its two read tokens and its gather semaphore at zero -/
def IBO0 (q : PosShare TreeShare) (yv : Buf (Elt F) (yLoc d)) (pay : S10000.Idx → Elt F .i32) : sProp 𝕄 :=
  iprop(((yV).view.loc (VT d L) ↦{Transfers.shareTokN q 6} yv)
    ∗ ((sV).view.loc (VT d L) ↦[(sV).view.set]{Transfers.shareTokN fullShare 6} svalOf d L pay)
    ∗ semVal (VT d L, SemLoc.dma cc1_scratch6.sem) 0)
/-- slot 0: row buffer 0, holding the rows gathered for chunk (t, 0), on its way out to the chunk's result rows -/
def OFO0 (ov : Buf (Elt F) (oLoc d)) (yv : Buf (Elt F) (yLoc d)) (pay : S10000.Idx → Elt F .i32) (hpay : ∀ j, (pay j).toNat < 10000)
    (t : Fin k1_t1_loop.trips) (off : Fin 1 → ℕ) (h : ∀ a, off a + S80.size a ≤ S10000.size a) (a : Buf (Elt F) ((r0V).view.loc (VT d L))) : sProp 𝕄 :=
  Transfers.Flight countersEmb (VT d L) (SemLoc.dma cc1_scratch11.sem) (default : HIx 1) 327680
    iprop(((oC0 L t).view.loc (VT d L) ↦[(oC0 L t).view.set]{fullShare}
          (oC0 L t).view.writes (Elt F) ov [⟨Rect.whole S80x128, ReadAs.same.apply (View.read (Elt F) (r0V).view
            ((r0V).view.writes (Elt F) a [⟨Rect.whole cc1_scratch1.ty.shape, GPvO d L yv pay hpay off h⟩]))⟩])
      ∗ ((r0V).view.loc (VT d L) ↦[(r0V).view.set]{fullShare}
          (r0V).view.writes (Elt F) a [⟨Rect.whole cc1_scratch1.ty.shape, GPvO d L yv pay hpay off h⟩]))

/-- slot 1: a gather in flight into row buffer 1 from the eighty index words at off, with what stays outside it meanwhile -/
def GBO1 (q : PosShare TreeShare) (yv : Buf (Elt F) (yLoc d)) (pay : S10000.Idx → Elt F .i32) (hpay : ∀ j, (pay j).toNat < 10000)
    (off : Fin 1 → ℕ) (h : ∀ a, off a + S80.size a ≤ S10000.size a) (a : Buf (Elt F) ((r1V).view.loc (VT d L))) : sProp 𝕄 :=
  iprop(Transfers.Flight countersEmb (VT d L) (SemLoc.dma cc1_scratch7.sem) (default : HIx 1) 327680
      iprop((((r1V).view.loc (VT d L) ↦[(r1V).view.set]{fullShare}
                (r1V).view.writes (Elt F) a [⟨Rect.whole cc1_scratch2.ty.shape, GPvO d L yv pay hpay off h⟩])
            ∗ ((sV).view.loc (VT d L) ↦[((sV).slice (Rect.unit (s := S10000) off S80.size h) (fun _ => rfl)).view.set]{Transfers.shareTokN fullShare 7} svalOf d L pay))
          ∗ ((yV).view.loc (VT d L) ↦[(ySl).view.set]{Transfers.shareTokN q 7} yv))
    ∗ ((yV).view.loc (VT d L) ↦[Finset.univ \ (ySl).view.set]{Transfers.shareTokN q 7} yv)
    ∗ ((sV).view.loc (VT d L) ↦[(sV).view.set \ ((sV).slice (Rect.unit (s := S10000) off S80.size h) (fun _ => rfl)).view.set]{Transfers.shareTokN fullShare 7} svalOf d L pay)
    ∗ ((r1V).view.loc (VT d L) ↦[(r1V).view.set \ (r1V).view.set]{fullShare}
        (r1V).view.writes (Elt F) a [⟨Rect.whole cc1_scratch2.ty.shape, GPvO d L yv pay hpay off h⟩]))
/-- slot 1's gather resources at rest: its two read tokens and its gather semaphore at zero -/
def IBO1 (q : PosShare TreeShare) (yv : Buf (Elt F) (yLoc d)) (pay : S10000.Idx → Elt F .i32) : sProp 𝕄 :=
  iprop(((yV).view.loc (VT d L) ↦{Transfers.shareTokN q 7} yv)
    ∗ ((sV).view.loc (VT d L) ↦[(sV).view.set]{Transfers.shareTokN fullShare 7} svalOf d L pay)
    ∗ semVal (VT d L, SemLoc.dma cc1_scratch7.sem) 0)
/-- slot 1: row buffer 1, holding the rows gathered for chunk (t, 1), on its way out to the chunk's result rows -/
def OFO1 (ov : Buf (Elt F) (oLoc d)) (yv : Buf (Elt F) (yLoc d)) (pay : S10000.Idx → Elt F .i32) (hpay : ∀ j, (pay j).toNat < 10000)
    (t : Fin k1_t1_loop.trips) (off : Fin 1 → ℕ) (h : ∀ a, off a + S80.size a ≤ S10000.size a) (a : Buf (Elt F) ((r1V).view.loc (VT d L))) : sProp 𝕄 :=
  Transfers.Flight countersEmb (VT d L) (SemLoc.dma cc1_scratch12.sem) (default : HIx 1) 327680
    iprop(((oC1 L t).view.loc (VT d L) ↦[(oC1 L t).view.set]{fullShare}
          (oC1 L t).view.writes (Elt F) ov [⟨Rect.whole S80x128, ReadAs.same.apply (View.read (Elt F) (r1V).view
            ((r1V).view.writes (Elt F) a [⟨Rect.whole cc1_scratch2.ty.shape, GPvO d L yv pay hpay off h⟩]))⟩])
      ∗ ((r1V).view.loc (VT d L) ↦[(r1V).view.set]{fullShare}
          (r1V).view.writes (Elt F) a [⟨Rect.whole cc1_scratch2.ty.shape, GPvO d L yv pay hpay off h⟩]))

/-- slot 2: a gather in flight into row buffer 2 from the eighty index words at off, with what stays outside it meanwhile -/
def GBO2 (q : PosShare TreeShare) (yv : Buf (Elt F) (yLoc d)) (pay : S10000.Idx → Elt F .i32) (hpay : ∀ j, (pay j).toNat < 10000)
    (off : Fin 1 → ℕ) (h : ∀ a, off a + S80.size a ≤ S10000.size a) (a : Buf (Elt F) ((r2V).view.loc (VT d L))) : sProp 𝕄 :=
  iprop(Transfers.Flight countersEmb (VT d L) (SemLoc.dma cc1_scratch8.sem) (default : HIx 1) 327680
      iprop((((r2V).view.loc (VT d L) ↦[(r2V).view.set]{fullShare}
                (r2V).view.writes (Elt F) a [⟨Rect.whole cc1_scratch3.ty.shape, GPvO d L yv pay hpay off h⟩])
            ∗ ((sV).view.loc (VT d L) ↦[((sV).slice (Rect.unit (s := S10000) off S80.size h) (fun _ => rfl)).view.set]{Transfers.shareTokN fullShare 8} svalOf d L pay))
          ∗ ((yV).view.loc (VT d L) ↦[(ySl).view.set]{Transfers.shareTokN q 8} yv))
    ∗ ((yV).view.loc (VT d L) ↦[Finset.univ \ (ySl).view.set]{Transfers.shareTokN q 8} yv)
    ∗ ((sV).view.loc (VT d L) ↦[(sV).view.set \ ((sV).slice (Rect.unit (s := S10000) off S80.size h) (fun _ => rfl)).view.set]{Transfers.shareTokN fullShare 8} svalOf d L pay)
    ∗ ((r2V).view.loc (VT d L) ↦[(r2V).view.set \ (r2V).view.set]{fullShare}
        (r2V).view.writes (Elt F) a [⟨Rect.whole cc1_scratch3.ty.shape, GPvO d L yv pay hpay off h⟩]))
/-- slot 2's gather resources at rest: its two read tokens and its gather semaphore at zero -/
def IBO2 (q : PosShare TreeShare) (yv : Buf (Elt F) (yLoc d)) (pay : S10000.Idx → Elt F .i32) : sProp 𝕄 :=
  iprop(((yV).view.loc (VT d L) ↦{Transfers.shareTokN q 8} yv)
    ∗ ((sV).view.loc (VT d L) ↦[(sV).view.set]{Transfers.shareTokN fullShare 8} svalOf d L pay)
    ∗ semVal (VT d L, SemLoc.dma cc1_scratch8.sem) 0)
/-- slot 2: row buffer 2, holding the rows gathered for chunk (t, 2), on its way out to the chunk's result rows -/
def OFO2 (ov : Buf (Elt F) (oLoc d)) (yv : Buf (Elt F) (yLoc d)) (pay : S10000.Idx → Elt F .i32) (hpay : ∀ j, (pay j).toNat < 10000)
    (t : Fin k1_t1_loop.trips) (off : Fin 1 → ℕ) (h : ∀ a, off a + S80.size a ≤ S10000.size a) (a : Buf (Elt F) ((r2V).view.loc (VT d L))) : sProp 𝕄 :=
  Transfers.Flight countersEmb (VT d L) (SemLoc.dma cc1_scratch13.sem) (default : HIx 1) 327680
    iprop(((oC2 L t).view.loc (VT d L) ↦[(oC2 L t).view.set]{fullShare}
          (oC2 L t).view.writes (Elt F) ov [⟨Rect.whole S80x128, ReadAs.same.apply (View.read (Elt F) (r2V).view
            ((r2V).view.writes (Elt F) a [⟨Rect.whole cc1_scratch3.ty.shape, GPvO d L yv pay hpay off h⟩]))⟩])
      ∗ ((r2V).view.loc (VT d L) ↦[(r2V).view.set]{fullShare}
          (r2V).view.writes (Elt F) a [⟨Rect.whole cc1_scratch3.ty.shape, GPvO d L yv pay hpay off h⟩]))

/-- slot 3: a gather in flight into row buffer 3 from the eighty index words at off, with what stays outside it meanwhile -/
def GBO3 (q : PosShare TreeShare) (yv : Buf (Elt F) (yLoc d)) (pay : S10000.Idx → Elt F .i32) (hpay : ∀ j, (pay j).toNat < 10000)
    (off : Fin 1 → ℕ) (h : ∀ a, off a + S80.size a ≤ S10000.size a) (a : Buf (Elt F) ((r3V).view.loc (VT d L))) : sProp 𝕄 :=
  iprop(Transfers.Flight countersEmb (VT d L) (SemLoc.dma cc1_scratch9.sem) (default : HIx 1) 327680
      iprop((((r3V).view.loc (VT d L) ↦[(r3V).view.set]{fullShare}
                (r3V).view.writes (Elt F) a [⟨Rect.whole cc1_scratch4.ty.shape, GPvO d L yv pay hpay off h⟩])
            ∗ ((sV).view.loc (VT d L) ↦[((sV).slice (Rect.unit (s := S10000) off S80.size h) (fun _ => rfl)).view.set]{Transfers.shareTokN fullShare 9} svalOf d L pay))
          ∗ ((yV).view.loc (VT d L) ↦[(ySl).view.set]{Transfers.shareTokN q 9} yv))
    ∗ ((yV).view.loc (VT d L) ↦[Finset.univ \ (ySl).view.set]{Transfers.shareTokN q 9} yv)
    ∗ ((sV).view.loc (VT d L) ↦[(sV).view.set \ ((sV).slice (Rect.unit (s := S10000) off S80.size h) (fun _ => rfl)).view.set]{Transfers.shareTokN fullShare 9} svalOf d L pay)
    ∗ ((r3V).view.loc (VT d L) ↦[(r3V).view.set \ (r3V).view.set]{fullShare}
        (r3V).view.writes (Elt F) a [⟨Rect.whole cc1_scratch4.ty.shape, GPvO d L yv pay hpay off h⟩]))
/-- slot 3's gather resources at rest: its two read tokens and its gather semaphore at zero -/
def IBO3 (q : PosShare TreeShare) (yv : Buf (Elt F) (yLoc d)) (pay : S10000.Idx → Elt F .i32) : sProp 𝕄 :=
  iprop(((yV).view.loc (VT d L) ↦{Transfers.shareTokN q 9} yv)
    ∗ ((sV).view.loc (VT d L) ↦[(sV).view.set]{Transfers.shareTokN fullShare 9} svalOf d L pay)
    ∗ semVal (VT d L, SemLoc.dma cc1_scratch9.sem) 0)
/-- slot 3: row buffer 3, holding the rows gathered for chunk (t, 3), on its way out to the chunk's result rows -/
def OFO3 (ov : Buf (Elt F) (oLoc d)) (yv : Buf (Elt F) (yLoc d)) (pay : S10000.Idx → Elt F .i32) (hpay : ∀ j, (pay j).toNat < 10000)
    (t : Fin k1_t1_loop.trips) (off : Fin 1 → ℕ) (h : ∀ a, off a + S80.size a ≤ S10000.size a) (a : Buf (Elt F) ((r3V).view.loc (VT d L))) : sProp 𝕄 :=
  Transfers.Flight countersEmb (VT d L) (SemLoc.dma cc1_scratch14.sem) (default : HIx 1) 327680
    iprop(((oC3 L t).view.loc (VT d L) ↦[(oC3 L t).view.set]{fullShare}
          (oC3 L t).view.writes (Elt F) ov [⟨Rect.whole S80x128, ReadAs.same.apply (View.read (Elt F) (r3V).view
            ((r3V).view.writes (Elt F) a [⟨Rect.whole cc1_scratch4.ty.shape, GPvO d L yv pay hpay off h⟩]))⟩])
      ∗ ((r3V).view.loc (VT d L) ↦[(r3V).view.set]{fullShare}
          (r3V).view.writes (Elt F) a [⟨Rect.whole cc1_scratch4.ty.shape, GPvO d L yv pay hpay off h⟩]))

/-- slot 4: a gather in flight into row buffer 4 from the eighty index words at off, with what stays outside it meanwhile -/
def GBO4 (q : PosShare TreeShare) (yv : Buf (Elt F) (yLoc d)) (pay : S10000.Idx → Elt F .i32) (hpay : ∀ j, (pay j).toNat < 10000)
    (off : Fin 1 → ℕ) (h : ∀ a, off a + S80.size a ≤ S10000.size a) (a : Buf (Elt F) ((r4V).view.loc (VT d L))) : sProp 𝕄 :=
  iprop(Transfers.Flight countersEmb (VT d L) (SemLoc.dma cc1_scratch10.sem) (default : HIx 1) 327680
      iprop((((r4V).view.loc (VT d L) ↦[(r4V).view.set]{fullShare}
                (r4V).view.writes (Elt F) a [⟨Rect.whole cc1_scratch5.ty.shape, GPvO d L yv pay hpay off h⟩])
            ∗ ((sV).view.loc (VT d L) ↦[((sV).slice (Rect.unit (s := S10000) off S80.size h) (fun _ => rfl)).view.set]{Transfers.shareTokN fullShare 10} svalOf d L pay))
          ∗ ((yV).view.loc (VT d L) ↦[(ySl).view.set]{Transfers.shareTokN q 10} yv))
    ∗ ((yV).view.loc (VT d L) ↦[Finset.univ \ (ySl).view.set]{Transfers.shareTokN q 10} yv)
    ∗ ((sV).view.loc (VT d L) ↦[(sV).view.set \ ((sV).slice (Rect.unit (s := S10000) off S80.size h) (fun _ => rfl)).view.set]{Transfers.shareTokN fullShare 10} svalOf d L pay)
    ∗ ((r4V).view.loc (VT d L) ↦[(r4V).view.set \ (r4V).view.set]{fullShare}
        (r4V).view.writes (Elt F) a [⟨Rect.whole cc1_scratch5.ty.shape, GPvO d L yv pay hpay off h⟩]))
/-- slot 4's gather resources at rest: its two read tokens and its gather semaphore at zero -/
def IBO4 (q : PosShare TreeShare) (yv : Buf (Elt F) (yLoc d)) (pay : S10000.Idx → Elt F .i32) : sProp 𝕄 :=
  iprop(((yV).view.loc (VT d L) ↦{Transfers.shareTokN q 10} yv)
    ∗ ((sV).view.loc (VT d L) ↦[(sV).view.set]{Transfers.shareTokN fullShare 10} svalOf d L pay)
    ∗ semVal (VT d L, SemLoc.dma cc1_scratch10.sem) 0)
/-- slot 4: row buffer 4, holding the rows gathered for chunk (t, 4), on its way out to the chunk's result rows -/
def OFO4 (ov : Buf (Elt F) (oLoc d)) (yv : Buf (Elt F) (yLoc d)) (pay : S10000.Idx → Elt F .i32) (hpay : ∀ j, (pay j).toNat < 10000)
    (t : Fin k1_t1_loop.trips) (off : Fin 1 → ℕ) (h : ∀ a, off a + S80.size a ≤ S10000.size a) (a : Buf (Elt F) ((r4V).view.loc (VT d L))) : sProp 𝕄 :=
  Transfers.Flight countersEmb (VT d L) (SemLoc.dma cc1_scratch15.sem) (default : HIx 1) 327680
    iprop(((oC4 L t).view.loc (VT d L) ↦[(oC4 L t).view.set]{fullShare}
          (oC4 L t).view.writes (Elt F) ov [⟨Rect.whole S80x128, ReadAs.same.apply (View.read (Elt F) (r4V).view
            ((r4V).view.writes (Elt F) a [⟨Rect.whole cc1_scratch5.ty.shape, GPvO d L yv pay hpay off h⟩]))⟩])
      ∗ ((r4V).view.loc (VT d L) ↦[(r4V).view.set]{fullShare}
          (r4V).view.writes (Elt F) a [⟨Rect.whole cc1_scratch5.ty.shape, GPvO d L yv pay hpay off h⟩]))

omit [FloatOps F] in
theorem off_inb (n : ℕ) (h : n + 80 ≤ 10000) : ∀ a, (![n] : Fin 1 → ℕ) a + S80.size a ≤ S10000.size a := by
  intro a; match a with | 0 => exact h

theorem GBO0_congr (q : PosShare TreeShare) (yv : Buf (Elt F) (yLoc d)) (pay : S10000.Idx → Elt F .i32) (hpay : ∀ j, (pay j).toNat < 10000)
    (off off' : Fin 1 → ℕ) (h : ∀ a, off a + S80.size a ≤ S10000.size a) (h' : ∀ a, off' a + S80.size a ≤ S10000.size a) (e : off = off')
    (a : Buf (Elt F) ((r0V).view.loc (VT d L))) : GBO0 d L q yv pay hpay off h a = GBO0 d L q yv pay hpay off' h' a := by
  subst e; rfl
theorem OFO0_congr (ov : Buf (Elt F) (oLoc d)) (yv : Buf (Elt F) (yLoc d)) (pay : S10000.Idx → Elt F .i32) (hpay : ∀ j, (pay j).toNat < 10000)
    (t : Fin k1_t1_loop.trips) (off off' : Fin 1 → ℕ) (h : ∀ a, off a + S80.size a ≤ S10000.size a) (h' : ∀ a, off' a + S80.size a ≤ S10000.size a) (e : off = off')
    (a : Buf (Elt F) ((r0V).view.loc (VT d L))) : OFO0 d L ov yv pay hpay t off h a = OFO0 d L ov yv pay hpay t off' h' a := by
  subst e; rfl

theorem GBO1_congr (q : PosShare TreeShare) (yv : Buf (Elt F) (yLoc d)) (pay : S10000.Idx → Elt F .i32) (hpay : ∀ j, (pay j).toNat < 10000)
    (off off' : Fin 1 → ℕ) (h : ∀ a, off a + S80.size a ≤ S10000.size a) (h' : ∀ a, off' a + S80.size a ≤ S10000.size a) (e : off = off')
    (a : Buf (Elt F) ((r1V).view.loc (VT d L))) : GBO1 d L q yv pay hpay off h a = GBO1 d L q yv pay hpay off' h' a := by
  subst e; rfl
theorem OFO1_congr (ov : Buf (Elt F) (oLoc d)) (yv : Buf (Elt F) (yLoc d)) (pay : S10000.Idx → Elt F .i32) (hpay : ∀ j, (pay j).toNat < 10000)
    (t : Fin k1_t1_loop.trips) (off off' : Fin 1 → ℕ) (h : ∀ a, off a + S80.size a ≤ S10000.size a) (h' : ∀ a, off' a + S80.size a ≤ S10000.size a) (e : off = off')
    (a : Buf (Elt F) ((r1V).view.loc (VT d L))) : OFO1 d L ov yv pay hpay t off h a = OFO1 d L ov yv pay hpay t off' h' a := by
  subst e; rfl

theorem GBO2_congr (q : PosShare TreeShare) (yv : Buf (Elt F) (yLoc d)) (pay : S10000.Idx → Elt F .i32) (hpay : ∀ j, (pay j).toNat < 10000)
    (off off' : Fin 1 → ℕ) (h : ∀ a, off a + S80.size a ≤ S10000.size a) (h' : ∀ a, off' a + S80.size a ≤ S10000.size a) (e : off = off')
    (a : Buf (Elt F) ((r2V).view.loc (VT d L))) : GBO2 d L q yv pay hpay off h a = GBO2 d L q yv pay hpay off' h' a := by
  subst e; rfl
theorem OFO2_congr (ov : Buf (Elt F) (oLoc d)) (yv : Buf (Elt F) (yLoc d)) (pay : S10000.Idx → Elt F .i32) (hpay : ∀ j, (pay j).toNat < 10000)
    (t : Fin k1_t1_loop.trips) (off off' : Fin 1 → ℕ) (h : ∀ a, off a + S80.size a ≤ S10000.size a) (h' : ∀ a, off' a + S80.size a ≤ S10000.size a) (e : off = off')
    (a : Buf (Elt F) ((r2V).view.loc (VT d L))) : OFO2 d L ov yv pay hpay t off h a = OFO2 d L ov yv pay hpay t off' h' a := by
  subst e; rfl

theorem GBO3_congr (q : PosShare TreeShare) (yv : Buf (Elt F) (yLoc d)) (pay : S10000.Idx → Elt F .i32) (hpay : ∀ j, (pay j).toNat < 10000)
    (off off' : Fin 1 → ℕ) (h : ∀ a, off a + S80.size a ≤ S10000.size a) (h' : ∀ a, off' a + S80.size a ≤ S10000.size a) (e : off = off')
    (a : Buf (Elt F) ((r3V).view.loc (VT d L))) : GBO3 d L q yv pay hpay off h a = GBO3 d L q yv pay hpay off' h' a := by
  subst e; rfl
theorem OFO3_congr (ov : Buf (Elt F) (oLoc d)) (yv : Buf (Elt F) (yLoc d)) (pay : S10000.Idx → Elt F .i32) (hpay : ∀ j, (pay j).toNat < 10000)
    (t : Fin k1_t1_loop.trips) (off off' : Fin 1 → ℕ) (h : ∀ a, off a + S80.size a ≤ S10000.size a) (h' : ∀ a, off' a + S80.size a ≤ S10000.size a) (e : off = off')
    (a : Buf (Elt F) ((r3V).view.loc (VT d L))) : OFO3 d L ov yv pay hpay t off h a = OFO3 d L ov yv pay hpay t off' h' a := by
  subst e; rfl

theorem GBO4_congr (q : PosShare TreeShare) (yv : Buf (Elt F) (yLoc d)) (pay : S10000.Idx → Elt F .i32) (hpay : ∀ j, (pay j).toNat < 10000)
    (off off' : Fin 1 → ℕ) (h : ∀ a, off a + S80.size a ≤ S10000.size a) (h' : ∀ a, off' a + S80.size a ≤ S10000.size a) (e : off = off')
    (a : Buf (Elt F) ((r4V).view.loc (VT d L))) : GBO4 d L q yv pay hpay off h a = GBO4 d L q yv pay hpay off' h' a := by
  subst e; rfl
theorem OFO4_congr (ov : Buf (Elt F) (oLoc d)) (yv : Buf (Elt F) (yLoc d)) (pay : S10000.Idx → Elt F .i32) (hpay : ∀ j, (pay j).toNat < 10000)
    (t : Fin k1_t1_loop.trips) (off off' : Fin 1 → ℕ) (h : ∀ a, off a + S80.size a ≤ S10000.size a) (h' : ∀ a, off' a + S80.size a ≤ S10000.size a) (e : off = off')
    (a : Buf (Elt F) ((r4V).view.loc (VT d L))) : OFO4 d L ov yv pay hpay t off h a = OFO4 d L ov yv pay hpay t off' h' a := by
  subst e; rfl

/-- what the loop carries whatever the trip: the wait evidence, the tile's entries of the edge list, the fetch's
    semaphore, the debts, and the result rows of trips not yet begun -/
def invBase (q : PosShare TreeShare) (yv : Buf (Elt F) (yLoc d)) (iv : Buf (Elt F) (iLoc d)) (ov : Buf (Elt F) (oLoc d))
    (pay : S10000.Idx → Elt F .i32) (hpay : ∀ j, (pay j).toNat < 10000)
    (O : CellTallies nD τ sig (HIx 1)) (W : Waits sig (HIx 1)) (n : ℕ) : sProp 𝕄 :=
  iprop(Transfers.MayWaits (VT d L) (default : HIx 1) O
    ∗ ((iTileK L).view.loc (VT d L) ↦[(iTileK L).view.set]{fullShare} iv)
    ∗ semVal (VT d L, SemLoc.dma cc1_scoped0.sem) 0
    ∗ (∃ W', ⌜∀ p ∈ W', p ∈ W ∨ p.2 = none⌝ ∗ owes (VT d L) O W')
    ∗ (Todo0 d L ov n ∗ Todo1 d L ov n ∗ Todo2 d L ov n ∗ Todo3 d L ov n ∗ Todo4 d L ov n))
/-- before trip n < 25: the chunks of earlier trips landed (slot 4's last still on its way out), the four gathers of
    trip n's first chunks in flight, slot 4's gather resources at rest -/
def invLoop (q : PosShare TreeShare) (yv : Buf (Elt F) (yLoc d)) (iv : Buf (Elt F) (iLoc d)) (ov : Buf (Elt F) (oLoc d))
    (pay : S10000.Idx → Elt F .i32) (hpay : ∀ j, (pay j).toNat < 10000)
    (O : CellTallies nD τ sig (HIx 1)) (W : Waits sig (HIx 1)) (n : ℕ) (hn : n < 25) : sProp 𝕄 :=
  iprop((∃ a, GBO0 d L q yv pay hpay ![400 * n] (off_inb _ (by omega)) a)
    ∗ (∃ a, GBO1 d L q yv pay hpay ![400 * n + 80] (off_inb _ (by omega)) a)
    ∗ (∃ a, GBO2 d L q yv pay hpay ![400 * n + 160] (off_inb _ (by omega)) a)
    ∗ (∃ a, GBO3 d L q yv pay hpay ![400 * n + 240] (off_inb _ (by omega)) a)
    ∗ IBO4 d L q yv pay
    ∗ (Done0 d L yv pay hpay n ∗ Done1 d L yv pay hpay n ∗ Done2 d L yv pay hpay n ∗ Done3 d L yv pay hpay n ∗ Done4 d L yv pay hpay (n - 1))
    ∗ (semVal (VT d L, SemLoc.dma cc1_scratch11.sem) 0 ∗ semVal (VT d L, SemLoc.dma cc1_scratch12.sem) 0 ∗ semVal (VT d L, SemLoc.dma cc1_scratch13.sem) 0 ∗ semVal (VT d L, SemLoc.dma cc1_scratch14.sem) 0)
    ∗ (if n = 0 then iprop((∃ a, (r4V).view.loc (VT d L) ↦[(r4V).view.set]{fullShare} a) ∗ semVal (VT d L, SemLoc.dma cc1_scratch15.sem) 0)
       else iprop(∃ t : Fin k1_t1_loop.trips, ∃ _ht : t.val + 1 = n, ∃ a, OFO4 d L ov yv pay hpay t ![400 * t.val + 320] (off_inb _ (by have := t.isLt; have : k1_t1_loop.trips = 25 := rfl; omega)) a)))
/-- after the last trip: the five last chunks on their way out, every gather resource at rest -/
def invEnd (q : PosShare TreeShare) (yv : Buf (Elt F) (yLoc d)) (iv : Buf (Elt F) (iLoc d)) (ov : Buf (Elt F) (oLoc d))
    (pay : S10000.Idx → Elt F .i32) (hpay : ∀ j, (pay j).toNat < 10000)
    (O : CellTallies nD τ sig (HIx 1)) (W : Waits sig (HIx 1)) : sProp 𝕄 :=
  iprop((∃ t : Fin k1_t1_loop.trips, ∃ _ht : t.val = 24, ∃ a, OFO0 d L ov yv pay hpay t ![400 * t.val] (off_inb _ (by have := t.isLt; have : k1_t1_loop.trips = 25 := rfl; omega)) a)
    ∗ (∃ t : Fin k1_t1_loop.trips, ∃ _ht : t.val = 24, ∃ a, OFO1 d L ov yv pay hpay t ![400 * t.val + 80] (off_inb _ (by have := t.isLt; have : k1_t1_loop.trips = 25 := rfl; omega)) a)
    ∗ (∃ t : Fin k1_t1_loop.trips, ∃ _ht : t.val = 24, ∃ a, OFO2 d L ov yv pay hpay t ![400 * t.val + 160] (off_inb _ (by have := t.isLt; have : k1_t1_loop.trips = 25 := rfl; omega)) a)
    ∗ (∃ t : Fin k1_t1_loop.trips, ∃ _ht : t.val = 24, ∃ a, OFO3 d L ov yv pay hpay t ![400 * t.val + 240] (off_inb _ (by have := t.isLt; have : k1_t1_loop.trips = 25 := rfl; omega)) a)
    ∗ (∃ t : Fin k1_t1_loop.trips, ∃ _ht : t.val = 24, ∃ a, OFO4 d L ov yv pay hpay t ![400 * t.val + 320] (off_inb _ (by have := t.isLt; have : k1_t1_loop.trips = 25 := rfl; omega)) a)
    ∗ (IBO0 d L q yv pay ∗ IBO1 d L q yv pay ∗ IBO2 d L q yv pay ∗ IBO3 d L q yv pay ∗ IBO4 d L q yv pay)
    ∗ (Done0 d L yv pay hpay 24 ∗ Done1 d L yv pay hpay 24 ∗ Done2 d L yv pay hpay 24 ∗ Done3 d L yv pay hpay 24 ∗ Done4 d L yv pay hpay 24))
/-- the loop's invariant before trip n (n ≤ 25) -/
def inv (q : PosShare TreeShare) (yv : Buf (Elt F) (yLoc d)) (iv : Buf (Elt F) (iLoc d)) (ov : Buf (Elt F) (oLoc d))
    (pay : S10000.Idx → Elt F .i32) (hpay : ∀ j, (pay j).toNat < 10000)
    (O : CellTallies nD τ sig (HIx 1)) (W : Waits sig (HIx 1)) (n : ℕ) (_ : PUnit) : sProp 𝕄 :=
  iprop(invBase d L q yv iv ov pay hpay O W n
    ∗ (if hn : n < 25 then invLoop d L q yv iv ov pay hpay O W n hn else invEnd d L q yv iv ov pay hpay O W))
theorem inv_lt (q : PosShare TreeShare) (yv : Buf (Elt F) (yLoc d)) (iv : Buf (Elt F) (iLoc d)) (ov : Buf (Elt F) (oLoc d))
    (pay : S10000.Idx → Elt F .i32) (hpay : ∀ j, (pay j).toNat < 10000)
    (O : CellTallies nD τ sig (HIx 1)) (W : Waits sig (HIx 1)) (n : ℕ) (hn : n < 25) (u : PUnit) :
    inv d L q yv iv ov pay hpay O W n u = iprop(invBase d L q yv iv ov pay hpay O W n ∗ invLoop d L q yv iv ov pay hpay O W n hn) := by
  unfold inv; rw [dif_pos hn]
theorem inv_end (q : PosShare TreeShare) (yv : Buf (Elt F) (yLoc d)) (iv : Buf (Elt F) (iLoc d)) (ov : Buf (Elt F) (oLoc d))
    (pay : S10000.Idx → Elt F .i32) (hpay : ∀ j, (pay j).toNat < 10000)
    (O : CellTallies nD τ sig (HIx 1)) (W : Waits sig (HIx 1)) (n : ℕ) (hn : ¬ n < 25) (u : PUnit) :
    inv d L q yv iv ov pay hpay O W n u = iprop(invBase d L q yv iv ov pay hpay O W n ∗ invEnd d L q yv iv ov pay hpay O W) := by
  unfold inv; rw [dif_neg hn]

omit [FloatOps F] in
theorem Todo0_head (ov : Buf (Elt F) (oLoc d)) (k : Fin k1_t1_loop.trips) :
    Todo0 d L ov k.val = iprop(((oC0 L k).view.loc (VT d L) ↦[(oC0 L k).view.set]{fullShare} ov) ∗ Todo0 d L ov (k.val + 1)) := by
  unfold Todo0; exact Ring.bigSep_rangeSet_head (by have := k.isLt; have h25 : k1_t1_loop.trips = 25 := rfl; have h25' : Scf.trips k1_t1_loop.lb k1_t1_loop.ub k1_t1_loop.st = 25 := rfl; omega) k.isLt
theorem Done0_succ (yv : Buf (Elt F) (yLoc d)) (pay : S10000.Idx → Elt F .i32) (hpay : ∀ j, (pay j).toNat < 10000) (t : Fin k1_t1_loop.trips) :
    Done0 d L yv pay hpay (t.val + 1) = iprop((∃ f, ((oC0 L t).view.loc (VT d L) ↦[(oC0 L t).view.set]{fullShare} f)
        ∗ ⌜∀ x, View.read (Elt F) (oC0 L t).view f x = GPv d L yv pay hpay (400 * t.val + 0) (by have := t.isLt; have h25 : k1_t1_loop.trips = 25 := rfl; have h25' : Scf.trips k1_t1_loop.lb k1_t1_loop.ub k1_t1_loop.st = 25 := rfl; omega) x⌝) ∗ Done0 d L yv pay hpay t.val) := by
  unfold Done0; exact Ring.bigSep_rangeSet_last (Nat.succ_pos _) (by have := t.isLt; have h25 : k1_t1_loop.trips = 25 := rfl; have h25' : Scf.trips k1_t1_loop.lb k1_t1_loop.ub k1_t1_loop.st = 25 := rfl; omega)
theorem Done0_zero (yv : Buf (Elt F) (yLoc d)) (pay : S10000.Idx → Elt F .i32) (hpay : ∀ j, (pay j).toNat < 10000) :
    Done0 d L yv pay hpay 0 = (iprop(emp) : sProp 𝕄) := by
  unfold Done0; exact Ring.bigSep_rangeSet_empty (le_refl 0)
omit [FloatOps F] in
theorem Todo0_end (ov : Buf (Elt F) (oLoc d)) : Todo0 d L ov 25 = (iprop(emp) : sProp 𝕄) := by
  unfold Todo0; exact Ring.bigSep_rangeSet_empty (le_refl 25)

omit [FloatOps F] in
theorem Todo1_head (ov : Buf (Elt F) (oLoc d)) (k : Fin k1_t1_loop.trips) :
    Todo1 d L ov k.val = iprop(((oC1 L k).view.loc (VT d L) ↦[(oC1 L k).view.set]{fullShare} ov) ∗ Todo1 d L ov (k.val + 1)) := by
  unfold Todo1; exact Ring.bigSep_rangeSet_head (by have := k.isLt; have h25 : k1_t1_loop.trips = 25 := rfl; have h25' : Scf.trips k1_t1_loop.lb k1_t1_loop.ub k1_t1_loop.st = 25 := rfl; omega) k.isLt
theorem Done1_succ (yv : Buf (Elt F) (yLoc d)) (pay : S10000.Idx → Elt F .i32) (hpay : ∀ j, (pay j).toNat < 10000) (t : Fin k1_t1_loop.trips) :
    Done1 d L yv pay hpay (t.val + 1) = iprop((∃ f, ((oC1 L t).view.loc (VT d L) ↦[(oC1 L t).view.set]{fullShare} f)
        ∗ ⌜∀ x, View.read (Elt F) (oC1 L t).view f x = GPv d L yv pay hpay (400 * t.val + 80) (by have := t.isLt; have h25 : k1_t1_loop.trips = 25 := rfl; have h25' : Scf.trips k1_t1_loop.lb k1_t1_loop.ub k1_t1_loop.st = 25 := rfl; omega) x⌝) ∗ Done1 d L yv pay hpay t.val) := by
  unfold Done1; exact Ring.bigSep_rangeSet_last (Nat.succ_pos _) (by have := t.isLt; have h25 : k1_t1_loop.trips = 25 := rfl; have h25' : Scf.trips k1_t1_loop.lb k1_t1_loop.ub k1_t1_loop.st = 25 := rfl; omega)
theorem Done1_zero (yv : Buf (Elt F) (yLoc d)) (pay : S10000.Idx → Elt F .i32) (hpay : ∀ j, (pay j).toNat < 10000) :
    Done1 d L yv pay hpay 0 = (iprop(emp) : sProp 𝕄) := by
  unfold Done1; exact Ring.bigSep_rangeSet_empty (le_refl 0)
omit [FloatOps F] in
theorem Todo1_end (ov : Buf (Elt F) (oLoc d)) : Todo1 d L ov 25 = (iprop(emp) : sProp 𝕄) := by
  unfold Todo1; exact Ring.bigSep_rangeSet_empty (le_refl 25)

omit [FloatOps F] in
theorem Todo2_head (ov : Buf (Elt F) (oLoc d)) (k : Fin k1_t1_loop.trips) :
    Todo2 d L ov k.val = iprop(((oC2 L k).view.loc (VT d L) ↦[(oC2 L k).view.set]{fullShare} ov) ∗ Todo2 d L ov (k.val + 1)) := by
  unfold Todo2; exact Ring.bigSep_rangeSet_head (by have := k.isLt; have h25 : k1_t1_loop.trips = 25 := rfl; have h25' : Scf.trips k1_t1_loop.lb k1_t1_loop.ub k1_t1_loop.st = 25 := rfl; omega) k.isLt
theorem Done2_succ (yv : Buf (Elt F) (yLoc d)) (pay : S10000.Idx → Elt F .i32) (hpay : ∀ j, (pay j).toNat < 10000) (t : Fin k1_t1_loop.trips) :
    Done2 d L yv pay hpay (t.val + 1) = iprop((∃ f, ((oC2 L t).view.loc (VT d L) ↦[(oC2 L t).view.set]{fullShare} f)
        ∗ ⌜∀ x, View.read (Elt F) (oC2 L t).view f x = GPv d L yv pay hpay (400 * t.val + 160) (by have := t.isLt; have h25 : k1_t1_loop.trips = 25 := rfl; have h25' : Scf.trips k1_t1_loop.lb k1_t1_loop.ub k1_t1_loop.st = 25 := rfl; omega) x⌝) ∗ Done2 d L yv pay hpay t.val) := by
  unfold Done2; exact Ring.bigSep_rangeSet_last (Nat.succ_pos _) (by have := t.isLt; have h25 : k1_t1_loop.trips = 25 := rfl; have h25' : Scf.trips k1_t1_loop.lb k1_t1_loop.ub k1_t1_loop.st = 25 := rfl; omega)
theorem Done2_zero (yv : Buf (Elt F) (yLoc d)) (pay : S10000.Idx → Elt F .i32) (hpay : ∀ j, (pay j).toNat < 10000) :
    Done2 d L yv pay hpay 0 = (iprop(emp) : sProp 𝕄) := by
  unfold Done2; exact Ring.bigSep_rangeSet_empty (le_refl 0)
omit [FloatOps F] in
theorem Todo2_end (ov : Buf (Elt F) (oLoc d)) : Todo2 d L ov 25 = (iprop(emp) : sProp 𝕄) := by
  unfold Todo2; exact Ring.bigSep_rangeSet_empty (le_refl 25)

omit [FloatOps F] in
theorem Todo3_head (ov : Buf (Elt F) (oLoc d)) (k : Fin k1_t1_loop.trips) :
    Todo3 d L ov k.val = iprop(((oC3 L k).view.loc (VT d L) ↦[(oC3 L k).view.set]{fullShare} ov) ∗ Todo3 d L ov (k.val + 1)) := by
  unfold Todo3; exact Ring.bigSep_rangeSet_head (by have := k.isLt; have h25 : k1_t1_loop.trips = 25 := rfl; have h25' : Scf.trips k1_t1_loop.lb k1_t1_loop.ub k1_t1_loop.st = 25 := rfl; omega) k.isLt
theorem Done3_succ (yv : Buf (Elt F) (yLoc d)) (pay : S10000.Idx → Elt F .i32) (hpay : ∀ j, (pay j).toNat < 10000) (t : Fin k1_t1_loop.trips) :
    Done3 d L yv pay hpay (t.val + 1) = iprop((∃ f, ((oC3 L t).view.loc (VT d L) ↦[(oC3 L t).view.set]{fullShare} f)
        ∗ ⌜∀ x, View.read (Elt F) (oC3 L t).view f x = GPv d L yv pay hpay (400 * t.val + 240) (by have := t.isLt; have h25 : k1_t1_loop.trips = 25 := rfl; have h25' : Scf.trips k1_t1_loop.lb k1_t1_loop.ub k1_t1_loop.st = 25 := rfl; omega) x⌝) ∗ Done3 d L yv pay hpay t.val) := by
  unfold Done3; exact Ring.bigSep_rangeSet_last (Nat.succ_pos _) (by have := t.isLt; have h25 : k1_t1_loop.trips = 25 := rfl; have h25' : Scf.trips k1_t1_loop.lb k1_t1_loop.ub k1_t1_loop.st = 25 := rfl; omega)
theorem Done3_zero (yv : Buf (Elt F) (yLoc d)) (pay : S10000.Idx → Elt F .i32) (hpay : ∀ j, (pay j).toNat < 10000) :
    Done3 d L yv pay hpay 0 = (iprop(emp) : sProp 𝕄) := by
  unfold Done3; exact Ring.bigSep_rangeSet_empty (le_refl 0)
omit [FloatOps F] in
theorem Todo3_end (ov : Buf (Elt F) (oLoc d)) : Todo3 d L ov 25 = (iprop(emp) : sProp 𝕄) := by
  unfold Todo3; exact Ring.bigSep_rangeSet_empty (le_refl 25)

omit [FloatOps F] in
theorem Todo4_head (ov : Buf (Elt F) (oLoc d)) (k : Fin k1_t1_loop.trips) :
    Todo4 d L ov k.val = iprop(((oC4 L k).view.loc (VT d L) ↦[(oC4 L k).view.set]{fullShare} ov) ∗ Todo4 d L ov (k.val + 1)) := by
  unfold Todo4; exact Ring.bigSep_rangeSet_head (by have := k.isLt; have h25 : k1_t1_loop.trips = 25 := rfl; have h25' : Scf.trips k1_t1_loop.lb k1_t1_loop.ub k1_t1_loop.st = 25 := rfl; omega) k.isLt
theorem Done4_succ (yv : Buf (Elt F) (yLoc d)) (pay : S10000.Idx → Elt F .i32) (hpay : ∀ j, (pay j).toNat < 10000) (t : Fin k1_t1_loop.trips) :
    Done4 d L yv pay hpay (t.val + 1) = iprop((∃ f, ((oC4 L t).view.loc (VT d L) ↦[(oC4 L t).view.set]{fullShare} f)
        ∗ ⌜∀ x, View.read (Elt F) (oC4 L t).view f x = GPv d L yv pay hpay (400 * t.val + 320) (by have := t.isLt; have h25 : k1_t1_loop.trips = 25 := rfl; have h25' : Scf.trips k1_t1_loop.lb k1_t1_loop.ub k1_t1_loop.st = 25 := rfl; omega) x⌝) ∗ Done4 d L yv pay hpay t.val) := by
  unfold Done4; exact Ring.bigSep_rangeSet_last (Nat.succ_pos _) (by have := t.isLt; have h25 : k1_t1_loop.trips = 25 := rfl; have h25' : Scf.trips k1_t1_loop.lb k1_t1_loop.ub k1_t1_loop.st = 25 := rfl; omega)
theorem Done4_zero (yv : Buf (Elt F) (yLoc d)) (pay : S10000.Idx → Elt F .i32) (hpay : ∀ j, (pay j).toNat < 10000) :
    Done4 d L yv pay hpay 0 = (iprop(emp) : sProp 𝕄) := by
  unfold Done4; exact Ring.bigSep_rangeSet_empty (le_refl 0)
omit [FloatOps F] in
theorem Todo4_end (ov : Buf (Elt F) (oLoc d)) : Todo4 d L ov 25 = (iprop(emp) : sProp 𝕄) := by
  unfold Todo4; exact Ring.bigSep_rangeSet_empty (le_refl 25)

omit [FloatOps F] in
/-- a wait on one of the tile's own semaphores is recorded at no call's index -/
theorem wkey (W X : Waits sig (HIx 1)) (sm : SemLoc sig) (hX : ∀ p ∈ X, p ∈ W ∨ p.2 = none) :
    ∀ p ∈ insert (sm, (default : HIx 1)) X, p ∈ W ∨ p.2 = none := by
  intro p hp; rcases Finset.mem_insert.mp hp with hp | hp
  · exact .inr (hp ▸ rfl)
  · exact hX p hp

/-- what is left of the index scratch's full share beside the five slots' read tokens -/
def SRest (pay : S10000.Idx → Elt F .i32) : sProp 𝕄 :=
  iprop(((sV).view.loc (VT d L) ↦[(sV).view.set]{Transfers.shareDrop fullShare 11} svalOf d L pay)
    ∗ ((sV).view.loc (VT d L) ↦[(sV).view.set]{Transfers.shareTokN fullShare 0} svalOf d L pay)
    ∗ ((sV).view.loc (VT d L) ↦[(sV).view.set]{Transfers.shareTokN fullShare 1} svalOf d L pay)
    ∗ ((sV).view.loc (VT d L) ↦[(sV).view.set]{Transfers.shareTokN fullShare 2} svalOf d L pay)
    ∗ ((sV).view.loc (VT d L) ↦[(sV).view.set]{Transfers.shareTokN fullShare 3} svalOf d L pay)
    ∗ ((sV).view.loc (VT d L) ↦[(sV).view.set]{Transfers.shareTokN fullShare 4} svalOf d L pay)
    ∗ ((sV).view.loc (VT d L) ↦[(sV).view.set]{Transfers.shareTokN fullShare 5} svalOf d L pay))

omit [FloatOps F] in
/-- the index scratch's full share as the rest and the five slots' read tokens -/
theorem sToks (f : Buf (Elt F) ((sV).view.loc (VT d L))) :
    ((sV).view.loc (VT d L) ↦[(sV).view.set]{fullShare} f : sProp 𝕄) ⊣⊢ iprop(
      (((sV).view.loc (VT d L) ↦[(sV).view.set]{Transfers.shareDrop fullShare 11} f)
        ∗ ((sV).view.loc (VT d L) ↦[(sV).view.set]{Transfers.shareTokN fullShare 0} f)
        ∗ ((sV).view.loc (VT d L) ↦[(sV).view.set]{Transfers.shareTokN fullShare 1} f)
        ∗ ((sV).view.loc (VT d L) ↦[(sV).view.set]{Transfers.shareTokN fullShare 2} f)
        ∗ ((sV).view.loc (VT d L) ↦[(sV).view.set]{Transfers.shareTokN fullShare 3} f)
        ∗ ((sV).view.loc (VT d L) ↦[(sV).view.set]{Transfers.shareTokN fullShare 4} f)
        ∗ ((sV).view.loc (VT d L) ↦[(sV).view.set]{Transfers.shareTokN fullShare 5} f))
      ∗ ((sV).view.loc (VT d L) ↦[(sV).view.set]{Transfers.shareTokN fullShare 6} f)
      ∗ ((sV).view.loc (VT d L) ↦[(sV).view.set]{Transfers.shareTokN fullShare 7} f)
      ∗ ((sV).view.loc (VT d L) ↦[(sV).view.set]{Transfers.shareTokN fullShare 8} f)
      ∗ ((sV).view.loc (VT d L) ↦[(sV).view.set]{Transfers.shareTokN fullShare 9} f)
      ∗ ((sV).view.loc (VT d L) ↦[(sV).view.set]{Transfers.shareTokN fullShare 10} f)) := by
  have h : ((sV).view.loc (VT d L) ↦[(sV).view.set]{fullShare} f : sProp 𝕄) ⊣⊢ iprop(((sV).view.loc (VT d L) ↦[(sV).view.set]{Transfers.shareDrop fullShare 11} f) ∗ bigSep (Finset.range 11) fun i => (sV).view.loc (VT d L) ↦[(sV).view.set]{Transfers.shareTokN fullShare i} f) :=
    Transfers.pointsTo_toks_range (ℓ := (sV).view.loc (VT d L)) (S := (sV).view.set) (f := f) fullShare 11
  rw [show Finset.range 11 = {0, 1, 2, 3, 4, 5, 6, 7, 8, 9, 10} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  refine h.trans ?_
  constructor
  · iintro ⟨Hd, H0, H1, H2, H3, H4, H5, H6, H7, H8, H9, H10⟩
    isplitl [Hd H0 H1 H2 H3 H4 H5]
    · isplitl [Hd]; · iexact Hd
      isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    isplitl [H8]; · iexact H8
    isplitl [H9]; · iexact H9
    iexact H10
  · iintro ⟨⟨Hd, H0, H1, H2, H3, H4, H5⟩, H6, H7, H8, H9, H10⟩
    isplitl [Hd]; · iexact Hd
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

set_option maxHeartbeats 16000000 in
/-- The task's body from what it is dealt, in the body's spelling: every result chunk of the tile ends holding the rows
    of y its eighty index words name. -/
theorem tile_run (O : CellTallies nD τ sig (HIx 1)) (W : Waits sig (HIx 1))
    (q : PosShare TreeShare) (yv : Buf (Elt F) (yLoc d)) (iv : Buf (Elt F) (iLoc d)) (ov : Buf (Elt F) (oLoc d))
    (hin : ∀ j, (iv j).toNat < 10000)
    (s0 : Buf (Elt F) ((sV).view.loc (VT d L))) (a0 : Buf (Elt F) ((r0V).view.loc (VT d L))) (a1 : Buf (Elt F) ((r1V).view.loc (VT d L)))
    (a2 : Buf (Elt F) ((r2V).view.loc (VT d L))) (a3 : Buf (Elt F) ((r3V).view.loc (VT d L))) (a4 : Buf (Elt F) ((r4V).view.loc (VT d L))) :
    (iprop(Transfers.MayWaits (VT d L) (default : HIx 1) O
        ∗ ((yV).view.loc (VT d L) ↦{Transfers.shareTokN q 6} yv)
        ∗ ((yV).view.loc (VT d L) ↦{Transfers.shareTokN q 7} yv)
        ∗ ((yV).view.loc (VT d L) ↦{Transfers.shareTokN q 8} yv)
        ∗ ((yV).view.loc (VT d L) ↦{Transfers.shareTokN q 9} yv)
        ∗ ((yV).view.loc (VT d L) ↦{Transfers.shareTokN q 10} yv)
        ∗ ((iTileK L).view.loc (VT d L) ↦[(iTileK L).view.set]{fullShare} iv)
        ∗ ((sV).view.loc (VT d L) ↦[(sV).view.set]{fullShare} s0)
        ∗ ((r0V).view.loc (VT d L) ↦[(r0V).view.set]{fullShare} a0)
        ∗ ((r1V).view.loc (VT d L) ↦[(r1V).view.set]{fullShare} a1)
        ∗ ((r2V).view.loc (VT d L) ↦[(r2V).view.set]{fullShare} a2)
        ∗ ((r3V).view.loc (VT d L) ↦[(r3V).view.set]{fullShare} a3)
        ∗ ((r4V).view.loc (VT d L) ↦[(r4V).view.set]{fullShare} a4)
        ∗ (Todo0 d L ov 0 ∗ Todo1 d L ov 0 ∗ Todo2 d L ov 0 ∗ Todo3 d L ov 0 ∗ Todo4 d L ov 0)
        ∗ (semVal (VT d L, SemLoc.dma cc1_scratch6.sem) 0 ∗ semVal (VT d L, SemLoc.dma cc1_scratch7.sem) 0 ∗ semVal (VT d L, SemLoc.dma cc1_scratch8.sem) 0 ∗ semVal (VT d L, SemLoc.dma cc1_scratch9.sem) 0 ∗ semVal (VT d L, SemLoc.dma cc1_scratch10.sem) 0 ∗ semVal (VT d L, SemLoc.dma cc1_scratch11.sem) 0 ∗ semVal (VT d L, SemLoc.dma cc1_scratch12.sem) 0 ∗ semVal (VT d L, SemLoc.dma cc1_scratch13.sem) 0 ∗ semVal (VT d L, SemLoc.dma cc1_scratch14.sem) 0 ∗ semVal (VT d L, SemLoc.dma cc1_scratch15.sem) 0 ∗ semVal (VT d L, SemLoc.dma cc1_scoped0.sem) 0)
        ∗ owes (VT d L) O W) : sProp 𝕄)
      ⊢ wp frame (wpE (defs₀ (F := F)) 𝒱₀ (VT d L) none) Set.univ
          (cc1__gather_body L yV (Memref.isWhole_whole _) iV (Memref.isWhole_whole _) oV (Memref.isWhole_whole _)
            sV (Memref.isWhole_whole _) r0V (Memref.isWhole_whole _) r1V (Memref.isWhole_whole _) r2V (Memref.isWhole_whole _) r3V (Memref.isWhole_whole _) r4V (Memref.isWhole_whole _)
            cc1_scratch6 cc1_scratch7 cc1_scratch8 cc1_scratch9 cc1_scratch10 cc1_scratch11 cc1_scratch12 cc1_scratch13 cc1_scratch14 cc1_scratch15 cc1_scoped0)
          fun _ => iprop(((yV).view.loc (VT d L) ↦{Transfers.shareTokN q 6} yv)
            ∗ ((yV).view.loc (VT d L) ↦{Transfers.shareTokN q 7} yv)
            ∗ ((yV).view.loc (VT d L) ↦{Transfers.shareTokN q 8} yv)
            ∗ ((yV).view.loc (VT d L) ↦{Transfers.shareTokN q 9} yv)
            ∗ ((yV).view.loc (VT d L) ↦{Transfers.shareTokN q 10} yv)
            ∗ ((iTileK L).view.loc (VT d L) ↦[(iTileK L).view.set]{fullShare} iv)
            ∗ (∃ s, (sV).view.loc (VT d L) ↦[(sV).view.set]{fullShare} s)
            ∗ (∃ a, (r0V).view.loc (VT d L) ↦[(r0V).view.set]{fullShare} a)
            ∗ (∃ a, (r1V).view.loc (VT d L) ↦[(r1V).view.set]{fullShare} a)
            ∗ (∃ a, (r2V).view.loc (VT d L) ↦[(r2V).view.set]{fullShare} a)
            ∗ (∃ a, (r3V).view.loc (VT d L) ↦[(r3V).view.set]{fullShare} a)
            ∗ (∃ a, (r4V).view.loc (VT d L) ↦[(r4V).view.set]{fullShare} a)
            ∗ (Done0 d L yv (idxPay d L iv) (idxPay_lt d L iv hin) 25 ∗ Done1 d L yv (idxPay d L iv) (idxPay_lt d L iv hin) 25 ∗ Done2 d L yv (idxPay d L iv) (idxPay_lt d L iv hin) 25
                ∗ Done3 d L yv (idxPay d L iv) (idxPay_lt d L iv hin) 25 ∗ Done4 d L yv (idxPay d L iv) (idxPay_lt d L iv hin) 25)
            ∗ (semVal (VT d L, SemLoc.dma cc1_scratch6.sem) 0 ∗ semVal (VT d L, SemLoc.dma cc1_scratch7.sem) 0 ∗ semVal (VT d L, SemLoc.dma cc1_scratch8.sem) 0 ∗ semVal (VT d L, SemLoc.dma cc1_scratch9.sem) 0 ∗ semVal (VT d L, SemLoc.dma cc1_scratch10.sem) 0 ∗ semVal (VT d L, SemLoc.dma cc1_scratch11.sem) 0 ∗ semVal (VT d L, SemLoc.dma cc1_scratch12.sem) 0 ∗ semVal (VT d L, SemLoc.dma cc1_scratch13.sem) 0 ∗ semVal (VT d L, SemLoc.dma cc1_scratch14.sem) 0 ∗ semVal (VT d L, SemLoc.dma cc1_scratch15.sem) 0 ∗ semVal (VT d L, SemLoc.dma cc1_scoped0.sem) 0)
            ∗ ∃ W', owes (VT d L) O W') := by
  iintro ⟨#Hmw, HY0, HY1, HY2, HY3, HY4, HI, HS, HR0, HR1, HR2, HR3, HR4, ⟨HT0, HT1, HT2, HT3, HT4⟩, ⟨Hg0, Hg1, Hg2, Hg3, Hg4, Ho0, Ho1, Ho2, Ho3, Ho4, Hsc⟩, HO⟩
  have hpay := idxPay_lt d L iv hin
  sl_unfold [cc1__gather_body]
  sl_exec
  ihave HS' := (sToks d L _).1 $$ HS
  icases HS' with ⟨HSR, HS0, HS1, HS2, HS3, HS4⟩
  have hidx := fun g off h hs => idx_inb (F := F) d L g (idxPay d L iv) hpay off h hs
  sl_exec
  sl_for (inv d L q yv iv ov (idxPay d L iv) hpay O W) $$ [Hmw HY4 HR4 HT0 HT1 HT2 HT3 HT4 Hg4 Ho0 Ho1 Ho2 Ho3 Ho4 HI Hsc HO HS4 Hg0 HY0 HR0 HS0 Hg1 HY1 HR1 HS1 Hg2 HY2 HR2 HS2 Hg3 HY3 HR3 HS3]
  case region =>
    intro k u
    have h25 : k1_t1_loop.trips = 25 := rfl
    have h25' : Scf.trips k1_t1_loop.lb k1_t1_loop.ub k1_t1_loop.st = 25 := rfl
    have hk25 : k.val < 25 := by have := k.isLt; omega
    have hc1 := c1 k
    obtain ⟨hc4, hc6, hc8, hc10⟩ := c4 k
    have hidx := fun g off h hs => idx_inb (F := F) d L g (idxPay d L iv) hpay off h hs

    rcases Nat.eq_zero_or_pos k.val with hk0 | hkpos
    · have hc2 := c2' k hk0
      obtain ⟨hc3, hc5, hc7, hc9⟩ := c3 k (by omega)
      rw [inv_lt d L q yv iv ov (idxPay d L iv) hpay O W k.val hk25]
      unfold invBase invLoop
      rw [if_pos hk0, Todo0_head d L ov k, Todo1_head d L ov k, Todo2_head d L ov k, Todo3_head d L ov k, Todo4_head d L ov k]
      unfold GBO0 GBO1 GBO2 GBO3 IBO4
      iintro ⟨⟨#Hmw, HI, Hsc, ⟨%W', %hW', HO⟩, ⟨HC0, HT0⟩, ⟨HC1, HT1⟩, ⟨HC2, HT2⟩, ⟨HC3, HT3⟩, ⟨HC4, HT4⟩⟩, ⟨%a0, Hg0, HY0, HS0, HR0⟩, ⟨%a1, Hg1, HY1, HS1, HR1⟩, ⟨%a2, Hg2, HY2, HS2, HR2⟩, ⟨%a3, Hg3, HY3, HS3, HR3⟩, ⟨HY4, HS4, Hg4⟩, ⟨HD0, HD1, HD2, HD3, HD4⟩, ⟨Ho0, Ho1, Ho2, Ho3⟩, ⟨⟨%a4, HR4⟩, Ho4⟩⟩
      sl_exec
      sl_step
      rw [inv_lt d L q yv iv ov (idxPay d L iv) hpay O W (k.val + 1) (by omega)]
      unfold invBase invLoop
      rw [if_neg (by omega : ¬ k.val + 1 = 0), Done0_succ d L yv (idxPay d L iv) hpay k, Done1_succ d L yv (idxPay d L iv) hpay k, Done2_succ d L yv (idxPay d L iv) hpay k, Done3_succ d L yv (idxPay d L iv) hpay k, show k.val + 1 - 1 = k.val - 1 by omega]
      isplitl [HI Hsc HO HT0 HT1 HT2 HT3 HT4]
      · isplitr; · iexact Hmw
        isplitl [HI]; · iexact HI
        isplitl [Hsc]; · iexact Hsc
        isplitl [HO]
        · iexists _; isplitr
          swap; · iexact HO
          ipureintro
          repeat (first | exact hW' | apply wkey)
        isplitl [HT0]; · iexact HT0
        isplitl [HT1]; · iexact HT1
        isplitl [HT2]; · iexact HT2
        isplitl [HT3]; · iexact HT3
        iexact HT4
      isplitl [Hg0 HY0 HS0 HR0]
      · iexists ((r0V).view.writes (Elt F) a0 [⟨Rect.whole cc1_scratch1.ty.shape, GPvO d L yv (idxPay d L iv) hpay ![400 * k.val] (off_inb _ (by omega))⟩])
        iapply (Entails.of_eq (GBO0_congr d L q yv (idxPay d L iv) hpay (k1_off7 k) ![400 * (k.val + 1)] (k1_off7_inb k hc3) (off_inb _ (by omega)) (by rw [k1_off7_eq]; exact congrArg (fun n => (![n] : Fin 1 → ℕ)) (by omega)) _))
        unfold GBO0
        isplitl [Hg0]; · iexact Hg0
        isplitl [HY0]; · iexact HY0
        isplitl [HS0]; · iexact HS0
        iexact HR0
      isplitl [Hg1 HY1 HS1 HR1]
      · iexists ((r1V).view.writes (Elt F) a1 [⟨Rect.whole cc1_scratch2.ty.shape, GPvO d L yv (idxPay d L iv) hpay ![400 * k.val + 80] (off_inb _ (by omega))⟩])
        iapply (Entails.of_eq (GBO1_congr d L q yv (idxPay d L iv) hpay (k1_off9 k) ![400 * (k.val + 1) + 80] (k1_off9_inb k hc5) (off_inb _ (by omega)) (by rw [k1_off9_eq]; exact congrArg (fun n => (![n] : Fin 1 → ℕ)) (by omega)) _))
        unfold GBO1
        isplitl [Hg1]; · iexact Hg1
        isplitl [HY1]; · iexact HY1
        isplitl [HS1]; · iexact HS1
        iexact HR1
      isplitl [Hg2 HY2 HS2 HR2]
      · iexists ((r2V).view.writes (Elt F) a2 [⟨Rect.whole cc1_scratch3.ty.shape, GPvO d L yv (idxPay d L iv) hpay ![400 * k.val + 160] (off_inb _ (by omega))⟩])
        iapply (Entails.of_eq (GBO2_congr d L q yv (idxPay d L iv) hpay (k1_off11 k) ![400 * (k.val + 1) + 160] (k1_off11_inb k hc7) (off_inb _ (by omega)) (by rw [k1_off11_eq]; exact congrArg (fun n => (![n] : Fin 1 → ℕ)) (by omega)) _))
        unfold GBO2
        isplitl [Hg2]; · iexact Hg2
        isplitl [HY2]; · iexact HY2
        isplitl [HS2]; · iexact HS2
        iexact HR2
      isplitl [Hg3 HY3 HS3 HR3]
      · iexists ((r3V).view.writes (Elt F) a3 [⟨Rect.whole cc1_scratch4.ty.shape, GPvO d L yv (idxPay d L iv) hpay ![400 * k.val + 240] (off_inb _ (by omega))⟩])
        iapply (Entails.of_eq (GBO3_congr d L q yv (idxPay d L iv) hpay (k1_off13 k) ![400 * (k.val + 1) + 240] (k1_off13_inb k hc9) (off_inb _ (by omega)) (by rw [k1_off13_eq]; exact congrArg (fun n => (![n] : Fin 1 → ℕ)) (by omega)) _))
        unfold GBO3
        isplitl [Hg3]; · iexact Hg3
        isplitl [HY3]; · iexact HY3
        isplitl [HS3]; · iexact HS3
        iexact HR3
      isplitl [HY4 HS4 Hg4]
      · unfold IBO4; isplitl [HY4]; · iexact HY4
        isplitl [HS4]; · iexact HS4
        iexact Hg4
      isplitl [HC0 HD0 HC1 HD1 HC2 HD2 HC3 HD3 HD4]
      · isplitl [HC0 HD0]
        · isplitl [HC0]
          · iexists _; isplitl [HC0]; · iexact HC0
            ipureintro; intro x
            rw [View.read_writes_whole]
            exact (show ReadAs.same.apply (View.read (Elt F) (r0V).view ((r0V).view.writes (Elt F) a0 [⟨Rect.whole cc1_scratch1.ty.shape, GPvO d L yv (idxPay d L iv) hpay ![400 * k.val] (off_inb _ (by omega))⟩])) x = _ from
              (congrFun (View.read_writes_whole (r0V).view a0 _) x).trans (congrFun (GPvO_eq d L yv (idxPay d L iv) hpay _ _ _ _ rfl) x))
          iexact HD0
        isplitl [HC1 HD1]
        · isplitl [HC1]
          · iexists _; isplitl [HC1]; · iexact HC1
            ipureintro; intro x
            rw [View.read_writes_whole]
            exact (show ReadAs.same.apply (View.read (Elt F) (r1V).view ((r1V).view.writes (Elt F) a1 [⟨Rect.whole cc1_scratch2.ty.shape, GPvO d L yv (idxPay d L iv) hpay ![400 * k.val + 80] (off_inb _ (by omega))⟩])) x = _ from
              (congrFun (View.read_writes_whole (r1V).view a1 _) x).trans (congrFun (GPvO_eq d L yv (idxPay d L iv) hpay _ _ _ _ rfl) x))
          iexact HD1
        isplitl [HC2 HD2]
        · isplitl [HC2]
          · iexists _; isplitl [HC2]; · iexact HC2
            ipureintro; intro x
            rw [View.read_writes_whole]
            exact (show ReadAs.same.apply (View.read (Elt F) (r2V).view ((r2V).view.writes (Elt F) a2 [⟨Rect.whole cc1_scratch3.ty.shape, GPvO d L yv (idxPay d L iv) hpay ![400 * k.val + 160] (off_inb _ (by omega))⟩])) x = _ from
              (congrFun (View.read_writes_whole (r2V).view a2 _) x).trans (congrFun (GPvO_eq d L yv (idxPay d L iv) hpay _ _ _ _ rfl) x))
          iexact HD2
        isplitl [HC3 HD3]
        · isplitl [HC3]
          · iexists _; isplitl [HC3]; · iexact HC3
            ipureintro; intro x
            rw [View.read_writes_whole]
            exact (show ReadAs.same.apply (View.read (Elt F) (r3V).view ((r3V).view.writes (Elt F) a3 [⟨Rect.whole cc1_scratch4.ty.shape, GPvO d L yv (idxPay d L iv) hpay ![400 * k.val + 240] (off_inb _ (by omega))⟩])) x = _ from
              (congrFun (View.read_writes_whole (r3V).view a3 _) x).trans (congrFun (GPvO_eq d L yv (idxPay d L iv) hpay _ _ _ _ rfl) x))
          iexact HD3
        iexact HD4
      isplitl [Ho0 Ho1 Ho2 Ho3]
      · isplitl [Ho0]; · iexact Ho0
        isplitl [Ho1]; · iexact Ho1
        isplitl [Ho2]; · iexact Ho2
        iexact Ho3
      iexists k; iexists rfl; iexists a4
      iapply (Entails.of_eq (OFO4_congr d L ov yv (idxPay d L iv) hpay k (k1_off5 k) ![400 * k.val + 320] (k1_off5_inb k hc1) (off_inb _ (by omega)) (by rw [k1_off5_eq]) _))
      unfold OFO4; iexact Ho4

    · rcases Nat.lt_or_ge k.val 24 with hk24 | hk24
      · have hc2 := c2 k hkpos
        obtain ⟨hc3, hc5, hc7, hc9⟩ := c3 k hk24
        rw [inv_lt d L q yv iv ov (idxPay d L iv) hpay O W k.val hk25]
        unfold invBase invLoop
        rw [if_neg (by omega : ¬ k.val = 0), Todo0_head d L ov k, Todo1_head d L ov k, Todo2_head d L ov k, Todo3_head d L ov k, Todo4_head d L ov k]
        unfold GBO0 GBO1 GBO2 GBO3 IBO4 OFO4
        iintro ⟨⟨#Hmw, HI, Hsc, ⟨%W', %hW', HO⟩, ⟨HC0, HT0⟩, ⟨HC1, HT1⟩, ⟨HC2, HT2⟩, ⟨HC3, HT3⟩, ⟨HC4, HT4⟩⟩, ⟨%a0, Hg0, HY0, HS0, HR0⟩, ⟨%a1, Hg1, HY1, HS1, HR1⟩, ⟨%a2, Hg2, HY2, HS2, HR2⟩, ⟨%a3, Hg3, HY3, HS3, HR3⟩, ⟨HY4, HS4, Hg4⟩, ⟨HD0, HD1, HD2, HD3, HD4⟩, ⟨Ho0, Ho1, Ho2, Ho3⟩, ⟨%t, %ht, %a4, Ho4⟩⟩
        sl_exec
        sl_step
        rw [inv_lt d L q yv iv ov (idxPay d L iv) hpay O W (k.val + 1) (by omega)]
        unfold invBase invLoop
        rw [if_neg (by omega : ¬ k.val + 1 = 0), Done0_succ d L yv (idxPay d L iv) hpay k, Done1_succ d L yv (idxPay d L iv) hpay k, Done2_succ d L yv (idxPay d L iv) hpay k, Done3_succ d L yv (idxPay d L iv) hpay k, show k.val + 1 - 1 = t.val + 1 by omega, Done4_succ d L yv (idxPay d L iv) hpay t,
            show Done4 d L yv (idxPay d L iv) hpay t.val = Done4 d L yv (idxPay d L iv) hpay (k.val - 1) from by rw [show t.val = k.val - 1 by omega]]
        isplitl [HI Hsc HO HT0 HT1 HT2 HT3 HT4]
        · isplitr; · iexact Hmw
          isplitl [HI]; · iexact HI
          isplitl [Hsc]; · iexact Hsc
          isplitl [HO]
          · iexists _; isplitr
            swap; · iexact HO
            ipureintro
            repeat (first | exact hW' | apply wkey)
          isplitl [HT0]; · iexact HT0
          isplitl [HT1]; · iexact HT1
          isplitl [HT2]; · iexact HT2
          isplitl [HT3]; · iexact HT3
          iexact HT4
        isplitl [Hg0 HY0 HS0 HR0]
        · iexists ((r0V).view.writes (Elt F) a0 [⟨Rect.whole cc1_scratch1.ty.shape, GPvO d L yv (idxPay d L iv) hpay ![400 * k.val] (off_inb _ (by omega))⟩])
          iapply (Entails.of_eq (GBO0_congr d L q yv (idxPay d L iv) hpay (k1_off7 k) ![400 * (k.val + 1)] (k1_off7_inb k hc3) (off_inb _ (by omega)) (by rw [k1_off7_eq]; exact congrArg (fun n => (![n] : Fin 1 → ℕ)) (by omega)) _))
          unfold GBO0
          isplitl [Hg0]; · iexact Hg0
          isplitl [HY0]; · iexact HY0
          isplitl [HS0]; · iexact HS0
          iexact HR0
        isplitl [Hg1 HY1 HS1 HR1]
        · iexists ((r1V).view.writes (Elt F) a1 [⟨Rect.whole cc1_scratch2.ty.shape, GPvO d L yv (idxPay d L iv) hpay ![400 * k.val + 80] (off_inb _ (by omega))⟩])
          iapply (Entails.of_eq (GBO1_congr d L q yv (idxPay d L iv) hpay (k1_off9 k) ![400 * (k.val + 1) + 80] (k1_off9_inb k hc5) (off_inb _ (by omega)) (by rw [k1_off9_eq]; exact congrArg (fun n => (![n] : Fin 1 → ℕ)) (by omega)) _))
          unfold GBO1
          isplitl [Hg1]; · iexact Hg1
          isplitl [HY1]; · iexact HY1
          isplitl [HS1]; · iexact HS1
          iexact HR1
        isplitl [Hg2 HY2 HS2 HR2]
        · iexists ((r2V).view.writes (Elt F) a2 [⟨Rect.whole cc1_scratch3.ty.shape, GPvO d L yv (idxPay d L iv) hpay ![400 * k.val + 160] (off_inb _ (by omega))⟩])
          iapply (Entails.of_eq (GBO2_congr d L q yv (idxPay d L iv) hpay (k1_off11 k) ![400 * (k.val + 1) + 160] (k1_off11_inb k hc7) (off_inb _ (by omega)) (by rw [k1_off11_eq]; exact congrArg (fun n => (![n] : Fin 1 → ℕ)) (by omega)) _))
          unfold GBO2
          isplitl [Hg2]; · iexact Hg2
          isplitl [HY2]; · iexact HY2
          isplitl [HS2]; · iexact HS2
          iexact HR2
        isplitl [Hg3 HY3 HS3 HR3]
        · iexists ((r3V).view.writes (Elt F) a3 [⟨Rect.whole cc1_scratch4.ty.shape, GPvO d L yv (idxPay d L iv) hpay ![400 * k.val + 240] (off_inb _ (by omega))⟩])
          iapply (Entails.of_eq (GBO3_congr d L q yv (idxPay d L iv) hpay (k1_off13 k) ![400 * (k.val + 1) + 240] (k1_off13_inb k hc9) (off_inb _ (by omega)) (by rw [k1_off13_eq]; exact congrArg (fun n => (![n] : Fin 1 → ℕ)) (by omega)) _))
          unfold GBO3
          isplitl [Hg3]; · iexact Hg3
          isplitl [HY3]; · iexact HY3
          isplitl [HS3]; · iexact HS3
          iexact HR3
        isplitl [HY4 HS4 Hg4]
        · unfold IBO4; isplitl [HY4]; · iexact HY4
          isplitl [HS4]; · iexact HS4
          iexact Hg4
        isplitl [HC0 HD0 HC1 HD1 HC2 HD2 HC3 HD3 Ho4_dst HD4]
        · isplitl [HC0 HD0]
          · isplitl [HC0]
            · iexists _; isplitl [HC0]; · iexact HC0
              ipureintro; intro x
              rw [View.read_writes_whole]
              exact (show ReadAs.same.apply (View.read (Elt F) (r0V).view ((r0V).view.writes (Elt F) a0 [⟨Rect.whole cc1_scratch1.ty.shape, GPvO d L yv (idxPay d L iv) hpay ![400 * k.val] (off_inb _ (by omega))⟩])) x = _ from
                (congrFun (View.read_writes_whole (r0V).view a0 _) x).trans (congrFun (GPvO_eq d L yv (idxPay d L iv) hpay _ _ _ _ rfl) x))
            iexact HD0
          isplitl [HC1 HD1]
          · isplitl [HC1]
            · iexists _; isplitl [HC1]; · iexact HC1
              ipureintro; intro x
              rw [View.read_writes_whole]
              exact (show ReadAs.same.apply (View.read (Elt F) (r1V).view ((r1V).view.writes (Elt F) a1 [⟨Rect.whole cc1_scratch2.ty.shape, GPvO d L yv (idxPay d L iv) hpay ![400 * k.val + 80] (off_inb _ (by omega))⟩])) x = _ from
                (congrFun (View.read_writes_whole (r1V).view a1 _) x).trans (congrFun (GPvO_eq d L yv (idxPay d L iv) hpay _ _ _ _ rfl) x))
            iexact HD1
          isplitl [HC2 HD2]
          · isplitl [HC2]
            · iexists _; isplitl [HC2]; · iexact HC2
              ipureintro; intro x
              rw [View.read_writes_whole]
              exact (show ReadAs.same.apply (View.read (Elt F) (r2V).view ((r2V).view.writes (Elt F) a2 [⟨Rect.whole cc1_scratch3.ty.shape, GPvO d L yv (idxPay d L iv) hpay ![400 * k.val + 160] (off_inb _ (by omega))⟩])) x = _ from
                (congrFun (View.read_writes_whole (r2V).view a2 _) x).trans (congrFun (GPvO_eq d L yv (idxPay d L iv) hpay _ _ _ _ rfl) x))
            iexact HD2
          isplitl [HC3 HD3]
          · isplitl [HC3]
            · iexists _; isplitl [HC3]; · iexact HC3
              ipureintro; intro x
              rw [View.read_writes_whole]
              exact (show ReadAs.same.apply (View.read (Elt F) (r3V).view ((r3V).view.writes (Elt F) a3 [⟨Rect.whole cc1_scratch4.ty.shape, GPvO d L yv (idxPay d L iv) hpay ![400 * k.val + 240] (off_inb _ (by omega))⟩])) x = _ from
                (congrFun (View.read_writes_whole (r3V).view a3 _) x).trans (congrFun (GPvO_eq d L yv (idxPay d L iv) hpay _ _ _ _ rfl) x))
            iexact HD3
          · isplitl [Ho4_dst]
            · iexists _; isplitl [Ho4_dst]; · iexact Ho4_dst
              ipureintro; intro x
              rw [View.read_writes_whole, ReadAs.apply_same]
              exact (congrFun (View.read_writes_whole (r4V).view a4 _) x).trans (congrFun (GPvO_eq d L yv (idxPay d L iv) hpay _ _ _ _ rfl) x)
            iexact HD4
        isplitl [Ho0 Ho1 Ho2 Ho3]
        · isplitl [Ho0]; · iexact Ho0
          isplitl [Ho1]; · iexact Ho1
          isplitl [Ho2]; · iexact Ho2
          iexact Ho3
        iexists k; iexists rfl; iexists ((r4V).view.writes (Elt F) a4 [⟨Rect.whole cc1_scratch5.ty.shape, GPvO d L yv (idxPay d L iv) hpay ![400 * t.val + 320] (off_inb _ (by have := t.isLt; omega))⟩])
        iapply (Entails.of_eq (OFO4_congr d L ov yv (idxPay d L iv) hpay k (k1_off5 k) ![400 * k.val + 320] (k1_off5_inb k hc1) (off_inb _ (by omega)) (by rw [k1_off5_eq]) _))
        unfold OFO4; iexact Ho4

      · have hc2 := c2 k hkpos
        obtain ⟨hc3, hc5, hc7, hc9⟩ := c3' k (by omega)
        rw [inv_lt d L q yv iv ov (idxPay d L iv) hpay O W k.val hk25]
        unfold invBase invLoop
        rw [if_neg (by omega : ¬ k.val = 0), Todo0_head d L ov k, Todo1_head d L ov k, Todo2_head d L ov k, Todo3_head d L ov k, Todo4_head d L ov k]
        unfold GBO0 GBO1 GBO2 GBO3 IBO4 OFO4
        iintro ⟨⟨#Hmw, HI, Hsc, ⟨%W', %hW', HO⟩, ⟨HC0, HT0⟩, ⟨HC1, HT1⟩, ⟨HC2, HT2⟩, ⟨HC3, HT3⟩, ⟨HC4, HT4⟩⟩, ⟨%a0, Hg0, HY0, HS0, HR0⟩, ⟨%a1, Hg1, HY1, HS1, HR1⟩, ⟨%a2, Hg2, HY2, HS2, HR2⟩, ⟨%a3, Hg3, HY3, HS3, HR3⟩, ⟨HY4, HS4, Hg4⟩, ⟨HD0, HD1, HD2, HD3, HD4⟩, ⟨Ho0, Ho1, Ho2, Ho3⟩, ⟨%t, %ht, %a4, Ho4⟩⟩
        sl_exec
        sl_step
        have hk24e : k.val = 24 := by omega
        rw [inv_end d L q yv iv ov (idxPay d L iv) hpay O W (k.val + 1) (by omega)]
        unfold invBase invEnd
        rw [show Done0 d L yv (idxPay d L iv) hpay 24 = Done0 d L yv (idxPay d L iv) hpay k.val from by rw [hk24e],
          show Done1 d L yv (idxPay d L iv) hpay 24 = Done1 d L yv (idxPay d L iv) hpay k.val from by rw [hk24e],
          show Done2 d L yv (idxPay d L iv) hpay 24 = Done2 d L yv (idxPay d L iv) hpay k.val from by rw [hk24e],
          show Done3 d L yv (idxPay d L iv) hpay 24 = Done3 d L yv (idxPay d L iv) hpay k.val from by rw [hk24e],
          show Done4 d L yv (idxPay d L iv) hpay 24 = Done4 d L yv (idxPay d L iv) hpay (t.val + 1) from by rw [show t.val + 1 = 24 by omega],
          Done4_succ d L yv (idxPay d L iv) hpay t,
          show Done4 d L yv (idxPay d L iv) hpay t.val = Done4 d L yv (idxPay d L iv) hpay (k.val - 1) from by rw [show t.val = k.val - 1 by omega]]
        isplitl [HI Hsc HO HT0 HT1 HT2 HT3 HT4]
        · isplitr; · iexact Hmw
          isplitl [HI]; · iexact HI
          isplitl [Hsc]; · iexact Hsc
          isplitl [HO]
          · iexists _; isplitr
            swap; · iexact HO
            ipureintro
            repeat (first | exact hW' | apply wkey)
          isplitl [HT0]; · iexact HT0
          isplitl [HT1]; · iexact HT1
          isplitl [HT2]; · iexact HT2
          isplitl [HT3]; · iexact HT3
          iexact HT4
        isplitl [Ho0]
        · iexists k; iexists hk24e; iexists a0; unfold OFO0; iexact Ho0
        isplitl [Ho1]
        · iexists k; iexists hk24e; iexists a1; unfold OFO1; iexact Ho1
        isplitl [Ho2]
        · iexists k; iexists hk24e; iexists a2; unfold OFO2; iexact Ho2
        isplitl [Ho3]
        · iexists k; iexists hk24e; iexists a3; unfold OFO3; iexact Ho3
        isplitl [Ho4]
        · iexists k; iexists hk24e; iexists ((r4V).view.writes (Elt F) a4 [⟨Rect.whole cc1_scratch5.ty.shape, GPvO d L yv (idxPay d L iv) hpay ![400 * t.val + 320] (off_inb _ (by have := t.isLt; omega))⟩])
          iapply (Entails.of_eq (OFO4_congr d L ov yv (idxPay d L iv) hpay k (k1_off5 k) ![400 * k.val + 320] (k1_off5_inb k hc1) (off_inb _ (by omega)) (by rw [k1_off5_eq]) _))
          unfold OFO4; iexact Ho4
        isplitl [HY0 HS0 Hg0 HY1 HS1 Hg1 HY2 HS2 Hg2 HY3 HS3 Hg3 HY4 HS4 Hg4]
        · isplitl [HY0 HS0 Hg0]
          · unfold IBO0; isplitl [HY0]; · iexact HY0
            isplitl [HS0]; · iexact HS0
            iexact Hg0
          isplitl [HY1 HS1 Hg1]
          · unfold IBO1; isplitl [HY1]; · iexact HY1
            isplitl [HS1]; · iexact HS1
            iexact Hg1
          isplitl [HY2 HS2 Hg2]
          · unfold IBO2; isplitl [HY2]; · iexact HY2
            isplitl [HS2]; · iexact HS2
            iexact Hg2
          isplitl [HY3 HS3 Hg3]
          · unfold IBO3; isplitl [HY3]; · iexact HY3
            isplitl [HS3]; · iexact HS3
            iexact Hg3
          unfold IBO4; isplitl [HY4]; · iexact HY4
          isplitl [HS4]; · iexact HS4
          iexact Hg4
        isplitl [HD0]; · iexact HD0
        isplitl [HD1]; · iexact HD1
        isplitl [HD2]; · iexact HD2
        isplitl [HD3]; · iexact HD3
        isplitl [Ho4_dst]
        · iexists _; isplitl [Ho4_dst]; · iexact Ho4_dst
          ipureintro; intro x
          rw [View.read_writes_whole, ReadAs.apply_same]
          exact (congrFun (View.read_writes_whole (r4V).view a4 _) x).trans (congrFun (GPvO_eq d L yv (idxPay d L iv) hpay _ _ _ _ rfl) x)
        iexact HD4

  · rw [inv_lt d L q yv iv ov (idxPay d L iv) hpay O W 0 (by omega)]
    unfold invBase invLoop
    rw [if_pos rfl, Done0_zero, Done1_zero, Done2_zero, Done3_zero, show (0 : ℕ) - 1 = 0 from rfl, Done4_zero]
    isplitl [HI Hsc HO HT0 HT1 HT2 HT3 HT4]
    · isplitr; · iexact Hmw
      isplitl [HI]; · iexact HI
      isplitl [Hsc]; · iexact Hsc
      isplitl [HO]
      · iexists _; isplitr
        swap; · iexact HO
        ipureintro
        repeat (first | exact (fun p hp => Or.inl hp) | apply wkey)
      isplitl [HT0]; · iexact HT0
      isplitl [HT1]; · iexact HT1
      isplitl [HT2]; · iexact HT2
      isplitl [HT3]; · iexact HT3
      iexact HT4
    isplitl [Hg0 HY0 HS0 HR0]
    · iexists a0; unfold GBO0
      isplitl [Hg0]; · iexact Hg0
      isplitl [HY0]; · iexact HY0
      isplitl [HS0]; · iexact HS0
      iexact HR0
    isplitl [Hg1 HY1 HS1 HR1]
    · iexists a1; unfold GBO1
      isplitl [Hg1]; · iexact Hg1
      isplitl [HY1]; · iexact HY1
      isplitl [HS1]; · iexact HS1
      iexact HR1
    isplitl [Hg2 HY2 HS2 HR2]
    · iexists a2; unfold GBO2
      isplitl [Hg2]; · iexact Hg2
      isplitl [HY2]; · iexact HY2
      isplitl [HS2]; · iexact HS2
      iexact HR2
    isplitl [Hg3 HY3 HS3 HR3]
    · iexists a3; unfold GBO3
      isplitl [Hg3]; · iexact Hg3
      isplitl [HY3]; · iexact HY3
      isplitl [HS3]; · iexact HS3
      iexact HR3
    isplitl [HY4 HS4 Hg4]
    · unfold IBO4; isplitl [HY4]; · iexact HY4
      isplitl [HS4]; · iexact HS4
      iexact Hg4
    isplitl []
    · isplitl []; · iempintro
      isplitl []; · iempintro
      isplitl []; · iempintro
      isplitl []; · iempintro
      iempintro
    isplitl [Ho0 Ho1 Ho2 Ho3]
    · isplitl [Ho0]; · iexact Ho0
      isplitl [Ho1]; · iexact Ho1
      isplitl [Ho2]; · iexact Ho2
      iexact Ho3
    isplitl [HR4]; · iexists a4; iexact HR4
    iexact Ho4

  iintro %u
  have hexit : ¬ Scf.trips k1_t1_loop.lb k1_t1_loop.ub k1_t1_loop.st < 25 := by
    have h25' : Scf.trips k1_t1_loop.lb k1_t1_loop.ub k1_t1_loop.st = 25 := rfl
    omega
  rw [inv_end d L q yv iv ov (idxPay d L iv) hpay O W _ hexit u]
  unfold invBase invEnd OFO0 OFO1 OFO2 OFO3 OFO4 IBO0 IBO1 IBO2 IBO3 IBO4
  iintro ⟨⟨-, HI, Hsc, ⟨%W', %hW', HO⟩, -⟩, ⟨%t0, %ht0, %a0, Ho0⟩, ⟨%t1, %ht1, %a1, Ho1⟩, ⟨%t2, %ht2, %a2, Ho2⟩, ⟨%t3, %ht3, %a3, Ho3⟩, ⟨%t4, %ht4, %a4, Ho4⟩, ⟨⟨HY0, HS0, Hg0⟩, ⟨HY1, HS1, Hg1⟩, ⟨HY2, HS2, Hg2⟩, ⟨HY3, HS3, Hg3⟩, ⟨HY4, HS4, Hg4⟩⟩, ⟨HD0, HD1, HD2, HD3, HD4⟩⟩
  sl_exec
  sl_step
  rw [show Done0 d L yv (idxPay d L iv) hpay 25 = Done0 d L yv (idxPay d L iv) hpay (t0.val + 1) from by rw [show t0.val + 1 = 25 by omega], Done0_succ d L yv (idxPay d L iv) hpay t0,
    show Done0 d L yv (idxPay d L iv) hpay t0.val = Done0 d L yv (idxPay d L iv) hpay 24 from by rw [ht0],
    show Done1 d L yv (idxPay d L iv) hpay 25 = Done1 d L yv (idxPay d L iv) hpay (t1.val + 1) from by rw [show t1.val + 1 = 25 by omega], Done1_succ d L yv (idxPay d L iv) hpay t1,
    show Done1 d L yv (idxPay d L iv) hpay t1.val = Done1 d L yv (idxPay d L iv) hpay 24 from by rw [ht1],
    show Done2 d L yv (idxPay d L iv) hpay 25 = Done2 d L yv (idxPay d L iv) hpay (t2.val + 1) from by rw [show t2.val + 1 = 25 by omega], Done2_succ d L yv (idxPay d L iv) hpay t2,
    show Done2 d L yv (idxPay d L iv) hpay t2.val = Done2 d L yv (idxPay d L iv) hpay 24 from by rw [ht2],
    show Done3 d L yv (idxPay d L iv) hpay 25 = Done3 d L yv (idxPay d L iv) hpay (t3.val + 1) from by rw [show t3.val + 1 = 25 by omega], Done3_succ d L yv (idxPay d L iv) hpay t3,
    show Done3 d L yv (idxPay d L iv) hpay t3.val = Done3 d L yv (idxPay d L iv) hpay 24 from by rw [ht3],
    show Done4 d L yv (idxPay d L iv) hpay 25 = Done4 d L yv (idxPay d L iv) hpay (t4.val + 1) from by rw [show t4.val + 1 = 25 by omega], Done4_succ d L yv (idxPay d L iv) hpay t4,
    show Done4 d L yv (idxPay d L iv) hpay t4.val = Done4 d L yv (idxPay d L iv) hpay 24 from by rw [ht4]]
  isplitl [HY0]; · iexact HY0
  isplitl [HY1]; · iexact HY1
  isplitl [HY2]; · iexact HY2
  isplitl [HY3]; · iexact HY3
  isplitl [HY4]; · iexact HY4
  isplitl [HI]; · iexact HI
  isplitl [HSR HS0 HS1 HS2 HS3 HS4]
  · iexists (svalOf d L (idxPay d L iv))
    iapply (sToks d L _).2
    isplitl [HSR]; · iexact HSR
    isplitl [HS0]; · iexact HS0
    isplitl [HS1]; · iexact HS1
    isplitl [HS2]; · iexact HS2
    isplitl [HS3]; · iexact HS3
    iexact HS4
  isplitl [Ho0_src]; · iexists _; iexact Ho0_src
  isplitl [Ho1_src]; · iexists _; iexact Ho1_src
  isplitl [Ho2_src]; · iexists _; iexact Ho2_src
  isplitl [Ho3_src]; · iexists _; iexact Ho3_src
  isplitl [Ho4_src]; · iexists _; iexact Ho4_src
  isplitl [Ho0_dst HD0 Ho1_dst HD1 Ho2_dst HD2 Ho3_dst HD3 Ho4_dst HD4]
  · isplitl [Ho0_dst HD0]
    · isplitl [Ho0_dst]
      · iexists _; isplitl [Ho0_dst]; · iexact Ho0_dst
        ipureintro; intro x
        rw [View.read_writes_whole, ReadAs.apply_same]
        exact (congrFun (View.read_writes_whole (r0V).view a0 _) x).trans (congrFun (GPvO_eq d L yv (idxPay d L iv) hpay _ _ _ _ rfl) x)
      iexact HD0
    isplitl [Ho1_dst HD1]
    · isplitl [Ho1_dst]
      · iexists _; isplitl [Ho1_dst]; · iexact Ho1_dst
        ipureintro; intro x
        rw [View.read_writes_whole, ReadAs.apply_same]
        exact (congrFun (View.read_writes_whole (r1V).view a1 _) x).trans (congrFun (GPvO_eq d L yv (idxPay d L iv) hpay _ _ _ _ rfl) x)
      iexact HD1
    isplitl [Ho2_dst HD2]
    · isplitl [Ho2_dst]
      · iexists _; isplitl [Ho2_dst]; · iexact Ho2_dst
        ipureintro; intro x
        rw [View.read_writes_whole, ReadAs.apply_same]
        exact (congrFun (View.read_writes_whole (r2V).view a2 _) x).trans (congrFun (GPvO_eq d L yv (idxPay d L iv) hpay _ _ _ _ rfl) x)
      iexact HD2
    isplitl [Ho3_dst HD3]
    · isplitl [Ho3_dst]
      · iexists _; isplitl [Ho3_dst]; · iexact Ho3_dst
        ipureintro; intro x
        rw [View.read_writes_whole, ReadAs.apply_same]
        exact (congrFun (View.read_writes_whole (r3V).view a3 _) x).trans (congrFun (GPvO_eq d L yv (idxPay d L iv) hpay _ _ _ _ rfl) x)
      iexact HD3
    isplitl [Ho4_dst]
    · iexists _; isplitl [Ho4_dst]; · iexact Ho4_dst
      ipureintro; intro x
      rw [View.read_writes_whole, ReadAs.apply_same]
      exact (congrFun (View.read_writes_whole (r4V).view a4 _) x).trans (congrFun (GPvO_eq d L yv (idxPay d L iv) hpay _ _ _ _ rfl) x)
    iexact HD4
  isplitl [Hg0 Hg1 Hg2 Hg3 Hg4 Ho0 Ho1 Ho2 Ho3 Ho4 Hsc]
  · isplitl [Hg0]; · iexact Hg0
    isplitl [Hg1]; · iexact Hg1
    isplitl [Hg2]; · iexact Hg2
    isplitl [Hg3]; · iexact Hg3
    isplitl [Hg4]; · iexact Hg4
    isplitl [Ho0]; · iexact Ho0
    isplitl [Ho1]; · iexact Ho1
    isplitl [Ho2]; · iexact Ho2
    isplitl [Ho3]; · iexact Ho3
    isplitl [Ho4]; · iexact Ho4
    iexact Hsc
  iexists _; iexact HO

end Cert.KernelIdeal.Hand
end
-- ==== Proof.TileBodyI.lean ====
/-
  The task of one vector subcore from what the launch deals it to what it hands back: the tile's eleven transfer
  semaphores and six scratch buffers out of its own, its share of y cut into read tokens and rejoined, its result
  rows as its five slots' runs of chunks, around the task's run.
-/
import proofs.«207968_g22119081574525_cont_sun_m_427_17_alg».proof.Proof.TileDefsI
import proofs.«207968_g22119081574525_cont_sun_m_427_17_alg».proof.Proof.TileIdxI
import proofs.«207968_g22119081574525_cont_sun_m_427_17_alg».proof.Proof.PartsI
import proofs.«207968_g22119081574525_cont_sun_m_427_17_alg».proof.Proof.PayI
import proofs.«207968_g22119081574525_cont_sun_m_427_17_alg».proof.Proof.TileJoinI
import proofs.«207968_g22119081574525_cont_sun_m_427_17_alg».proof.Proof.TileRunI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v4_scv : Memref Cert.KernelIdeal.sig Kind.scVector Space.hbm Cert.KernelIdeal.S320000 EltTy.i32)
local notation "oV" => (Memref.whole Cert.KernelIdeal.main_v5_scv : Memref Cert.KernelIdeal.sig Kind.scVector Space.hbm Cert.KernelIdeal.S320000x128 EltTy.f32)
local notation "sV" => (Memref.whole Cert.KernelIdeal.cc1_scratch0 : Memref Cert.KernelIdeal.sig Kind.scVector Space.vmem Cert.KernelIdeal.S10000 EltTy.i32)
local notation "r0V" => (Memref.whole Cert.KernelIdeal.cc1_scratch1 : Memref Cert.KernelIdeal.sig Kind.scVector Space.vmem Cert.KernelIdeal.S80x128 EltTy.f32)
local notation "r1V" => (Memref.whole Cert.KernelIdeal.cc1_scratch2 : Memref Cert.KernelIdeal.sig Kind.scVector Space.vmem Cert.KernelIdeal.S80x128 EltTy.f32)
local notation "r2V" => (Memref.whole Cert.KernelIdeal.cc1_scratch3 : Memref Cert.KernelIdeal.sig Kind.scVector Space.vmem Cert.KernelIdeal.S80x128 EltTy.f32)
local notation "r3V" => (Memref.whole Cert.KernelIdeal.cc1_scratch4 : Memref Cert.KernelIdeal.sig Kind.scVector Space.vmem Cert.KernelIdeal.S80x128 EltTy.f32)
local notation "r4V" => (Memref.whole Cert.KernelIdeal.cc1_scratch5 : Memref Cert.KernelIdeal.sig Kind.scVector Space.vmem Cert.KernelIdeal.S80x128 EltTy.f32)

variable (d : Dev nD) (L : grid1.Coords)

/-! ## The subcore's own cells and buffers -/

/-- the eleven transfer semaphores the task names, as a family: cells 6 … 16 -/
abbrev dcell (d : Dev nD) (c : Fin τ.nSC) (i : Fin τ.nSub) (k : Fin 11) : GSem nD τ sig := (V d c i, .dma ⟨6 + k.val, by have := k.isLt; show 6 + k.val < 17; omega⟩)

/-- the eleven at zero, in the body's spelling -/
abbrev cells0 (d : Dev nD) (L : grid1.Coords) : sProp 𝕄 :=
  iprop(semVal (VT d L, SemLoc.dma cc1_scratch6.sem) 0 ∗ semVal (VT d L, SemLoc.dma cc1_scratch7.sem) 0 ∗ semVal (VT d L, SemLoc.dma cc1_scratch8.sem) 0
    ∗ semVal (VT d L, SemLoc.dma cc1_scratch9.sem) 0 ∗ semVal (VT d L, SemLoc.dma cc1_scratch10.sem) 0 ∗ semVal (VT d L, SemLoc.dma cc1_scratch11.sem) 0
    ∗ semVal (VT d L, SemLoc.dma cc1_scratch12.sem) 0 ∗ semVal (VT d L, SemLoc.dma cc1_scratch13.sem) 0 ∗ semVal (VT d L, SemLoc.dma cc1_scratch14.sem) 0
    ∗ semVal (VT d L, SemLoc.dma cc1_scratch15.sem) 0 ∗ semVal (VT d L, SemLoc.dma cc1_scoped0.sem) 0)

theorem dcell_mem (c : Fin τ.nSC) (i : Fin τ.nSub) (k : Fin 11) : dcell d c i k ∈ ownCells (V d c i) :=
  mem_ownCells.mpr ⟨rfl, (show ∀ s : DmaSem sig, (SemLoc.dma s : SemLoc sig).isScoped .scVector = true by decide) _⟩

/-- the subcore's own cells at zero: the eleven the task names, one by one, and the rest -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- the subcore's own buffers but the six scratch buffers -/
abbrev restRefs (L : grid1.Coords) : Finset (DevRef τ sig) :=
  ((((((ownRefs (τ := τ) (.scVector (cV L) (jV L))).erase ((Proc.scVector (cV L) (jV L)).devRef cc1_scratch0)).erase
    ((Proc.scVector (cV L) (jV L)).devRef cc1_scratch1)).erase ((Proc.scVector (cV L) (jV L)).devRef cc1_scratch2)).erase
    ((Proc.scVector (cV L) (jV L)).devRef cc1_scratch3)).erase ((Proc.scVector (cV L) (jV L)).devRef cc1_scratch4)).erase
    ((Proc.scVector (cV L) (jV L)).devRef cc1_scratch5)

/-- the six scratch buffers are among the subcore's own: they are them, at some contents, and the rest -/
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f) ∗ (∃ f, (VT d L).loc cc1_scratch3 ↦{fullShare} f)
          ∗ (∃ f, (VT d L).loc cc1_scratch4 ↦{fullShare} f) ∗ (∃ f, (VT d L).loc cc1_scratch5 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (i := (Proc.scVector (cV L) (jV L)).devRef cc1_scratch1) (by
      simp only [Finset.mem_erase]
      exact ⟨fun e => absurd (Proc.devRef_injective _ e) (show (cc1_scratch1 : Ref sig .scVector) ≠ cc1_scratch0 by decide), SparseCore.Cfg.mem_ownRefs_of_owner rfl⟩),
    SparseCore.bigSep_erase' (i := (Proc.scVector (cV L) (jV L)).devRef cc1_scratch2) (by
      simp only [Finset.mem_erase]
      exact ⟨fun e => absurd (Proc.devRef_injective _ e) (show (cc1_scratch2 : Ref sig .scVector) ≠ cc1_scratch1 by decide), fun e => absurd (Proc.devRef_injective _ e) (show (cc1_scratch2 : Ref sig .scVector) ≠ cc1_scratch0 by decide), SparseCore.Cfg.mem_ownRefs_of_owner rfl⟩),
    SparseCore.bigSep_erase' (i := (Proc.scVector (cV L) (jV L)).devRef cc1_scratch3) (by
      simp only [Finset.mem_erase]
      exact ⟨fun e => absurd (Proc.devRef_injective _ e) (show (cc1_scratch3 : Ref sig .scVector) ≠ cc1_scratch2 by decide), fun e => absurd (Proc.devRef_injective _ e) (show (cc1_scratch3 : Ref sig .scVector) ≠ cc1_scratch1 by decide), fun e => absurd (Proc.devRef_injective _ e) (show (cc1_scratch3 : Ref sig .scVector) ≠ cc1_scratch0 by decide), SparseCore.Cfg.mem_ownRefs_of_owner rfl⟩),
    SparseCore.bigSep_erase' (i := (Proc.scVector (cV L) (jV L)).devRef cc1_scratch4) (by
      simp only [Finset.mem_erase]
      exact ⟨fun e => absurd (Proc.devRef_injective _ e) (show (cc1_scratch4 : Ref sig .scVector) ≠ cc1_scratch3 by decide), fun e => absurd (Proc.devRef_injective _ e) (show (cc1_scratch4 : Ref sig .scVector) ≠ cc1_scratch2 by decide), fun e => absurd (Proc.devRef_injective _ e) (show (cc1_scratch4 : Ref sig .scVector) ≠ cc1_scratch1 by decide), fun e => absurd (Proc.devRef_injective _ e) (show (cc1_scratch4 : Ref sig .scVector) ≠ cc1_scratch0 by decide), SparseCore.Cfg.mem_ownRefs_of_owner rfl⟩),
    SparseCore.bigSep_erase' (i := (Proc.scVector (cV L) (jV L)).devRef cc1_scratch5) (by
      simp only [Finset.mem_erase]
      exact ⟨fun e => absurd (Proc.devRef_injective _ e) (show (cc1_scratch5 : Ref sig .scVector) ≠ cc1_scratch4 by decide), fun e => absurd (Proc.devRef_injective _ e) (show (cc1_scratch5 : Ref sig .scVector) ≠ cc1_scratch3 by decide), fun e => absurd (Proc.devRef_injective _ e) (show (cc1_scratch5 : Ref sig .scVector) ≠ cc1_scratch2 by decide), fun e => absurd (Proc.devRef_injective _ e) (show (cc1_scratch5 : Ref sig .scVector) ≠ cc1_scratch1 by decide), fun e => absurd (Proc.devRef_injective _ e) (show (cc1_scratch5 : Ref sig .scVector) ≠ cc1_scratch0 by decide), SparseCore.Cfg.mem_ownRefs_of_owner rfl⟩)]

/-! ## The pieces in the body's spelling -/

/-- a scratch buffer whole, as the subcore names it and as the body does -/
theorem pts_sV (f : Buf (Elt F) ((VT d L).loc cc1_scratch0)) :
    ((sV).view.loc (VT d L) ↦[(sV).view.set]{fullShare} f : sProp 𝕄) = (VT d L).loc cc1_scratch0 ↦{fullShare} f := by
  simp only [Memref.view_whole, View.set_whole]
theorem pts_r0V (f : Buf (Elt F) ((VT d L).loc cc1_scratch1)) :
    ((r0V).view.loc (VT d L) ↦[(r0V).view.set]{fullShare} f : sProp 𝕄) = (VT d L).loc cc1_scratch1 ↦{fullShare} f := by
  simp only [Memref.view_whole, View.set_whole]
theorem pts_r1V (f : Buf (Elt F) ((VT d L).loc cc1_scratch2)) :
    ((r1V).view.loc (VT d L) ↦[(r1V).view.set]{fullShare} f : sProp 𝕄) = (VT d L).loc cc1_scratch2 ↦{fullShare} f := by
  simp only [Memref.view_whole, View.set_whole]
theorem pts_r2V (f : Buf (Elt F) ((VT d L).loc cc1_scratch3)) :
    ((r2V).view.loc (VT d L) ↦[(r2V).view.set]{fullShare} f : sProp 𝕄) = (VT d L).loc cc1_scratch3 ↦{fullShare} f := by
  simp only [Memref.view_whole, View.set_whole]
theorem pts_r3V (f : Buf (Elt F) ((VT d L).loc cc1_scratch4)) :
    ((r3V).view.loc (VT d L) ↦[(r3V).view.set]{fullShare} f : sProp 𝕄) = (VT d L).loc cc1_scratch4 ↦{fullShare} f := by
  simp only [Memref.view_whole, View.set_whole]
theorem pts_r4V (f : Buf (Elt F) ((VT d L).loc cc1_scratch5)) :
    ((r4V).view.loc (VT d L) ↦[(r4V).view.set]{fullShare} f : sProp 𝕄) = (VT d L).loc cc1_scratch5 ↦{fullShare} f := by
  simp only [Memref.view_whole, View.set_whole]

/-- the tile's share of y as what stays with it, six tokens it does not use, and the five slots' read tokens -/
theorem yToks (q : PosShare TreeShare) (f : Buf (Elt F) (yLoc d)) :
    (yLoc d ↦{q} f : sProp 𝕄) ⊣⊢ iprop(
      (((yV).view.loc (VT d L) ↦{Transfers.shareDrop q 11} f)
        ∗ ((yV).view.loc (VT d L) ↦{Transfers.shareTokN q 0} f)
        ∗ ((yV).view.loc (VT d L) ↦{Transfers.shareTokN q 1} f)
        ∗ ((yV).view.loc (VT d L) ↦{Transfers.shareTokN q 2} f)
        ∗ ((yV).view.loc (VT d L) ↦{Transfers.shareTokN q 3} f)
        ∗ ((yV).view.loc (VT d L) ↦{Transfers.shareTokN q 4} f)
        ∗ ((yV).view.loc (VT d L) ↦{Transfers.shareTokN q 5} f))
      ∗ ((yV).view.loc (VT d L) ↦{Transfers.shareTokN q 6} f)
      ∗ ((yV).view.loc (VT d L) ↦{Transfers.shareTokN q 7} f)
      ∗ ((yV).view.loc (VT d L) ↦{Transfers.shareTokN q 8} f)
      ∗ ((yV).view.loc (VT d L) ↦{Transfers.shareTokN q 9} f)
      ∗ ((yV).view.loc (VT d L) ↦{Transfers.shareTokN q 10} f)) := by
  have h : (yLoc d ↦{q} f : sProp 𝕄) ⊣⊢ iprop(((yV).view.loc (VT d L) ↦{Transfers.shareDrop q 11} f)
      ∗ bigSep (Finset.range 11) fun i => (yV).view.loc (VT d L) ↦{Transfers.shareTokN q i} f) :=
    Transfers.pointsTo_toks_range (ℓ := yLoc d) (S := Finset.univ) (f := f) q 11
  rw [show Finset.range 11 = {0, 1, 2, 3, 4, 5, 6, 7, 8, 9, 10} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  refine h.trans ?_
  constructor
  · iintro ⟨Hd, H0, H1, H2, H3, H4, H5, H6, H7, H8, H9, H10⟩
    isplitl [Hd H0 H1 H2 H3 H4 H5]
    · isplitl [Hd]; · iexact Hd
      isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    isplitl [H8]; · iexact H8
    isplitl [H9]; · iexact H9
    iexact H10
  · iintro ⟨⟨Hd, H0, H1, H2, H3, H4, H5⟩, H6, H7, H8, H9, H10⟩
    isplitl [Hd]; · iexact Hd
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

variable [FloatOps F]

/-- The task on the vector subcore of tile (c, s) of device d, from what the launch deals it (its share of y, its
    entries of the flat edge row, its result rows, its scoped buffers and cells) to what it hands back. -/
theorem tile_body (hF : (K (F := F)).Facts) (d : Dev nD) (c : Fin 2) (s : Fin 16)
    (yv : Buf (Elt F) (yLoc d)) (iv : Buf (Elt F) (iLoc d)) (ov : Buf (Elt F) (oLoc d)) (hin : ∀ j, (iv j).toNat < 10000)
    (O : CellTallies nD τ sig (HIx 1)) (W : Waits sig (HIx 1)) (hO : ∀ g, O g none = 0) :
    (iprop(levAts (K (F := F)).L (K (F := F)).lev ∗ emp ∗ tilePts d c s yv iv ov
        ∗ scopedBufs (VT d (coordsV c s)) ∗ scopedSems0 (VT d (coordsV c s)) ∗ owes (VT d (coordsV c s)) O W) : sProp 𝕄)
      ⊢ wp frame (wpE (defs₀ (F := F)) 𝒱₀ (VT d (coordsV c s)) none) Set.univ
          (cc1__gather_body (coordsV c s) yV (Memref.isWhole_whole _) iV (Memref.isWhole_whole _) oV (Memref.isWhole_whole _)
            sV (Memref.isWhole_whole _) r0V (Memref.isWhole_whole _) r1V (Memref.isWhole_whole _) r2V (Memref.isWhole_whole _) r3V (Memref.isWhole_whole _) r4V (Memref.isWhole_whole _)
            cc1_scratch6 cc1_scratch7 cc1_scratch8 cc1_scratch9 cc1_scratch10 cc1_scratch11 cc1_scratch12 cc1_scratch13 cc1_scratch14 cc1_scratch15 cc1_scoped0)
          fun _ => iprop(tilePts d c s yv iv (outBuf d yv iv) ∗ scopedBufs (VT d (coordsV c s)) ∗ scopedSems0 (VT d (coordsV c s))
            ∗ ∃ W', ⌜∀ p ∈ W', p ∈ W ∨ p.2 = none ∨ p.2 = some (0 : Fin 1)⌝ ∗ owes (VT d (coordsV c s)) O W') := by
  rw [(K (F := F)).scopedBufs_V hF d (cV (coordsV c s)) (jV (coordsV c s)),
    SparseCore.Cfg.scopedSems0_V (Val := Elt F) d (cV (coordsV c s)) (jV (coordsV c s)), ownSems0_V, ownBufs_V]
  iintro ⟨#Hlv, -, ⟨Hy, Hi, Ho⟩, ⟨⟨%g0, HS⟩, ⟨%b0, HR0⟩, ⟨%b1, HR1⟩, ⟨%b2, HR2⟩, ⟨%b3, HR3⟩, ⟨%b4, HR4⟩, Hbufs⟩, ⟨HC, Hsems⟩, HO⟩
  ihave Hmw := (show levAts (K (F := F)).L (K (F := F)).lev ⊢ Transfers.MayWaits (VT d (coordsV c s)) (default : HIx 1) O from
    (K (F := F)).mayWaits_none (thr := VT d (coordsV c s)) hO) $$ Hlv
  ihave Hi' := (Entails.of_eq (pts_iTileK (F := F) d (coordsV c s) fullShare iv).symm) $$ Hi
  ihave Ho' := (Entails.of_eq (todo_eq (F := F) d (coordsV c s) ov)) $$ Ho
  ihave HS' := (Entails.of_eq (pts_sV (F := F) d (coordsV c s) _).symm) $$ HS
  ihave HR0' := (Entails.of_eq (pts_r0V (F := F) d (coordsV c s) _).symm) $$ HR0
  ihave HR1' := (Entails.of_eq (pts_r1V (F := F) d (coordsV c s) _).symm) $$ HR1
  ihave HR2' := (Entails.of_eq (pts_r2V (F := F) d (coordsV c s) _).symm) $$ HR2
  ihave HR3' := (Entails.of_eq (pts_r3V (F := F) d (coordsV c s) _).symm) $$ HR3
  ihave HR4' := (Entails.of_eq (pts_r4V (F := F) d (coordsV c s) _).symm) $$ HR4
  ihave Hy' := (yToks (F := F) d (coordsV c s) (yq c s) yv).1 $$ Hy
  icases Hy' with ⟨Hyr, Hy6, Hy7, Hy8, Hy9, Hy10⟩
  iapply (wp_wand_r Idealize.ShloMosaic.frame (wpE (defs₀ (F := F)) 𝒱₀ (VT d (coordsV c s)) none) Set.univ)
  isplitl [Hy6 Hy7 Hy8 Hy9 Hy10 Hi' HS' HR0' HR1' HR2' HR3' HR4' Ho' HC HO]
  · iapply (tile_run (F := F) d (coordsV c s) O W (yq c s) yv iv ov hin g0 b0 b1 b2 b3 b4)
    isplitr; · iexact Hmw
    isplitl [Hy6]; · iexact Hy6
    isplitl [Hy7]; · iexact Hy7
    isplitl [Hy8]; · iexact Hy8
    isplitl [Hy9]; · iexact Hy9
    isplitl [Hy10]; · iexact Hy10
    isplitl [Hi']; · iexact Hi'
    isplitl [HS']; · iexact HS'
    isplitl [HR0']; · iexact HR0'
    isplitl [HR1']; · iexact HR1'
    isplitl [HR2']; · iexact HR2'
    isplitl [HR3']; · iexact HR3'
    isplitl [HR4']; · iexact HR4'
    isplitl [Ho']; · iexact Ho'
    isplitl [HC]; · iexact HC
    iexact HO
  iintro %_ ⟨Hy6, Hy7, Hy8, Hy9, Hy10, Hi', ⟨%s1, HS'⟩, ⟨%a0, HR0'⟩, ⟨%a1, HR1'⟩, ⟨%a2, HR2'⟩, ⟨%a3, HR3'⟩, ⟨%a4, HR4'⟩, HD, HC, ⟨%W', HO⟩⟩
  ihave Hy := (yToks (F := F) d (coordsV c s) (yq c s) yv).2 $$ [Hyr Hy6 Hy7 Hy8 Hy9 Hy10]
  · isplitl [Hyr]; · iexact Hyr
    isplitl [Hy6]; · iexact Hy6
    isplitl [Hy7]; · iexact Hy7
    isplitl [Hy8]; · iexact Hy8
    isplitl [Hy9]; · iexact Hy9
    iexact Hy10
  ihave Ho := (done_join (F := F) d (coordsV c s) yv iv hin) $$ HD
  isplitl [Hy Hi' Ho]
  · isplitl [Hy]; · iexact Hy
    isplitl [Hi']; · iapply (Entails.of_eq (pts_iTileK (F := F) d (coordsV c s) fullShare iv)); iexact Hi'
    iexact Ho
  isplitl [HS' HR0' HR1' HR2' HR3' HR4' Hbufs]
  · isplitl [HS']; · iexists _; iapply (Entails.of_eq (pts_sV (F := F) d (coordsV c s) _)); iexact HS'
    isplitl [HR0']; · iexists _; iapply (Entails.of_eq (pts_r0V (F := F) d (coordsV c s) _)); iexact HR0'
    isplitl [HR1']; · iexists _; iapply (Entails.of_eq (pts_r1V (F := F) d (coordsV c s) _)); iexact HR1'
    isplitl [HR2']; · iexists _; iapply (Entails.of_eq (pts_r2V (F := F) d (coordsV c s) _)); iexact HR2'
    isplitl [HR3']; · iexists _; iapply (Entails.of_eq (pts_r3V (F := F) d (coordsV c s) _)); iexact HR3'
    isplitl [HR4']; · iexists _; iapply (Entails.of_eq (pts_r4V (F := F) d (coordsV c s) _)); iexact HR4'
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

end Cert.KernelIdeal.Hand

end
-- ==== Proof.TileOblI.lean ====
/-
  The task of one vector subcore, as the launch theorem asks for it: from the tile's share of y, its entries of the
  edge list and its result rows to the result rows holding the gathered rows of y.
-/
import proofs.«207968_g22119081574525_cont_sun_m_427_17_alg».proof.Proof.LaunchI
import proofs.«207968_g22119081574525_cont_sun_m_427_17_alg».proof.Proof.TileBodyI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "yV" => (Memref.whole Cert.KernelIdeal.main_v2_scv : Memref Cert.KernelIdeal.sig Kind.scVector Space.hbm Cert.KernelIdeal.S10000x128 EltTy.f32)
local notation "iV" => (Memref.whole Cert.KernelIdeal.main_v4_scv : Memref Cert.KernelIdeal.sig Kind.scVector Space.hbm Cert.KernelIdeal.S320000 EltTy.i32)
local notation "oV" => (Memref.whole Cert.KernelIdeal.main_v5_scv : Memref Cert.KernelIdeal.sig Kind.scVector Space.hbm Cert.KernelIdeal.S320000x128 EltTy.f32)
local notation "sV" => (Memref.whole Cert.KernelIdeal.cc1_scratch0 : Memref Cert.KernelIdeal.sig Kind.scVector Space.vmem Cert.KernelIdeal.S10000 EltTy.i32)
local notation "r0V" => (Memref.whole Cert.KernelIdeal.cc1_scratch1 : Memref Cert.KernelIdeal.sig Kind.scVector Space.vmem Cert.KernelIdeal.S80x128 EltTy.f32)
local notation "r1V" => (Memref.whole Cert.KernelIdeal.cc1_scratch2 : Memref Cert.KernelIdeal.sig Kind.scVector Space.vmem Cert.KernelIdeal.S80x128 EltTy.f32)
local notation "r2V" => (Memref.whole Cert.KernelIdeal.cc1_scratch3 : Memref Cert.KernelIdeal.sig Kind.scVector Space.vmem Cert.KernelIdeal.S80x128 EltTy.f32)
local notation "r3V" => (Memref.whole Cert.KernelIdeal.cc1_scratch4 : Memref Cert.KernelIdeal.sig Kind.scVector Space.vmem Cert.KernelIdeal.S80x128 EltTy.f32)
local notation "r4V" => (Memref.whole Cert.KernelIdeal.cc1_scratch5 : Memref Cert.KernelIdeal.sig Kind.scVector Space.vmem Cert.KernelIdeal.S80x128 EltTy.f32)

/-- every entry of the edge list's second row names a node -/
def PreOK (m : (ℓ : Loc nD τ sig) → Buf (Elt F) ℓ) : Prop := ∀ (d : Dev nD) (j : S320000.Idx), (ivOf m d j).toNat < 10000

theorem defs₀_vector (c : Fin τ.nSC) (s : Fin τ.nSub) :
    defs₀ (F := F) (.scVector c s) 1 ()
      = SparseCore.onTile hcore1 hsub1 (fun c s => cc1__gather_body (coordsV c s)
          yV (Memref.isWhole_whole _) iV (Memref.isWhole_whole _) oV (Memref.isWhole_whole _)
          sV (Memref.isWhole_whole _) r0V (Memref.isWhole_whole _) r1V (Memref.isWhole_whole _) r2V (Memref.isWhole_whole _) r3V (Memref.isWhole_whole _) r4V (Memref.isWhole_whole _)
          cc1_scratch6 cc1_scratch7 cc1_scratch8 cc1_scratch9 cc1_scratch10 cc1_scratch11 cc1_scratch12 cc1_scratch13 cc1_scratch14 cc1_scratch15 cc1_scoped0) ⟨⟩ c s := rfl

theorem tileObl (m : (ℓ : Loc nD τ sig) → Buf (Elt F) ℓ) (hpre : PreOK m) :
    (K (F := F)).TileObl (D (F := F)) 𝒱 (P (F := F) (yvOf m) (ivOf m) (ovOf m)) v₀ 0 := by
  intro d c i O W hO _ _
  simp only [show (P (F := F) (yvOf m) (ivOf m) (ovOf m)).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  simp only [go_def, td_def]
  unfold goP tdP
  have ec : Fin.cast nCore_zero c = (⟨((K (F := F)).core 0 c).val, hci.1⟩ : Fin 2) := Fin.ext rfl
  have ei : Fin.cast nSub_zero i = (⟨((K (F := F)).sub 0 i).val, hci.2⟩ : Fin 16) := Fin.ext rfl
  rw [ec, ei]
  exact tile_body facts d ⟨_, hci.1⟩ ⟨_, hci.2⟩ (yvOf m d) (ivOf m d) (ovOf m d) (hpre d) O W hO

end Cert.KernelIdeal.Hand

end
-- ==== Proof.Spec.lean ====
/-
  The specification of the result, over extended reals, free of any program:
  row e of the result is row node(edge_index[1, e]) of x·Wᵀ + b.
-/
import Idealize.ShloMosaic.PureOps.Ideal
import Idealize.ShloMosaic.Lib.ValueIdx

noncomputable section

open scoped BigOperators

namespace Cert.Spec

open Idealize.ShloMosaic

abbrev SX : Shape := ⟨2, ![10000, 128]⟩
abbrev SE : Shape := ⟨2, ![2, 320000]⟩
abbrev SW : Shape := ⟨2, ![128, 128]⟩
abbrev SB : Shape := ⟨1, ![128]⟩
abbrev SO : Shape := ⟨2, ![320000, 128]⟩

/-- the node an edge-list word names -/
def node (v : BitVec 32) : Fin 10000 := ⟨v.toNat % 10000, Nat.mod_lt _ (by norm_num)⟩

/-- entry (r, j) of x·Wᵀ + b -/
def Y (x : SX.Idx → EReal) (W : SW.Idx → EReal) (b : SB.Idx → EReal) (r : Fin 10000) (j : Fin 128) : EReal :=
  (∑ k : Fin 128, x (ValueIdx.ix2 r k) * W (ValueIdx.ix2 j k)) + b (ValueIdx.ix1 j)

/-- the result: row e is row node(edge_index[1, e]) of x·Wᵀ + b -/
def G (x : SX.Idx → EReal) (ei : SE.Idx → BitVec 32) (W : SW.Idx → EReal) (b : SB.Idx → EReal) : SO.Idx → EReal :=
  fun i => Y x W b (node (ei (ValueIdx.ix2 (1 : Fin 2) (⟨(i 0).val, (i 0).isLt⟩ : Fin 320000))))
    (⟨(i 1).val, (i 1).isLt⟩ : Fin 128)

end Cert.Spec

end
-- ==== Proof.HostValI.lean ====
/-
  What the host operations of the kernel program's @main write, read at an index: the bias as eight equal rows,
  and row 1 of the edge list as a flat vector.
-/
import proofs.«207968_g22119081574525_cont_sun_m_427_17_alg».proof.KernelIdeal
import proofs.«207968_g22119081574525_cont_sun_m_427_17_alg».proof.Proof.Gen.KernelIdeal
import Idealize.ShloMosaic.Lib.ValueIdx
import Idealize.ShloMosaic.Lib.Pipeline.Value

noncomputable section

namespace Cert.KernelIdeal.HostVal

open Cert.KernelIdeal Cert.KernelIdeal.Gen Idealize.ShloMosaic Idealize.ShloMosaic.ValueIdx

variable {F : FTy → Type} [FloatOps F]

/-- the bias reshaped to one row and laid along eight rows: entry (r, j) is b[j] -/
theorem v1_apply (b : FVec F S128 .f32) (r : Fin 8) (j : Fin 128) :
    broadcastInDim S8x128 ![0, 1] bcast_S1x128_S8x128_0_1 (shapeCast S1x128 b shapeCasts_S128_S1x128) (ix2 r j) = b (ix1 j) := by
  refine (broadcastInDim_apply _ _ _ (ix2 r j) (ix2 (0 : Fin 1) j) fun a => ?_).trans ?_
  · match a with
    | ⟨0, _⟩ => rfl
    | ⟨1, _⟩ => rfl
  · refine shapeCast_apply _ _ (ix2 (0 : Fin 1) j) (ix1 j) ?_
    rw [Shape.rowMajor_val_two, Shape.rowMajor_val_one]
    show j.val = (0 : ℕ) * 128 + j.val
    omega

/-- row 1 of the edge list, sliced and flattened: entry e is edge_index[1, e] -/
theorem v4_apply (ei : IVec S2x320000 32) (e : Fin 320000) :
    shapeCast S320000 (extractStridedSlice S1x320000 ![1, 0] ei slices_S2x320000_S1x320000_1_0) shapeCasts_S1x320000_S320000 (ix1 e)
      = ei (ix2 (1 : Fin 2) e) := by
  refine (shapeCast_apply _ _ (ix1 e) (ix2 (0 : Fin 1) e) ?_).trans ?_
  · rw [Shape.rowMajor_val_two, Shape.rowMajor_val_one]
    show (0 : ℕ) * 320000 + e.val = e.val
    omega
  · refine extractStridedSlice_apply _ _ _ _ (ix2 (1 : Fin 2) e) fun a => ?_
    match a with
    | ⟨0, _⟩ => rfl
    | ⟨1, _⟩ =>
      show e.val = 0 + e.val
      omega

end Cert.KernelIdeal.HostVal

end
-- ==== Proof.TcValueI.lean ====
/-
  At the ideal instance the result array is the specification: entry (r, j) is  Σ_k x[r, k] · W[j, k] + b[0, j]
  (the matrix product into a zero accumulator is the plain sum over the one contracted axis; the bias row is
  broadcast down the rows; r = 2000 ⌊r / 2000⌋ + r mod 2000 puts the block's row back in the array).
-/
import proofs.«207968_g22119081574525_cont_sun_m_427_17_alg».proof.Proof.TcArrayI
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- The dimension numbers of the body's product: both operands contract their axis 1. -/
local notation "dd" => dot_S2000x128_S128x128_S2000x128_1_1_0_0_n_n

theorem dd_contr_rank : (dd).contr.rank = 1 := rfl
theorem dd_contr_size : (dd).contr.size ⟨0, by rw [dd_contr_rank]; exact Nat.one_pos⟩ = 128 := rfl

/-- The product's left operand is read at (row of the result, contraction position), -/
theorem dd_lhs (p : S2000x128.Idx) (k : (dd).contr.Idx) (kk : Fin 128)
    (hk : (k ⟨0, by rw [dd_contr_rank]; exact Nat.one_pos⟩).val = kk.val) :
    ((dd).lhsIdx p k 0).val = (p 0).val ∧ ((dd).lhsIdx p k 1).val = kk.val := by
  refine ⟨rfl, ?_⟩
  rw [DotDims.lhsIdx_val_of_single (dd) (cl := (1 : Fin 2)) rfl]
  exact hk

/-- its right operand at (column of the result, contraction position). -/
theorem dd_rhs (p : S2000x128.Idx) (k : (dd).contr.Idx) (kk : Fin 128)
    (hk : (k ⟨0, by rw [dd_contr_rank]; exact Nat.one_pos⟩).val = kk.val) :
    ((dd).rhsIdx p k 0).val = (p 1).val ∧ ((dd).rhsIdx p k 1).val = kk.val := by
  refine ⟨rfl, ?_⟩
  rw [DotDims.rhsIdx_val_of_single (dd) (cr := (1 : Fin 2)) rfl]
  exact hk

/-- THE VALUE: at the ideal instance the result array is x · Wᵀ + b, entry by entry. -/
theorem Yarr_ideal (xv : S10000x128.Idx → EReal) (wv : S128x128.Idx → EReal) (bv : S8x128.Idx → EReal)
    (r : Fin 10000) (j : Fin 128) :
    Yarr (F := Ideal) xv wv bv (ix2 r j)
      = (∑ k : Fin 128, xv (ix2 r k) * wv (ix2 j k)) + bv (ix2 (0 : Fin 8) j) := by
  unfold Yarr k0_pay1
  unfold matmul
  rw [addf_apply, Ideal.matmul_constant_zero_apply, shapeCast_self]
  -- the bias summands agree by unfolding the broadcast of row 0 down the rows; the sums remain
  congr 1
  · rw [← Equiv.sum_comp (contrEquiv1 (dd) 128 dd_contr_rank dd_contr_size).symm]
    refine Finset.sum_congr rfl fun kk _ => ?_
    have hk := contrEquiv1_symm_val (dd) 128 dd_contr_rank dd_contr_size kk
    obtain ⟨l0, l1⟩ := dd_lhs (ix2 (⟨r.val % 2000, Nat.mod_lt _ (by decide)⟩ : Fin 2000) (⟨j.val, j.isLt⟩ : Fin 128)) _ kk hk
    obtain ⟨r0, r1⟩ := dd_rhs (ix2 (⟨r.val % 2000, Nat.mod_lt _ (by decide)⟩ : Fin 2000) (⟨j.val, j.isLt⟩ : Fin 128)) _ kk hk
    congr 1
    · refine congrArg xv (idx2_ext _ _ ?_ ?_)
      · show r.val / 2000 * 2000 + _ = r.val
        rw [l0]; show r.val / 2000 * 2000 + r.val % 2000 = r.val; omega
      · show _ = kk.val
        exact l1
    · refine congrArg wv (idx2_ext _ _ ?_ ?_)
      · rw [r0]
      · exact r1

end Cert.KernelIdeal.Hand

end
-- ==== Proof.KernelValueI.lean ====
/-
  At the ideal values the kernel's result — the rows of y = x·Wᵀ + b that the flat edge row names — is the
  specification, index by index.
-/
import proofs.«207968_g22119081574525_cont_sun_m_427_17_alg».proof.Proof.Spec
import proofs.«207968_g22119081574525_cont_sun_m_427_17_alg».proof.Proof.HostValI
import proofs.«207968_g22119081574525_cont_sun_m_427_17_alg».proof.Proof.PayI
import proofs.«207968_g22119081574525_cont_sun_m_427_17_alg».proof.Proof.TcValueI

noncomputable section

open scoped BigOperators

namespace Cert.KernelIdeal.Hand

open Cert.KernelIdeal Cert.KernelIdeal.Gen Idealize.ShloMosaic Idealize.ShloMosaic.ValueIdx

/-- for any y that is x·Wᵀ plus row 0 of an eight-row bias, the gathered rows are the specification -/
theorem kernel_value_of
    (Y : (S10000x128.Idx → EReal) → (S128x128.Idx → EReal) → (S8x128.Idx → EReal) → S10000x128.Idx → EReal)
    (hY : ∀ (xv : S10000x128.Idx → EReal) (wv : S128x128.Idx → EReal) (bv : S8x128.Idx → EReal) (r : Fin 10000) (j : Fin 128),
      Y xv wv bv (ix2 r j) = (∑ k : Fin 128, xv (ix2 r k) * wv (ix2 j k)) + bv (ix2 (0 : Fin 8) j))
    (x : FVec Ideal S10000x128 .f32) (ei : IVec S2x320000 32) (W : FVec Ideal S128x128 .f32) (b : FVec Ideal S128 .f32) :
    outVal (F := Ideal) (Y x W (broadcastInDim S8x128 ![0, 1] bcast_S1x128_S8x128_0_1 (shapeCast S1x128 b shapeCasts_S128_S1x128)))
        (shapeCast S320000 (extractStridedSlice S1x320000 ![1, 0] ei slices_S2x320000_S1x320000_1_0) shapeCasts_S1x320000_S320000)
      = Cert.Spec.G x ei W b := by
  funext i
  obtain ⟨e, j, rfl⟩ : ∃ (e : Fin 320000) (j : Fin 128), i = ix2 e j := ⟨i 0, i 1, eq_ix2 i⟩
  unfold outVal
  show Y x W _ (ix2 (⟨(shapeCast S320000 (extractStridedSlice S1x320000 ![1, 0] ei slices_S2x320000_S1x320000_1_0)
      shapeCasts_S1x320000_S320000 (ix1 e)).toNat % 10000, Nat.mod_lt _ (by norm_num)⟩ : Fin 10000) j)
    = (∑ k : Fin 128, x (ix2 (Cert.Spec.node (ei (ix2 (1 : Fin 2) e))) k) * W (ix2 j k)) + b (ix1 j)
  rw [hY, HostVal.v1_apply]
  refine congrArg (fun r : Fin 10000 => (∑ k : Fin 128, x (ix2 r k) * W (ix2 j k)) + b (ix1 j)) (Fin.ext ?_)
  show (shapeCast S320000 (extractStridedSlice S1x320000 ![1, 0] ei slices_S2x320000_S1x320000_1_0)
      shapeCasts_S1x320000_S320000 (ix1 e)).toNat % 10000 = (ei (ix2 (1 : Fin 2) e)).toNat % 10000
  rw [HostVal.v4_apply]

/-- the kernel's result at the ideal values is the specification -/
theorem kernel_value (x : FVec Ideal S10000x128 .f32) (ei : IVec S2x320000 32) (W : FVec Ideal S128x128 .f32) (b : FVec Ideal S128 .f32) :
    outVal (F := Ideal) (Yarr (F := Ideal) x W (broadcastInDim S8x128 ![0, 1] bcast_S1x128_S8x128_0_1 (shapeCast S1x128 b shapeCasts_S128_S1x128)))
        (shapeCast S320000 (extractStridedSlice S1x320000 ![1, 0] ei slices_S2x320000_S1x320000_1_0) shapeCasts_S1x320000_S320000)
      = Cert.Spec.G x ei W b :=
  kernel_value_of (fun xv wv bv => Yarr (F := Ideal) xv wv bv) Yarr_ideal x ei W b

end Cert.KernelIdeal.Hand

end
-- ==== Proof.RefRun.lean ====
/-
  The reference program's @main as the list of its thirty host operations (the two outlined functions'
  operations written at their call sites over the call's buffers), and its run read back: every weakly fair
  execution terminates with the result buffer at the operations' composed pure term of the arguments'
  launch contents, the arguments unchanged.
-/
import proofs.«207968_g22119081574525_cont_sun_m_427_17_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

section Line

variable {F : FTy → Type} [FloatOps F]

/-- @main's operations in order, the calls unfolded: the slice and the reshape; the take's twenty-three
    (the sign test and the shift by 10000, the where's select, the start indices as a column, the range mask
    reduced over the unit axis, the gather, the mask broadcast, the fill constant, the select); then the
    transpose, the contraction, the bias broadcast twice and the sum. -/
abbrev ops : List (HloOp τ sig (Elt F)) :=
  [ unary main_arg1 main_v0 ((extractStridedSlice S1x320000 ![1, 0] · slices_S2x320000_S1x320000_1_0) : (⟨S2x320000, .i32⟩ : BufTy).Contents (Elt F) → (⟨S1x320000, .i32⟩ : BufTy).Contents (Elt F)),
    reshape main_v0 main_v1 rfl shapeCasts_S1x320000_S320000,
    TRef.nullary main_call0.c (constantI S_ 32 0#32),
    TRef.unary main_call0.c main_call0.v0 (broadcastInDim S320000 ![] bcast_S_S320000),
    TRef.binary (.of main_v1) main_call0.v0 main_call0.v1 (cmpi .slt),
    TRef.nullary main_call0.c_0 (constantI S_ 32 10000#32),
    TRef.unary main_call0.c_0 main_call0.v2 (broadcastInDim S320000 ![] bcast_S_S320000),
    TRef.binary (.of main_v1) main_call0.v2 main_call0.v3 addi,
    TRef.ternary main_call0.v1 main_call0.v3 (.of main_v1) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg0) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    unary main_arg2 main_v3 ((transpose S128x128 [1, 0] · transposes_S128x128_S128x128_1_0) : (⟨S128x128, .f32⟩ : BufTy).Contents (Elt F) → (⟨S128x128, .f32⟩ : BufTy).Contents (Elt F)),
    binary main_v2 main_v3 main_v4 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    unary main_arg3 main_v5 (broadcastInDim S1x128 ![1] bcast_S128_S1x128_1 : (⟨S128, .f32⟩ : BufTy).Contents (Elt F) → (⟨S1x128, .f32⟩ : BufTy).Contents (Elt F)),
    unary main_v5 main_v6 (broadcastInDim S320000x128 ![0, 1] bcast_S1x128_S320000x128_0_1 : (⟨S1x128, .f32⟩ : BufTy).Contents (Elt F) → (⟨S320000x128, .f32⟩ : BufTy).Contents (Elt F)),
    binary main_v4 main_v6 main_v7 (addf : (⟨S320000x128, .f32⟩ : BufTy).Contents (Elt F) → (⟨S320000x128, .f32⟩ : BufTy).Contents (Elt F) → (⟨S320000x128, .f32⟩ : BufTy).Contents (Elt F)) ]

-- thirty binds re-associated
set_option maxRecDepth 4096 in
/-- @main is that straight line: the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., binary_bufs_sub .., unary_bufs_sub .., unary_bufs_sub .., binary_bufs_sub ..⟩

end Line

/-! ## The composed term -/

/-- row 1 of the edge list, as a flat vector -/
def dst (ei : IVec S2x320000 32) : IVec S320000 32 :=
  shapeCast S320000 (extractStridedSlice S1x320000 ![1, 0] ei slices_S2x320000_S1x320000_1_0) shapeCasts_S1x320000_S320000

/-- the take's index normalization: a negative word is shifted by 10000 -/
def wrapped (ei : IVec S2x320000 32) : IVec S320000 32 :=
  select (cmpi .slt (dst ei) (broadcastInDim S320000 ![] bcast_S_S320000 (constantI S_ 32 0#32)))
    (addi (dst ei) (broadcastInDim S320000 ![] bcast_S_S320000 (constantI S_ 32 10000#32))) (dst ei)

/-- the gather's start indices, one column -/
def startIdx (ei : IVec S2x320000 32) : IVec S320000x1 32 :=
  broadcastInDim S320000x1 ![0] bcast_S320000_S320000x1_0 (wrapped ei)

/-- the take's range mask: 0 ≤ start ≤ 9999, reduced over the unit axis -/
def inRange (ei : IVec S2x320000 32) : IVec S320000 1 :=
  Host.reduce IntOp.andi
    (andi (cmpi .sge (startIdx ei) (broadcastInDim S320000x1 ![] bcast_S_S320000x1 (constantI S_ 32 0#32)))
      (cmpi .sle (startIdx ei)
        (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- the rows taken: the gathered row where the start is in range, the fill constant elsewhere -/
def taken (x : FVec Ideal S10000x128 .f32) (ei : IVec S2x320000 32) : FVec Ideal S320000x128 .f32 :=
  select (broadcastInDim S320000x128 ![0] bcast_S320000_S320000x128_0 (inRange ei))
    (Host.gather gather_S10000x128_S320000x1_S320000x128_1_0_n_n_0_1_1128 x (startIdx ei))
    (broadcastInDim S320000x128 ![] bcast_S_S320000x128 (constant (F := Ideal) S_ .f32 0x7FC00000#32))

/-- the reference's result: the taken rows times the transposed weights, plus the bias along every row -/
def refTerm (x : FVec Ideal S10000x128 .f32) (ei : IVec S2x320000 32) (W : FVec Ideal S128x128 .f32) (b : FVec Ideal S128 .f32) :
    FVec Ideal S320000x128 .f32 :=
  addf (Host.dotGeneral dot_S320000x128_S128x128_S320000x128_1_0_0_1_n_n none (taken x ei)
      (transpose S128x128 [1, 0] W transposes_S128x128_S128x128_1_0))
    (broadcastInDim S320000x128 ![0, 1] bcast_S1x128_S320000x128_0_1 (broadcastInDim S1x128 ![1] bcast_S128_S1x128_1 b))

/-! ## The run -/

attribute [local irreducible] Host.reduce Host.gather in
set_option maxHeartbeats 1000000 in
/-- On every device, from any memory with zero counters: every weakly fair execution of @main terminates with the
    result at the composed term of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v7).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefRun

end
-- ==== Proof.RefValue.lean ====
/-
  Under the range hypothesis (every word of the edge list, read unsigned, below 10000) the reference's
  composed term is the specification, index by index: the sign test is not taken, the range mask is all
  ones, the gather's clamp is the identity, and the contraction is the sum over the 128 columns.
-/
import proofs.«207968_g22119081574525_cont_sun_m_427_17_alg».proof.Proof.Spec
import proofs.«207968_g22119081574525_cont_sun_m_427_17_alg».proof.Proof.RefRun
import Idealize.ShloMosaic.Lib.ValueIdx
import Idealize.ShloMosaic.Lib.Pipeline.Value
import Idealize.ShloMosaic.Lib.StackMember
import Idealize.ShloMosaic.Lib.Affine
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## Words -/

/-- a word below 10000 read unsigned is its own signed value -/
theorem toInt_of_lt (v : BitVec 32) (h : v.toNat < 10000) : v.toInt = (v.toNat : ℤ) := by
  rw [BitVec.toInt_eq_toNat_cond]
  have : 2 * v.toNat < 2 ^ 32 := by omega
  rw [if_pos this]

/-- such a word is not negative: the sign test answers 0 -/
theorem slt_zero_of_lt (v : BitVec 32) (h : v.toNat < 10000) : IntOp.cmpi .slt v 0#32 = 0#1 := by
  apply eq_zero_of_ne_one
  intro h1
  rw [IntOp.cmpi_slt, toInt_of_lt v h] at h1
  simp at h1
  omega

/-- it is at least 0 -/
theorem sge_zero_of_lt (v : BitVec 32) (h : v.toNat < 10000) : IntOp.cmpi .sge v 0#32 = 1#1 := by
  rw [IntOp.cmpi_sge, toInt_of_lt v h]
  simp

/-- and at most 9999 -/
theorem sle_of_lt (v : BitVec 32) (h : v.toNat < 10000) : IntOp.cmpi .sle v 9999#32 = 1#1 := by
  rw [IntOp.cmpi_sle, toInt_of_lt v h]
  simp
  omega

/-- the gather's clamp of such a word is the node it names -/
theorem clamp_eq_node (v : BitVec 32) (h : v.toNat < 10000) (hlt : min v.toInt.toNat 9999 < 10000) :
    (⟨min v.toInt.toNat 9999, hlt⟩ : Fin 10000) = Cert.Spec.node v := by
  apply Fin.ext
  show min v.toInt.toNat 9999 = v.toNat % 10000
  rw [toInt_of_lt v h, Int.toNat_natCast, Nat.mod_eq_of_lt h]
  omega

/-- a left fold by and over ones, from one, is one -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-! ## The index vector -/

/-- the flat row 1 of the edge list at e is edge_index[1, e] -/
theorem dst_apply (ei : IVec S2x320000 32) (e : Fin 320000) : dst ei (ix1 e) = ei (ix2 (1 : Fin 2) e) := by
  unfold dst
  refine (shapeCast_apply _ _ (ix1 e) (ix2 (0 : Fin 1) e) ?_).trans ?_
  · rw [Shape.rowMajor_val_two, Shape.rowMajor_val_one]
    show (0 : ℕ) * 320000 + e.val = e.val
    omega
  · refine extractStridedSlice_apply _ _ _ _ (ix2 (1 : Fin 2) e) fun a => ?_
    match a with
    | ⟨0, _⟩ => rfl
    | ⟨1, _⟩ =>
      show e.val = 0 + e.val
      omega

section Range

variable (ei : IVec S2x320000 32) (hr : ∀ j, (ei j).toNat < 10000)
include hr

/-- in range, the normalization leaves the word as it is -/
theorem wrapped_apply (e : Fin 320000) : wrapped ei (ix1 e) = ei (ix2 (1 : Fin 2) e) := by
  unfold wrapped
  show Scalar.select (IntOp.cmpi .slt (dst ei (ix1 e)) 0#32) (IntOp.addi (dst ei (ix1 e)) 10000#32) (dst ei (ix1 e)) = _
  rw [dst_apply, slt_zero_of_lt _ (hr _), select_zero]

/-- the start index of row e -/
theorem startIdx_apply (e : Fin 320000) : startIdx ei (ix2 e (0 : Fin 1)) = ei (ix2 (1 : Fin 2) e) := by
  unfold startIdx
  refine (broadcastInDim_apply _ _ _ (ix2 e (0 : Fin 1)) (ix1 e) fun a => ?_).trans (wrapped_apply ei hr e)
  match a with
  | ⟨0, _⟩ => rfl

/-- the range mask is all ones -/
theorem inRange_apply (j : S320000.Idx) : inRange ei j = 1#1 := by
  unfold inRange
  rw [Host.reduce_eq_foldl]
  refine foldl_andi_one _ (fun p => ?_) _
  obtain ⟨e, z, rfl⟩ : ∃ (e : Fin 320000) (z : Fin 1), p = ix2 e z := ⟨p 0, p 1, eq_ix2 p⟩
  obtain rfl : z = 0 := Subsingleton.elim _ _
  show IntOp.andi (IntOp.cmpi .sge (startIdx ei (ix2 e (0 : Fin 1))) 0#32) (IntOp.cmpi .sle (startIdx ei (ix2 e (0 : Fin 1))) 9999#32) = 1#1
  rw [startIdx_apply ei hr e]
  exact IntOp.andi_eq_one.2 ⟨sge_zero_of_lt _ (hr _), sle_of_lt _ (hr _)⟩

end Range

/-! ## The gather, the taken rows -/

/-- the row gather read at (e, k): row clamp(start[e, 0]) of the operand, column k -/
theorem gather_row_apply (x : FVec Ideal S10000x128 .f32) (idx : IVec S320000x1 32) (e : Fin 320000) (k : Fin 128)
    (hlt : min (idx (ix2 e (0 : Fin 1))).toInt.toNat 9999 < 10000) :
    Host.gather gather_S10000x128_S320000x1_S320000x128_1_0_n_n_0_1_1128 x idx (ix2 e k)
      = x (ix2 (⟨min (idx (ix2 e (0 : Fin 1))).toInt.toNat 9999, hlt⟩ : Fin 10000) k) := by
  unfold Host.gather
  congr 1
  funext a
  refine Fin.ext ?_
  match a with
  | ⟨0, _⟩ =>
    show GatherDims.start gather_S10000x128_S320000x1_S320000x128_1_0_n_n_0_1_1128 (ix2 e k) idx 0
      + GatherDims.batchCoord gather_S10000x128_S320000x1_S320000x128_1_0_n_n_0_1_1128 (ix2 e k) 0
      + GatherDims.offCoord gather_S10000x128_S320000x1_S320000x128_1_0_n_n_0_1_1128 (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S10000x128_S320000x1_S320000x128_1_0_n_n_0_1_1128).startIndexMap from List.mem_singleton.mpr rfl)]
    have hsi : (gather_S10000x128_S320000x1_S320000x128_1_0_n_n_0_1_1128).siIdx (ix2 e k)
        ⟨List.idxOf (0 : Fin 2) (gather_S10000x128_S320000x1_S320000x128_1_0_n_n_0_1_1128).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start gather_S10000x128_S320000x1_S320000x128_1_0_n_n_0_1_1128 (ix2 e k) idx 1
      + GatherDims.batchCoord gather_S10000x128_S320000x1_S320000x128_1_0_n_n_0_1_1128 (ix2 e k) 1
      + GatherDims.offCoord gather_S10000x128_S320000x1_S320000x128_1_0_n_n_0_1_1128 (ix2 e k) 1 = k.val
    rw [GatherDims.batchCoord_eq_zero _ _ _ List.not_mem_nil]
    have hs : GatherDims.start gather_S10000x128_S320000x1_S320000x128_1_0_n_n_0_1_1128 (ix2 e k) idx 1 = 0 := by
      unfold GatherDims.start
      rw [dif_neg (show (1 : Fin 2) ∉ (gather_S10000x128_S320000x1_S320000x128_1_0_n_n_0_1_1128).startIndexMap from by decide)]
    rw [hs]
    unfold GatherDims.offCoord
    rw [dif_pos ((GatherDims.mem_sKept _ _).2 ⟨by decide, List.not_mem_nil⟩)]
    simp only [Nat.zero_add, Nat.add_zero]
    rfl

/-- in range, row e of the taken rows is row node(edge_index[1, e]) of x -/
theorem taken_apply (x : FVec Ideal S10000x128 .f32) (ei : IVec S2x320000 32) (hr : ∀ j, (ei j).toNat < 10000)
    (e : Fin 320000) (k : Fin 128) :
    taken x ei (ix2 e k) = x (ix2 (Cert.Spec.node (ei (ix2 (1 : Fin 2) e))) k) := by
  have hlt : min (startIdx ei (ix2 e (0 : Fin 1))).toInt.toNat 9999 < 10000 := by omega
  unfold taken
  show Scalar.select (inRange ei _) (Host.gather gather_S10000x128_S320000x1_S320000x128_1_0_n_n_0_1_1128 x (startIdx ei) (ix2 e k)) _ = _
  rw [inRange_apply ei hr, select_one, gather_row_apply x (startIdx ei) e k hlt]
  refine congrArg (fun r : Fin 10000 => x (ix2 r k)) ?_
  have hv := startIdx_apply ei hr e
  refine Fin.ext ?_
  show min (startIdx ei (ix2 e (0 : Fin 1))).toInt.toNat 9999 = (ei (ix2 (1 : Fin 2) e)).toNat % 10000
  rw [hv, toInt_of_lt _ (hr _), Int.toNat_natCast, Nat.mod_eq_of_lt (hr _)]
  have := hr (ix2 (1 : Fin 2) e)
  omega

/-! ## The result -/

/-- the reference's contraction is the plain 320000×128 by 128×128 product -/
theorem dot_eq_plain : dot_S320000x128_S128x128_S320000x128_1_0_0_1_n_n = DotDims.plain 320000 128 128 := rfl

/-- under the range hypothesis the reference's term is the specification -/
theorem refTerm_eq (x : FVec Ideal S10000x128 .f32) (ei : IVec S2x320000 32) (W : FVec Ideal S128x128 .f32)
    (b : FVec Ideal S128 .f32) (hr : ∀ j, (ei j).toNat < 10000) : refTerm x ei W b = Cert.Spec.G x ei W b := by
  funext i
  obtain ⟨e, j, rfl⟩ : ∃ (e : Fin 320000) (j : Fin 128), i = ix2 e j := ⟨i 0, i 1, eq_ix2 i⟩
  unfold refTerm
  rw [addf_apply]
  show _ = (∑ k : Fin 128, x (ix2 (Cert.Spec.node (ei (ix2 (1 : Fin 2) e))) k) * W (ix2 j k)) + b (ix1 j)
  refine congrArg₂ (· + ·) ?_ ?_
  · rw [dot_eq_plain, StackMember.dotGeneral_plain_apply]
    refine Finset.sum_congr rfl fun k _ => ?_
    rw [taken_apply x ei hr e k]
    refine congrArg (x (ix2 (Cert.Spec.node (ei (ix2 (1 : Fin 2) e))) k) * ·) ?_
    refine transpose_apply _ _ _ (ix2 k j) (ix2 j k) fun a => ?_
    match a with
    | ⟨0, _⟩ => rfl
    | ⟨1, _⟩ => rfl
  · refine (broadcastInDim_apply _ _ _ (ix2 e j) (ix2 (0 : Fin 1) j) fun a => ?_).trans ?_
    · match a with
      | ⟨0, _⟩ => rfl
      | ⟨1, _⟩ => rfl
    · refine broadcastInDim_apply _ _ _ (ix2 (0 : Fin 1) j) (ix1 j) fun a => ?_
      match a with
      | ⟨0, _⟩ => rfl

end Cert.ReferenceIdeal.RefValue

end
-- ==== Proof.PreRange.lean ====
/-
  From the precondition (all ones) to the range of the edge list: every word of edge_index,
  read unsigned, is below 10000.
-/
import proofs.«207968_g22119081574525_cont_sun_m_427_17_alg».proof.Pre_input_domain
import proofs.«207968_g22119081574525_cont_sun_m_427_17_alg».proof.Proof.Gen.Pre_input_domain
import Idealize.ShloMosaic.Lib.ReduceAll
import Idealize.ShloMosaic.Lib.ValueIdx

namespace Cert.PreRange

open Idealize.ShloMosaic

attribute [local instance] Cert.Pre_input_domain.Gen.facts

/-- the scalar shape has one index -/
local instance : Subsingleton Cert.Pre_input_domain.S_.Idx := ⟨fun a b => funext fun d => d.elim0⟩

/-- a signed word between 0 and 9999 is, read unsigned, below 10000 -/
theorem word_range (v : BitVec 32) (h0 : IntOp.cmpi .sge v 0#32 = 1#1) (h1 : IntOp.cmpi .sle v 9999#32 = 1#1) :
    v.toNat < 10000 := by
  rw [IntOp.cmpi_sge] at h0
  rw [IntOp.cmpi_sle] at h1
  simp only [BitVec.toInt_eq_toNat_cond, BitVec.toNat_ofNat, Nat.reducePow, Nat.reduceMod] at h0 h1
  omega

/-- the precondition's edge-list conjunct, element by element -/
theorem range_of_pre {F : FTy → Type} [FloatOps F]
    (x : FVec F Cert.Pre_input_domain.S10000x128 .f32) (ei : IVec Cert.Pre_input_domain.S2x320000 32)
    (W : FVec F Cert.Pre_input_domain.S128x128 .f32) (b : FVec F Cert.Pre_input_domain.S128 .f32)
    (h : Cert.Pre_input_domain.fn (F := F) x ei W b = fun _ => 1#1) : ∀ j, (ei j).toNat < 10000 := by
  intro j
  have e := congrFun h ValueIdx.ix0
  dsimp only [Cert.Pre_input_domain.fn, Cert.Pre_input_domain.fn_part1] at e
  have e2 := (IntOp.andi_eq_one.1 e).2
  have e3 := Host.reduce_andi_all _ _ _ _ _ e2 j
  obtain ⟨h0, h1⟩ := IntOp.andi_eq_one.1 e3
  exact word_range (ei j) h0 h1

end Cert.PreRange
-- ==== Proof.AssembleI.lean ====
/-
  The claims at the ideal instance, assembled.  On both sides row e of the result is row edge[1, e] of
  x · Wᵀ + b: the kernel forms y = x · Wᵀ + b first and then gathers its rows; the reference gathers the rows of x
  first and then multiplies; a gather of rows commutes with a product taken row by row.  The precondition puts every
  word of the edge list in [0, 10000), so every gathered row exists and the reference's range mask is all ones.
-/
import proofs.«207968_g22119081574525_cont_sun_m_427_17_alg».proof.Defs
import proofs.«207968_g22119081574525_cont_sun_m_427_17_alg».proof.Proof.TileOblI
import proofs.«207968_g22119081574525_cont_sun_m_427_17_alg».proof.Proof.KernelValueI
import proofs.«207968_g22119081574525_cont_sun_m_427_17_alg».proof.Proof.RefValue
import proofs.«207968_g22119081574525_cont_sun_m_427_17_alg».proof.Proof.PreRange
import proofs.«207968_g22119081574525_cont_sun_m_427_17_alg».proof.Proof.HostValI

noncomputable section

namespace Cert.Proof.Parts

open Idealize.ShloMosaic Idealize.ShloMosaic.TcCoe Idealize.ShloMosaic.ValueIdx Idealize.SL.Sem

attribute [local instance] Cert.Pre_input_domain.Gen.facts

/-- Under the precondition every entry of the edge list's second row names a node. -/
theorem preOK_of_pre {F : FTy → Type} [FloatOps F]
    (m : (ℓ : Loc Cert.KernelIdeal.nD Cert.KernelIdeal.τ Cert.KernelIdeal.sig) → Buf (Elt F) ℓ)
    (h : ∀ c : Dev Cert.KernelIdeal.nD,
      Cert.Pre_input_domain.fn (F := F) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) = fun _ => 1#1) :
    Cert.KernelIdeal.Hand.PreOK m := by
  intro d j
  have hr := Cert.PreRange.range_of_pre _ _ _ _ (h d)
  obtain ⟨e, rfl⟩ : ∃ e : Fin 320000, j = ix1 e := ⟨j 0, eq_ix1 j⟩
  unfold Cert.KernelIdeal.Hand.ivOf
  rw [Cert.KernelIdeal.HostVal.v4_apply]
  exact hr _

/-- The kernel's result is the specification of the launch contents. -/
theorem kernel_result (m : (ℓ : Loc Cert.KernelIdeal.nD Cert.KernelIdeal.τ Cert.KernelIdeal.sig) → Buf (Elt Ideal) ℓ) (c : Dev Cert.KernelIdeal.nD) :
    Cert.KernelIdeal.Hand.outVal (Cert.KernelIdeal.Hand.yvOf m c) (Cert.KernelIdeal.Hand.ivOf m c)
      = Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  unfold Cert.KernelIdeal.Hand.yvOf Cert.KernelIdeal.Hand.ivOf Cert.KernelIdeal.Hand.bvOf
  exact Cert.KernelIdeal.Hand.kernel_value _ _ _ _

/-- The idealized kernel runs and leaves its arguments as launched. -/
theorem frame_ki : Cert.frame_KernelIdeal (hKernelIdeal := Cert.KernelIdeal.Gen.facts) (hPre_input_domain := Cert.Pre_input_domain.Gen.facts) :=
  fun m ρ hpre => (θ_run _ _ _).mono (fun _ h c => (h c).2)
    (Cert.KernelIdeal.Hand.run_main (F := Ideal) m ρ (Cert.KernelIdeal.Hand.tileObl m (preOK_of_pre m hpre)))

/-- The idealized reference runs and leaves its arguments as launched. -/
theorem frame_ri : Cert.frame_ReferenceIdeal (hReferenceIdeal := Cert.ReferenceIdeal.Gen.facts) (hPre_input_domain := Cert.Pre_input_domain.Gen.facts) :=
  fun m ρ _ => (θ_run _ _ _).mono (fun _ h c => (h c).2) (Cert.ReferenceIdeal.RefRun.run m ρ)

/-- At the ideal instance, from memories agreeing on the arguments, both programs end with the specification of the
    arguments in their result buffers, and their arguments as launched. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  fun m ρ m' ρ' hpre hagree =>
    ⟨fun c => Cert.Spec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      (θ_run _ _ _).mono (fun _ h c => ⟨(h c).1.trans (kernel_result m c), (h c).2⟩)
        (Cert.KernelIdeal.Hand.run_main (F := Ideal) m ρ (Cert.KernelIdeal.Hand.tileObl m (preOK_of_pre m hpre))),
      (θ_run _ _ _).mono (fun _ h c => ⟨(h c).1.trans (by
          rw [(hagree c).1, (hagree c).2.1, (hagree c).2.2.1, (hagree c).2.2.2]
          exact Cert.ReferenceIdeal.RefValue.refTerm_eq _ _ _ _ (Cert.PreRange.range_of_pre _ _ _ _ (hpre c))), (h c).2⟩)
        (Cert.ReferenceIdeal.RefRun.run m' ρ')⟩

end Cert.Proof.Parts

end
-- ==== Proof.CommonB.lean ====
/-
  Shared set-up for the frame of this program: the SparseCore call's configuration, the resource algebra the
  proof runs in (the launch handshakes' rounds, the TensorCore pipeline's staging cells, the transfers' counters),
  and the arrays and scratch buffers by name.  The program: on the TensorCore, y = x·Wᵀ + b by a five-step
  pipelined matrix product; then thirty-two vector subcores each copy 10000 entries of the edge list's second row
  and gather the rows of y they name, eighty at a time through five row buffers, out to their slice of the result.
-/
import proofs.«207968_g22119081574525_cont_sun_m_427_17_alg».proof.Kernel
import proofs.«207968_g22119081574525_cont_sun_m_427_17_alg».proof.Proof.Gen.Kernel
import proofs.«207968_g22119081574525_cont_sun_m_427_17_alg».proof.Proof.Gen.Kernel.Skeleton
import proofs.«207968_g22119081574525_cont_sun_m_427_17_alg».proof.Proof.Gen.Kernel.Launch
import proofs.«207968_g22119081574525_cont_sun_m_427_17_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

end Cert.Kernel.Hand

end
-- ==== Proof.TcBodyB.lean ====
/-
  The body of the matrix-product kernel at a grid point.  At point t the body is handed the t-th block of
  2000 rows of x, the whole of W and the eight-row copy of the bias, each in its staging buffer, and leaves in
  the output's staging buffer the 2000 × 128 block  x_t · Wᵀ + b  (the product into a zero accumulator, the
  bias's row 0 broadcast down the rows).  Stated once at a symbolic point, for any float instance.

  The proof data of the pipeline: the four arrays as the region finds them; after the body each input's buffer
  at its block and the output's at the body's value of the three input blocks.  The invariant, what the core
  owes and the bound on its recorded waits are parameters: the body reads none of them.
-/
import proofs.«207968_g22119081574525_cont_sun_m_427_17_alg».proof.Proof.CommonB
import Idealize.ShloMosaic.Lib.Pipeline.FrameBody
import Idealize.ShloMosaic.Lib.Tactic

-- membership in a rectangle of 2000 rows: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The arrays at region entry, and the windows' blocks -/

section Data

variable (c : Dev nD)
  (xv : Buf (Elt F) ((c.tc : Thread nD τ).loc main_arg0)) (wv : Buf (Elt F) ((c.tc : Thread nD τ).loc main_arg2))
  (bv : Buf (Elt F) ((c.tc : Thread nD τ).loc main_v1)) (yv : Buf (Elt F) ((c.tc : Thread nD τ).loc main_v2))

/-- The four windowed arrays as the region finds them: x, W, the eight-row bias, and the result at anything. -/
def tcA : (w : Fin cfg0.W) → Buf (Elt F) ((cfg0.win w).arr.view.loc (c.tc : Thread nD τ))
  | ⟨0, _⟩ => xv
  | ⟨1, _⟩ => wv
  | ⟨2, _⟩ => bv
  | ⟨3, _⟩ => yv

/-- Window w's block at point t, read off its array as the region finds it. -/
def tcBlk (w : Fin cfg0.W) (t : Fin cfg0.N) : ((cfg0.win w).xblock (cfg0.grid.coords t)).Idx → Elt F (cfg0.win w).elt :=
  ((cfg0.win w).blk t).view.read (Elt F) (tcA c xv wv bv yv w)

end Data

/-! ## The body's accesses and what it leaves in the output's buffer -/

abbrev rX : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S8x128 := Rect.unit (s := S8x128) ![0, 0] S1x128.size inb_S8x128_S1x128_0_0

/-- The output's staging buffer after the body, from the three input blocks: its one store, of the product plus
    the broadcast bias row, over the whole buffer. -/
def tcOut (x0 : Vec F S2000x128 .f32) (x1 : Vec F S128x128 .f32) (x2 : Vec F S8x128 .f32) : Vec F S2000x128 .f32 :=
  View.canon [⟨rX, k0_pay1 (View.ld x0 rX) (View.ld x1 rW) (View.ld x2 rB)⟩]

/-- The store's rectangle is the whole buffer. -/
theorem tcCover (p0 : Vec F S2000x128 .f32) (y : S2000x128.Idx) :
    ∃ pc ∈ ([⟨rX, p0⟩] : List (View.Piece (Elt F) S2000x128 .f32)), y ∈ pc.1.set :=
  View.cover_of_tiled [⟨rX, p0⟩] S2000x128.size (by rfl) y

/-! ## The body's triple -/

set_option maxHeartbeats 1000000 in
/-- The body on whole staging memrefs, the inputs' at contents x0, x1, x2 and the output's at anything, runs to the
    continuation holding the inputs' as they were and the output's at tcOut of them. -/
theorem tcSoundKernel (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S8x128 .f32) (harg3 : arg3.IsWhole) (arg4 : Memref sig .tc .vmem S2000x128 .f32) (harg4 : arg4.IsWhole)
    (x0 : Vec F S2000x128 .f32) (x1 : Vec F S128x128 .f32) (x2 : Vec F S8x128 .f32) (Kc : PUnit → sProp 𝕄) :
    iprop(owns (c.tc : Thread nD τ) arg1 fullShare x0 ∗ owns (c.tc : Thread nD τ) arg2 fullShare x1 ∗ owns (c.tc : Thread nD τ) arg3 fullShare x2
        ∗ (∃ d, owns (c.tc : Thread nD τ) arg4 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare (tcOut x0 x1 x2)) -∗ Kc ⟨⟩))
      ⊢ wp frame (wpE (defs₀ (F := F)) Variants.none (c.tc : Thread nD τ) none) E (cc0__mm_body i arg1 harg1 arg2 harg2 arg3 harg3 arg4 harg4) Kc := by
  simp only [cc0__mm_body_eq_skeleton]; unfold cc0__mm_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tcCover _)

/-! ## The pipeline's proof data -/

section Dat

variable (c : Dev nD)
  (xv : Buf (Elt F) ((c.tc : Thread nD τ).loc main_arg0)) (wv : Buf (Elt F) ((c.tc : Thread nD τ).loc main_arg2))
  (bv : Buf (Elt F) ((c.tc : Thread nD τ).loc main_v1)) (yv : Buf (Elt F) ((c.tc : Thread nD τ).loc main_v2))
  (Φ₀ : sProp (MT nD τ sig (HIx 1) (Elt F) ℕ UU ℕ)) (O : CellTallies nD τ sig (HIx 1)) (B : Set (SemLoc sig × HIx 1))

/-- The proof data of the pipeline on core c: the arrays as the region finds them; after the body at point t each
    input's buffer at its block and the output's at tcOut of the input blocks; a constant invariant; the core owing
    the same tallies throughout, its recorded waits within the same bound; full shares. -/
def tcDat : Dat τ (Elt F) (HIx 1) ℕ UU ℕ cfg0 c where
  A := tcA c xv wv bv yv
  after w t := match w with
    | ⟨0, _⟩ => tcBlk c xv wv bv yv 0 t
    | ⟨1, _⟩ => tcBlk c xv wv bv yv 1 t
    | ⟨2, _⟩ => tcBlk c xv wv bv yv 2 t
    | ⟨3, _⟩ => tcOut (tcBlk c xv wv bv yv 0 t) (tcBlk c xv wv bv yv 1 t) (tcBlk c xv wv bv yv 2 t)
  Φ _ := Φ₀
  q _ := fullShare
  owed _ := O
  recorded _ := B

theorem tcDat_A (w : Fin cfg0.W) : (tcDat c xv wv bv yv Φ₀ O B).A w = tcA c xv wv bv yv w := by dsimp only [tcDat]

theorem tcAfter0 (t : Fin cfg0.N) : (tcDat c xv wv bv yv Φ₀ O B).after 0 t = tcBlk c xv wv bv yv 0 t := by dsimp only [tcDat]
theorem tcAfter1 (t : Fin cfg0.N) : (tcDat c xv wv bv yv Φ₀ O B).after 1 t = tcBlk c xv wv bv yv 1 t := by dsimp only [tcDat]
theorem tcAfter2 (t : Fin cfg0.N) : (tcDat c xv wv bv yv Φ₀ O B).after 2 t = tcBlk c xv wv bv yv 2 t := by dsimp only [tcDat]
theorem tcAfter3 (t : Fin cfg0.N) : (tcDat c xv wv bv yv Φ₀ O B).after 3 t
    = tcOut (tcBlk c xv wv bv yv 0 t) (tcBlk c xv wv bv yv 1 t) (tcBlk c xv wv bv yv 2 t) := by dsimp only [tcDat]

/-- Each input's current staging buffer holds its block at every point, fetched there or not: unfetched, the block
    index has not moved; the windows are uncut and never idle. -/
theorem tcBefore0 (t : Fin cfg0.N) (d) : (tcDat c xv wv bv yv Φ₀ O B).before 0 t d = tcBlk c xv wv bv yv 0 t :=
  ((tcDat c xv wv bv yv Φ₀ O B).before_in_eq_fetched 0 rfl (fun _ => rfl) (fun _ _ _ => rfl)
      (fun t => by rw [tcAfter0]; unfold Dat.blockOf tcBlk; rw [tcDat_A]; try rfl) t d).trans
    (by unfold Dat.fetched Dat.blockOf tcBlk; rw [tcDat_A]; try rfl)
theorem tcBefore1 (t : Fin cfg0.N) (d) : (tcDat c xv wv bv yv Φ₀ O B).before 1 t d = tcBlk c xv wv bv yv 1 t :=
  ((tcDat c xv wv bv yv Φ₀ O B).before_in_eq_fetched 1 rfl (fun _ => rfl) (fun _ _ _ => rfl)
      (fun t => by rw [tcAfter1]; unfold Dat.blockOf tcBlk; rw [tcDat_A]; try rfl) t d).trans
    (by unfold Dat.fetched Dat.blockOf tcBlk; rw [tcDat_A]; try rfl)
theorem tcBefore2 (t : Fin cfg0.N) (d) : (tcDat c xv wv bv yv Φ₀ O B).before 2 t d = tcBlk c xv wv bv yv 2 t :=
  ((tcDat c xv wv bv yv Φ₀ O B).before_in_eq_fetched 2 rfl (fun _ => rfl) (fun _ _ _ => rfl)
      (fun t => by rw [tcAfter2]; unfold Dat.blockOf tcBlk; rw [tcDat_A]; try rfl) t d).trans
    (by unfold Dat.fetched Dat.blockOf tcBlk; rw [tcDat_A]; try rfl)

/-! ## The body obligation, at a generic point -/

/-- What the body is called with at point t, the windows one by one, -/
def tcBodyPre (t : Fin cfg0.N) : sProp 𝕄 :=
  iprop((tcDat c xv wv bv yv Φ₀ O B).Φ t.castSucc ∗ (tcDat c xv wv bv yv Φ₀ O B).owesAt (none : HIx 1) t.castSucc
    ∗ (∃ d, owns (c.tc : Thread nD τ) (st0_0 t) fullShare ((tcDat c xv wv bv yv Φ₀ O B).before 0 t d))
    ∗ (∃ d, owns (c.tc : Thread nD τ) (st0_1 t) fullShare ((tcDat c xv wv bv yv Φ₀ O B).before 1 t d))
    ∗ (∃ d, owns (c.tc : Thread nD τ) (st0_2 t) fullShare ((tcDat c xv wv bv yv Φ₀ O B).before 2 t d))
    ∗ (∃ d, owns (c.tc : Thread nD τ) (st0_3 t) fullShare ((tcDat c xv wv bv yv Φ₀ O B).before 3 t d)))

/-- and what it returns. -/
def tcBodyPost (t : Fin cfg0.N) : sProp 𝕄 :=
  iprop((tcDat c xv wv bv yv Φ₀ O B).Φ t.succ ∗ (tcDat c xv wv bv yv Φ₀ O B).owesAt (none : HIx 1) t.succ
    ∗ owns (c.tc : Thread nD τ) (st0_0 t) fullShare ((tcDat c xv wv bv yv Φ₀ O B).after 0 t)
    ∗ owns (c.tc : Thread nD τ) (st0_1 t) fullShare ((tcDat c xv wv bv yv Φ₀ O B).after 1 t)
    ∗ owns (c.tc : Thread nD τ) (st0_2 t) fullShare ((tcDat c xv wv bv yv Φ₀ O B).after 2 t)
    ∗ owns (c.tc : Thread nD τ) (st0_3 t) fullShare ((tcDat c xv wv bv yv Φ₀ O B).after 3 t))

/-- The body at any point: the inputs' memrefs hold their blocks, so the body's triple applies; the invariant and
    the core's debts pass through unread. -/
theorem tcSoundBody (t : Fin cfg0.N) :
    tcBodyPre c xv wv bv yv Φ₀ O B t
      ⊢ wp frame (wpE (defs₀ (F := F)) Variants.none (c.tc : Thread nD τ) none) Set.univ (bodyAt0 t) (fun _ => tcBodyPost c xv wv bv yv Φ₀ O B t) := by
  unfold tcBodyPre tcBodyPost bodyAt0
  simp only [tcBefore0, tcBefore1, tcBefore2]
  rw [show (tcDat c xv wv bv yv Φ₀ O B).Φ t.succ = (tcDat c xv wv bv yv Φ₀ O B).Φ t.castSucc from rfl,
    show (tcDat c xv wv bv yv Φ₀ O B).owesAt (none : HIx 1) t.succ = (tcDat c xv wv bv yv Φ₀ O B).owesAt (none : HIx 1) t.castSucc from rfl,
    tcAfter0, tcAfter1, tcAfter2, tcAfter3]
  iintro ⟨HΦ, Ho, ⟨%d0, H0⟩, ⟨%d1, H1⟩, ⟨%d2, H2⟩, ⟨%d3, H3⟩⟩
  iapply (tcSoundKernel c Set.univ (grid0.coords t) _ _ _ _ _ _ _ _
    (tcBlk c xv wv bv yv 0 t) (tcBlk c xv wv bv yv 1 t) (tcBlk c xv wv bv yv 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem tcBodyObligation : BodyObligation (tcDat c xv wv bv yv Φ₀ O B) (defs₀ (F := F)) Variants.none (none : HIx 1) Set.univ := fun t => by
  rw [bigSep_W0, bigSep_W0]
  exact tcSoundBody c xv wv bv yv Φ₀ O B t

end Dat

end Cert.Kernel.Hand

end
-- ==== Proof.TcArrayB.lean ====
/-
  The result array of the matrix-product pipeline as ONE function of the three input arrays, and the proof that
  the pipeline's write-backs build exactly it: point t writes back rows 2000 t … 2000 t + 1999, each the body's
  value on the t-th block of x, the whole of W and row 0 of the bias; the five blocks cover the array.
-/
import proofs.«207968_g22119081574525_cont_sun_m_427_17_alg».proof.Proof.TcBodyB
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.ValueIdx
open Idealize.ShloMosaic.SparseCore.Cfg (HIx)
open Idealize.SL Idealize.SL.Sem Idealize.SL.BI
open Idealize.ShloMosaic.Pipeline (Dat)

variable {F : FTy → Type} [FloatOps F]

/-! ## The result array as one function of the arguments -/

/-- The result array: at (r, j), entry (r mod 2000, j) of the body's value on the block of 2000 rows of x that
    holds row r, the whole of W, and row 0 of the eight-row bias. -/
def Yarr (xv : S10000x128.Idx → Elt F .f32) (wv : S128x128.Idx → Elt F .f32) (bv : S8x128.Idx → Elt F .f32) :
    S10000x128.Idx → Elt F .f32 := fun i =>
  k0_pay1 (F := F)
    (fun y : S2000x128.Idx => xv (ix2 (⟨(i 0).val / 2000 * 2000 + (y 0).val, by
      have h0 : (i 0).val < 10000 := idx2_lt0 i
      have h1 : (y 0).val < 2000 := idx2_lt0 y
      omega⟩ : Fin 10000) (⟨(y 1).val, idx2_lt1 y⟩ : Fin 128)))
    wv
    (fun y : S1x128.Idx => bv (ix2 (0 : Fin 8) (⟨(y 1).val, idx2_lt1 y⟩ : Fin 128)))
    (ix2 (⟨(i 0).val % 2000, Nat.mod_lt _ (by decide)⟩ : Fin 2000) (⟨(i 1).val, idx2_lt1 i⟩ : Fin 128))

/-- Two indices of a rank-2 shape with equal coordinates are equal. -/
theorem idx2_ext {n0 n1 : Nat} (a b : (⟨2, ![n0, n1]⟩ : Shape).Idx) (h0 : (a 0).val = (b 0).val) (h1 : (a 1).val = (b 1).val) : a = b := by
  funext k; apply Fin.ext
  match k with
  | ⟨0, _⟩ => exact h0
  | ⟨1, _⟩ => exact h1

/-- The body's value at entry j of block tn is the result array at the entry of the array that block entry is:
    for any three vectors that read x at rows 2000 tn + ·, W entry by entry, and the bias at row 0. -/
theorem Yarr_block (xv : S10000x128.Idx → Elt F .f32) (wv : S128x128.Idx → Elt F .f32) (bv : S8x128.Idx → Elt F .f32)
    (tn : ℕ) (i : S10000x128.Idx) (j : S2000x128.Idx)
    (h0 : (i 0).val = tn * 2000 + (j 0).val) (h1 : (i 1).val = (j 1).val)
    (x0 : Vec F S2000x128 .f32) (x1 : Vec F S128x128 .f32) (x2 : Vec F S1x128 .f32)
    (hx0 : ∀ (y : S2000x128.Idx) (i' : S10000x128.Idx), (i' 0).val = tn * 2000 + (y 0).val → (i' 1).val = (y 1).val → x0 y = xv i')
    (hx1 : ∀ (y : S128x128.Idx) (i' : S128x128.Idx), (i' 0).val = (y 0).val → (i' 1).val = (y 1).val → x1 y = wv i')
    (hx2 : ∀ (y : S1x128.Idx) (i' : S8x128.Idx), (i' 0).val = 0 → (i' 1).val = (y 1).val → x2 y = bv i') :
    k0_pay1 x0 x1 x2 j = Yarr xv wv bv i := by
  have hj0 : (j 0).val < 2000 := idx2_lt0 j
  have e0 : x0 = fun y : S2000x128.Idx => xv (ix2 (⟨(i 0).val / 2000 * 2000 + (y 0).val, by
      have h0 : (i 0).val < 10000 := idx2_lt0 i
      have h1 : (y 0).val < 2000 := idx2_lt0 y
      omega⟩ : Fin 10000) (⟨(y 1).val, idx2_lt1 y⟩ : Fin 128)) :=
    funext fun y => hx0 y _ (by show (i 0).val / 2000 * 2000 + (y 0).val = _; omega) rfl
  have e1 : x1 = wv := funext fun y => hx1 y y rfl rfl
  have e2 : x2 = fun y : S1x128.Idx => bv (ix2 (0 : Fin 8) (⟨(y 1).val, idx2_lt1 y⟩ : Fin 128)) :=
    funext fun y => hx2 y _ rfl rfl
  have ej : j = ix2 (⟨(i 0).val % 2000, Nat.mod_lt _ (by decide)⟩ : Fin 2000) (⟨(i 1).val, idx2_lt1 i⟩ : Fin 128) :=
    idx2_ext _ _ (by show (j 0).val = (i 0).val % 2000; omega) (by show (j 1).val = (i 1).val; omega)
  unfold Yarr
  rw [e0, e1, e2]
  exact congrArg _ ej

/-! ## The write-backs build the result array -/

section Final

variable (c : Dev nD)
  (xv : Buf (Elt F) ((c.tc : Thread nD τ).loc main_arg0)) (wv : Buf (Elt F) ((c.tc : Thread nD τ).loc main_arg2))
  (bv : Buf (Elt F) ((c.tc : Thread nD τ).loc main_v1)) (yv : Buf (Elt F) ((c.tc : Thread nD τ).loc main_v2))
  (Φ₀ : sProp (MT nD τ sig (HIx 1) (Elt F) ℕ UU ℕ)) (O : CellTallies nD τ sig (HIx 1)) (B : Set (SemLoc sig × HIx 1))

theorem tcHz : (![0, 0] : Fin 2 → Nat) = fun _ => 0 := funext fun a => by fin_cases a <;> rfl

/-- The printed index maps over the grid: the window of x and the result's window are at block (t, 0); W's and the
    bias's at block (0, 0). -/
theorem tcIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the result array. -/
theorem tcFlushed (t : Fin cfg0.N) :
    (tcDat c xv wv bv yv Φ₀ O B).flushed 3 t = ((cfg0.win 3).blk t).view.read (Elt F) (Yarr xv wv bv) := by
  show (cfg0.win 3).cut (grid0.coords t) ((tcDat c xv wv bv yv Φ₀ O B).after 3 t) = _
  rw [tcAfter3]
  unfold tcOut
  rw [View.canon_unit_zero tcHz]
  simp only [View.ld_unit_zero (S := S2000x128) tcHz, View.ld_unit_zero (S := S128x128) tcHz]
  obtain ⟨e0, e1, e2, e3, e4, e5, e6, e7⟩ := tcIdx t
  funext j
  refine Yarr_block xv wv bv t.val (((cfg0.win 3).blk t).view.emb j) j ?_ ?_ _ _ _ ?_ ?_ ?_
  · show win0_3.index t (0 : Fin 2) * 2000 + 1 * (j 0).val = _; omega
  · show win0_3.index t (1 : Fin 2) * 128 + 1 * (j 1).val = _; omega
  · intro y i' hi0 hi1
    show xv (((cfg0.win 0).blk t).view.emb y) = xv i'
    refine congrArg xv (idx2_ext _ _ ?_ ?_)
    · show win0_0.index t (0 : Fin 2) * 2000 + 1 * (y 0).val = _; omega
    · show win0_0.index t (1 : Fin 2) * 128 + 1 * (y 1).val = _; omega
  · intro y i' hi0 hi1
    show wv (((cfg0.win 1).blk t).view.emb y) = wv i'
    refine congrArg wv (idx2_ext _ _ ?_ ?_)
    · show win0_1.index t (0 : Fin 2) * 128 + 1 * (y 0).val = _; omega
    · show win0_1.index t (1 : Fin 2) * 128 + 1 * (y 1).val = _; omega
  · intro y i' hi0 hi1
    show bv (((cfg0.win 2).blk t).view.emb (rB.idx y)) = bv i'
    refine congrArg bv (idx2_ext _ _ ?_ ?_)
    · show win0_2.index t (0 : Fin 2) * 8 + 1 * (0 + 1 * (y 0).val) = _
      have hy0 : (y 0).val < 1 := idx2_lt0 y
      omega
    · show win0_2.index t (1 : Fin 2) * 128 + 1 * (0 + 1 * (y 1).val) = _; omega

/-- An index of the array is in point t's block iff each coordinate is in the block's range on its axis. -/
theorem tcMemBlk (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v2).slice (win0_3.rect t)).set ↔ _
  rw [View.set_slice_whole, Rect.mem_set_unit]
  exact Iff.rfl

/-- Every index of the array is in the block of the point its row names. -/
theorem tcCoverAll (i : S10000x128.Idx) : ∃ t : Fin cfg0.N, (cfg0.win 3).flush t = true ∧ i ∈ ((cfg0.win 3).blk t).view.set := by
  have hi0 : (i 0).val < 10000 := idx2_lt0 i
  have hi1 : (i 1).val < 128 := idx2_lt1 i
  have hN : cfg0.N = 5 := N_0
  have ht : (i 0).val / 2000 < cfg0.N := by rw [hN]; omega
  obtain ⟨-, -, -, -, -, -, e6, e7⟩ := tcIdx ⟨(i 0).val / 2000, ht⟩
  refine ⟨⟨(i 0).val / 2000, ht⟩, flush0_3 _, ?_⟩
  rw [tcMemBlk]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    omega

/-- After the five points the result's array is the result array. -/
theorem tcFinal : (tcDat c xv wv bv yv Φ₀ O B).arrAt 3 cfg0.N = Yarr xv wv bv :=
  (tcDat c xv wv bv yv Φ₀ O B).arrAt_eq_of_cover 3 (Yarr xv wv bv) (fun t _ => tcFlushed c xv wv bv yv Φ₀ O B t) tcCoverAll

end Final

end Cert.Kernel.Hand

end
-- ==== Proof.TcSegB.lean ====
/-
  The matrix-product pipeline's region as a record: its ghost state and the launch element that funds it, the
  proof data on every core, the thread states the region is entered from and leaves, and the four entailments
  between them.  The TensorCore's debts are all at a call's index, strictly above the level of the pipeline's own
  waits (the kernels' index, level 0): the waits may be recorded, and what the core owes passes through unchanged.
-/
import proofs.«207968_g22119081574525_cont_sun_m_427_17_alg».proof.Proof.TcArrayB

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The pipeline's ghost state, and the launch element that funds it -/

/-- The pipeline prefetches no table: its one admissible contents. -/
abbrev tcAdm : (p : Fin 1) → (pcfgs (F := F) p).Adm := fun q => (cfgs q).toPCfg_adm

/-- What core c holds of the pipeline's staging cells from launch to the call: each cell's launch state, its owner's
    position at round 0, and the duty tokens of the transfers the five points issue. -/
def tcGhost (c : Dev nD) : sProp 𝕄 :=
  iprop(Pipeline.cellsGhost (nD := nD) (τ := τ) cfgs (EP (F := F)) 0 c ∗ Pipeline.toksInit (nD := nD) (τ := τ) cfgs (EP (F := F)) 0 c)

/-- The launch element of the pipeline's rounds algebra: every staging cell at its launch state, every transfer's
    duty token. -/
def uP₀ : UP := initOf (Pipeline.cells (nD := nD) (τ := τ) cfgs cellOf_inj) (Pipeline.launchToks (nD := nD) (τ := τ) cfgs cellOf_inj)

/-- The launch element deals every core its ghost state. -/
theorem tcGhost_fund :
    (BI.own ((EP (F := F)) uP₀) : sProp 𝕄) ⊢ |={Set.univ}=> bigSep Finset.univ fun c : Dev nD => tcGhost (F := F) c := by
  have hg : (bigSep Finset.univ fun c : Dev nD => bigSep Finset.univ fun p : Fin 1 => (Pipeline.cellsGhost (nD := nD) (τ := τ) cfgs (EP (F := F)) p c : sProp 𝕄))
      = bigSep Finset.univ fun c : Dev nD => Pipeline.cellsGhost (nD := nD) (τ := τ) cfgs (EP (F := F)) 0 c :=
    bigSep_congr fun c _ => bigSep_univ_of_subsingleton (0 : Fin 1)
  have ht : (bigSep Finset.univ fun c : Dev nD => bigSep Finset.univ fun p : Fin 1 => (Pipeline.toksInit (nD := nD) (τ := τ) cfgs (EP (F := F)) p c : sProp 𝕄))
      = bigSep Finset.univ fun c : Dev nD => Pipeline.toksInit (nD := nD) (τ := τ) cfgs (EP (F := F)) 0 c :=
    bigSep_congr fun c _ => bigSep_univ_of_subsingleton (0 : Fin 1)
  have h := Pipeline.fund_ghost (nD := nD) (τ := τ) cfgs (EP (F := F)) cellOf_inj
  rw [hg, ht] at h
  unfold tcGhost uP₀
  rw [bigSep_sep']
  iintro H
  imod h $$ H with ⟨Hg, Ht⟩
  imodintro
  isplitl [Hg]; · iexact Hg
  iexact Ht

/-! ## What the TensorCore owes during the region -/

/-- The TensorCore of c before call 0 owes nothing at the kernels' own index. -/
theorem tcO_none (c : Dev nD) (g : GSem nD τ sig) : (K (F := F)).Otc c 0 g none = 0 := by
  by_contra h
  have := SparseCore.Cfg.lev_of_Otc_pos (K := K (F := F)) (Nat.pos_of_ne_zero h)
  rw [SparseCore.Cfg.lev_none] at this; omega

/-- What the TensorCore of c owes before call 0, its recorded waits at level 0. -/
def tcOwes (c : Dev nD) : sProp 𝕄 :=
  iprop(∃ W, ⌜(K (F := F)).WBelow (T c) W (8 * 0)⌝ ∗ owes (T c : Thread nD τ) ((K (F := F)).Otc c 0) W)

/-- The pipeline prefetches no table. -/
theorem tcPrefHeld (c : Dev nD) :
    (Pipeline.prefHeld (pcfgs (F := F) 0).pre c (fun _ => fullShare) (tcAdm (F := F) 0).1 : sProp 𝕄) = iprop(emp) := by
  unfold Pipeline.prefHeld
  show bigSep (Finset.univ : Finset (Fin 0)) _ = _
  rw [Finset.univ_eq_empty, bigSep_empty]; rfl

/-- The body has no semaphore of its own. -/
theorem tcOwnSems0 (c : Dev nD) : (Pipeline.ownSems0 (fun k : PEmpty => (k.elim : SemLoc sig)) c : sProp 𝕄) = iprop(emp) := by
  unfold Pipeline.ownSems0
  rw [Finset.univ_eq_empty, bigSep_empty]; rfl

/-- A buffer held at contents f is held at any equal contents. -/
theorem pt_congr {ℓ : Loc nD τ sig} {f g : Buf (Elt F) ℓ} (h : f = g) : (ℓ ↦{fullShare} f : sProp 𝕄) ⊢ ℓ ↦{fullShare} g := by
  rw [h]

/-! ## The region's record -/

section Region

variable (d : Dev nD)
  (xv : Buf (Elt F) ((T d : Thread nD τ).loc main_arg0)) (wv : Buf (Elt F) ((T d : Thread nD τ).loc main_arg2))
  (bv : Buf (Elt F) ((T d : Thread nD τ).loc main_v1)) (yv : Buf (Elt F) ((T d : Thread nD τ).loc main_v2))

/-- The contents given at device d, read at any device: there is one. -/
def xvAt (c : Dev nD) : Buf (Elt F) ((T c : Thread nD τ).loc main_arg0) := (Subsingleton.elim d c) ▸ xv
def wvAt (c : Dev nD) : Buf (Elt F) ((T c : Thread nD τ).loc main_arg2) := (Subsingleton.elim d c) ▸ wv
def bvAt (c : Dev nD) : Buf (Elt F) ((T c : Thread nD τ).loc main_v1) := (Subsingleton.elim d c) ▸ bv
def yvAt (c : Dev nD) : Buf (Elt F) ((T c : Thread nD τ).loc main_v2) := (Subsingleton.elim d c) ▸ yv

theorem xvAt_self : xvAt d xv d = xv := rfl
theorem wvAt_self : wvAt d wv d = wv := rfl
theorem bvAt_self : bvAt d bv d = bv := rfl
theorem yvAt_self : yvAt d yv d = yv := rfl

/-- The pipeline's proof data on every core: the arrays as given; the invariant the core's scoped buffers that are no
    staging buffer; the core owing its start signals throughout, its recorded waits at level 0. -/
def tcDats : (p : Fin 1) → (c : Dev nD) → Dat τ (Elt F) (HIx 1) ℕ UU ℕ (Pipeline.pin (pcfgs (F := F)) tcAdm p) c :=
  fun _ c => tcDat c (xvAt d xv c) (wvAt d wv c) (bvAt d bv c) (yvAt d yv c) (Pipeline.scopedRest spec0 c)
    ((K (F := F)).Otc c 0) {p | (K (F := F)).lev (T c, p.1) p.2 ≤ 0}

/-- The thread state the region is entered from: the core's debts and the four arrays, -/
def tcPre (c : Dev nD) : sProp 𝕄 :=
  iprop(tcOwes (F := F) c
    ∗ (((T c : Thread nD τ).loc main_arg0) ↦{fullShare} xvAt d xv c) ∗ (((T c : Thread nD τ).loc main_arg2) ↦{fullShare} wvAt d wv c)
    ∗ (((T c : Thread nD τ).loc main_v1) ↦{fullShare} bvAt d bv c) ∗ (((T c : Thread nD τ).loc main_v2) ↦{fullShare} yvAt d yv c))

/-- and the one it leaves: the same with the result array in the result's buffer. -/
def tcPost (c : Dev nD) : sProp 𝕄 :=
  iprop(tcOwes (F := F) c
    ∗ (((T c : Thread nD τ).loc main_arg0) ↦{fullShare} xvAt d xv c) ∗ (((T c : Thread nD τ).loc main_arg2) ↦{fullShare} wvAt d wv c)
    ∗ (((T c : Thread nD τ).loc main_v1) ↦{fullShare} bvAt d bv c)
    ∗ (((T c : Thread nD τ).loc main_v2) ↦{fullShare} Yarr (xvAt d xv c) (wvAt d wv c) (bvAt d bv c)))

theorem tcShare (c : Dev nD) (w) : (tcDats d xv wv bv yv 0 c).share w = fullShare :=
  Pipeline.Dat.share_full _ (fun _ => rfl) w

/-- ENTRY: the arrays at the proof data's entry contents, no table, the core's debts with its recorded waits inside
    the pipeline's bound. -/
theorem tcEntry (c : Dev nD) :
    iprop(tcPre d xv wv bv yv c ∗ Pipeline.ownSems0 (fun k : PEmpty => (k.elim : SemLoc sig)) c ∗ levAts (K (F := F)).L (K (F := F)).lev)
      ⊢ |={Set.univ}=> iprop((tcDats d xv wv bv yv 0 c).arrays ((tcDats d xv wv bv yv 0 c).arrAt · 0)
          ∗ Pipeline.prefHeld (pcfgs (F := F) 0).pre c (fun _ => fullShare) (tcAdm (F := F) 0).1
          ∗ (tcDats d xv wv bv yv 0 c).owesAt (none : HIx 1) 0 ∗ iprop(emp) ∗ iprop(emp)) := by
  rw [Pipeline.arrays_eq (Pipeline.pin (pcfgs (F := F)) tcAdm) (tcDats d xv wv bv yv) 0 c arr_whole0 (tcShare d xv wv bv yv c), tcPrefHeld]
  unfold tcPre tcOwes
  iintro ⟨⟨⟨%W, %hW, Ho⟩, H0, H1, H2, H3⟩, -, -⟩
  imodintro
  isplitl [H0 H1 H2 H3]
  · iapply (Entails.of_eq (bigSep_W0 _).symm)
    isplitl [H0]; · iexact H0
    isplitl [H1]; · iexact H1
    isplitl [H2]; · iexact H2
    iexact H3
  isplitr; · iempintro
  isplitl [Ho]
  · iexists W; isplitr
    · ipureintro
      intro p hp
      exact Or.inl (show (K (F := F)).lev (T c, p.1) p.2 ≤ 0 from hW p (Finset.mem_coe.mp hp))
    iexact Ho
  isplitr <;> iempintro

/-- EXIT: the inputs' arrays as they were, the result's at the result array, the core's debts with its recorded waits
    back at level 0 (the pipeline's own waits are at the kernels' index, level 0). -/
theorem tcExit (c : Dev nD) :
    iprop((tcDats d xv wv bv yv 0 c).arrays ((tcDats d xv wv bv yv 0 c).arrAt · (Pipeline.pin (pcfgs (F := F)) tcAdm 0).N)
        ∗ (tcDats d xv wv bv yv 0 c).owesAt (none : HIx 1) (Fin.last (Pipeline.pin (pcfgs (F := F)) tcAdm 0).N) ∗ iprop(emp) ∗ iprop(emp))
      ⊢ |={Set.univ}=> tcPost d xv wv bv c := by
  rw [Pipeline.arrays_eq (Pipeline.pin (pcfgs (F := F)) tcAdm) (tcDats d xv wv bv yv) 0 c arr_whole0 (tcShare d xv wv bv yv c)]
  have e0 : (tcDats d xv wv bv yv 0 c).arrAt 0 cfg0.N = xvAt d xv c := (tcDats d xv wv bv yv 0 c).arrAt_in 0 rfl _
  have e1 : (tcDats d xv wv bv yv 0 c).arrAt 1 cfg0.N = wvAt d wv c := (tcDats d xv wv bv yv 0 c).arrAt_in 1 rfl _
  have e2 : (tcDats d xv wv bv yv 0 c).arrAt 2 cfg0.N = bvAt d bv c := (tcDats d xv wv bv yv 0 c).arrAt_in 2 rfl _
  have e3 : (tcDats d xv wv bv yv 0 c).arrAt 3 cfg0.N = Yarr (xvAt d xv c) (wvAt d wv c) (bvAt d bv c) :=
    tcFinal c (xvAt d xv c) (wvAt d wv c) (bvAt d bv c) (yvAt d yv c) _ _ _
  unfold tcPost tcOwes
  iintro ⟨Ha, ⟨%W, %hW, Ho⟩, -, -⟩
  ihave Ha' := (Entails.of_eq (bigSep_W0 _)) $$ Ha
  icases Ha' with ⟨H0, H1, H2, H3⟩
  imodintro
  isplitl [Ho]
  · iexists W; isplitr
    · ipureintro
      intro p hp
      rcases hW (Finset.mem_coe.mpr hp) with h | ⟨w, s, rfl⟩
      · exact h
      · show (K (F := F)).lev _ none ≤ 8 * 0
        rw [SparseCore.Cfg.lev_none]
    iexact Ho
  isplitl [H0]; · iapply (pt_congr e0); iexact H0
  isplitl [H1]; · iapply (pt_congr e1); iexact H1
  isplitl [H2]; · iapply (pt_congr e2); iexact H2
  iapply (pt_congr e3); iexact H3

/-- The region's record: the decided layout, no semaphore of the body's own, the body obligation, the wait evidence
    (the pipeline's waits at the kernels' index, below every debt), the four entailments. -/
abbrev tcSeg : Pipeline.RegionSeg (pcfgs (F := F)) tcAdm (tcDats d xv wv bv yv) (none : HIx 1) (defs₀ (F := F)) 𝒱₀
    (K (F := F)).L (K (F := F)).lev (0 : Fin 1) where
  win := winFacts0.to₀
  block_pos := block_pos0
  stage_whole := stage_whole0
  K := PEmpty
  osem := fun k => k.elim
  ho := Pipeline.OwnSemFacts.none _
  hbody := fun c => (tcBodyObligation c _ _ _ _ _ _ _).loose
  hwaits := fun c => Pipeline.cellsWaits_intro (Pipeline.pin (pcfgs (F := F)) tcAdm) (tcDats d xv wv bv yv) (none : HIx 1) 0 c
    fun w s t => (K (F := F)).mayWait_none _ (tcO_none c)
  pre := tcPre d xv wv bv yv
  post := tcPost d xv wv bv
  X := fun _ => iprop(emp)
  Y := fun _ => iprop(emp)
  Z := fun _ => iprop(emp)
  hentry := tcEntry d xv wv bv yv
  hin := fun c => by
    rw [tcPrefHeld]
    show iprop(iprop(emp) ∗ iprop(emp) ∗ Pipeline.scopedRest spec0 c) ⊢ Pipeline.scopedRest spec0 c
    iintro ⟨-, -, H⟩; iexact H
  hout := fun c => by
    rw [tcOwnSems0]
    show Pipeline.scopedRest spec0 c ⊢ iprop(iprop(emp) ∗ iprop(emp) ∗ Pipeline.scopedRest spec0 c)
    iintro H
    isplitr; · iempintro
    isplitr; · iempintro
    iexact H
  hexit := tcExit d xv wv bv yv

end Region

end Cert.Kernel.Hand

end
-- ==== Proof.TcRegionB.lean ====
/-
  The region of the matrix-product pipeline, entered from @main on the TensorCore while the TensorCore still
  owes the SparseCores their start signals: through the lift of the pipeline's body table to the program's, then
  the region rule on the region's record.
-/
import proofs.«207968_g22119081574525_cont_sun_m_427_17_alg».proof.Proof.TcSegB

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The handshakes' context holds the level facts. -/
theorem tcLevAts (P : (K (F := F)).Pay (nD := nD) (Val := Elt F) (Name := ℕ) (U := UU)) (κ : GSem nD τ sig → ℕ) :
    (K (F := F)).ctx EH P κ ⊢ (levAts (K (F := F)).L (K (F := F)).lev : sProp 𝕄) := by
  unfold SparseCore.Cfg.ctx
  exact sep_elim_left

/-- A proof about the call under the pipeline's body table is a proof about the call as @main prints it. -/
theorem tcLift (d : Dev nD) (Φ : PUnit → sProp 𝕄) :
    wp frame (wpE (D (F := F)) 𝒱 (T d : Thread nD τ) none) Set.univ (Prog.lift (.customCall (Pipeline.entry (0 : Fin 1)) ())) Φ
      ⊢ wp frame (wpE ((K (F := F)).defs (D (F := F))) 𝒱 (T d : Thread nD τ) none) Set.univ
          (Prog.lift (.customCall (SparseCore.inner (Pipeline.entry 0)) ())) Φ :=
  (K (F := F)).wp_liftProg (D (F := F)) 𝒱 (T d) Set.univ none (Prog.lift (.customCall (Pipeline.entry (0 : Fin 1)) ())) Φ

section Glue

variable (d : Dev nD)
  (xv : Buf (Elt F) ((T d : Thread nD τ).loc main_arg0)) (wv : Buf (Elt F) ((T d : Thread nD τ).loc main_arg2))
  (bv : Buf (Elt F) ((T d : Thread nD τ).loc main_v1)) (yv : Buf (Elt F) ((T d : Thread nD τ).loc main_v2))

theorem tcSeg_post (c : Dev nD) : (tcSeg d xv wv bv yv).post c = tcPost d xv wv bv c := rfl
theorem tcSeg_pre (c : Dev nD) : (tcSeg d xv wv bv yv).pre c = tcPre d xv wv bv yv c := rfl

set_option maxHeartbeats 400000 in
/-- The call under the pipeline's body table, by the region rule on the region's record: from the boundary, the
    entry state, the level facts and the pipeline's ghost state, to the boundary and the exit state. -/
theorem tcRegionStep (Φ : PUnit → sProp (MT nD τ sig (HIx 1) (Elt F) ℕ UU ℕ)) :
    iprop((iprop(boundary (T d : Thread nD τ) ∗ tcPost d xv wv bv d) -∗ |={Set.univ}=> Φ ⟨⟩)
        ∗ boundary (T d : Thread nD τ) ∗ tcPre d xv wv bv yv d ∗ levAts (K (F := F)).L (K (F := F)).lev ∗ tcGhost (F := F) d)
      ⊢ wp frame (wpE (D (F := F)) 𝒱 (T d : Thread nD τ) none) Set.univ (Prog.lift (.customCall (Pipeline.entry (0 : Fin 1)) ())) Φ := by
  have h := Pipeline.RegionSeg.wp (pcfgs (F := F)) tcAdm (tcDats d xv wv bv yv) (none : HIx 1) cellOf_inj (EP (F := F))
    (defs₀ (F := F)) 𝒱₀ (K (F := F)).L (K (F := F)).lev (tcSeg d xv wv bv yv) d none (fun _ h => nomatch h) (fun x => .ret x) Φ
  rw [tcSeg_post, tcSeg_pre] at h
  refine BIBase.Entails.trans ?_ h
  unfold tcGhost
  iintro ⟨Hk, Hb, Hpre, Hlev, Hcg, Htk⟩
  isplitl [Hk]; · iexact Hk
  isplitl [Hb]; · iexact Hb
  isplitl [Hpre]; · iexact Hpre
  isplitl [Hlev]; · iexact Hlev
  isplitl [Hcg]; · iexact Hcg
  iexact Htk

end Glue

set_option maxHeartbeats 400000 in
/-- The region on device d's TensorCore, from the pipeline's ghost state, the handshakes' records and level facts, the
    TensorCore's state before call 0 (its debts pass through unchanged), the region boundary and the four arrays: it
    runs to the same with the result array at Yarr of the three inputs. -/
theorem region_wp (P : (K (F := F)).Pay (nD := nD) (Val := Elt F) (Name := ℕ) (U := UU)) (κ : GSem nD τ sig → ℕ) (d : Dev nD)
    (xv : Buf (Elt F) ((T d : Thread nD τ).loc main_arg0)) (wv : Buf (Elt F) ((T d : Thread nD τ).loc main_arg2))
    (bv : Buf (Elt F) ((T d : Thread nD τ).loc main_v1)) (yv : Buf (Elt F) ((T d : Thread nD τ).loc main_v2))
    (Φ : PUnit → sProp 𝕄) :
    iprop(tcGhost (F := F) d ∗ (K (F := F)).ctx EH P κ ∗ (K (F := F)).tcSt EH d 0 ∗ boundary (T d : Thread nD τ)
        ∗ (((T d : Thread nD τ).loc main_arg0) ↦{fullShare} xv) ∗ (((T d : Thread nD τ).loc main_arg2) ↦{fullShare} wv)
        ∗ (((T d : Thread nD τ).loc main_v1) ↦{fullShare} bv) ∗ (((T d : Thread nD τ).loc main_v2) ↦{fullShare} yv)
        ∗ (iprop((K (F := F)).tcSt EH d 0 ∗ boundary (T d : Thread nD τ)
            ∗ (((T d : Thread nD τ).loc main_arg0) ↦{fullShare} xv) ∗ (((T d : Thread nD τ).loc main_arg2) ↦{fullShare} wv)
            ∗ (((T d : Thread nD τ).loc main_v1) ↦{fullShare} bv) ∗ (((T d : Thread nD τ).loc main_v2) ↦{fullShare} Yarr xv wv bv))
          -∗ Φ ⟨⟩))
      ⊢ wp frame (wpE ((K (F := F)).defs (D (F := F))) 𝒱 (T d : Thread nD τ) none) Set.univ
          (Prog.lift (.customCall (SparseCore.inner (Pipeline.entry 0)) ())) Φ := by
  refine BIBase.Entails.trans ?_ (tcLift d Φ)
  refine BIBase.Entails.trans ?_ (tcRegionStep d xv wv bv yv Φ)
  unfold SparseCore.Cfg.tcSt tcPre tcPost tcOwes
  rw [xvAt_self, wvAt_self, bvAt_self, yvAt_self]
  iintro ⟨Hg, #Hctx, ⟨Ho, Hrest⟩, Hb, H0, H1, H2, H3, Hk⟩
  isplitl [Hk Hrest]
  · iintro ⟨Hb, Ho, H0, H1, H2, H3⟩
    imodintro
    iapply Hk
    isplitl [Ho Hrest]
    · isplitl [Ho]; · iexact Ho
      iexact Hrest
    isplitl [Hb]; · iexact Hb
    isplitl [H0]; · iexact H0
    isplitl [H1]; · iexact H1
    isplitl [H2]; · iexact H2
    iexact H3
  isplitl [Hb]; · iexact Hb
  isplitl [Ho H0 H1 H2 H3]
  · isplitl [Ho]; · iexact Ho
    isplitl [H0]; · iexact H0
    isplitl [H1]; · iexact H1
    isplitl [H2]; · iexact H2
    iexact H3
  isplitr
  · iapply (tcLevAts P κ); iexact Hctx
  iexact Hg

end Cert.Kernel.Hand

end
-- ==== Proof.TileDefsB.lean ====
/-
  One vector subcore's task: it copies its 10000 entries of the edge list's second row into its index scratch,
  then gathers the rows of y those entries name, eighty at a time, through five row buffers — four gathers ahead —
  and copies each filled buffer out to its eighty rows of the result.
-/
import proofs.«207968_g22119081574525_cont_sun_m_427_17_alg».proof.Proof.CommonB
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

abbrev yLoc (d : Dev nD) : Loc nD τ sig := (SparseCore.T d).loc main_v2
abbrev iLoc (d : Dev nD) : Loc nD τ sig := (SparseCore.T d).loc main_v4
abbrev oLoc (d : Dev nD) : Loc nD τ sig := (SparseCore.T d).loc main_v5

local notation "yV" => (Memref.whole Cert.Kernel.main_v2_scv : Memref Cert.Kernel.sig Kind.scVector Space.hbm Cert.Kernel.S10000x128 EltTy.f32)
local notation "iV" => (Memref.whole Cert.Kernel.main_v4_scv : Memref Cert.Kernel.sig Kind.scVector Space.hbm Cert.Kernel.S320000 EltTy.i32)
local notation "oV" => (Memref.whole Cert.Kernel.main_v5_scv : Memref Cert.Kernel.sig Kind.scVector Space.hbm Cert.Kernel.S320000x128 EltTy.f32)
local notation "sV" => (Memref.whole Cert.Kernel.cc1_scratch0 : Memref Cert.Kernel.sig Kind.scVector Space.vmem Cert.Kernel.S10000 EltTy.i32)
local notation "r0V" => (Memref.whole Cert.Kernel.cc1_scratch1 : Memref Cert.Kernel.sig Kind.scVector Space.vmem Cert.Kernel.S80x128 EltTy.f32)
local notation "r1V" => (Memref.whole Cert.Kernel.cc1_scratch2 : Memref Cert.Kernel.sig Kind.scVector Space.vmem Cert.Kernel.S80x128 EltTy.f32)
local notation "r2V" => (Memref.whole Cert.Kernel.cc1_scratch3 : Memref Cert.Kernel.sig Kind.scVector Space.vmem Cert.Kernel.S80x128 EltTy.f32)
local notation "r3V" => (Memref.whole Cert.Kernel.cc1_scratch4 : Memref Cert.Kernel.sig Kind.scVector Space.vmem Cert.Kernel.S80x128 EltTy.f32)
local notation "r4V" => (Memref.whole Cert.Kernel.cc1_scratch5 : Memref Cert.Kernel.sig Kind.scVector Space.vmem Cert.Kernel.S80x128 EltTy.f32)

abbrev cV (L : grid1.Coords) : Fin τ.nSC := (L 0).castLE hcore1
abbrev jV (L : grid1.Coords) : Fin τ.nSub := (L 1).castLE hsub1

variable [FloatOps F]
variable (d : Dev nD) (L : grid1.Coords)

abbrev VT (d : Dev nD) (L : grid1.Coords) : Thread nD τ := V d (cV L) (jV L)

/-- the tile's 10000 entries of the edge list's second row, as the program slices them -/
abbrev iTileK (L : grid1.Coords) : Memref sig .scVector .hbm S10000 .i32 :=
  (iV).slice (Rect.unit (s := S320000) (k1_off1 L) S10000.size (k1_off1_inb L)) (fun _ => rfl)
/-- all of y, as a gather names its source -/
abbrev ySl : Memref sig .scVector .hbm S10000x128 .f32 :=
  (yV).slice (Rect.unit (s := S10000x128) ![0, 0] S10000x128.size inb_S10000x128_S10000x128_0_0) (fun _ => rfl)

omit [FloatOps F] in
theorem lst_inb (n : ℕ) (h : n + 80 ≤ 10000) : ∀ a, (![n] : Fin 1 → Nat) a + S80.size a ≤ S10000.size a := by
  intro a; match a with | 0 => exact h
/-- the eighty words of the index scratch from word n on -/
abbrev lstN (n : ℕ) (h : n + 80 ≤ 10000) : Memref sig .scVector .vmem S80 .i32 :=
  (sV).slice (Rect.unit (s := S10000) ![n] S80.size (lst_inb n h)) (fun _ => rfl)

/-- the eighty result rows chunk 5t + j of the tile is copied to, as the program slices them when it issues the copy -/
abbrev oC0 (L : grid1.Coords) (t : Fin k1_t1_loop.trips) : Memref sig .scVector .hbm S80x128 .f32 :=
  (oV).slice (Rect.unit (s := S320000x128) (k1_off3 L t 0#32) S80x128.size (k1_off3_inb L t 0)) (fun _ => rfl)
abbrev oC1 (L : grid1.Coords) (t : Fin k1_t1_loop.trips) : Memref sig .scVector .hbm S80x128 .f32 :=
  (oV).slice (Rect.unit (s := S320000x128) (k1_off3 L t 1#32) S80x128.size (k1_off3_inb L t 1)) (fun _ => rfl)
abbrev oC2 (L : grid1.Coords) (t : Fin k1_t1_loop.trips) : Memref sig .scVector .hbm S80x128 .f32 :=
  (oV).slice (Rect.unit (s := S320000x128) (k1_off3 L t 2#32) S80x128.size (k1_off3_inb L t 2)) (fun _ => rfl)
abbrev oC3 (L : grid1.Coords) (t : Fin k1_t1_loop.trips) : Memref sig .scVector .hbm S80x128 .f32 :=
  (oV).slice (Rect.unit (s := S320000x128) (k1_off3 L t 3#32) S80x128.size (k1_off3_inb L t 3)) (fun _ => rfl)
abbrev oC4 (L : grid1.Coords) (t : Fin k1_t1_loop.trips) : Memref sig .scVector .hbm S80x128 .f32 :=
  (oV).slice (Rect.unit (s := S320000x128) (k1_off3 L t 4#32) S80x128.size (k1_off3_inb L t 4)) (fun _ => rfl)

/-- what the index scratch holds once the tile's entries have been fetched into it -/
abbrev svalOf (pay : S10000.Idx → Elt F .i32) : Buf (Elt F) ((sV).view.loc (VT d L)) :=
  (sV).view.writes (Elt F) (sV).view.junk [⟨Rect.whole cc1_scratch0.ty.shape, pay⟩]

/-- every word the index scratch holds after the fetch is a node number, whichever eighty of them a gather lists -/
theorem idx_inb (g0 : Buf (Elt F) ((sV).view.loc (VT d L))) (pay : S10000.Idx → Elt F .i32) (hpay : ∀ j, (pay j).toNat < 10000)
    (off : Fin 1 → Nat) (h : ∀ a, off a + S80.size a ≤ S10000.size a) (hs : ∀ a, (Rect.unit (s := S10000) off S80.size h).stride a = 1) :
    ∀ x, (View.read (Elt F) ((sV).slice (Rect.unit (s := S10000) off S80.size h) hs).view
      ((sV).view.writes (Elt F) g0 [⟨Rect.whole cc1_scratch0.ty.shape, pay⟩]) x).toNat < 10000 := by
  intro x
  have e : View.read (Elt F) ((sV).slice (Rect.unit (s := S10000) off S80.size h) hs).view ((sV).view.writes (Elt F) g0 [⟨Rect.whole cc1_scratch0.ty.shape, pay⟩]) x
      = View.read (Elt F) (sV).view ((sV).view.writes (Elt F) g0 [⟨Rect.whole cc1_scratch0.ty.shape, pay⟩]) ((Rect.unit (s := S10000) off S80.size h).emb x) := by
    rw [View.read_apply, View.read_apply]; rfl
  rw [e, View.read_writes_whole]
  exact hpay _

/-- the rows of y a list of eighty words of the index scratch names: what a gather delivers -/
def GPv (yv : Buf (Elt F) (yLoc d)) (pay : S10000.Idx → Elt F .i32) (hpay : ∀ j, (pay j).toNat < 10000) (n : ℕ) (h : n + 80 ≤ 10000) :
    S80x128.Idx → Elt F .f32 :=
  SparseCore.gatherPayload gathers_S10000x128_S80x128 (View.read (Elt F) (ySl).view yv)
    (SparseCore.rows (View.read (Elt F) (lstN n h).view (svalOf d L pay)) rfl (idx_inb d L _ pay hpay ![n] (lst_inb n h) (fun _ => rfl)))

omit [FloatOps F] in
theorem c1 : ∀ k : Fin k1_t1_loop.trips, k1_cond1 k = 1#1 := by decide +kernel
omit [FloatOps F] in
theorem c2 : ∀ k : Fin k1_t1_loop.trips, 0 < k.val → k1_cond2 k = 1#1 := by decide +kernel
omit [FloatOps F] in
theorem c2' : ∀ k : Fin k1_t1_loop.trips, k.val = 0 → ¬ k1_cond2 k = 1#1 := by decide +kernel
omit [FloatOps F] in
theorem c3 : ∀ k : Fin k1_t1_loop.trips, k.val < 24 → k1_cond3 k = 1#1 ∧ k1_cond5 k = 1#1 ∧ k1_cond7 k = 1#1 ∧ k1_cond9 k = 1#1 := by decide +kernel
omit [FloatOps F] in
theorem c3' : ∀ k : Fin k1_t1_loop.trips, k.val = 24 → ¬ k1_cond3 k = 1#1 ∧ ¬ k1_cond5 k = 1#1 ∧ ¬ k1_cond7 k = 1#1 ∧ ¬ k1_cond9 k = 1#1 := by decide +kernel
omit [FloatOps F] in
theorem c4 : ∀ k : Fin k1_t1_loop.trips, k1_cond4 k = 1#1 ∧ k1_cond6 k = 1#1 ∧ k1_cond8 k = 1#1 ∧ k1_cond10 k = 1#1 := by decide +kernel

/-- slot 0: a gather in flight into row buffer 0 from the eighty words at n, with what stays outside it meanwhile -/
def GB0 (q : PosShare TreeShare) (yv : Buf (Elt F) (yLoc d)) (pay : S10000.Idx → Elt F .i32) (hpay : ∀ j, (pay j).toNat < 10000)
    (n : ℕ) (h : n + 80 ≤ 10000) (a : Buf (Elt F) ((r0V).view.loc (VT d L))) : sProp 𝕄 :=
  iprop(Transfers.Flight countersEmb (VT d L) (SemLoc.dma cc1_scratch6.sem) (default : HIx 1) 327680
      iprop((((r0V).view.loc (VT d L) ↦[(r0V).view.set]{fullShare}
                (r0V).view.writes (Elt F) a [⟨Rect.whole cc1_scratch1.ty.shape, GPv d L yv pay hpay n h⟩])
            ∗ ((sV).view.loc (VT d L) ↦[(lstN n h).view.set]{Transfers.shareTokN fullShare 6} svalOf d L pay))
          ∗ ((yV).view.loc (VT d L) ↦[(ySl).view.set]{Transfers.shareTokN q 6} yv))
    ∗ ((yV).view.loc (VT d L) ↦[Finset.univ \ (ySl).view.set]{Transfers.shareTokN q 6} yv)
    ∗ ((sV).view.loc (VT d L) ↦[(sV).view.set \ (lstN n h).view.set]{Transfers.shareTokN fullShare 6} svalOf d L pay)
    ∗ ((r0V).view.loc (VT d L) ↦[(r0V).view.set \ (r0V).view.set]{fullShare}
        (r0V).view.writes (Elt F) a [⟨Rect.whole cc1_scratch1.ty.shape, GPv d L yv pay hpay n h⟩]))
/-- slot 0 idle: its row buffer, its two read tokens, its gather semaphore at zero -/
def IB0 (q : PosShare TreeShare) (yv : Buf (Elt F) (yLoc d)) (pay : S10000.Idx → Elt F .i32) : sProp 𝕄 :=
  iprop((∃ a, (r0V).view.loc (VT d L) ↦[(r0V).view.set]{fullShare} a)
    ∗ ((yV).view.loc (VT d L) ↦{Transfers.shareTokN q 6} yv)
    ∗ ((sV).view.loc (VT d L) ↦[(sV).view.set]{Transfers.shareTokN fullShare 6} svalOf d L pay)
    ∗ semVal (VT d L, SemLoc.dma cc1_scratch6.sem) 0)
/-- the result rows of slot 0 not yet written, from trip n on; and those written and landed, before trip n -/
def Todo0 (ov : Buf (Elt F) (oLoc d)) (n : ℕ) : sProp 𝕄 :=
  bigSep (Ring.rangeSet k1_t1_loop.trips n 25) fun t => (oC0 L t).view.loc (VT d L) ↦[(oC0 L t).view.set]{fullShare} ov
def Done0 (yv : Buf (Elt F) (yLoc d)) (pay : S10000.Idx → Elt F .i32) (hpay : ∀ j, (pay j).toNat < 10000) (n : ℕ) : sProp 𝕄 :=
  bigSep (Ring.rangeSet k1_t1_loop.trips 0 n) fun t => iprop(∃ f, ((oC0 L t).view.loc (VT d L) ↦[(oC0 L t).view.set]{fullShare} f)
    ∗ ⌜∀ x, View.read (Elt F) (oC0 L t).view f x = GPv d L yv pay hpay (400 * t.val + 0) (by have := t.isLt; have : k1_t1_loop.trips = 25 := rfl; omega) x⌝)

/-- slot 1: a gather in flight into row buffer 1 from the eighty words at n, with what stays outside it meanwhile -/
def GB1 (q : PosShare TreeShare) (yv : Buf (Elt F) (yLoc d)) (pay : S10000.Idx → Elt F .i32) (hpay : ∀ j, (pay j).toNat < 10000)
    (n : ℕ) (h : n + 80 ≤ 10000) (a : Buf (Elt F) ((r1V).view.loc (VT d L))) : sProp 𝕄 :=
  iprop(Transfers.Flight countersEmb (VT d L) (SemLoc.dma cc1_scratch7.sem) (default : HIx 1) 327680
      iprop((((r1V).view.loc (VT d L) ↦[(r1V).view.set]{fullShare}
                (r1V).view.writes (Elt F) a [⟨Rect.whole cc1_scratch2.ty.shape, GPv d L yv pay hpay n h⟩])
            ∗ ((sV).view.loc (VT d L) ↦[(lstN n h).view.set]{Transfers.shareTokN fullShare 7} svalOf d L pay))
          ∗ ((yV).view.loc (VT d L) ↦[(ySl).view.set]{Transfers.shareTokN q 7} yv))
    ∗ ((yV).view.loc (VT d L) ↦[Finset.univ \ (ySl).view.set]{Transfers.shareTokN q 7} yv)
    ∗ ((sV).view.loc (VT d L) ↦[(sV).view.set \ (lstN n h).view.set]{Transfers.shareTokN fullShare 7} svalOf d L pay)
    ∗ ((r1V).view.loc (VT d L) ↦[(r1V).view.set \ (r1V).view.set]{fullShare}
        (r1V).view.writes (Elt F) a [⟨Rect.whole cc1_scratch2.ty.shape, GPv d L yv pay hpay n h⟩]))
/-- slot 1 idle: its row buffer, its two read tokens, its gather semaphore at zero -/
def IB1 (q : PosShare TreeShare) (yv : Buf (Elt F) (yLoc d)) (pay : S10000.Idx → Elt F .i32) : sProp 𝕄 :=
  iprop((∃ a, (r1V).view.loc (VT d L) ↦[(r1V).view.set]{fullShare} a)
    ∗ ((yV).view.loc (VT d L) ↦{Transfers.shareTokN q 7} yv)
    ∗ ((sV).view.loc (VT d L) ↦[(sV).view.set]{Transfers.shareTokN fullShare 7} svalOf d L pay)
    ∗ semVal (VT d L, SemLoc.dma cc1_scratch7.sem) 0)
/-- the result rows of slot 1 not yet written, from trip n on; and those written and landed, before trip n -/
def Todo1 (ov : Buf (Elt F) (oLoc d)) (n : ℕ) : sProp 𝕄 :=
  bigSep (Ring.rangeSet k1_t1_loop.trips n 25) fun t => (oC1 L t).view.loc (VT d L) ↦[(oC1 L t).view.set]{fullShare} ov
def Done1 (yv : Buf (Elt F) (yLoc d)) (pay : S10000.Idx → Elt F .i32) (hpay : ∀ j, (pay j).toNat < 10000) (n : ℕ) : sProp 𝕄 :=
  bigSep (Ring.rangeSet k1_t1_loop.trips 0 n) fun t => iprop(∃ f, ((oC1 L t).view.loc (VT d L) ↦[(oC1 L t).view.set]{fullShare} f)
    ∗ ⌜∀ x, View.read (Elt F) (oC1 L t).view f x = GPv d L yv pay hpay (400 * t.val + 80) (by have := t.isLt; have : k1_t1_loop.trips = 25 := rfl; omega) x⌝)

/-- slot 2: a gather in flight into row buffer 2 from the eighty words at n, with what stays outside it meanwhile -/
def GB2 (q : PosShare TreeShare) (yv : Buf (Elt F) (yLoc d)) (pay : S10000.Idx → Elt F .i32) (hpay : ∀ j, (pay j).toNat < 10000)
    (n : ℕ) (h : n + 80 ≤ 10000) (a : Buf (Elt F) ((r2V).view.loc (VT d L))) : sProp 𝕄 :=
  iprop(Transfers.Flight countersEmb (VT d L) (SemLoc.dma cc1_scratch8.sem) (default : HIx 1) 327680
      iprop((((r2V).view.loc (VT d L) ↦[(r2V).view.set]{fullShare}
                (r2V).view.writes (Elt F) a [⟨Rect.whole cc1_scratch3.ty.shape, GPv d L yv pay hpay n h⟩])
            ∗ ((sV).view.loc (VT d L) ↦[(lstN n h).view.set]{Transfers.shareTokN fullShare 8} svalOf d L pay))
          ∗ ((yV).view.loc (VT d L) ↦[(ySl).view.set]{Transfers.shareTokN q 8} yv))
    ∗ ((yV).view.loc (VT d L) ↦[Finset.univ \ (ySl).view.set]{Transfers.shareTokN q 8} yv)
    ∗ ((sV).view.loc (VT d L) ↦[(sV).view.set \ (lstN n h).view.set]{Transfers.shareTokN fullShare 8} svalOf d L pay)
    ∗ ((r2V).view.loc (VT d L) ↦[(r2V).view.set \ (r2V).view.set]{fullShare}
        (r2V).view.writes (Elt F) a [⟨Rect.whole cc1_scratch3.ty.shape, GPv d L yv pay hpay n h⟩]))
/-- slot 2 idle: its row buffer, its two read tokens, its gather semaphore at zero -/
def IB2 (q : PosShare TreeShare) (yv : Buf (Elt F) (yLoc d)) (pay : S10000.Idx → Elt F .i32) : sProp 𝕄 :=
  iprop((∃ a, (r2V).view.loc (VT d L) ↦[(r2V).view.set]{fullShare} a)
    ∗ ((yV).view.loc (VT d L) ↦{Transfers.shareTokN q 8} yv)
    ∗ ((sV).view.loc (VT d L) ↦[(sV).view.set]{Transfers.shareTokN fullShare 8} svalOf d L pay)
    ∗ semVal (VT d L, SemLoc.dma cc1_scratch8.sem) 0)
/-- the result rows of slot 2 not yet written, from trip n on; and those written and landed, before trip n -/
def Todo2 (ov : Buf (Elt F) (oLoc d)) (n : ℕ) : sProp 𝕄 :=
  bigSep (Ring.rangeSet k1_t1_loop.trips n 25) fun t => (oC2 L t).view.loc (VT d L) ↦[(oC2 L t).view.set]{fullShare} ov
def Done2 (yv : Buf (Elt F) (yLoc d)) (pay : S10000.Idx → Elt F .i32) (hpay : ∀ j, (pay j).toNat < 10000) (n : ℕ) : sProp 𝕄 :=
  bigSep (Ring.rangeSet k1_t1_loop.trips 0 n) fun t => iprop(∃ f, ((oC2 L t).view.loc (VT d L) ↦[(oC2 L t).view.set]{fullShare} f)
    ∗ ⌜∀ x, View.read (Elt F) (oC2 L t).view f x = GPv d L yv pay hpay (400 * t.val + 160) (by have := t.isLt; have : k1_t1_loop.trips = 25 := rfl; omega) x⌝)

/-- slot 3: a gather in flight into row buffer 3 from the eighty words at n, with what stays outside it meanwhile -/
def GB3 (q : PosShare TreeShare) (yv : Buf (Elt F) (yLoc d)) (pay : S10000.Idx → Elt F .i32) (hpay : ∀ j, (pay j).toNat < 10000)
    (n : ℕ) (h : n + 80 ≤ 10000) (a : Buf (Elt F) ((r3V).view.loc (VT d L))) : sProp 𝕄 :=
  iprop(Transfers.Flight countersEmb (VT d L) (SemLoc.dma cc1_scratch9.sem) (default : HIx 1) 327680
      iprop((((r3V).view.loc (VT d L) ↦[(r3V).view.set]{fullShare}
                (r3V).view.writes (Elt F) a [⟨Rect.whole cc1_scratch4.ty.shape, GPv d L yv pay hpay n h⟩])
            ∗ ((sV).view.loc (VT d L) ↦[(lstN n h).view.set]{Transfers.shareTokN fullShare 9} svalOf d L pay))
          ∗ ((yV).view.loc (VT d L) ↦[(ySl).view.set]{Transfers.shareTokN q 9} yv))
    ∗ ((yV).view.loc (VT d L) ↦[Finset.univ \ (ySl).view.set]{Transfers.shareTokN q 9} yv)
    ∗ ((sV).view.loc (VT d L) ↦[(sV).view.set \ (lstN n h).view.set]{Transfers.shareTokN fullShare 9} svalOf d L pay)
    ∗ ((r3V).view.loc (VT d L) ↦[(r3V).view.set \ (r3V).view.set]{fullShare}
        (r3V).view.writes (Elt F) a [⟨Rect.whole cc1_scratch4.ty.shape, GPv d L yv pay hpay n h⟩]))
/-- slot 3 idle: its row buffer, its two read tokens, its gather semaphore at zero -/
def IB3 (q : PosShare TreeShare) (yv : Buf (Elt F) (yLoc d)) (pay : S10000.Idx → Elt F .i32) : sProp 𝕄 :=
  iprop((∃ a, (r3V).view.loc (VT d L) ↦[(r3V).view.set]{fullShare} a)
    ∗ ((yV).view.loc (VT d L) ↦{Transfers.shareTokN q 9} yv)
    ∗ ((sV).view.loc (VT d L) ↦[(sV).view.set]{Transfers.shareTokN fullShare 9} svalOf d L pay)
    ∗ semVal (VT d L, SemLoc.dma cc1_scratch9.sem) 0)
/-- the result rows of slot 3 not yet written, from trip n on; and those written and landed, before trip n -/
def Todo3 (ov : Buf (Elt F) (oLoc d)) (n : ℕ) : sProp 𝕄 :=
  bigSep (Ring.rangeSet k1_t1_loop.trips n 25) fun t => (oC3 L t).view.loc (VT d L) ↦[(oC3 L t).view.set]{fullShare} ov
def Done3 (yv : Buf (Elt F) (yLoc d)) (pay : S10000.Idx → Elt F .i32) (hpay : ∀ j, (pay j).toNat < 10000) (n : ℕ) : sProp 𝕄 :=
  bigSep (Ring.rangeSet k1_t1_loop.trips 0 n) fun t => iprop(∃ f, ((oC3 L t).view.loc (VT d L) ↦[(oC3 L t).view.set]{fullShare} f)
    ∗ ⌜∀ x, View.read (Elt F) (oC3 L t).view f x = GPv d L yv pay hpay (400 * t.val + 240) (by have := t.isLt; have : k1_t1_loop.trips = 25 := rfl; omega) x⌝)

/-- slot 4: a gather in flight into row buffer 4 from the eighty words at n, with what stays outside it meanwhile -/
def GB4 (q : PosShare TreeShare) (yv : Buf (Elt F) (yLoc d)) (pay : S10000.Idx → Elt F .i32) (hpay : ∀ j, (pay j).toNat < 10000)
    (n : ℕ) (h : n + 80 ≤ 10000) (a : Buf (Elt F) ((r4V).view.loc (VT d L))) : sProp 𝕄 :=
  iprop(Transfers.Flight countersEmb (VT d L) (SemLoc.dma cc1_scratch10.sem) (default : HIx 1) 327680
      iprop((((r4V).view.loc (VT d L) ↦[(r4V).view.set]{fullShare}
                (r4V).view.writes (Elt F) a [⟨Rect.whole cc1_scratch5.ty.shape, GPv d L yv pay hpay n h⟩])
            ∗ ((sV).view.loc (VT d L) ↦[(lstN n h).view.set]{Transfers.shareTokN fullShare 10} svalOf d L pay))
          ∗ ((yV).view.loc (VT d L) ↦[(ySl).view.set]{Transfers.shareTokN q 10} yv))
    ∗ ((yV).view.loc (VT d L) ↦[Finset.univ \ (ySl).view.set]{Transfers.shareTokN q 10} yv)
    ∗ ((sV).view.loc (VT d L) ↦[(sV).view.set \ (lstN n h).view.set]{Transfers.shareTokN fullShare 10} svalOf d L pay)
    ∗ ((r4V).view.loc (VT d L) ↦[(r4V).view.set \ (r4V).view.set]{fullShare}
        (r4V).view.writes (Elt F) a [⟨Rect.whole cc1_scratch5.ty.shape, GPv d L yv pay hpay n h⟩]))
/-- slot 4 idle: its row buffer, its two read tokens, its gather semaphore at zero -/
def IB4 (q : PosShare TreeShare) (yv : Buf (Elt F) (yLoc d)) (pay : S10000.Idx → Elt F .i32) : sProp 𝕄 :=
  iprop((∃ a, (r4V).view.loc (VT d L) ↦[(r4V).view.set]{fullShare} a)
    ∗ ((yV).view.loc (VT d L) ↦{Transfers.shareTokN q 10} yv)
    ∗ ((sV).view.loc (VT d L) ↦[(sV).view.set]{Transfers.shareTokN fullShare 10} svalOf d L pay)
    ∗ semVal (VT d L, SemLoc.dma cc1_scratch10.sem) 0)
/-- the result rows of slot 4 not yet written, from trip n on; and those written and landed, before trip n -/
def Todo4 (ov : Buf (Elt F) (oLoc d)) (n : ℕ) : sProp 𝕄 :=
  bigSep (Ring.rangeSet k1_t1_loop.trips n 25) fun t => (oC4 L t).view.loc (VT d L) ↦[(oC4 L t).view.set]{fullShare} ov
def Done4 (yv : Buf (Elt F) (yLoc d)) (pay : S10000.Idx → Elt F .i32) (hpay : ∀ j, (pay j).toNat < 10000) (n : ℕ) : sProp 𝕄 :=
  bigSep (Ring.rangeSet k1_t1_loop.trips 0 n) fun t => iprop(∃ f, ((oC4 L t).view.loc (VT d L) ↦[(oC4 L t).view.set]{fullShare} f)
    ∗ ⌜∀ x, View.read (Elt F) (oC4 L t).view f x = GPv d L yv pay hpay (400 * t.val + 320) (by have := t.isLt; have : k1_t1_loop.trips = 25 := rfl; omega) x⌝)

end Cert.Kernel.Hand
end
-- ==== Proof.PartsB.lean ====
/-
  How the result array and the flat edge row split among the 2 × 16 tiles, and a tile's result rows into its
  25 × 5 chunks of eighty: the chunks are pairwise disjoint and cover the array; likewise the tiles' 10000 entries.
-/
import proofs.«207968_g22119081574525_cont_sun_m_427_17_alg».proof.Proof.TileDefsB

noncomputable section

namespace Cert.Kernel.Hand

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S320000 EltTy.i32)
local notation "oV" => (Memref.whole Cert.Kernel.main_v5_scv : Memref Cert.Kernel.sig Kind.scVector Space.hbm Cert.Kernel.S320000x128 EltTy.f32)

/-- the tile of core c, subcore s -/
def coordsV (c : Fin (grid1.bound 0)) (s : Fin (grid1.bound 1)) : grid1.Coords :=
  fun | 0 => c | 1 => s | ⟨_ + 2, h⟩ => absurd h (Nat.not_lt.2 (Nat.le_add_left _ _))

/-- the first result row of chunk 5t + j of tile L -/
def oBase (L : grid1.Coords) (t : Fin k1_t1_loop.trips) (j : Fin 5) : ℕ :=
  20000 * (L 1).val + 10000 * (L 0).val + 400 * t.val + 80 * j.val

/-- the first entry of tile L in the flat edge row -/
def iBase (L : grid1.Coords) : ℕ := 20000 * (L 1).val + 10000 * (L 0).val

/-- the eighty result rows of chunk 5t + j of tile L, as a set of indices of the result -/
def oChunkSet (L : grid1.Coords) (t : Fin k1_t1_loop.trips) (j : Fin 5) : Finset S320000x128.Idx :=
  (Rect.unit (s := S320000x128) (k1_off3 L t (BitVec.ofNat 32 j.val)) S80x128.size (k1_off3_inb L t j)).set

/-- the 10000 entries of tile L, as a set of indices of the flat edge row -/
def iTileSet (L : grid1.Coords) : Finset S320000.Idx :=
  (Rect.unit (s := S320000) (k1_off1 L) S10000.size (k1_off1_inb L)).set

theorem mem_oChunkSet (L : grid1.Coords) (t : Fin k1_t1_loop.trips) (j : Fin 5) (i : S320000x128.Idx) :
    i ∈ oChunkSet L t j ↔ oBase L t j ≤ (i 0).val ∧ (i 0).val < oBase L t j + 80 := by
  unfold oChunkSet oBase
  rw [Rect.mem_set_unit, k1_off3_eq]
  constructor
  · intro h; exact h 0
  · intro h a
    match a with
    | ⟨0, _⟩ => exact h
    | ⟨1, _⟩ =>
      have := (i 1).isLt
      exact ⟨Nat.zero_le _, by show (i 1).val < 0 + 128; have : (i 1).val < 128 := this; omega⟩

theorem mem_iTileSet (L : grid1.Coords) (i : S320000.Idx) :
    i ∈ iTileSet L ↔ iBase L ≤ (i 0).val ∧ (i 0).val < iBase L + 10000 := by
  unfold iTileSet iBase
  rw [Rect.mem_set_unit, k1_off1_eq]
  constructor
  · intro h; exact h 0
  · intro h a
    match a with
    | ⟨0, _⟩ => exact h

/-! ## The chunks are disjoint and cover -/

/-- a chunk's name: core, subcore, trip, slot -/
abbrev OIx : Type := Fin (grid1.bound 0) × Fin (grid1.bound 1) × Fin k1_t1_loop.trips × Fin 5
/-- a tile's name: core, subcore -/
abbrev TIx : Type := Fin (grid1.bound 0) × Fin (grid1.bound 1)

def oSet (p : OIx) : Finset S320000x128.Idx := oChunkSet (coordsV p.1 p.2.1) p.2.2.1 p.2.2.2
def iSet (p : TIx) : Finset S320000.Idx := iTileSet (coordsV p.1 p.2)

theorem oBase_coordsV (c : Fin (grid1.bound 0)) (s : Fin (grid1.bound 1)) (t : Fin k1_t1_loop.trips) (j : Fin 5) :
    oBase (coordsV c s) t j = 20000 * s.val + 10000 * c.val + 400 * t.val + 80 * j.val := rfl
theorem iBase_coordsV (c : Fin (grid1.bound 0)) (s : Fin (grid1.bound 1)) :
    iBase (coordsV c s) = 20000 * s.val + 10000 * c.val := rfl

theorem oChunks_disjoint : ∀ p ∈ (Finset.univ : Finset OIx), ∀ p' ∈ (Finset.univ : Finset OIx), p ≠ p' → Disjoint (oSet p) (oSet p') := by
  intro p _ p' _ hne
  rw [Finset.disjoint_left]
  intro i hi hi'
  obtain ⟨c, s, t, j⟩ := p
  obtain ⟨c', s', t', j'⟩ := p'
  unfold oSet at hi hi'
  rw [mem_oChunkSet, oBase_coordsV] at hi hi'
  have hc : c.val < 2 := c.isLt
  have hc' : c'.val < 2 := c'.isLt
  have hs : s.val < 16 := s.isLt
  have hs' : s'.val < 16 := s'.isLt
  have ht : t.val < 25 := t.isLt
  have ht' : t'.val < 25 := t'.isLt
  have hj : j.val < 5 := j.isLt
  have hj' : j'.val < 5 := j'.isLt
  apply hne
  have h4 : c.val = c'.val ∧ s.val = s'.val ∧ t.val = t'.val ∧ j.val = j'.val := by
    dsimp only at hi hi'
    omega
  obtain ⟨h1, h2, h3, h4⟩ := h4
  exact Prod.ext (Fin.ext h1) (Prod.ext (Fin.ext h2) (Prod.ext (Fin.ext h3) (Fin.ext h4)))

theorem oChunks_cover : (Finset.univ : Finset OIx).biUnion oSet = Finset.univ := by
  ext i
  simp only [Finset.mem_biUnion, Finset.mem_univ, true_and, iff_true]
  have hx : (i 0).val < 320000 := (i 0).isLt
  refine ⟨((⟨(i 0).val / 80 % 250 / 125, by omega⟩ : Fin 2), (⟨(i 0).val / 80 / 250, by omega⟩ : Fin 16),
    (⟨(i 0).val / 80 % 125 / 5, by omega⟩ : Fin 25), (⟨(i 0).val / 80 % 5, by omega⟩ : Fin 5)), ?_⟩
  unfold oSet
  rw [mem_oChunkSet, oBase_coordsV]
  dsimp only
  omega

theorem iTiles_disjoint : ∀ p ∈ (Finset.univ : Finset TIx), ∀ p' ∈ (Finset.univ : Finset TIx), p ≠ p' → Disjoint (iSet p) (iSet p') := by
  intro p _ p' _ hne
  rw [Finset.disjoint_left]
  intro i hi hi'
  obtain ⟨c, s⟩ := p
  obtain ⟨c', s'⟩ := p'
  unfold iSet at hi hi'
  rw [mem_iTileSet, iBase_coordsV] at hi hi'
  have hc : c.val < 2 := c.isLt
  have hc' : c'.val < 2 := c'.isLt
  have hs : s.val < 16 := s.isLt
  have hs' : s'.val < 16 := s'.isLt
  apply hne
  have h2 : c.val = c'.val ∧ s.val = s'.val := by
    dsimp only at hi hi'
    omega
  exact Prod.ext (Fin.ext h2.1) (Fin.ext h2.2)

theorem iTiles_cover : (Finset.univ : Finset TIx).biUnion iSet = Finset.univ := by
  ext i
  simp only [Finset.mem_biUnion, Finset.mem_univ, true_and, iff_true]
  have hx : (i 0).val < 320000 := (i 0).isLt
  refine ⟨((⟨(i 0).val / 10000 % 2, by omega⟩ : Fin 2), (⟨(i 0).val / 20000, by omega⟩ : Fin 16)), ?_⟩
  unfold iSet
  rw [mem_iTileSet, iBase_coordsV]
  dsimp only
  omega

/-! ## The slices the program names are these sets -/

theorem set_oC0 (L : grid1.Coords) (t : Fin k1_t1_loop.trips) : (oC0 L t).view.set = oChunkSet L t 0 := by
  show ((View.whole (main_v5_scv : Ref sig .scVector)).slice _).set = _
  rw [View.set_slice]; exact Finset.map_refl
theorem set_oC1 (L : grid1.Coords) (t : Fin k1_t1_loop.trips) : (oC1 L t).view.set = oChunkSet L t 1 := by
  show ((View.whole (main_v5_scv : Ref sig .scVector)).slice _).set = _
  rw [View.set_slice]; exact Finset.map_refl
theorem set_oC2 (L : grid1.Coords) (t : Fin k1_t1_loop.trips) : (oC2 L t).view.set = oChunkSet L t 2 := by
  show ((View.whole (main_v5_scv : Ref sig .scVector)).slice _).set = _
  rw [View.set_slice]; exact Finset.map_refl
theorem set_oC3 (L : grid1.Coords) (t : Fin k1_t1_loop.trips) : (oC3 L t).view.set = oChunkSet L t 3 := by
  show ((View.whole (main_v5_scv : Ref sig .scVector)).slice _).set = _
  rw [View.set_slice]; exact Finset.map_refl
theorem set_oC4 (L : grid1.Coords) (t : Fin k1_t1_loop.trips) : (oC4 L t).view.set = oChunkSet L t 4 := by
  show ((View.whole (main_v5_scv : Ref sig .scVector)).slice _).set = _
  rw [View.set_slice]; exact Finset.map_refl
theorem set_iTileK (L : grid1.Coords) : (iTileK L).view.set = iTileSet L := by
  show ((View.whole (main_v4_scv : Ref sig .scVector)).slice _).set = _
  rw [View.set_slice]; exact Finset.map_refl

/-! ## The arrays as the separating conjunction of their parts -/

/-- a conjunction over all quadruples, nested -/
theorem bigSep_univ4 {M : Type} [URA M] {A B C D : Type} [Fintype A] [Fintype B] [Fintype C] [Fintype D]
    [DecidableEq A] [DecidableEq B] [DecidableEq C] [DecidableEq D] (Φ : A × B × C × D → sProp M) :
    bigSep Finset.univ Φ = bigSep Finset.univ fun a => bigSep Finset.univ fun b => bigSep Finset.univ fun c =>
      bigSep Finset.univ fun d => Φ (a, b, c, d) := by
  rw [← Finset.univ_product_univ, SparseCore.bigSep_product]
  refine congrArg (bigSep Finset.univ) (funext fun a => ?_)
  rw [← Finset.univ_product_univ, SparseCore.bigSep_product]
  refine congrArg (bigSep Finset.univ) (funext fun b => ?_)
  rw [← Finset.univ_product_univ, SparseCore.bigSep_product]

theorem oPts_chunks (d : Dev nD) (f : Buf (Elt F) (oLoc d)) :
    (oLoc d ↦{fullShare} f : sProp 𝕄) = bigSep Finset.univ fun c : Fin (grid1.bound 0) => bigSep Finset.univ fun s : Fin (grid1.bound 1) =>
      bigSep Finset.univ fun t : Fin k1_t1_loop.trips => bigSep Finset.univ fun j : Fin 5 =>
        oLoc d ↦[oChunkSet (coordsV c s) t j]{fullShare} f := by
  refine Eq.trans ?_ (bigSep_univ4 (fun p : OIx => (oLoc d ↦[oSet p]{fullShare} f : sProp 𝕄)))
  rw [← pointsTo_biUnion Finset.univ (ℓ := oLoc d) oSet oChunks_disjoint, oChunks_cover]; try rfl

theorem iPts_tiles (d : Dev nD) (f : Buf (Elt F) (iLoc d)) :
    (iLoc d ↦{fullShare} f : sProp 𝕄) = bigSep Finset.univ fun c : Fin (grid1.bound 0) => bigSep Finset.univ fun s : Fin (grid1.bound 1) =>
      iLoc d ↦[iTileSet (coordsV c s)]{fullShare} f := by
  refine Eq.trans ?_ (((congrArg (fun S : Finset TIx => bigSep S fun p : TIx => (iLoc d ↦[iSet p]{fullShare} f : sProp 𝕄))
    Finset.univ_product_univ.symm)).trans (SparseCore.bigSep_product Finset.univ Finset.univ _))
  rw [← pointsTo_biUnion Finset.univ (ℓ := iLoc d) iSet iTiles_disjoint, iTiles_cover]; try rfl

/-! ## A subcore's own names for the parts -/

theorem pts_oC0 (d : Dev nD) (L : grid1.Coords) (t : Fin k1_t1_loop.trips) (f : Buf (Elt F) (oLoc d)) :
    ((oC0 L t).view.loc (VT d L) ↦[(oC0 L t).view.set]{fullShare} f : sProp 𝕄) = oLoc d ↦[oChunkSet L t 0]{fullShare} f := by
  rw [set_oC0]
theorem pts_oC1 (d : Dev nD) (L : grid1.Coords) (t : Fin k1_t1_loop.trips) (f : Buf (Elt F) (oLoc d)) :
    ((oC1 L t).view.loc (VT d L) ↦[(oC1 L t).view.set]{fullShare} f : sProp 𝕄) = oLoc d ↦[oChunkSet L t 1]{fullShare} f := by
  rw [set_oC1]
theorem pts_oC2 (d : Dev nD) (L : grid1.Coords) (t : Fin k1_t1_loop.trips) (f : Buf (Elt F) (oLoc d)) :
    ((oC2 L t).view.loc (VT d L) ↦[(oC2 L t).view.set]{fullShare} f : sProp 𝕄) = oLoc d ↦[oChunkSet L t 2]{fullShare} f := by
  rw [set_oC2]
theorem pts_oC3 (d : Dev nD) (L : grid1.Coords) (t : Fin k1_t1_loop.trips) (f : Buf (Elt F) (oLoc d)) :
    ((oC3 L t).view.loc (VT d L) ↦[(oC3 L t).view.set]{fullShare} f : sProp 𝕄) = oLoc d ↦[oChunkSet L t 3]{fullShare} f := by
  rw [set_oC3]
theorem pts_oC4 (d : Dev nD) (L : grid1.Coords) (t : Fin k1_t1_loop.trips) (f : Buf (Elt F) (oLoc d)) :
    ((oC4 L t).view.loc (VT d L) ↦[(oC4 L t).view.set]{fullShare} f : sProp 𝕄) = oLoc d ↦[oChunkSet L t 4]{fullShare} f := by
  rw [set_oC4]
theorem pts_iTileK (d : Dev nD) (L : grid1.Coords) (q : PosShare TreeShare) (f : Buf (Elt F) (iLoc d)) :
    ((iTileK L).view.loc (VT d L) ↦[(iTileK L).view.set]{q} f : sProp 𝕄) = iLoc d ↦[iTileSet L]{q} f := by
  rw [set_iTileK]

end Cert.Kernel.Hand

end
-- ==== Proof.PayB.lean ====
/-
  What the launch handshakes of the one SparseCore call carry: each tile's share of y, its 10000 entries of the
  flat edge row, and its 25 × 5 chunks of the result — before the call at what the result array held, after it at
  the rows of y the entries name.
-/
import proofs.«207968_g22119081574525_cont_sun_m_427_17_alg».proof.Proof.TileDefsB
import proofs.«207968_g22119081574525_cont_sun_m_427_17_alg».proof.Proof.PartsB
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The result's value -/

/-- row e of the result is row (edge word e, reduced mod 10000) of y -/
def outVal (yv : S10000x128.Idx → Elt F .f32) (iv : S320000.Idx → Elt F .i32) : S320000x128.Idx → Elt F .f32 :=
  fun x => yv (ValueIdx.ix2 (⟨(iv (ValueIdx.ix1 (⟨(x 0).val, (x 0).isLt⟩ : Fin 320000))).toNat % 10000, Nat.mod_lt _ (by norm_num)⟩ : Fin 10000)
    (⟨(x 1).val, (x 1).isLt⟩ : Fin 128))

/-- the same, as the contents of the result array on device d -/
def outBuf (d : Dev nD) (yb : Buf (Elt F) (yLoc d)) (ib : Buf (Elt F) (iLoc d)) : Buf (Elt F) (oLoc d) := outVal yb ib

theorem outBuf_eq (d : Dev nD) (yb : Buf (Elt F) (yLoc d)) (ib : Buf (Elt F) (iLoc d)) : outBuf d yb ib = outVal yb ib := rfl

/-! ## Shares of y: the full share halved five times -/

/-- leaf i of the depth-n halving of share q -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- the two halves of the leaves of depth n + 1 -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- a points-to at a share is its leaves' at once -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- the share of y of the tile of core c, subcore s: the half of core c, halved four times more -/
def yq (c : Fin 2) (s : Fin 16) : PosShare TreeShare := leaf 4 (leaf 1 fullShare c) s

theorem yPts_shares (d : Dev nD) (f : Buf (Elt F) (yLoc d)) :
    (yLoc d ↦{fullShare} f : sProp 𝕄) = bigSep Finset.univ fun c : Fin 2 => bigSep Finset.univ fun s : Fin 16 => yLoc d ↦{yq c s} f :=
  (pointsTo_leaves Finset.univ f 1 fullShare).trans (bigSep_congr fun c _ => pointsTo_leaves Finset.univ f 4 (leaf 1 fullShare c))

/-! ## What the handshakes carry -/

/-- a tile's part of the three arrays: its share of y, its entries of the flat edge row, its chunks of the result -/
abbrev tilePts (d : Dev nD) (c : Fin 2) (s : Fin 16) (yb : Buf (Elt F) (yLoc d)) (ib : Buf (Elt F) (iLoc d)) (ob : Buf (Elt F) (oLoc d)) : sProp 𝕄 :=
  iprop((yLoc d ↦{yq c s} yb) ∗ (iLoc d ↦[iTileSet (coordsV c s)]{fullShare} ib)
    ∗ bigSep Finset.univ fun t : Fin k1_t1_loop.trips => bigSep Finset.univ fun j : Fin 5 => oLoc d ↦[oChunkSet (coordsV c s) t j]{fullShare} ob)

variable (yv : (d : Dev nD) → Buf (Elt F) (yLoc d)) (iv : (d : Dev nD) → Buf (Elt F) (iLoc d)) (ov : (d : Dev nD) → Buf (Elt F) (oLoc d))

/-- what tile i of core c is handed: its parts, the result's at what the array held -/
def goP (d : Dev nD) (c : Fin ((K (F := F)).nCore 0)) (i : Fin ((K (F := F)).nSub 0)) : sProp 𝕄 :=
  tilePts d (Fin.cast nCore_zero c) (Fin.cast nSub_zero i) (yv d) (iv d) (ov d)
/-- what it brings back: the same, the result's at the rows of y its entries name -/
def tdP (d : Dev nD) (c : Fin ((K (F := F)).nCore 0)) (i : Fin ((K (F := F)).nSub 0)) : sProp 𝕄 :=
  tilePts d (Fin.cast nCore_zero c) (Fin.cast nSub_zero i) (yv d) (iv d) (outBuf d (yv d) (iv d))
/-- what core c is handed: its tiles' -/
def stP (d : Dev nD) (c : Fin ((K (F := F)).nCore 0)) : sProp 𝕄 :=
  bigSep Finset.univ fun i : Fin ((K (F := F)).nSub 0) => goP yv iv ov d c i
/-- what it brings back: its tiles' -/
def dnP (d : Dev nD) (c : Fin ((K (F := F)).nCore 0)) : sProp 𝕄 :=
  bigSep Finset.univ fun i : Fin ((K (F := F)).nSub 0) => tdP yv iv d c i

instance goP_storable (d : Dev nD) (c : Fin ((K (F := F)).nCore 0)) (i : Fin ((K (F := F)).nSub 0)) :
    BI.Storable (upEmb : UEmb _ 𝕄) (goP yv iv ov d c i) := by
  unfold goP; infer_instance
instance tdP_storable (d : Dev nD) (c : Fin ((K (F := F)).nCore 0)) (i : Fin ((K (F := F)).nSub 0)) :
    BI.Storable (upEmb : UEmb _ 𝕄) (tdP yv iv d c i) := by
  unfold tdP; infer_instance
instance stP_storable (d : Dev nD) (c : Fin ((K (F := F)).nCore 0)) : BI.Storable (upEmb : UEmb _ 𝕄) (stP yv iv ov d c) := by
  unfold stP; infer_instance
instance dnP_storable (d : Dev nD) (c : Fin ((K (F := F)).nCore 0)) : BI.Storable (upEmb : UEmb _ 𝕄) (dnP yv iv d c) := by
  unfold dnP; infer_instance

-- the four are compared by name from here on: opened, each is thousands of points-to
attribute [irreducible] goP tdP stP dnP

/-- The one call takes y, the flat edge row and the result array whole; each tile its parts, and brings them back,
    the result's at the rows of y its entries name. -/
def P : (K (F := F)).Pay (nD := nD) (Val := Elt F) (Name := ℕ) (U := UU) where
  st := fun q d c => match q with
    | 0 => stP yv iv ov d c
  dn := fun q d c => match q with
    | 0 => dnP yv iv d c
  go := fun q d c i => match q with
    | 0 => goP yv iv ov d c i
  td := fun q d c i => match q with
    | 0 => tdP yv iv d c i
  x := fun _ _ => iprop(emp)

theorem st_def (d : Dev nD) (c : Fin ((K (F := F)).nCore 0)) : (P yv iv ov).st 0 d c = stP yv iv ov d c := rfl
theorem dn_def (d : Dev nD) (c : Fin ((K (F := F)).nCore 0)) : (P yv iv ov).dn 0 d c = dnP yv iv d c := rfl
theorem go_def (d : Dev nD) (c : Fin ((K (F := F)).nCore 0)) (i : Fin ((K (F := F)).nSub 0)) : (P yv iv ov).go 0 d c i = goP yv iv ov d c i := rfl
theorem td_def (d : Dev nD) (c : Fin ((K (F := F)).nCore 0)) (i : Fin ((K (F := F)).nSub 0)) : (P yv iv ov).td 0 d c i = tdP yv iv d c i := rfl

instance P_storable : (P (F := F) yv iv ov).IsStorable where
  st q d c := match q with
    | 0 => stP_storable yv iv ov d c
  dn q d c := match q with
    | 0 => dnP_storable yv iv d c
  go q d c i := match q with
    | 0 => goP_storable yv iv ov d c i
  td q d c i := match q with
    | 0 => tdP_storable yv iv d c i

/-- the call's operands for a core are its tiles' parts, and its results are theirs -/
theorem vecSplit : (K (F := F)).VecSplit' (P yv iv ov) 0 := by
  intro d c
  simp only [st_def, dn_def, go_def, td_def]
  unfold stP dnP
  iintro H; imodintro
  isplitl [H]; · iexact H
  iintro H; iexact H

/-! ## The call's operands whole, and its results whole -/

/-- every tile's parts together are the three arrays whole -/
theorem tiles_eq (d : Dev nD) (yb : Buf (Elt F) (yLoc d)) (ib : Buf (Elt F) (iLoc d)) (ob : Buf (Elt F) (oLoc d)) :
    (bigSep Finset.univ fun c : Fin 2 => bigSep Finset.univ fun s : Fin 16 => tilePts d c s yb ib ob)
      = (iprop((yLoc d ↦{fullShare} yb) ∗ (iLoc d ↦{fullShare} ib) ∗ (oLoc d ↦{fullShare} ob)) : sProp 𝕄) := by
  have hy := yPts_shares (F := F) d yb
  have hi : (iLoc d ↦{fullShare} ib : sProp 𝕄) = bigSep Finset.univ fun c : Fin 2 => bigSep Finset.univ fun s : Fin 16 =>
      iLoc d ↦[iTileSet (coordsV c s)]{fullShare} ib := iPts_tiles d ib
  have ho : (oLoc d ↦{fullShare} ob : sProp 𝕄) = bigSep Finset.univ fun c : Fin 2 => bigSep Finset.univ fun s : Fin 16 =>
      bigSep Finset.univ fun t : Fin k1_t1_loop.trips => bigSep Finset.univ fun j : Fin 5 =>
        oLoc d ↦[oChunkSet (coordsV c s) t j]{fullShare} ob := oPts_chunks d ob
  rw [hy, hi, ho]
  simp only [bigSep_sep']

/-- a conjunction over the call's cores and tiles is one over Fin 2 and Fin 16 -/
theorem bigSep_cores_tiles (Φ : Fin 2 → Fin 16 → sProp 𝕄) :
    (bigSep Finset.univ fun c : Fin ((K (F := F)).nCore 0) => bigSep Finset.univ fun i : Fin ((K (F := F)).nSub 0) =>
        Φ (Fin.cast nCore_zero c) (Fin.cast nSub_zero i))
      = bigSep Finset.univ fun c : Fin 2 => bigSep Finset.univ fun s : Fin 16 => Φ c s :=
  bigSep_congr fun c _ => bigSep_congr fun s _ => congrArg₂ Φ (Fin.ext rfl) (Fin.ext rfl)

theorem st_eq (d : Dev nD) :
    (bigSep Finset.univ fun c : Fin ((K (F := F)).nCore 0) => (P yv iv ov).st 0 d c)
      = (iprop((yLoc d ↦{fullShare} yv d) ∗ (iLoc d ↦{fullShare} iv d) ∗ (oLoc d ↦{fullShare} ov d)) : sProp 𝕄) := by
  simp only [st_def]
  unfold stP goP
  exact (bigSep_cores_tiles (fun c s => tilePts d c s (yv d) (iv d) (ov d))).trans (tiles_eq d (yv d) (iv d) (ov d))

theorem dn_eq (d : Dev nD) :
    (bigSep Finset.univ fun c : Fin ((K (F := F)).nCore 0) => (P yv iv ov).dn 0 d c)
      = (iprop((yLoc d ↦{fullShare} yv d) ∗ (iLoc d ↦{fullShare} iv d) ∗ (oLoc d ↦{fullShare} outBuf d (yv d) (iv d))) : sProp 𝕄) := by
  simp only [dn_def]
  unfold dnP tdP
  exact (bigSep_cores_tiles (fun c s => tilePts d c s (yv d) (iv d) (outBuf d (yv d) (iv d)))).trans (tiles_eq d (yv d) (iv d) (outBuf d (yv d) (iv d)))

end Cert.Kernel.Hand

end
-- ==== Proof.MainBufsB.lean ====
/-
  @main's ten arrays on a device as one separating conjunction, and what holding the four arguments and the result
  array whole at given contents says of the final memory.
-/
import proofs.«207968_g22119081574525_cont_sun_m_427_17_alg».proof.Proof.TileDefsB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v3Loc (d : Dev nD) : Loc nD τ sig := (SparseCore.T d).loc main_v3

/-- @main's arrays on device d, each whole at the full share -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (a2Loc d ↦{fullShare} W main_arg2) ∗ (a3Loc d ↦{fullShare} W main_arg3) ∗ (v0Loc d ↦{fullShare} W main_v0)
      ∗ (v1Loc d ↦{fullShare} W main_v1) ∗ (yLoc d ↦{fullShare} W main_v2) ∗ (v3Loc d ↦{fullShare} W main_v3)
      ∗ (iLoc d ↦{fullShare} W main_v4) ∗ oLoc d ↦{fullShare} W main_v5) := by
  unfold unscopedBufs
  rw [show (Finset.univ.filter fun b : Ref sig .tc => ¬ b.isScoped)
      = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

/-- the four arguments and the result array whole, at given contents -/
abbrev FINp (d : Dev nD) (b0 : Buf (Elt F) (a0Loc d)) (b1 : Buf (Elt F) (a1Loc d)) (b2 : Buf (Elt F) (a2Loc d))
    (b3 : Buf (Elt F) (a3Loc d)) (g : Buf (Elt F) (oLoc d)) : sProp 𝕄 :=
  iprop((a0Loc d ↦{fullShare} b0) ∗ (a1Loc d ↦{fullShare} b1) ∗ (a2Loc d ↦{fullShare} b2) ∗ (a3Loc d ↦{fullShare} b3)
    ∗ (oLoc d ↦{fullShare} g))

set_option maxRecDepth 16384 in
/-- held whole against the final state, they are what the final memory holds -/
theorem fin_read (d : Dev nD) (b0 : Buf (Elt F) (a0Loc d)) (b1 : Buf (Elt F) (a1Loc d)) (b2 : Buf (Elt F) (a2Loc d))
    (b3 : Buf (Elt F) (a3Loc d)) (g : Buf (Elt F) (oLoc d)) (s' : Phys nD τ sig (Elt F)) :
    iprop(FINp d b0 b1 b2 b3 g ∗ SI s') ⊢ (⌜s'.mem.mem (oLoc d) = g ∧ s'.mem.mem (a0Loc d) = b0 ∧ s'.mem.mem (a1Loc d) = b1
      ∧ s'.mem.mem (a2Loc d) = b2 ∧ s'.mem.mem (a3Loc d) = b3⌝ : sProp 𝕄) := by
  iintro ⟨⟨H0, H1, H2, H3, Ho⟩, HSI⟩
  ihave H := (persistent_entails_right (SI_pointsTo_agree (st := s') (ℓ := a0Loc d) (I := Finset.univ) (q := fullShare) (f := b0))) $$ [HSI H0]
  · isplitl [HSI] <;> iassumption
  icases H with ⟨%h0, HSI, -⟩
  ihave H := (persistent_entails_right (SI_pointsTo_agree (st := s') (ℓ := a1Loc d) (I := Finset.univ) (q := fullShare) (f := b1))) $$ [HSI H1]
  · isplitl [HSI] <;> iassumption
  icases H with ⟨%h1, HSI, -⟩
  ihave H := (persistent_entails_right (SI_pointsTo_agree (st := s') (ℓ := a2Loc d) (I := Finset.univ) (q := fullShare) (f := b2))) $$ [HSI H2]
  · isplitl [HSI] <;> iassumption
  icases H with ⟨%h2, HSI, -⟩
  ihave H := (persistent_entails_right (SI_pointsTo_agree (st := s') (ℓ := a3Loc d) (I := Finset.univ) (q := fullShare) (f := b3))) $$ [HSI H3]
  · isplitl [HSI] <;> iassumption
  icases H with ⟨%h3, HSI, -⟩
  ihave H := (SI_pointsTo_agree (st := s') (ℓ := oLoc d) (I := Finset.univ) (q := fullShare) (f := g)) $$ [HSI Ho]
  · isplitl [HSI] <;> iassumption
  icases H with %ho
  ipureintro
  exact ⟨funext fun i => ho i (Finset.mem_univ i), funext fun i => h0 i (Finset.mem_univ i), funext fun i => h1 i (Finset.mem_univ i),
    funext fun i => h2 i (Finset.mem_univ i), funext fun i => h3 i (Finset.mem_univ i)⟩

end Cert.Kernel.Hand

end
-- ==== Proof.LaunchB.lean ====
/-
  @main on the TensorCore, and the launch.  @main reshapes the bias to one row and lays it along eight rows, runs the
  matrix-product pipeline (y = x · Wᵀ + b), slices the edge list's second row and flattens it, starts the SparseCores'
  gather of the rows of y the edge list names and waits for it.  The host lines are run over the TensorCore's ten
  arrays held whole; the pipeline by its region lemma; the SparseCore call by the launch library's rule for it.
-/
import proofs.«207968_g22119081574525_cont_sun_m_427_17_alg».proof.Proof.TcRegionB
import proofs.«207968_g22119081574525_cont_sun_m_427_17_alg».proof.Proof.TileDefsB
import proofs.«207968_g22119081574525_cont_sun_m_427_17_alg».proof.Proof.PayB
import proofs.«207968_g22119081574525_cont_sun_m_427_17_alg».proof.Proof.MainBufsB
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

/-! ## The TensorCore's arrays and @main's host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The bias as one row; that row along eight rows; the edge list's second row; that row flattened. -/
abbrev opRowB : HloOp τ sig (Elt F) := StableHlo.reshape main_arg3 main_v0 rfl shapeCasts_S128_S1x128
abbrev opEight : HloOp τ sig (Elt F) :=
  StableHlo.unary main_v0 main_v1 (broadcastInDim S8x128 ![0, 1] bcast_S1x128_S8x128_0_1 : (⟨S1x128, .f32⟩ : BufTy).Contents (Elt F) → (⟨S8x128, .f32⟩ : BufTy).Contents (Elt F))
abbrev opSlice : HloOp τ sig (Elt F) :=
  StableHlo.unary main_arg1 main_v3 ((extractStridedSlice S1x320000 ![1, 0] · slices_S2x320000_S1x320000_1_0) : (⟨S2x320000, .i32⟩ : BufTy).Contents (Elt F) → (⟨S1x320000, .i32⟩ : BufTy).Contents (Elt F))
abbrev opFlat : HloOp τ sig (Elt F) := StableHlo.reshape main_v3 main_v4 rfl shapeCasts_S1x320000_S320000

/-- The TensorCore's arrays, all unscoped. -/
abbrev S10 : Finset (DevRef τ sig) := {a0', a1', a2', a3', v0', v1', v2', v3', v4', v5'}

omit [FloatOps F] in
theorem held_S10 (d : Dev nD) (W : Valuation τ sig (Elt F)) :
    (held (T d) S10 W : sProp 𝕄)
      = iprop(((T d : Thread nD τ).loc main_arg0 ↦{fullShare} W a0') ∗ ((T d : Thread nD τ).loc main_arg1 ↦{fullShare} W a1')
          ∗ ((T d : Thread nD τ).loc main_arg2 ↦{fullShare} W a2') ∗ ((T d : Thread nD τ).loc main_arg3 ↦{fullShare} W a3')
          ∗ ((T d : Thread nD τ).loc main_v0 ↦{fullShare} W v0') ∗ ((T d : Thread nD τ).loc main_v1 ↦{fullShare} W v1')
          ∗ ((T d : Thread nD τ).loc main_v2 ↦{fullShare} W v2') ∗ ((T d : Thread nD τ).loc main_v3 ↦{fullShare} W v3')
          ∗ ((T d : Thread nD τ).loc main_v4 ↦{fullShare} W v4') ∗ ((T d : Thread nD τ).loc main_v5 ↦{fullShare} W v5')) := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem tcUnscopedBufs_eq (d : Dev nD) (W : (b : Ref sig .tc) → Buf (Elt F) ((d.tc : Thread nD τ).loc b)) :
    (unscopedBufs d W : sProp 𝕄)
      = iprop(((T d : Thread nD τ).loc main_arg0 ↦{fullShare} W main_arg0) ∗ ((T d : Thread nD τ).loc main_arg1 ↦{fullShare} W main_arg1)
          ∗ ((T d : Thread nD τ).loc main_arg2 ↦{fullShare} W main_arg2) ∗ ((T d : Thread nD τ).loc main_arg3 ↦{fullShare} W main_arg3)
          ∗ ((T d : Thread nD τ).loc main_v0 ↦{fullShare} W main_v0) ∗ ((T d : Thread nD τ).loc main_v1 ↦{fullShare} W main_v1)
          ∗ ((T d : Thread nD τ).loc main_v2 ↦{fullShare} W main_v2) ∗ ((T d : Thread nD τ).loc main_v3 ↦{fullShare} W main_v3)
          ∗ ((T d : Thread nD τ).loc main_v4 ↦{fullShare} W main_v4) ∗ ((T d : Thread nD τ).loc main_v5 ↦{fullShare} W main_v5)) := by
  unfold unscopedBufs
  rw [show (Finset.univ.filter fun b : Ref sig .tc => ¬ b.isScoped)
      = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem hRowB : (opRowB (F := F)).bufs ⊆ S10 := show ({a3', v0'} : Finset (DevRef τ sig)) ⊆ S10 by decide
theorem hEight : (opEight (F := F)).bufs ⊆ S10 := show ({v0', v1'} : Finset (DevRef τ sig)) ⊆ S10 by decide
theorem hSlice : (opSlice (F := F)).bufs ⊆ S10 := show ({a1', v3'} : Finset (DevRef τ sig)) ⊆ S10 by decide
theorem hFlat : (opFlat (F := F)).bufs ⊆ S10 := show ({v3', v4'} : Finset (DevRef τ sig)) ⊆ S10 by decide

/-! ## What the arrays hold along @main -/

section Vals

variable (m : (ℓ : Loc nD τ sig) → Buf (Elt F) ℓ)

/-- The bias along eight rows, as the two host lines leave it. -/
def bvOf (d : Dev nD) : Buf (Elt F) ((T d : Thread nD τ).loc main_v1) :=
  broadcastInDim S8x128 ![0, 1] bcast_S1x128_S8x128_0_1 (shapeCast S1x128 (m ((T d : Thread nD τ).loc main_arg3)) shapeCasts_S128_S1x128)

/-- y as the pipeline leaves it. -/
def yvOf (d : Dev nD) : Buf (Elt F) (yLoc d) :=
  Yarr (m ((T d : Thread nD τ).loc main_arg0)) (m ((T d : Thread nD τ).loc main_arg2)) (bvOf m d)

/-- The edge list's second row, flat, as the two host lines after the pipeline leave it. -/
def ivOf (d : Dev nD) : Buf (Elt F) (iLoc d) :=
  shapeCast S320000 (extractStridedSlice S1x320000 ![1, 0] (m ((T d : Thread nD τ).loc main_arg1)) slices_S2x320000_S1x320000_1_0) shapeCasts_S1x320000_S320000

/-- The result's buffer as launched. -/
def ovOf (d : Dev nD) : Buf (Elt F) (oLoc d) := m (oLoc d)

/-- The launch valuation; after the two lines on the bias; after the pipeline; after the two lines on the edge list. -/
def V0 (d : Dev nD) : Valuation τ sig (Elt F) := fun b => m (d, b)
def V2 (d : Dev nD) : Valuation τ sig (Elt F) := (opEight (F := F)).result ((opRowB (F := F)).result (V0 m d))
def V3 (d : Dev nD) : Valuation τ sig (Elt F) := Function.update (V2 m d) v2' (yvOf m d)
def V5 (d : Dev nD) : Valuation τ sig (Elt F) := (opFlat (F := F)).result ((opSlice (F := F)).result (V3 m d))

theorem tcUnscoped_held (d : Dev nD) : (unscopedBufs d (fun b => m ((T d : Thread nD τ).loc b)) : sProp 𝕄) = held (T d) S10 (V0 m d) := by
  rw [tcUnscopedBufs_eq, held_S10]; rfl

end Vals

/-! ## What the arrays hold along @main, array by array -/

section Reads

variable (m : (ℓ : Loc nD τ sig) → Buf (Elt F) ℓ) (d : Dev nD)

theorem V2_of (b : DevRef τ sig) (h0 : b ≠ v0') (h1 : b ≠ v1') : V2 m d b = V0 m d b := by
  unfold V2
  rw [(opEight (F := F)).result_of_not_mem _ (show b ∉ ({v1'} : Finset (DevRef τ sig)) from fun h => h1 (Finset.mem_singleton.mp h)),
    (opRowB (F := F)).result_of_not_mem _ (show b ∉ ({v0'} : Finset (DevRef τ sig)) from fun h => h0 (Finset.mem_singleton.mp h))]
theorem V2_v1 : V2 m d v1' = bvOf m d := by
  unfold V2 bvOf
  rw [StableHlo.unary_result', StableHlo.reshape_result']
  rfl
theorem V3_of (b : DevRef τ sig) (h2 : b ≠ v2') : V3 m d b = V2 m d b := Function.update_of_ne h2 _ _
theorem V3_v2 : V3 m d v2' = yvOf m d := Function.update_self _ _ _
theorem V5_of (b : DevRef τ sig) (h3 : b ≠ v3') (h4 : b ≠ v4') : V5 m d b = V3 m d b := by
  unfold V5
  rw [(opFlat (F := F)).result_of_not_mem _ (show b ∉ ({v4'} : Finset (DevRef τ sig)) from fun h => h4 (Finset.mem_singleton.mp h)),
    (opSlice (F := F)).result_of_not_mem _ (show b ∉ ({v3'} : Finset (DevRef τ sig)) from fun h => h3 (Finset.mem_singleton.mp h))]
theorem V5_v4 : V5 m d v4' = ivOf m d := by
  unfold V5 ivOf
  rw [StableHlo.reshape_result', StableHlo.unary_result', V3_of m d a1' (by decide), V2_of m d a1' (by decide) (by decide)]
  rfl

/-- An array no line of @main writes holds its launch contents throughout. -/
theorem V5_arg (b : DevRef τ sig) (h0 : b ≠ v0') (h1 : b ≠ v1') (h2 : b ≠ v2') (h3 : b ≠ v3') (h4 : b ≠ v4') : V5 m d b = V0 m d b :=
  (V5_of m d b h3 h4).trans ((V3_of m d b h2).trans (V2_of m d b h0 h1))
theorem V3_arg (b : DevRef τ sig) (h0 : b ≠ v0') (h1 : b ≠ v1') (h2 : b ≠ v2') : V3 m d b = V0 m d b :=
  (V3_of m d b h2).trans (V2_of m d b h0 h1)

/-- The ten arrays before the pipeline: the arguments and the result's buffer as launched, the bias along eight rows. -/
theorem held_V2 :
    (held (T d) S10 ((opEight (F := F)).result ((opRowB (F := F)).result (V0 m d))) : sProp 𝕄)
      = iprop(((T d : Thread nD τ).loc main_arg0 ↦{fullShare} m ((T d : Thread nD τ).loc main_arg0)) ∗ ((T d : Thread nD τ).loc main_arg1 ↦{fullShare} m ((T d : Thread nD τ).loc main_arg1))
          ∗ ((T d : Thread nD τ).loc main_arg2 ↦{fullShare} m ((T d : Thread nD τ).loc main_arg2)) ∗ ((T d : Thread nD τ).loc main_arg3 ↦{fullShare} m ((T d : Thread nD τ).loc main_arg3))
          ∗ ((T d : Thread nD τ).loc main_v0 ↦{fullShare} V2 m d v0') ∗ ((T d : Thread nD τ).loc main_v1 ↦{fullShare} bvOf m d)
          ∗ ((T d : Thread nD τ).loc main_v2 ↦{fullShare} V2 m d v2') ∗ ((T d : Thread nD τ).loc main_v3 ↦{fullShare} V2 m d v3')
          ∗ ((T d : Thread nD τ).loc main_v4 ↦{fullShare} V2 m d v4') ∗ ((T d : Thread nD τ).loc main_v5 ↦{fullShare} m (oLoc d))) := by
  show held (T d) S10 (V2 m d) = _
  rw [held_S10, V2_of m d a0' (by decide) (by decide), V2_of m d a1' (by decide) (by decide), V2_of m d a2' (by decide) (by decide),
    V2_of m d a3' (by decide) (by decide), V2_v1, V2_of m d v5' (by decide) (by decide)]
  rfl

/-- The ten arrays after the pipeline, y in its buffer: as the two lines on the edge list find them. -/
theorem held_V3 :
    (held (T d) S10 (V3 m d) : sProp 𝕄)
      = iprop(((T d : Thread nD τ).loc main_arg0 ↦{fullShare} m ((T d : Thread nD τ).loc main_arg0)) ∗ ((T d : Thread nD τ).loc main_arg1 ↦{fullShare} m ((T d : Thread nD τ).loc main_arg1))
          ∗ ((T d : Thread nD τ).loc main_arg2 ↦{fullShare} m ((T d : Thread nD τ).loc main_arg2)) ∗ ((T d : Thread nD τ).loc main_arg3 ↦{fullShare} m ((T d : Thread nD τ).loc main_arg3))
          ∗ ((T d : Thread nD τ).loc main_v0 ↦{fullShare} V2 m d v0') ∗ ((T d : Thread nD τ).loc main_v1 ↦{fullShare} bvOf m d)
          ∗ ((T d : Thread nD τ).loc main_v2 ↦{fullShare} yvOf m d) ∗ ((T d : Thread nD τ).loc main_v3 ↦{fullShare} V2 m d v3')
          ∗ ((T d : Thread nD τ).loc main_v4 ↦{fullShare} V2 m d v4') ∗ ((T d : Thread nD τ).loc main_v5 ↦{fullShare} m (oLoc d))) := by
  rw [held_S10, V3_arg m d a0' (by decide) (by decide) (by decide), V3_arg m d a1' (by decide) (by decide) (by decide),
    V3_arg m d a2' (by decide) (by decide) (by decide), V3_arg m d a3' (by decide) (by decide) (by decide),
    V3_of m d v0' (by decide), V3_of m d v1' (by decide), V2_v1, V3_v2, V3_of m d v3' (by decide), V3_of m d v4' (by decide),
    V3_arg m d v5' (by decide) (by decide) (by decide)]
  rfl

/-- The ten arrays before the SparseCore call: y, the flat edge row and the result's buffer are what the call takes. -/
theorem held_V5 :
    (held (T d) S10 ((opFlat (F := F)).result ((opSlice (F := F)).result (V3 m d))) : sProp 𝕄)
      = iprop(((T d : Thread nD τ).loc main_arg0 ↦{fullShare} m ((T d : Thread nD τ).loc main_arg0)) ∗ ((T d : Thread nD τ).loc main_arg1 ↦{fullShare} m ((T d : Thread nD τ).loc main_arg1))
          ∗ ((T d : Thread nD τ).loc main_arg2 ↦{fullShare} m ((T d : Thread nD τ).loc main_arg2)) ∗ ((T d : Thread nD τ).loc main_arg3 ↦{fullShare} m ((T d : Thread nD τ).loc main_arg3))
          ∗ ((T d : Thread nD τ).loc main_v0 ↦{fullShare} V5 m d v0') ∗ ((T d : Thread nD τ).loc main_v1 ↦{fullShare} V5 m d v1')
          ∗ (yLoc d ↦{fullShare} yvOf m d) ∗ ((T d : Thread nD τ).loc main_v3 ↦{fullShare} V5 m d v3')
          ∗ (iLoc d ↦{fullShare} ivOf m d) ∗ (oLoc d ↦{fullShare} ovOf m d)) := by
  show held (T d) S10 (V5 m d) = _
  rw [held_S10, V5_arg m d a0' (by decide) (by decide) (by decide) (by decide) (by decide), V5_arg m d a1' (by decide) (by decide) (by decide) (by decide) (by decide),
    V5_arg m d a2' (by decide) (by decide) (by decide) (by decide) (by decide), V5_arg m d a3' (by decide) (by decide) (by decide) (by decide) (by decide),
    V5_of m d v2' (by decide) (by decide), V3_v2, V5_v4, V5_arg m d v5' (by decide) (by decide) (by decide) (by decide) (by decide)]
  rfl

end Reads

/-! ## The launch element -/

omit [FloatOps F] in
theorem bigSep_emp' {I : Type} (s : Finset I) : (bigSep s fun _ => iprop(emp)) = (iprop(emp) : sProp 𝕄) := bigSep_emp_const s

/-- The launch element: the handshakes' cells and tokens, the pipeline's staging cells and tokens, no transfer counted. -/
def u₀ : UU := (initOf (K (F := F)).hsCells (K (F := F)).hsToks, (uP₀, (1 : Counters)))

/-- The launch element deals the handshakes their own, every device the pipeline's ghost state, and the kernels' proofs
    nothing (they hold nothing from the launch). -/
theorem hu₀_of (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (initOf (K (F := F)).hsCells (K (F := F)).hsToks)) ∗ (bigSep Finset.univ fun d : Dev nD => tcGhost (F := F) d)
          ∗ bigSep Finset.univ fun thr : Thread nD τ => bigSep Finset.univ fun q : Fin 1 => P.x q thr) := by
  unfold u₀
  rw [show (bigSep Finset.univ fun thr : Thread nD τ => bigSep Finset.univ fun q : Fin 1 => P.x q thr) = bigSep Finset.univ fun _ => iprop(emp) from
    bigSep_congr fun thr _ => (bigSep_univ_of_subsingleton (0 : Fin 1)).trans (hx 0 thr), bigSep_emp']
  iintro Hu
  ihave H := (ownU_pair _ _) $$ Hu
  icases H with ⟨HH, HR⟩
  ihave H2 := (own_pair_emb embR uP₀ (1 : Counters)) $$ HR
  icases H2 with ⟨HP, -⟩
  imod (tcGhost_fund (F := F)) $$ HP with Hg
  imodintro
  isplitl [HH]; · iexact HH
  isplitl [Hg]; · iexact Hg
  iempintro

/-! ## @main on the TensorCore -/

section Main

variable (m : (ℓ : Loc nD τ sig) → Buf (Elt F) ℓ) (ρ : Dev nD → PrngReg)
  (P : (K (F := F)).Pay (nD := nD) (Val := Elt F) (Name := ℕ) (U := UU)) (OUT : (d : Dev nD) → Buf (Elt F) (oLoc d))

/-- What @main leaves the claim: the four arguments as launched, the result's buffer at the result. -/
abbrev FIN (d : Dev nD) : sProp 𝕄 := FINp d (m (a0Loc d)) (m (a1Loc d)) (m (a2Loc d)) (m (a3Loc d)) (OUT d)

set_option maxHeartbeats 1000000 in
/-- @main on device d's TensorCore, for any payload record whose call takes y, the flat edge row and the result's
    buffer whole and gives them back with the result at OUT: the two lines on the bias, the pipeline, the two lines on
    the edge list, the SparseCore call; the arguments kept. -/
theorem hmain_of
    (hst : ∀ d, (bigSep Finset.univ fun c : Fin ((K (F := F)).nCore 0) => P.st 0 d c)
      = (iprop((yLoc d ↦{fullShare} yvOf m d) ∗ (iLoc d ↦{fullShare} ivOf m d) ∗ (oLoc d ↦{fullShare} ovOf m d)) : sProp 𝕄))
    (hdn : ∀ d, (bigSep Finset.univ fun c : Fin ((K (F := F)).nCore 0) => P.dn 0 d c)
      = (iprop((yLoc d ↦{fullShare} yvOf m d) ∗ (iLoc d ↦{fullShare} ivOf m d) ∗ (oLoc d ↦{fullShare} OUT d)) : sProp 𝕄))
    (κ : GSem nD τ sig → ℕ) (d : Dev nD) :
    iprop((K (F := F)).ctx EH P κ ∗ (K (F := F)).tcSt EH d 0 ∗ (K (F := F)).tcRes m ρ d ∗ tcGhost (F := F) d)
      ⊢ wp frame (wpE ((K (F := F)).defs (D (F := F))) 𝒱 (T d : Thread nD τ) none) Set.univ (main d)
          fun _ => iprop((K (F := F)).tcSt EH d 1 ∗ FIN m OUT d) := by
  unfold SparseCore.Cfg.tcRes
  rw [tcUnscoped_held]
  simp only [main, wp_bind, wp_pure]
  iintro ⟨#Hctx, Hst, ⟨Hb, Hheld, -, -⟩, Hg⟩
  -- the bias as one row, then along eight rows
  iapply (wp_hlo_within 𝒱 (T d) none Set.univ (op := opRowB) (S := S10) hRowB (V := V0 m d)) $$ [Hb Hheld]
  · isplitl [Hb] <;> iassumption
  iintro ⟨Hb, Hheld⟩
  rw [wp_ret]; imodintro
  iapply (wp_hlo_within 𝒱 (T d) none Set.univ (op := opEight) (S := S10) hEight (V := (opRowB (F := F)).result (V0 m d))) $$ [Hb Hheld]
  · isplitl [Hb] <;> iassumption
  iintro ⟨Hb, Hheld⟩
  rw [wp_ret]; imodintro
  -- the pipeline: x, W, the eight-row bias and the result's buffer in; y out
  ihave Hh := (Entails.of_eq (held_V2 (F := F) m d)) $$ Hheld
  icases Hh with ⟨Ha0, Ha1, Ha2, Ha3, Hv0, Hv1, Hv2, Hv3, Hv4, Hv5⟩
  iapply (region_wp P κ d (m ((T d : Thread nD τ).loc main_arg0)) (m ((T d : Thread nD τ).loc main_arg2)) (bvOf m d) (V2 m d v2') _)
  isplitl [Hg]; · iexact Hg
  isplitr; · iexact Hctx
  isplitl [Hst]; · iexact Hst
  isplitl [Hb]; · iexact Hb
  isplitl [Ha0]; · iexact Ha0
  isplitl [Ha2]; · iexact Ha2
  isplitl [Hv1]; · iexact Hv1
  isplitl [Hv2]; · iexact Hv2
  iintro ⟨Hst, Hb, Ha0, Ha2, Hv1, Hv2⟩
  -- the edge list's second row, then flat
  iapply (wp_hlo_within 𝒱 (T d) none Set.univ (op := opSlice) (S := S10) hSlice (V := V3 m d)) $$ [Hb Ha0 Ha1 Ha2 Ha3 Hv0 Hv1 Hv2 Hv3 Hv4 Hv5]
  · isplitl [Hb]; · iexact Hb
    rw [held_V3]
    isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    isplitl [Hv4]; · iexact Hv4
    iexact Hv5
  iintro ⟨Hb, Hheld⟩
  rw [wp_ret]; imodintro
  iapply (wp_hlo_within 𝒱 (T d) none Set.univ (op := opFlat) (S := S10) hFlat (V := (opSlice (F := F)).result (V3 m d))) $$ [Hb Hheld]
  · isplitl [Hb] <;> iassumption
  iintro ⟨Hb, Hheld⟩
  rw [wp_ret]; imodintro
  -- the SparseCore call: y, the flat edge row and the result's buffer to the SparseCores and back
  ihave Hh := (Entails.of_eq (held_V5 (F := F) m d)) $$ Hheld
  icases Hh with ⟨Ha0, Ha1, Ha2, Ha3, -, -, Hy, -, Hi, Ho⟩
  iapply ((K (F := F)).wp_run (D (F := F)) 𝒱 (EH := EH) (P := P) κ d 0)
  isplitr; · iexact Hctx
  isplitl [Hst]; · iexact Hst
  isplitl [Hy Hi Ho]
  · rw [hst]
    isplitl [Hy]; · iexact Hy
    isplitl [Hi]; · iexact Hi
    iexact Ho
  iintro ⟨Hst, Hdn⟩
  ihave Hdn' := (Entails.of_eq (hdn d)) $$ Hdn
  icases Hdn' with ⟨-, -, Ho⟩
  imodintro
  isplitl [Hst]; · iexact Hst
  isplitl [Ha0]; · iexact Ha0
  isplitl [Ha1]; · iexact Ha1
  isplitl [Ha2]; · iexact Ha2
  isplitl [Ha3]; · iexact Ha3
  iexact Ho

/-! ## The program's run -/

/-- What the final memory holds on device d: the result, and the four arguments as launched. -/
def fq (d : Dev nD) (s' : Phys nD τ sig (Elt F)) : Prop :=
  s'.mem.mem (oLoc d) = OUT d ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem hfin (d : Dev nD) (s' : Phys nD τ sig (Elt F)) : iprop(FIN m OUT d ∗ SI s') ⊢ (⌜fq m OUT d s'⌝ : sProp 𝕄) :=
  fin_read d (m (a0Loc d)) (m (a1Loc d)) (m (a2Loc d)) (m (a3Loc d)) (OUT d) s'

/-- The run, for any payload record as above whose tile obligation and split of the operands among the tiles are
    given: every weakly fair execution of the whole mesh terminates, with the result's buffer at OUT and the four
    arguments as launched. -/
theorem run_main_of [∀ e, Nonempty (Elt F e)] [P.IsStorable]
    (hst : ∀ d, (bigSep Finset.univ fun c : Fin ((K (F := F)).nCore 0) => P.st 0 d c)
      = (iprop((yLoc d ↦{fullShare} yvOf m d) ∗ (iLoc d ↦{fullShare} ivOf m d) ∗ (oLoc d ↦{fullShare} ovOf m d)) : sProp 𝕄))
    (hdn : ∀ d, (bigSep Finset.univ fun c : Fin ((K (F := F)).nCore 0) => P.dn 0 d c)
      = (iprop((yLoc d ↦{fullShare} yvOf m d) ∗ (iLoc d ↦{fullShare} ivOf m d) ∗ (oLoc d ↦{fullShare} OUT d)) : sProp 𝕄))
    (hx : ∀ q thr, P.x q thr = iprop(emp)) (hheld : P.held = ∅)
    (hvec : (K (F := F)).VecSplit' P 0) (hobl : (K (F := F)).TileObl (D (F := F)) 𝒱 P v₀ 0) :
    θ_run (Cert.Kernel.defs (F := F)) (Cert.Kernel.threads (F := F)) ⟨m, fun _ => 0, ρ⟩
      (fun r => ∀ c : Dev nD, r.2.mem ((c.tc : Thread nD τ).loc main_v5) = OUT c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  SparseCore.Cfg.θ_run_sc (K := K (F := F)) (D := D (F := F)) (𝒱 := 𝒱) (EH := EH) (P := P) facts v₀
    (fun q hq => match q with | 0 => nomatch hq)
    (fun q _ => match q with | 0 => hobl)
    (fun q _ => match q with | 0 => SparseCore.Cfg.VecSplit.of_plain hvec)
    m ρ main (fun d => tcGhost (F := F) d) (FIN m OUT) (u₀ (F := F)) (sep_elim_left.trans (hu₀_of P hx)) (hmain_of m ρ P OUT hst hdn)
    (fq m OUT) (hfin m OUT) _ (fun _ h c => h c) hheld

end Main

/-! ## At the certificate's payload record -/

section Cert

variable (m : (ℓ : Loc nD τ sig) → Buf (Elt F) ℓ) (ρ : Dev nD → PrngReg)

/-- The launch element, for the certificate's payload record. -/
theorem hu₀ :
    (ownU (u₀ (F := F)) : sProp 𝕄)
      ⊢ |={Set.univ}=> iprop(BI.own (EH (initOf (K (F := F)).hsCells (K (F := F)).hsToks)) ∗ (bigSep Finset.univ fun d : Dev nD => tcGhost (F := F) d)
          ∗ bigSep Finset.univ fun thr : Thread nD τ => bigSep Finset.univ fun q : Fin 1 => (P (F := F) (yvOf m) (ivOf m) (ovOf m)).x q thr) :=
  hu₀_of (P (F := F) (yvOf m) (ivOf m) (ovOf m)) (fun _ _ => rfl)

/-- @main on device d's TensorCore, for the certificate's payload record: the result's buffer ends at the rows of y
    the flat edge row names. -/
theorem hmain (κ : GSem nD τ sig → ℕ) (d : Dev nD) :
    iprop((K (F := F)).ctx EH (P (F := F) (yvOf m) (ivOf m) (ovOf m)) κ ∗ (K (F := F)).tcSt EH d 0 ∗ (K (F := F)).tcRes m ρ d ∗ tcGhost (F := F) d)
      ⊢ wp frame (wpE ((K (F := F)).defs (D (F := F))) 𝒱 (T d : Thread nD τ) none) Set.univ (main d)
          fun _ => iprop((K (F := F)).tcSt EH d 1 ∗ FIN m (fun d => outBuf d (yvOf m d) (ivOf m d)) d) :=
  hmain_of m ρ (P (F := F) (yvOf m) (ivOf m) (ovOf m)) (fun d => outBuf d (yvOf m d) (ivOf m d))
    (fun d => st_eq (yvOf m) (ivOf m) (ovOf m) d) (fun d => dn_eq (yvOf m) (ivOf m) (ovOf m) d) κ d

/-- THE RUN, given the tiles' obligation: every weakly fair execution of the whole mesh terminates; the result's buffer
    holds, row by row, the rows of y the edge list's second row names, and the four arguments are as launched. -/
theorem run_main [∀ e, Nonempty (Elt F e)]
    (hobl : (K (F := F)).TileObl (D (F := F)) 𝒱 (P (F := F) (yvOf m) (ivOf m) (ovOf m)) v₀ 0) :
    θ_run (Cert.Kernel.defs (F := F)) (Cert.Kernel.threads (F := F)) ⟨m, fun _ => 0, ρ⟩
      (fun r => ∀ c : Dev nD, r.2.mem ((c.tc : Thread nD τ).loc main_v5) = outVal (yvOf m c) (ivOf m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  run_main_of m ρ (P (F := F) (yvOf m) (ivOf m) (ovOf m)) (fun d => outBuf d (yvOf m d) (ivOf m d))
    (fun d => st_eq (yvOf m) (ivOf m) (ovOf m) d) (fun d => dn_eq (yvOf m) (ivOf m) (ovOf m) d) (fun _ _ => rfl) rfl
    (vecSplit (yvOf m) (ivOf m) (ovOf m)) hobl

end Cert

end Cert.Kernel.Hand

end
-- ==== Proof.TileIdxB.lean ====
/-
  One vector subcore's task: it copies its 10000 entries of the edge list's second row into its index scratch,
  then gathers the rows of y those entries name, eighty at a time, through five row buffers — four gathers ahead —
  and copies each filled buffer out to its eighty rows of the result.
-/
import proofs.«207968_g22119081574525_cont_sun_m_427_17_alg».proof.Proof.TileDefsB
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "yV" => (Memref.whole Cert.Kernel.main_v2_scv : Memref Cert.Kernel.sig Kind.scVector Space.hbm Cert.Kernel.S10000x128 EltTy.f32)
local notation "iV" => (Memref.whole Cert.Kernel.main_v4_scv : Memref Cert.Kernel.sig Kind.scVector Space.hbm Cert.Kernel.S320000 EltTy.i32)
local notation "oV" => (Memref.whole Cert.Kernel.main_v5_scv : Memref Cert.Kernel.sig Kind.scVector Space.hbm Cert.Kernel.S320000x128 EltTy.f32)
local notation "sV" => (Memref.whole Cert.Kernel.cc1_scratch0 : Memref Cert.Kernel.sig Kind.scVector Space.vmem Cert.Kernel.S10000 EltTy.i32)
local notation "r0V" => (Memref.whole Cert.Kernel.cc1_scratch1 : Memref Cert.Kernel.sig Kind.scVector Space.vmem Cert.Kernel.S80x128 EltTy.f32)
local notation "r1V" => (Memref.whole Cert.Kernel.cc1_scratch2 : Memref Cert.Kernel.sig Kind.scVector Space.vmem Cert.Kernel.S80x128 EltTy.f32)
local notation "r2V" => (Memref.whole Cert.Kernel.cc1_scratch3 : Memref Cert.Kernel.sig Kind.scVector Space.vmem Cert.Kernel.S80x128 EltTy.f32)
local notation "r3V" => (Memref.whole Cert.Kernel.cc1_scratch4 : Memref Cert.Kernel.sig Kind.scVector Space.vmem Cert.Kernel.S80x128 EltTy.f32)
local notation "r4V" => (Memref.whole Cert.Kernel.cc1_scratch5 : Memref Cert.Kernel.sig Kind.scVector Space.vmem Cert.Kernel.S80x128 EltTy.f32)

variable [FloatOps F]
variable (d : Dev nD) (L : grid1.Coords)

/-- the tile's fetched index words -/
def idxPay (iv : Buf (Elt F) (iLoc d)) : S10000.Idx → Elt F .i32 := ReadAs.same.apply (View.read (Elt F) (iTileK L).view iv)

theorem idxPay_lt (iv : Buf (Elt F) (iLoc d)) (hin : ∀ j, (iv j).toNat < 10000) : ∀ j, (idxPay d L iv j).toNat < 10000 := by
  intro j
  show ((View.read (Elt F) (iTileK L).view iv) j).toNat < 10000
  rw [show View.read (Elt F) (iTileK L).view iv j = iv ((iTileK L).view.emb j) from (View.read_apply _ _).trans (cast_eq _ _)]
  exact hin _

end Cert.Kernel.Hand

end
-- ==== Proof.TileValueB.lean ====
/-
  What a gather of eighty listed rows delivers, and what the fetch of a tile's index entries delivers, read at an index.
-/
import proofs.«207968_g22119081574525_cont_sun_m_427_17_alg».proof.Proof.TileDefsB
import Idealize.ShloMosaic.Lib.ValueIdx

noncomputable section

namespace Cert.Kernel.Hand

open Cert.Kernel Cert.Kernel.Gen
open Idealize.ShloMosaic
open Idealize.ShloMosaic.SparseCore (S V T)
open Idealize.ShloMosaic.ValueIdx

variable {F : FTy → Type} [FloatOps F]

local notation "sV" => (Memref.whole Cert.Kernel.cc1_scratch0 : Memref Cert.Kernel.sig Kind.scVector Space.vmem Cert.Kernel.S10000 EltTy.i32)

/-- a rank-1 index read back from its row-major position has that position as its coordinate -/
theorem rowMajor_symm_one {n : Nat} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- the word a list of eighty from word n holds at position k is the fetched entry n + k -/
theorem lst_read (d : Dev nD) (L : grid1.Coords) (pay : S10000.Idx → Elt F .i32) (n : ℕ) (h : n + 80 ≤ 10000) (x : S80.Idx) :
    View.read (Elt F) (lstN n h).view (svalOf d L pay) x = pay (ix1 (⟨n + (x 0).val, by have := (x 0).isLt; have : (x 0).val < 80 := this; omega⟩ : Fin 10000)) := by
  have e : View.read (Elt F) (lstN n h).view (svalOf d L pay) x
      = View.read (Elt F) (sV).view (svalOf d L pay) ((Rect.unit (s := S10000) ![n] S80.size (lst_inb n h)).emb x) := by
    rw [View.read_apply, View.read_apply]; rfl
  rw [e, View.read_writes_whole]
  refine congrArg pay (funext fun a => Fin.ext ?_)
  match a with
  | ⟨0, _⟩ =>
    show n + 1 * (x 0).val = n + (x 0).val
    omega

/-- the source index of element (r, c) of a gather of eighty rows: row R r, column c -/
theorem gidx_apply (R : Fin 80 → Fin 10000) (r : Fin 80) (c : Fin 128) :
    Shape.Gathers.idx gathers_S10000x128_S80x128 R (ix2 r c) = (ix2 (R r) c : S10000x128.Idx) := by
  funext a
  match a with
  | ⟨0, _⟩ => exact Shape.Gathers.idx_axis gathers_S10000x128_S80x128 R (ix2 r c)
  | ⟨1, _⟩ =>
    refine Fin.ext ?_
    exact Shape.Gathers.idx_of_ne gathers_S10000x128_S80x128 R (ix2 r c) ⟨1, by decide⟩ (by decide)

/-- all of y read through its whole-array slice is y -/
theorem ySl_read (d : Dev nD) (yv : Buf (Elt F) (yLoc d)) (X : S10000x128.Idx) :
    View.read (Elt F) (ySl).view yv X = yv X := by
  rw [View.read_apply]
  show yv _ = yv _
  refine congrArg yv (funext fun a => Fin.ext ?_)
  simp only [Memref.view_slice, Memref.view_whole, View.emb_slice, View.emb_whole, Function.Embedding.trans_apply,
    Function.Embedding.refl_apply, Rect.emb_apply, Rect.off_unit, Rect.stride_unit]
  match a with
  | ⟨0, _⟩ => show 0 + 1 * (X 0).val = (X 0).val; omega
  | ⟨1, _⟩ => show 0 + 1 * (X 1).val = (X 1).val; omega

theorem GPv_apply (d : Dev nD) (L : grid1.Coords) (yv : Buf (Elt F) (yLoc d)) (pay : S10000.Idx → Elt F .i32)
    (hpay : ∀ j, (pay j).toNat < 10000) (n : ℕ) (h : n + 80 ≤ 10000) (r : Fin 80) (c : Fin 128) :
    GPv d L yv pay hpay n h (ix2 r c)
      = yv (ix2 (⟨(pay (ix1 (⟨n + r.val, by omega⟩ : Fin 10000))).toNat, hpay _⟩ : Fin 10000) c) := by
  have hRr : (SparseCore.rows (View.read (Elt F) (lstN n h).view (svalOf d L pay)) rfl
      (idx_inb d L _ pay hpay ![n] (lst_inb n h) (fun _ => rfl)) r) = (⟨(pay (ix1 (⟨n + r.val, by omega⟩ : Fin 10000))).toNat, hpay _⟩ : Fin 10000) := by
    refine Fin.ext ?_
    simp only [SparseCore.rows]
    rw [lst_read d L pay n h]
    refine congrArg (fun k : Fin 10000 => (pay (ix1 k)).toNat) (Fin.ext ?_)
    show n + ((S80.rowMajor.symm (r.cast rfl)) 0).val = n + r.val
    rw [rowMajor_symm_one]
    rfl
  unfold GPv SparseCore.gatherPayload
  rw [ySl_read]
  exact congrArg yv ((gidx_apply _ r c).trans (congrArg (fun k : Fin 10000 => (ix2 k c : S10000x128.Idx)) hRr))

/-- the fetched words of a tile: entry j is entry 20000·s + 10000·c + j of the flat edge row -/
theorem idxPay_apply (d : Dev nD) (L : grid1.Coords) (iv : Buf (Elt F) (iLoc d)) (j : Fin 10000) :
    ReadAs.same.apply (View.read (Elt F) (iTileK L).view iv) (ix1 j)
      = iv (ix1 (⟨20000 * (L 1).val + 10000 * (L 0).val + j.val, by
          have h0 : (L 0).val < 2 := (L 0).isLt
          have h1 : (L 1).val < 16 := (L 1).isLt
          omega⟩ : Fin 320000)) := by
  rw [ReadAs.apply_same, View.read_apply]
  show iv _ = iv _
  refine congrArg iv (funext fun a => Fin.ext ?_)
  simp only [Memref.view_slice, Memref.view_whole, View.emb_slice, View.emb_whole, Function.Embedding.trans_apply,
    Function.Embedding.refl_apply, Rect.emb_apply, Rect.off_unit, Rect.stride_unit, k1_off1_eq]
  match a with
  | ⟨0, _⟩ =>
    show ((Rect.unit (s := S320000) (k1_off1 L) S10000.size (k1_off1_inb L)).emb (ix1 j) 0 : ℕ) = 20000 * (L 1).val + 10000 * (L 0).val + j.val
    rw [Rect.emb_apply, Rect.off_unit, Rect.stride_unit]
    have e0 : k1_off1 L 0 = 20000 * (L 1).val + 10000 * (L 0).val := congrFun (k1_off1_eq L) 0
    show k1_off1 L 0 + 1 * j.val = 20000 * (L 1).val + 10000 * (L 0).val + j.val
    omega

end Cert.Kernel.Hand

end
-- ==== Proof.TileJoinB.lean ====
/-
  A tile's result rows: not yet written they are its five slots' runs of chunks; all written and landed they hold
  the rows of y the tile's entries name, which is the result's value on the tile.
-/
import proofs.«207968_g22119081574525_cont_sun_m_427_17_alg».proof.Proof.TileDefsB
import proofs.«207968_g22119081574525_cont_sun_m_427_17_alg».proof.Proof.TileIdxB
import proofs.«207968_g22119081574525_cont_sun_m_427_17_alg».proof.Proof.TileValueB
import proofs.«207968_g22119081574525_cont_sun_m_427_17_alg».proof.Proof.PartsB
import proofs.«207968_g22119081574525_cont_sun_m_427_17_alg».proof.Proof.PayB
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- a conjunction over five slots, spelt out -/
theorem bigSep_fin5 (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide),
    SparseCore.bigSep_insert' (by decide), SparseCore.bigSep_insert' (by decide), SparseCore.bigSep_insert' (by decide), bigSep_singleton]

/-- trips of slots regrouped slot by slot -/
theorem chunks_regroup (Φ : Fin k1_t1_loop.trips → Fin 5 → sProp 𝕄) :
    (bigSep Finset.univ fun t => bigSep Finset.univ fun j => Φ t j)
      = iprop((bigSep Finset.univ fun t => Φ t 0) ∗ (bigSep Finset.univ fun t => Φ t 1) ∗ (bigSep Finset.univ fun t => Φ t 2)
        ∗ (bigSep Finset.univ fun t => Φ t 3) ∗ (bigSep Finset.univ fun t => Φ t 4)) := by
  simp only [bigSep_fin5, bigSep_sep']

/-- every trip: the run from 0 to 25 -/
theorem range_all : Ring.rangeSet k1_t1_loop.trips 0 25 = Finset.univ := Ring.rangeSet_univ (NB := k1_t1_loop.trips)

variable [FloatOps F]

/-- (1) a tile's result rows, none written yet, are its five slots' runs -/
theorem todo_eq (d : Dev nD) (L : grid1.Coords) (f : Buf (Elt F) (oLoc d)) :
    (bigSep Finset.univ fun t : Fin k1_t1_loop.trips => bigSep Finset.univ fun j : Fin 5 => oLoc d ↦[oChunkSet L t j]{fullShare} f : sProp 𝕄)
      = iprop(Todo0 d L f 0 ∗ Todo1 d L f 0 ∗ Todo2 d L f 0 ∗ Todo3 d L f 0 ∗ Todo4 d L f 0) := by
  have e0 : (Todo0 d L f 0 : sProp 𝕄) = bigSep Finset.univ fun t => oLoc d ↦[oChunkSet L t 0]{fullShare} f := by
    unfold Todo0; rw [range_all]; exact bigSep_congr fun t _ => pts_oC0 d L t f
  have e1 : (Todo1 d L f 0 : sProp 𝕄) = bigSep Finset.univ fun t => oLoc d ↦[oChunkSet L t 1]{fullShare} f := by
    unfold Todo1; rw [range_all]; exact bigSep_congr fun t _ => pts_oC1 d L t f
  have e2 : (Todo2 d L f 0 : sProp 𝕄) = bigSep Finset.univ fun t => oLoc d ↦[oChunkSet L t 2]{fullShare} f := by
    unfold Todo2; rw [range_all]; exact bigSep_congr fun t _ => pts_oC2 d L t f
  have e3 : (Todo3 d L f 0 : sProp 𝕄) = bigSep Finset.univ fun t => oLoc d ↦[oChunkSet L t 3]{fullShare} f := by
    unfold Todo3; rw [range_all]; exact bigSep_congr fun t _ => pts_oC3 d L t f
  have e4 : (Todo4 d L f 0 : sProp 𝕄) = bigSep Finset.univ fun t => oLoc d ↦[oChunkSet L t 4]{fullShare} f := by
    unfold Todo4; rw [range_all]; exact bigSep_congr fun t _ => pts_oC4 d L t f
  rw [e0, e1, e2, e3, e4]
  exact chunks_regroup (fun t j => oLoc d ↦[oChunkSet L t j]{fullShare} f)

/-! ## A landed chunk holds the result's value -/

/-- contents that read, through chunk 5t + r of tile L, as the rows of y its eighty entries name, are the result's
    value on that chunk -/
theorem chunk_agree (d : Dev nD) (L : grid1.Coords) (yv : Buf (Elt F) (yLoc d)) (iv : Buf (Elt F) (iLoc d))
    (hin : ∀ j, (iv j).toNat < 10000) (t : Fin k1_t1_loop.trips) (r : Fin 5) (n : ℕ) (hn : n = 400 * t.val + 80 * r.val)
    (h : n + 80 ≤ 10000) (f : Buf (Elt F) (oLoc d))
    (hf : ∀ x : S80x128.Idx, f ((Rect.unit (s := S320000x128) (k1_off3 L t (BitVec.ofNat 32 r.val)) S80x128.size (k1_off3_inb L t r)).emb x)
      = GPv d L yv (idxPay d L iv) (idxPay_lt d L iv hin) n h x) :
    ∀ i ∈ oChunkSet L t r, f i = outBuf d yv iv i := by
  intro i hi
  unfold oChunkSet at hi
  rw [← Rect.map_emb_univ] at hi
  obtain ⟨x, -, rfl⟩ := Finset.mem_map.mp hi
  obtain ⟨a, c, rfl⟩ : ∃ (a : Fin 80) (c : Fin 128), x = ix2 a c := ⟨x 0, x 1, eq_ix2 x⟩
  rw [hf, GPv_apply, outBuf_eq]
  unfold outVal
  have h0 : (L 0).val < 2 := (L 0).isLt
  have h1 : (L 1).val < 16 := (L 1).isLt
  have ht : t.val < 25 := t.isLt
  have hr : r.val < 5 := r.isLt
  have ha : a.val < 80 := a.isLt
  have k0 : k1_off3 L t (BitVec.ofNat 32 r.val) 0 = 20000 * (L 1).val + 10000 * (L 0).val + 400 * t.val + 80 * r.val :=
    congrFun (k1_off3_eq L t r) 0
  have k1 : k1_off3 L t (BitVec.ofNat 32 r.val) 1 = 0 := congrFun (k1_off3_eq L t r) 1
  have e0 : (((Rect.unit (s := S320000x128) (k1_off3 L t (BitVec.ofNat 32 r.val)) S80x128.size (k1_off3_inb L t r)).emb (ix2 a c)) 0 : ℕ)
      = 20000 * (L 1).val + 10000 * (L 0).val + n + a.val := by
    rw [Rect.emb_apply, Rect.off_unit, Rect.stride_unit]
    show k1_off3 L t (BitVec.ofNat 32 r.val) 0 + 1 * a.val = _
    omega
  have e1 : (((Rect.unit (s := S320000x128) (k1_off3 L t (BitVec.ofNat 32 r.val)) S80x128.size (k1_off3_inb L t r)).emb (ix2 a c)) 1 : ℕ) = c.val := by
    rw [Rect.emb_apply, Rect.off_unit, Rect.stride_unit]
    show k1_off3 L t (BitVec.ofNat 32 r.val) 1 + 1 * c.val = _
    omega
  have hw : idxPay d L iv (ix1 (⟨n + a.val, by omega⟩ : Fin 10000))
      = iv (ix1 (⟨20000 * (L 1).val + 10000 * (L 0).val + (n + a.val), by omega⟩ : Fin 320000)) :=
    idxPay_apply d L iv ⟨n + a.val, by omega⟩
  refine congrArg yv ?_
  funext k
  refine Fin.ext ?_
  match k with
  | ⟨0, _⟩ =>
    show (idxPay d L iv (ix1 (⟨n + a.val, by omega⟩ : Fin 10000))).toNat
      = (iv (ix1 (⟨(((Rect.unit (s := S320000x128) (k1_off3 L t (BitVec.ofNat 32 r.val)) S80x128.size (k1_off3_inb L t r)).emb (ix2 a c)) 0 : ℕ), _⟩ : Fin 320000))).toNat % 10000
    rw [hw, Nat.mod_eq_of_lt (hin _)]
    refine congrArg (fun q : Fin 320000 => (iv (ix1 q)).toNat) (Fin.ext ?_)
    show 20000 * (L 1).val + 10000 * (L 0).val + (n + a.val) = _
    rw [e0]; omega
  | ⟨1, _⟩ =>
    show c.val = (((Rect.unit (s := S320000x128) (k1_off3 L t (BitVec.ofNat 32 r.val)) S80x128.size (k1_off3_inb L t r)).emb (ix2 a c)) 1 : ℕ)
    rw [e1]

/-- a landed chunk, whatever it holds beyond what it reads as, is the result's value there -/
theorem chunk_done0 (d : Dev nD) (L : grid1.Coords) (yv : Buf (Elt F) (yLoc d)) (iv : Buf (Elt F) (iLoc d))
    (hin : ∀ j, (iv j).toNat < 10000) (t : Fin k1_t1_loop.trips) (h : 400 * t.val + 0 + 80 ≤ 10000) :
    (iprop(∃ f, ((oC0 L t).view.loc (VT d L) ↦[(oC0 L t).view.set]{fullShare} f)
      ∗ ⌜∀ x, View.read (Elt F) (oC0 L t).view f x = GPv d L yv (idxPay d L iv) (idxPay_lt d L iv hin) (400 * t.val + 0) h x⌝) : sProp 𝕄)
      ⊢ oLoc d ↦[oChunkSet L t 0]{fullShare} outBuf d yv iv := by
  iintro ⟨%f, H, %hf⟩
  have hag := chunk_agree d L yv iv hin t 0 (400 * t.val + 0) (by simp) h f (fun x => by
    have e := hf x
    rw [show View.read (Elt F) (oC0 L t).view f x = f ((oC0 L t).view.emb x) from (View.read_apply _ _).trans (cast_eq _ _)] at e
    exact e)
  have e : ((oC0 L t).view.loc (VT d L) ↦[(oC0 L t).view.set]{fullShare} f : sProp 𝕄) = oLoc d ↦[oChunkSet L t 0]{fullShare} outBuf d yv iv :=
    (pts_oC0 d L t f).trans (pointsTo_congr hag)
  iapply (Entails.of_eq e)
  iexact H

theorem chunk_done1 (d : Dev nD) (L : grid1.Coords) (yv : Buf (Elt F) (yLoc d)) (iv : Buf (Elt F) (iLoc d))
    (hin : ∀ j, (iv j).toNat < 10000) (t : Fin k1_t1_loop.trips) (h : 400 * t.val + 80 + 80 ≤ 10000) :
    (iprop(∃ f, ((oC1 L t).view.loc (VT d L) ↦[(oC1 L t).view.set]{fullShare} f)
      ∗ ⌜∀ x, View.read (Elt F) (oC1 L t).view f x = GPv d L yv (idxPay d L iv) (idxPay_lt d L iv hin) (400 * t.val + 80) h x⌝) : sProp 𝕄)
      ⊢ oLoc d ↦[oChunkSet L t 1]{fullShare} outBuf d yv iv := by
  iintro ⟨%f, H, %hf⟩
  have hag := chunk_agree d L yv iv hin t 1 (400 * t.val + 80) (by simp) h f (fun x => by
    have e := hf x
    rw [show View.read (Elt F) (oC1 L t).view f x = f ((oC1 L t).view.emb x) from (View.read_apply _ _).trans (cast_eq _ _)] at e
    exact e)
  have e : ((oC1 L t).view.loc (VT d L) ↦[(oC1 L t).view.set]{fullShare} f : sProp 𝕄) = oLoc d ↦[oChunkSet L t 1]{fullShare} outBuf d yv iv :=
    (pts_oC1 d L t f).trans (pointsTo_congr hag)
  iapply (Entails.of_eq e)
  iexact H

theorem chunk_done2 (d : Dev nD) (L : grid1.Coords) (yv : Buf (Elt F) (yLoc d)) (iv : Buf (Elt F) (iLoc d))
    (hin : ∀ j, (iv j).toNat < 10000) (t : Fin k1_t1_loop.trips) (h : 400 * t.val + 160 + 80 ≤ 10000) :
    (iprop(∃ f, ((oC2 L t).view.loc (VT d L) ↦[(oC2 L t).view.set]{fullShare} f)
      ∗ ⌜∀ x, View.read (Elt F) (oC2 L t).view f x = GPv d L yv (idxPay d L iv) (idxPay_lt d L iv hin) (400 * t.val + 160) h x⌝) : sProp 𝕄)
      ⊢ oLoc d ↦[oChunkSet L t 2]{fullShare} outBuf d yv iv := by
  iintro ⟨%f, H, %hf⟩
  have hag := chunk_agree d L yv iv hin t 2 (400 * t.val + 160) (by simp) h f (fun x => by
    have e := hf x
    rw [show View.read (Elt F) (oC2 L t).view f x = f ((oC2 L t).view.emb x) from (View.read_apply _ _).trans (cast_eq _ _)] at e
    exact e)
  have e : ((oC2 L t).view.loc (VT d L) ↦[(oC2 L t).view.set]{fullShare} f : sProp 𝕄) = oLoc d ↦[oChunkSet L t 2]{fullShare} outBuf d yv iv :=
    (pts_oC2 d L t f).trans (pointsTo_congr hag)
  iapply (Entails.of_eq e)
  iexact H

theorem chunk_done3 (d : Dev nD) (L : grid1.Coords) (yv : Buf (Elt F) (yLoc d)) (iv : Buf (Elt F) (iLoc d))
    (hin : ∀ j, (iv j).toNat < 10000) (t : Fin k1_t1_loop.trips) (h : 400 * t.val + 240 + 80 ≤ 10000) :
    (iprop(∃ f, ((oC3 L t).view.loc (VT d L) ↦[(oC3 L t).view.set]{fullShare} f)
      ∗ ⌜∀ x, View.read (Elt F) (oC3 L t).view f x = GPv d L yv (idxPay d L iv) (idxPay_lt d L iv hin) (400 * t.val + 240) h x⌝) : sProp 𝕄)
      ⊢ oLoc d ↦[oChunkSet L t 3]{fullShare} outBuf d yv iv := by
  iintro ⟨%f, H, %hf⟩
  have hag := chunk_agree d L yv iv hin t 3 (400 * t.val + 240) (by simp) h f (fun x => by
    have e := hf x
    rw [show View.read (Elt F) (oC3 L t).view f x = f ((oC3 L t).view.emb x) from (View.read_apply _ _).trans (cast_eq _ _)] at e
    exact e)
  have e : ((oC3 L t).view.loc (VT d L) ↦[(oC3 L t).view.set]{fullShare} f : sProp 𝕄) = oLoc d ↦[oChunkSet L t 3]{fullShare} outBuf d yv iv :=
    (pts_oC3 d L t f).trans (pointsTo_congr hag)
  iapply (Entails.of_eq e)
  iexact H

theorem chunk_done4 (d : Dev nD) (L : grid1.Coords) (yv : Buf (Elt F) (yLoc d)) (iv : Buf (Elt F) (iLoc d))
    (hin : ∀ j, (iv j).toNat < 10000) (t : Fin k1_t1_loop.trips) (h : 400 * t.val + 320 + 80 ≤ 10000) :
    (iprop(∃ f, ((oC4 L t).view.loc (VT d L) ↦[(oC4 L t).view.set]{fullShare} f)
      ∗ ⌜∀ x, View.read (Elt F) (oC4 L t).view f x = GPv d L yv (idxPay d L iv) (idxPay_lt d L iv hin) (400 * t.val + 320) h x⌝) : sProp 𝕄)
      ⊢ oLoc d ↦[oChunkSet L t 4]{fullShare} outBuf d yv iv := by
  iintro ⟨%f, H, %hf⟩
  have hag := chunk_agree d L yv iv hin t 4 (400 * t.val + 320) (by simp) h f (fun x => by
    have e := hf x
    rw [show View.read (Elt F) (oC4 L t).view f x = f ((oC4 L t).view.emb x) from (View.read_apply _ _).trans (cast_eq _ _)] at e
    exact e)
  have e : ((oC4 L t).view.loc (VT d L) ↦[(oC4 L t).view.set]{fullShare} f : sProp 𝕄) = oLoc d ↦[oChunkSet L t 4]{fullShare} outBuf d yv iv :=
    (pts_oC4 d L t f).trans (pointsTo_congr hag)
  iapply (Entails.of_eq e)
  iexact H

/-- (2) all of a tile's chunks written and landed: its result rows hold the result's value -/
theorem done_join (d : Dev nD) (L : grid1.Coords) (yv : Buf (Elt F) (yLoc d)) (iv : Buf (Elt F) (iLoc d)) (hin : ∀ j, (iv j).toNat < 10000) :
    (iprop(Done0 d L yv (idxPay d L iv) (idxPay_lt d L iv hin) 25 ∗ Done1 d L yv (idxPay d L iv) (idxPay_lt d L iv hin) 25
      ∗ Done2 d L yv (idxPay d L iv) (idxPay_lt d L iv hin) 25 ∗ Done3 d L yv (idxPay d L iv) (idxPay_lt d L iv hin) 25
      ∗ Done4 d L yv (idxPay d L iv) (idxPay_lt d L iv hin) 25) : sProp 𝕄)
      ⊢ bigSep Finset.univ fun t : Fin k1_t1_loop.trips => bigSep Finset.univ fun j : Fin 5 => oLoc d ↦[oChunkSet L t j]{fullShare} outBuf d yv iv := by
  rw [chunks_regroup (fun t j => oLoc d ↦[oChunkSet L t j]{fullShare} outBuf d yv iv)]
  unfold Done0 Done1 Done2 Done3 Done4
  rw [range_all]
  exact sep_mono (bigSep_mono fun t _ => chunk_done0 d L yv iv hin t _)
    (sep_mono (bigSep_mono fun t _ => chunk_done1 d L yv iv hin t _)
      (sep_mono (bigSep_mono fun t _ => chunk_done2 d L yv iv hin t _)
        (sep_mono (bigSep_mono fun t _ => chunk_done3 d L yv iv hin t _)
          (bigSep_mono fun t _ => chunk_done4 d L yv iv hin t _))))

end Cert.Kernel.Hand

end
-- ==== Proof.TileRunB.lean ====
/-
  One vector subcore's task, run: the tile fetches its 10000 entries of the edge list's second row, keeps four gathers
  of eighty rows of y ahead in five row buffers, and copies each filled buffer out to its eighty result rows.  The
  loop's invariant names, before trip n, which chunks have landed, which gathers and which copy-out are under way, and
  what each row buffer and each result chunk holds: chunk 5t + j of the tile ends holding the rows of y that the index
  words 400 t + 80 j … 400 t + 80 j + 79 name.
-/
import proofs.«207968_g22119081574525_cont_sun_m_427_17_alg».proof.Proof.TileIdxB
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "yV" => (Memref.whole Cert.Kernel.main_v2_scv : Memref Cert.Kernel.sig Kind.scVector Space.hbm Cert.Kernel.S10000x128 EltTy.f32)
local notation "iV" => (Memref.whole Cert.Kernel.main_v4_scv : Memref Cert.Kernel.sig Kind.scVector Space.hbm Cert.Kernel.S320000 EltTy.i32)
local notation "oV" => (Memref.whole Cert.Kernel.main_v5_scv : Memref Cert.Kernel.sig Kind.scVector Space.hbm Cert.Kernel.S320000x128 EltTy.f32)
local notation "sV" => (Memref.whole Cert.Kernel.cc1_scratch0 : Memref Cert.Kernel.sig Kind.scVector Space.vmem Cert.Kernel.S10000 EltTy.i32)
local notation "r0V" => (Memref.whole Cert.Kernel.cc1_scratch1 : Memref Cert.Kernel.sig Kind.scVector Space.vmem Cert.Kernel.S80x128 EltTy.f32)
local notation "r1V" => (Memref.whole Cert.Kernel.cc1_scratch2 : Memref Cert.Kernel.sig Kind.scVector Space.vmem Cert.Kernel.S80x128 EltTy.f32)
local notation "r2V" => (Memref.whole Cert.Kernel.cc1_scratch3 : Memref Cert.Kernel.sig Kind.scVector Space.vmem Cert.Kernel.S80x128 EltTy.f32)
local notation "r3V" => (Memref.whole Cert.Kernel.cc1_scratch4 : Memref Cert.Kernel.sig Kind.scVector Space.vmem Cert.Kernel.S80x128 EltTy.f32)
local notation "r4V" => (Memref.whole Cert.Kernel.cc1_scratch5 : Memref Cert.Kernel.sig Kind.scVector Space.vmem Cert.Kernel.S80x128 EltTy.f32)

variable [FloatOps F]
variable (d : Dev nD) (L : grid1.Coords)

/-- the rows of y the eighty index words at offset off name -/
def GPvO (yv : Buf (Elt F) (yLoc d)) (pay : S10000.Idx → Elt F .i32) (hpay : ∀ j, (pay j).toNat < 10000)
    (off : Fin 1 → ℕ) (h : ∀ a, off a + S80.size a ≤ S10000.size a) : S80x128.Idx → Elt F .f32 :=
  SparseCore.gatherPayload gathers_S10000x128_S80x128 (View.read (Elt F) (ySl).view yv)
    (SparseCore.rows (View.read (Elt F) ((sV).slice (Rect.unit (s := S10000) off S80.size h) (fun _ => rfl)).view (svalOf d L pay)) rfl (idx_inb d L _ pay hpay off h (fun _ => rfl)))

theorem GPvO_eq (yv : Buf (Elt F) (yLoc d)) (pay : S10000.Idx → Elt F .i32) (hpay : ∀ j, (pay j).toNat < 10000) (n : ℕ) (hn : n + 80 ≤ 10000)
    (off : Fin 1 → ℕ) (h : ∀ a, off a + S80.size a ≤ S10000.size a) (e : off = ![n]) : GPvO d L yv pay hpay off h = GPv d L yv pay hpay n hn := by
  subst e; rfl

/-- slot 0: a gather in flight into row buffer 0 from the eighty index words at off, with what stays outside it meanwhile -/
def GBO0 (q : PosShare TreeShare) (yv : Buf (Elt F) (yLoc d)) (pay : S10000.Idx → Elt F .i32) (hpay : ∀ j, (pay j).toNat < 10000)
    (off : Fin 1 → ℕ) (h : ∀ a, off a + S80.size a ≤ S10000.size a) (a : Buf (Elt F) ((r0V).view.loc (VT d L))) : sProp 𝕄 :=
  iprop(Transfers.Flight countersEmb (VT d L) (SemLoc.dma cc1_scratch6.sem) (default : HIx 1) 327680
      iprop((((r0V).view.loc (VT d L) ↦[(r0V).view.set]{fullShare}
                (r0V).view.writes (Elt F) a [⟨Rect.whole cc1_scratch1.ty.shape, GPvO d L yv pay hpay off h⟩])
            ∗ ((sV).view.loc (VT d L) ↦[((sV).slice (Rect.unit (s := S10000) off S80.size h) (fun _ => rfl)).view.set]{Transfers.shareTokN fullShare 6} svalOf d L pay))
          ∗ ((yV).view.loc (VT d L) ↦[(ySl).view.set]{Transfers.shareTokN q 6} yv))
    ∗ ((yV).view.loc (VT d L) ↦[Finset.univ \ (ySl).view.set]{Transfers.shareTokN q 6} yv)
    ∗ ((sV).view.loc (VT d L) ↦[(sV).view.set \ ((sV).slice (Rect.unit (s := S10000) off S80.size h) (fun _ => rfl)).view.set]{Transfers.shareTokN fullShare 6} svalOf d L pay)
    ∗ ((r0V).view.loc (VT d L) ↦[(r0V).view.set \ (r0V).view.set]{fullShare}
        (r0V).view.writes (Elt F) a [⟨Rect.whole cc1_scratch1.ty.shape, GPvO d L yv pay hpay off h⟩]))
/-- slot 0's gather resources at rest: its two read tokens and its gather semaphore at zero -/
def IBO0 (q : PosShare TreeShare) (yv : Buf (Elt F) (yLoc d)) (pay : S10000.Idx → Elt F .i32) : sProp 𝕄 :=
  iprop(((yV).view.loc (VT d L) ↦{Transfers.shareTokN q 6} yv)
    ∗ ((sV).view.loc (VT d L) ↦[(sV).view.set]{Transfers.shareTokN fullShare 6} svalOf d L pay)
    ∗ semVal (VT d L, SemLoc.dma cc1_scratch6.sem) 0)
/-- slot 0: row buffer 0, holding the rows gathered for chunk (t, 0), on its way out to the chunk's result rows -/
def OFO0 (ov : Buf (Elt F) (oLoc d)) (yv : Buf (Elt F) (yLoc d)) (pay : S10000.Idx → Elt F .i32) (hpay : ∀ j, (pay j).toNat < 10000)
    (t : Fin k1_t1_loop.trips) (off : Fin 1 → ℕ) (h : ∀ a, off a + S80.size a ≤ S10000.size a) (a : Buf (Elt F) ((r0V).view.loc (VT d L))) : sProp 𝕄 :=
  Transfers.Flight countersEmb (VT d L) (SemLoc.dma cc1_scratch11.sem) (default : HIx 1) 327680
    iprop(((oC0 L t).view.loc (VT d L) ↦[(oC0 L t).view.set]{fullShare}
          (oC0 L t).view.writes (Elt F) ov [⟨Rect.whole S80x128, ReadAs.same.apply (View.read (Elt F) (r0V).view
            ((r0V).view.writes (Elt F) a [⟨Rect.whole cc1_scratch1.ty.shape, GPvO d L yv pay hpay off h⟩]))⟩])
      ∗ ((r0V).view.loc (VT d L) ↦[(r0V).view.set]{fullShare}
          (r0V).view.writes (Elt F) a [⟨Rect.whole cc1_scratch1.ty.shape, GPvO d L yv pay hpay off h⟩]))

/-- slot 1: a gather in flight into row buffer 1 from the eighty index words at off, with what stays outside it meanwhile -/
def GBO1 (q : PosShare TreeShare) (yv : Buf (Elt F) (yLoc d)) (pay : S10000.Idx → Elt F .i32) (hpay : ∀ j, (pay j).toNat < 10000)
    (off : Fin 1 → ℕ) (h : ∀ a, off a + S80.size a ≤ S10000.size a) (a : Buf (Elt F) ((r1V).view.loc (VT d L))) : sProp 𝕄 :=
  iprop(Transfers.Flight countersEmb (VT d L) (SemLoc.dma cc1_scratch7.sem) (default : HIx 1) 327680
      iprop((((r1V).view.loc (VT d L) ↦[(r1V).view.set]{fullShare}
                (r1V).view.writes (Elt F) a [⟨Rect.whole cc1_scratch2.ty.shape, GPvO d L yv pay hpay off h⟩])
            ∗ ((sV).view.loc (VT d L) ↦[((sV).slice (Rect.unit (s := S10000) off S80.size h) (fun _ => rfl)).view.set]{Transfers.shareTokN fullShare 7} svalOf d L pay))
          ∗ ((yV).view.loc (VT d L) ↦[(ySl).view.set]{Transfers.shareTokN q 7} yv))
    ∗ ((yV).view.loc (VT d L) ↦[Finset.univ \ (ySl).view.set]{Transfers.shareTokN q 7} yv)
    ∗ ((sV).view.loc (VT d L) ↦[(sV).view.set \ ((sV).slice (Rect.unit (s := S10000) off S80.size h) (fun _ => rfl)).view.set]{Transfers.shareTokN fullShare 7} svalOf d L pay)
    ∗ ((r1V).view.loc (VT d L) ↦[(r1V).view.set \ (r1V).view.set]{fullShare}
        (r1V).view.writes (Elt F) a [⟨Rect.whole cc1_scratch2.ty.shape, GPvO d L yv pay hpay off h⟩]))
/-- slot 1's gather resources at rest: its two read tokens and its gather semaphore at zero -/
def IBO1 (q : PosShare TreeShare) (yv : Buf (Elt F) (yLoc d)) (pay : S10000.Idx → Elt F .i32) : sProp 𝕄 :=
  iprop(((yV).view.loc (VT d L) ↦{Transfers.shareTokN q 7} yv)
    ∗ ((sV).view.loc (VT d L) ↦[(sV).view.set]{Transfers.shareTokN fullShare 7} svalOf d L pay)
    ∗ semVal (VT d L, SemLoc.dma cc1_scratch7.sem) 0)
/-- slot 1: row buffer 1, holding the rows gathered for chunk (t, 1), on its way out to the chunk's result rows -/
def OFO1 (ov : Buf (Elt F) (oLoc d)) (yv : Buf (Elt F) (yLoc d)) (pay : S10000.Idx → Elt F .i32) (hpay : ∀ j, (pay j).toNat < 10000)
    (t : Fin k1_t1_loop.trips) (off : Fin 1 → ℕ) (h : ∀ a, off a + S80.size a ≤ S10000.size a) (a : Buf (Elt F) ((r1V).view.loc (VT d L))) : sProp 𝕄 :=
  Transfers.Flight countersEmb (VT d L) (SemLoc.dma cc1_scratch12.sem) (default : HIx 1) 327680
    iprop(((oC1 L t).view.loc (VT d L) ↦[(oC1 L t).view.set]{fullShare}
          (oC1 L t).view.writes (Elt F) ov [⟨Rect.whole S80x128, ReadAs.same.apply (View.read (Elt F) (r1V).view
            ((r1V).view.writes (Elt F) a [⟨Rect.whole cc1_scratch2.ty.shape, GPvO d L yv pay hpay off h⟩]))⟩])
      ∗ ((r1V).view.loc (VT d L) ↦[(r1V).view.set]{fullShare}
          (r1V).view.writes (Elt F) a [⟨Rect.whole cc1_scratch2.ty.shape, GPvO d L yv pay hpay off h⟩]))

/-- slot 2: a gather in flight into row buffer 2 from the eighty index words at off, with what stays outside it meanwhile -/
def GBO2 (q : PosShare TreeShare) (yv : Buf (Elt F) (yLoc d)) (pay : S10000.Idx → Elt F .i32) (hpay : ∀ j, (pay j).toNat < 10000)
    (off : Fin 1 → ℕ) (h : ∀ a, off a + S80.size a ≤ S10000.size a) (a : Buf (Elt F) ((r2V).view.loc (VT d L))) : sProp 𝕄 :=
  iprop(Transfers.Flight countersEmb (VT d L) (SemLoc.dma cc1_scratch8.sem) (default : HIx 1) 327680
      iprop((((r2V).view.loc (VT d L) ↦[(r2V).view.set]{fullShare}
                (r2V).view.writes (Elt F) a [⟨Rect.whole cc1_scratch3.ty.shape, GPvO d L yv pay hpay off h⟩])
            ∗ ((sV).view.loc (VT d L) ↦[((sV).slice (Rect.unit (s := S10000) off S80.size h) (fun _ => rfl)).view.set]{Transfers.shareTokN fullShare 8} svalOf d L pay))
          ∗ ((yV).view.loc (VT d L) ↦[(ySl).view.set]{Transfers.shareTokN q 8} yv))
    ∗ ((yV).view.loc (VT d L) ↦[Finset.univ \ (ySl).view.set]{Transfers.shareTokN q 8} yv)
    ∗ ((sV).view.loc (VT d L) ↦[(sV).view.set \ ((sV).slice (Rect.unit (s := S10000) off S80.size h) (fun _ => rfl)).view.set]{Transfers.shareTokN fullShare 8} svalOf d L pay)
    ∗ ((r2V).view.loc (VT d L) ↦[(r2V).view.set \ (r2V).view.set]{fullShare}
        (r2V).view.writes (Elt F) a [⟨Rect.whole cc1_scratch3.ty.shape, GPvO d L yv pay hpay off h⟩]))
/-- slot 2's gather resources at rest: its two read tokens and its gather semaphore at zero -/
def IBO2 (q : PosShare TreeShare) (yv : Buf (Elt F) (yLoc d)) (pay : S10000.Idx → Elt F .i32) : sProp 𝕄 :=
  iprop(((yV).view.loc (VT d L) ↦{Transfers.shareTokN q 8} yv)
    ∗ ((sV).view.loc (VT d L) ↦[(sV).view.set]{Transfers.shareTokN fullShare 8} svalOf d L pay)
    ∗ semVal (VT d L, SemLoc.dma cc1_scratch8.sem) 0)
/-- slot 2: row buffer 2, holding the rows gathered for chunk (t, 2), on its way out to the chunk's result rows -/
def OFO2 (ov : Buf (Elt F) (oLoc d)) (yv : Buf (Elt F) (yLoc d)) (pay : S10000.Idx → Elt F .i32) (hpay : ∀ j, (pay j).toNat < 10000)
    (t : Fin k1_t1_loop.trips) (off : Fin 1 → ℕ) (h : ∀ a, off a + S80.size a ≤ S10000.size a) (a : Buf (Elt F) ((r2V).view.loc (VT d L))) : sProp 𝕄 :=
  Transfers.Flight countersEmb (VT d L) (SemLoc.dma cc1_scratch13.sem) (default : HIx 1) 327680
    iprop(((oC2 L t).view.loc (VT d L) ↦[(oC2 L t).view.set]{fullShare}
          (oC2 L t).view.writes (Elt F) ov [⟨Rect.whole S80x128, ReadAs.same.apply (View.read (Elt F) (r2V).view
            ((r2V).view.writes (Elt F) a [⟨Rect.whole cc1_scratch3.ty.shape, GPvO d L yv pay hpay off h⟩]))⟩])
      ∗ ((r2V).view.loc (VT d L) ↦[(r2V).view.set]{fullShare}
          (r2V).view.writes (Elt F) a [⟨Rect.whole cc1_scratch3.ty.shape, GPvO d L yv pay hpay off h⟩]))

/-- slot 3: a gather in flight into row buffer 3 from the eighty index words at off, with what stays outside it meanwhile -/
def GBO3 (q : PosShare TreeShare) (yv : Buf (Elt F) (yLoc d)) (pay : S10000.Idx → Elt F .i32) (hpay : ∀ j, (pay j).toNat < 10000)
    (off : Fin 1 → ℕ) (h : ∀ a, off a + S80.size a ≤ S10000.size a) (a : Buf (Elt F) ((r3V).view.loc (VT d L))) : sProp 𝕄 :=
  iprop(Transfers.Flight countersEmb (VT d L) (SemLoc.dma cc1_scratch9.sem) (default : HIx 1) 327680
      iprop((((r3V).view.loc (VT d L) ↦[(r3V).view.set]{fullShare}
                (r3V).view.writes (Elt F) a [⟨Rect.whole cc1_scratch4.ty.shape, GPvO d L yv pay hpay off h⟩])
            ∗ ((sV).view.loc (VT d L) ↦[((sV).slice (Rect.unit (s := S10000) off S80.size h) (fun _ => rfl)).view.set]{Transfers.shareTokN fullShare 9} svalOf d L pay))
          ∗ ((yV).view.loc (VT d L) ↦[(ySl).view.set]{Transfers.shareTokN q 9} yv))
    ∗ ((yV).view.loc (VT d L) ↦[Finset.univ \ (ySl).view.set]{Transfers.shareTokN q 9} yv)
    ∗ ((sV).view.loc (VT d L) ↦[(sV).view.set \ ((sV).slice (Rect.unit (s := S10000) off S80.size h) (fun _ => rfl)).view.set]{Transfers.shareTokN fullShare 9} svalOf d L pay)
    ∗ ((r3V).view.loc (VT d L) ↦[(r3V).view.set \ (r3V).view.set]{fullShare}
        (r3V).view.writes (Elt F) a [⟨Rect.whole cc1_scratch4.ty.shape, GPvO d L yv pay hpay off h⟩]))
/-- slot 3's gather resources at rest: its two read tokens and its gather semaphore at zero -/
def IBO3 (q : PosShare TreeShare) (yv : Buf (Elt F) (yLoc d)) (pay : S10000.Idx → Elt F .i32) : sProp 𝕄 :=
  iprop(((yV).view.loc (VT d L) ↦{Transfers.shareTokN q 9} yv)
    ∗ ((sV).view.loc (VT d L) ↦[(sV).view.set]{Transfers.shareTokN fullShare 9} svalOf d L pay)
    ∗ semVal (VT d L, SemLoc.dma cc1_scratch9.sem) 0)
/-- slot 3: row buffer 3, holding the rows gathered for chunk (t, 3), on its way out to the chunk's result rows -/
def OFO3 (ov : Buf (Elt F) (oLoc d)) (yv : Buf (Elt F) (yLoc d)) (pay : S10000.Idx → Elt F .i32) (hpay : ∀ j, (pay j).toNat < 10000)
    (t : Fin k1_t1_loop.trips) (off : Fin 1 → ℕ) (h : ∀ a, off a + S80.size a ≤ S10000.size a) (a : Buf (Elt F) ((r3V).view.loc (VT d L))) : sProp 𝕄 :=
  Transfers.Flight countersEmb (VT d L) (SemLoc.dma cc1_scratch14.sem) (default : HIx 1) 327680
    iprop(((oC3 L t).view.loc (VT d L) ↦[(oC3 L t).view.set]{fullShare}
          (oC3 L t).view.writes (Elt F) ov [⟨Rect.whole S80x128, ReadAs.same.apply (View.read (Elt F) (r3V).view
            ((r3V).view.writes (Elt F) a [⟨Rect.whole cc1_scratch4.ty.shape, GPvO d L yv pay hpay off h⟩]))⟩])
      ∗ ((r3V).view.loc (VT d L) ↦[(r3V).view.set]{fullShare}
          (r3V).view.writes (Elt F) a [⟨Rect.whole cc1_scratch4.ty.shape, GPvO d L yv pay hpay off h⟩]))

/-- slot 4: a gather in flight into row buffer 4 from the eighty index words at off, with what stays outside it meanwhile -/
def GBO4 (q : PosShare TreeShare) (yv : Buf (Elt F) (yLoc d)) (pay : S10000.Idx → Elt F .i32) (hpay : ∀ j, (pay j).toNat < 10000)
    (off : Fin 1 → ℕ) (h : ∀ a, off a + S80.size a ≤ S10000.size a) (a : Buf (Elt F) ((r4V).view.loc (VT d L))) : sProp 𝕄 :=
  iprop(Transfers.Flight countersEmb (VT d L) (SemLoc.dma cc1_scratch10.sem) (default : HIx 1) 327680
      iprop((((r4V).view.loc (VT d L) ↦[(r4V).view.set]{fullShare}
                (r4V).view.writes (Elt F) a [⟨Rect.whole cc1_scratch5.ty.shape, GPvO d L yv pay hpay off h⟩])
            ∗ ((sV).view.loc (VT d L) ↦[((sV).slice (Rect.unit (s := S10000) off S80.size h) (fun _ => rfl)).view.set]{Transfers.shareTokN fullShare 10} svalOf d L pay))
          ∗ ((yV).view.loc (VT d L) ↦[(ySl).view.set]{Transfers.shareTokN q 10} yv))
    ∗ ((yV).view.loc (VT d L) ↦[Finset.univ \ (ySl).view.set]{Transfers.shareTokN q 10} yv)
    ∗ ((sV).view.loc (VT d L) ↦[(sV).view.set \ ((sV).slice (Rect.unit (s := S10000) off S80.size h) (fun _ => rfl)).view.set]{Transfers.shareTokN fullShare 10} svalOf d L pay)
    ∗ ((r4V).view.loc (VT d L) ↦[(r4V).view.set \ (r4V).view.set]{fullShare}
        (r4V).view.writes (Elt F) a [⟨Rect.whole cc1_scratch5.ty.shape, GPvO d L yv pay hpay off h⟩]))
/-- slot 4's gather resources at rest: its two read tokens and its gather semaphore at zero -/
def IBO4 (q : PosShare TreeShare) (yv : Buf (Elt F) (yLoc d)) (pay : S10000.Idx → Elt F .i32) : sProp 𝕄 :=
  iprop(((yV).view.loc (VT d L) ↦{Transfers.shareTokN q 10} yv)
    ∗ ((sV).view.loc (VT d L) ↦[(sV).view.set]{Transfers.shareTokN fullShare 10} svalOf d L pay)
    ∗ semVal (VT d L, SemLoc.dma cc1_scratch10.sem) 0)
/-- slot 4: row buffer 4, holding the rows gathered for chunk (t, 4), on its way out to the chunk's result rows -/
def OFO4 (ov : Buf (Elt F) (oLoc d)) (yv : Buf (Elt F) (yLoc d)) (pay : S10000.Idx → Elt F .i32) (hpay : ∀ j, (pay j).toNat < 10000)
    (t : Fin k1_t1_loop.trips) (off : Fin 1 → ℕ) (h : ∀ a, off a + S80.size a ≤ S10000.size a) (a : Buf (Elt F) ((r4V).view.loc (VT d L))) : sProp 𝕄 :=
  Transfers.Flight countersEmb (VT d L) (SemLoc.dma cc1_scratch15.sem) (default : HIx 1) 327680
    iprop(((oC4 L t).view.loc (VT d L) ↦[(oC4 L t).view.set]{fullShare}
          (oC4 L t).view.writes (Elt F) ov [⟨Rect.whole S80x128, ReadAs.same.apply (View.read (Elt F) (r4V).view
            ((r4V).view.writes (Elt F) a [⟨Rect.whole cc1_scratch5.ty.shape, GPvO d L yv pay hpay off h⟩]))⟩])
      ∗ ((r4V).view.loc (VT d L) ↦[(r4V).view.set]{fullShare}
          (r4V).view.writes (Elt F) a [⟨Rect.whole cc1_scratch5.ty.shape, GPvO d L yv pay hpay off h⟩]))

omit [FloatOps F] in
theorem off_inb (n : ℕ) (h : n + 80 ≤ 10000) : ∀ a, (![n] : Fin 1 → ℕ) a + S80.size a ≤ S10000.size a := by
  intro a; match a with | 0 => exact h

theorem GBO0_congr (q : PosShare TreeShare) (yv : Buf (Elt F) (yLoc d)) (pay : S10000.Idx → Elt F .i32) (hpay : ∀ j, (pay j).toNat < 10000)
    (off off' : Fin 1 → ℕ) (h : ∀ a, off a + S80.size a ≤ S10000.size a) (h' : ∀ a, off' a + S80.size a ≤ S10000.size a) (e : off = off')
    (a : Buf (Elt F) ((r0V).view.loc (VT d L))) : GBO0 d L q yv pay hpay off h a = GBO0 d L q yv pay hpay off' h' a := by
  subst e; rfl
theorem OFO0_congr (ov : Buf (Elt F) (oLoc d)) (yv : Buf (Elt F) (yLoc d)) (pay : S10000.Idx → Elt F .i32) (hpay : ∀ j, (pay j).toNat < 10000)
    (t : Fin k1_t1_loop.trips) (off off' : Fin 1 → ℕ) (h : ∀ a, off a + S80.size a ≤ S10000.size a) (h' : ∀ a, off' a + S80.size a ≤ S10000.size a) (e : off = off')
    (a : Buf (Elt F) ((r0V).view.loc (VT d L))) : OFO0 d L ov yv pay hpay t off h a = OFO0 d L ov yv pay hpay t off' h' a := by
  subst e; rfl

theorem GBO1_congr (q : PosShare TreeShare) (yv : Buf (Elt F) (yLoc d)) (pay : S10000.Idx → Elt F .i32) (hpay : ∀ j, (pay j).toNat < 10000)
    (off off' : Fin 1 → ℕ) (h : ∀ a, off a + S80.size a ≤ S10000.size a) (h' : ∀ a, off' a + S80.size a ≤ S10000.size a) (e : off = off')
    (a : Buf (Elt F) ((r1V).view.loc (VT d L))) : GBO1 d L q yv pay hpay off h a = GBO1 d L q yv pay hpay off' h' a := by
  subst e; rfl
theorem OFO1_congr (ov : Buf (Elt F) (oLoc d)) (yv : Buf (Elt F) (yLoc d)) (pay : S10000.Idx → Elt F .i32) (hpay : ∀ j, (pay j).toNat < 10000)
    (t : Fin k1_t1_loop.trips) (off off' : Fin 1 → ℕ) (h : ∀ a, off a + S80.size a ≤ S10000.size a) (h' : ∀ a, off' a + S80.size a ≤ S10000.size a) (e : off = off')
    (a : Buf (Elt F) ((r1V).view.loc (VT d L))) : OFO1 d L ov yv pay hpay t off h a = OFO1 d L ov yv pay hpay t off' h' a := by
  subst e; rfl

theorem GBO2_congr (q : PosShare TreeShare) (yv : Buf (Elt F) (yLoc d)) (pay : S10000.Idx → Elt F .i32) (hpay : ∀ j, (pay j).toNat < 10000)
    (off off' : Fin 1 → ℕ) (h : ∀ a, off a + S80.size a ≤ S10000.size a) (h' : ∀ a, off' a + S80.size a ≤ S10000.size a) (e : off = off')
    (a : Buf (Elt F) ((r2V).view.loc (VT d L))) : GBO2 d L q yv pay hpay off h a = GBO2 d L q yv pay hpay off' h' a := by
  subst e; rfl
theorem OFO2_congr (ov : Buf (Elt F) (oLoc d)) (yv : Buf (Elt F) (yLoc d)) (pay : S10000.Idx → Elt F .i32) (hpay : ∀ j, (pay j).toNat < 10000)
    (t : Fin k1_t1_loop.trips) (off off' : Fin 1 → ℕ) (h : ∀ a, off a + S80.size a ≤ S10000.size a) (h' : ∀ a, off' a + S80.size a ≤ S10000.size a) (e : off = off')
    (a : Buf (Elt F) ((r2V).view.loc (VT d L))) : OFO2 d L ov yv pay hpay t off h a = OFO2 d L ov yv pay hpay t off' h' a := by
  subst e; rfl

theorem GBO3_congr (q : PosShare TreeShare) (yv : Buf (Elt F) (yLoc d)) (pay : S10000.Idx → Elt F .i32) (hpay : ∀ j, (pay j).toNat < 10000)
    (off off' : Fin 1 → ℕ) (h : ∀ a, off a + S80.size a ≤ S10000.size a) (h' : ∀ a, off' a + S80.size a ≤ S10000.size a) (e : off = off')
    (a : Buf (Elt F) ((r3V).view.loc (VT d L))) : GBO3 d L q yv pay hpay off h a = GBO3 d L q yv pay hpay off' h' a := by
  subst e; rfl
theorem OFO3_congr (ov : Buf (Elt F) (oLoc d)) (yv : Buf (Elt F) (yLoc d)) (pay : S10000.Idx → Elt F .i32) (hpay : ∀ j, (pay j).toNat < 10000)
    (t : Fin k1_t1_loop.trips) (off off' : Fin 1 → ℕ) (h : ∀ a, off a + S80.size a ≤ S10000.size a) (h' : ∀ a, off' a + S80.size a ≤ S10000.size a) (e : off = off')
    (a : Buf (Elt F) ((r3V).view.loc (VT d L))) : OFO3 d L ov yv pay hpay t off h a = OFO3 d L ov yv pay hpay t off' h' a := by
  subst e; rfl

theorem GBO4_congr (q : PosShare TreeShare) (yv : Buf (Elt F) (yLoc d)) (pay : S10000.Idx → Elt F .i32) (hpay : ∀ j, (pay j).toNat < 10000)
    (off off' : Fin 1 → ℕ) (h : ∀ a, off a + S80.size a ≤ S10000.size a) (h' : ∀ a, off' a + S80.size a ≤ S10000.size a) (e : off = off')
    (a : Buf (Elt F) ((r4V).view.loc (VT d L))) : GBO4 d L q yv pay hpay off h a = GBO4 d L q yv pay hpay off' h' a := by
  subst e; rfl
theorem OFO4_congr (ov : Buf (Elt F) (oLoc d)) (yv : Buf (Elt F) (yLoc d)) (pay : S10000.Idx → Elt F .i32) (hpay : ∀ j, (pay j).toNat < 10000)
    (t : Fin k1_t1_loop.trips) (off off' : Fin 1 → ℕ) (h : ∀ a, off a + S80.size a ≤ S10000.size a) (h' : ∀ a, off' a + S80.size a ≤ S10000.size a) (e : off = off')
    (a : Buf (Elt F) ((r4V).view.loc (VT d L))) : OFO4 d L ov yv pay hpay t off h a = OFO4 d L ov yv pay hpay t off' h' a := by
  subst e; rfl

/-- what the loop carries whatever the trip: the wait evidence, the tile's entries of the edge list, the fetch's
    semaphore, the debts, and the result rows of trips not yet begun -/
def invBase (q : PosShare TreeShare) (yv : Buf (Elt F) (yLoc d)) (iv : Buf (Elt F) (iLoc d)) (ov : Buf (Elt F) (oLoc d))
    (pay : S10000.Idx → Elt F .i32) (hpay : ∀ j, (pay j).toNat < 10000)
    (O : CellTallies nD τ sig (HIx 1)) (W : Waits sig (HIx 1)) (n : ℕ) : sProp 𝕄 :=
  iprop(Transfers.MayWaits (VT d L) (default : HIx 1) O
    ∗ ((iTileK L).view.loc (VT d L) ↦[(iTileK L).view.set]{fullShare} iv)
    ∗ semVal (VT d L, SemLoc.dma cc1_scoped0.sem) 0
    ∗ (∃ W', ⌜∀ p ∈ W', p ∈ W ∨ p.2 = none⌝ ∗ owes (VT d L) O W')
    ∗ (Todo0 d L ov n ∗ Todo1 d L ov n ∗ Todo2 d L ov n ∗ Todo3 d L ov n ∗ Todo4 d L ov n))
/-- before trip n < 25: the chunks of earlier trips landed (slot 4's last still on its way out), the four gathers of
    trip n's first chunks in flight, slot 4's gather resources at rest -/
def invLoop (q : PosShare TreeShare) (yv : Buf (Elt F) (yLoc d)) (iv : Buf (Elt F) (iLoc d)) (ov : Buf (Elt F) (oLoc d))
    (pay : S10000.Idx → Elt F .i32) (hpay : ∀ j, (pay j).toNat < 10000)
    (O : CellTallies nD τ sig (HIx 1)) (W : Waits sig (HIx 1)) (n : ℕ) (hn : n < 25) : sProp 𝕄 :=
  iprop((∃ a, GBO0 d L q yv pay hpay ![400 * n] (off_inb _ (by omega)) a)
    ∗ (∃ a, GBO1 d L q yv pay hpay ![400 * n + 80] (off_inb _ (by omega)) a)
    ∗ (∃ a, GBO2 d L q yv pay hpay ![400 * n + 160] (off_inb _ (by omega)) a)
    ∗ (∃ a, GBO3 d L q yv pay hpay ![400 * n + 240] (off_inb _ (by omega)) a)
    ∗ IBO4 d L q yv pay
    ∗ (Done0 d L yv pay hpay n ∗ Done1 d L yv pay hpay n ∗ Done2 d L yv pay hpay n ∗ Done3 d L yv pay hpay n ∗ Done4 d L yv pay hpay (n - 1))
    ∗ (semVal (VT d L, SemLoc.dma cc1_scratch11.sem) 0 ∗ semVal (VT d L, SemLoc.dma cc1_scratch12.sem) 0 ∗ semVal (VT d L, SemLoc.dma cc1_scratch13.sem) 0 ∗ semVal (VT d L, SemLoc.dma cc1_scratch14.sem) 0)
    ∗ (if n = 0 then iprop((∃ a, (r4V).view.loc (VT d L) ↦[(r4V).view.set]{fullShare} a) ∗ semVal (VT d L, SemLoc.dma cc1_scratch15.sem) 0)
       else iprop(∃ t : Fin k1_t1_loop.trips, ∃ _ht : t.val + 1 = n, ∃ a, OFO4 d L ov yv pay hpay t ![400 * t.val + 320] (off_inb _ (by have := t.isLt; have : k1_t1_loop.trips = 25 := rfl; omega)) a)))
/-- after the last trip: the five last chunks on their way out, every gather resource at rest -/
def invEnd (q : PosShare TreeShare) (yv : Buf (Elt F) (yLoc d)) (iv : Buf (Elt F) (iLoc d)) (ov : Buf (Elt F) (oLoc d))
    (pay : S10000.Idx → Elt F .i32) (hpay : ∀ j, (pay j).toNat < 10000)
    (O : CellTallies nD τ sig (HIx 1)) (W : Waits sig (HIx 1)) : sProp 𝕄 :=
  iprop((∃ t : Fin k1_t1_loop.trips, ∃ _ht : t.val = 24, ∃ a, OFO0 d L ov yv pay hpay t ![400 * t.val] (off_inb _ (by have := t.isLt; have : k1_t1_loop.trips = 25 := rfl; omega)) a)
    ∗ (∃ t : Fin k1_t1_loop.trips, ∃ _ht : t.val = 24, ∃ a, OFO1 d L ov yv pay hpay t ![400 * t.val + 80] (off_inb _ (by have := t.isLt; have : k1_t1_loop.trips = 25 := rfl; omega)) a)
    ∗ (∃ t : Fin k1_t1_loop.trips, ∃ _ht : t.val = 24, ∃ a, OFO2 d L ov yv pay hpay t ![400 * t.val + 160] (off_inb _ (by have := t.isLt; have : k1_t1_loop.trips = 25 := rfl; omega)) a)
    ∗ (∃ t : Fin k1_t1_loop.trips, ∃ _ht : t.val = 24, ∃ a, OFO3 d L ov yv pay hpay t ![400 * t.val + 240] (off_inb _ (by have := t.isLt; have : k1_t1_loop.trips = 25 := rfl; omega)) a)
    ∗ (∃ t : Fin k1_t1_loop.trips, ∃ _ht : t.val = 24, ∃ a, OFO4 d L ov yv pay hpay t ![400 * t.val + 320] (off_inb _ (by have := t.isLt; have : k1_t1_loop.trips = 25 := rfl; omega)) a)
    ∗ (IBO0 d L q yv pay ∗ IBO1 d L q yv pay ∗ IBO2 d L q yv pay ∗ IBO3 d L q yv pay ∗ IBO4 d L q yv pay)
    ∗ (Done0 d L yv pay hpay 24 ∗ Done1 d L yv pay hpay 24 ∗ Done2 d L yv pay hpay 24 ∗ Done3 d L yv pay hpay 24 ∗ Done4 d L yv pay hpay 24))
/-- the loop's invariant before trip n (n ≤ 25) -/
def inv (q : PosShare TreeShare) (yv : Buf (Elt F) (yLoc d)) (iv : Buf (Elt F) (iLoc d)) (ov : Buf (Elt F) (oLoc d))
    (pay : S10000.Idx → Elt F .i32) (hpay : ∀ j, (pay j).toNat < 10000)
    (O : CellTallies nD τ sig (HIx 1)) (W : Waits sig (HIx 1)) (n : ℕ) (_ : PUnit) : sProp 𝕄 :=
  iprop(invBase d L q yv iv ov pay hpay O W n
    ∗ (if hn : n < 25 then invLoop d L q yv iv ov pay hpay O W n hn else invEnd d L q yv iv ov pay hpay O W))
theorem inv_lt (q : PosShare TreeShare) (yv : Buf (Elt F) (yLoc d)) (iv : Buf (Elt F) (iLoc d)) (ov : Buf (Elt F) (oLoc d))
    (pay : S10000.Idx → Elt F .i32) (hpay : ∀ j, (pay j).toNat < 10000)
    (O : CellTallies nD τ sig (HIx 1)) (W : Waits sig (HIx 1)) (n : ℕ) (hn : n < 25) (u : PUnit) :
    inv d L q yv iv ov pay hpay O W n u = iprop(invBase d L q yv iv ov pay hpay O W n ∗ invLoop d L q yv iv ov pay hpay O W n hn) := by
  unfold inv; rw [dif_pos hn]
theorem inv_end (q : PosShare TreeShare) (yv : Buf (Elt F) (yLoc d)) (iv : Buf (Elt F) (iLoc d)) (ov : Buf (Elt F) (oLoc d))
    (pay : S10000.Idx → Elt F .i32) (hpay : ∀ j, (pay j).toNat < 10000)
    (O : CellTallies nD τ sig (HIx 1)) (W : Waits sig (HIx 1)) (n : ℕ) (hn : ¬ n < 25) (u : PUnit) :
    inv d L q yv iv ov pay hpay O W n u = iprop(invBase d L q yv iv ov pay hpay O W n ∗ invEnd d L q yv iv ov pay hpay O W) := by
  unfold inv; rw [dif_neg hn]

omit [FloatOps F] in
theorem Todo0_head (ov : Buf (Elt F) (oLoc d)) (k : Fin k1_t1_loop.trips) :
    Todo0 d L ov k.val = iprop(((oC0 L k).view.loc (VT d L) ↦[(oC0 L k).view.set]{fullShare} ov) ∗ Todo0 d L ov (k.val + 1)) := by
  unfold Todo0; exact Ring.bigSep_rangeSet_head (by have := k.isLt; have h25 : k1_t1_loop.trips = 25 := rfl; have h25' : Scf.trips k1_t1_loop.lb k1_t1_loop.ub k1_t1_loop.st = 25 := rfl; omega) k.isLt
theorem Done0_succ (yv : Buf (Elt F) (yLoc d)) (pay : S10000.Idx → Elt F .i32) (hpay : ∀ j, (pay j).toNat < 10000) (t : Fin k1_t1_loop.trips) :
    Done0 d L yv pay hpay (t.val + 1) = iprop((∃ f, ((oC0 L t).view.loc (VT d L) ↦[(oC0 L t).view.set]{fullShare} f)
        ∗ ⌜∀ x, View.read (Elt F) (oC0 L t).view f x = GPv d L yv pay hpay (400 * t.val + 0) (by have := t.isLt; have h25 : k1_t1_loop.trips = 25 := rfl; have h25' : Scf.trips k1_t1_loop.lb k1_t1_loop.ub k1_t1_loop.st = 25 := rfl; omega) x⌝) ∗ Done0 d L yv pay hpay t.val) := by
  unfold Done0; exact Ring.bigSep_rangeSet_last (Nat.succ_pos _) (by have := t.isLt; have h25 : k1_t1_loop.trips = 25 := rfl; have h25' : Scf.trips k1_t1_loop.lb k1_t1_loop.ub k1_t1_loop.st = 25 := rfl; omega)
theorem Done0_zero (yv : Buf (Elt F) (yLoc d)) (pay : S10000.Idx → Elt F .i32) (hpay : ∀ j, (pay j).toNat < 10000) :
    Done0 d L yv pay hpay 0 = (iprop(emp) : sProp 𝕄) := by
  unfold Done0; exact Ring.bigSep_rangeSet_empty (le_refl 0)
omit [FloatOps F] in
theorem Todo0_end (ov : Buf (Elt F) (oLoc d)) : Todo0 d L ov 25 = (iprop(emp) : sProp 𝕄) := by
  unfold Todo0; exact Ring.bigSep_rangeSet_empty (le_refl 25)

omit [FloatOps F] in
theorem Todo1_head (ov : Buf (Elt F) (oLoc d)) (k : Fin k1_t1_loop.trips) :
    Todo1 d L ov k.val = iprop(((oC1 L k).view.loc (VT d L) ↦[(oC1 L k).view.set]{fullShare} ov) ∗ Todo1 d L ov (k.val + 1)) := by
  unfold Todo1; exact Ring.bigSep_rangeSet_head (by have := k.isLt; have h25 : k1_t1_loop.trips = 25 := rfl; have h25' : Scf.trips k1_t1_loop.lb k1_t1_loop.ub k1_t1_loop.st = 25 := rfl; omega) k.isLt
theorem Done1_succ (yv : Buf (Elt F) (yLoc d)) (pay : S10000.Idx → Elt F .i32) (hpay : ∀ j, (pay j).toNat < 10000) (t : Fin k1_t1_loop.trips) :
    Done1 d L yv pay hpay (t.val + 1) = iprop((∃ f, ((oC1 L t).view.loc (VT d L) ↦[(oC1 L t).view.set]{fullShare} f)
        ∗ ⌜∀ x, View.read (Elt F) (oC1 L t).view f x = GPv d L yv pay hpay (400 * t.val + 80) (by have := t.isLt; have h25 : k1_t1_loop.trips = 25 := rfl; have h25' : Scf.trips k1_t1_loop.lb k1_t1_loop.ub k1_t1_loop.st = 25 := rfl; omega) x⌝) ∗ Done1 d L yv pay hpay t.val) := by
  unfold Done1; exact Ring.bigSep_rangeSet_last (Nat.succ_pos _) (by have := t.isLt; have h25 : k1_t1_loop.trips = 25 := rfl; have h25' : Scf.trips k1_t1_loop.lb k1_t1_loop.ub k1_t1_loop.st = 25 := rfl; omega)
theorem Done1_zero (yv : Buf (Elt F) (yLoc d)) (pay : S10000.Idx → Elt F .i32) (hpay : ∀ j, (pay j).toNat < 10000) :
    Done1 d L yv pay hpay 0 = (iprop(emp) : sProp 𝕄) := by
  unfold Done1; exact Ring.bigSep_rangeSet_empty (le_refl 0)
omit [FloatOps F] in
theorem Todo1_end (ov : Buf (Elt F) (oLoc d)) : Todo1 d L ov 25 = (iprop(emp) : sProp 𝕄) := by
  unfold Todo1; exact Ring.bigSep_rangeSet_empty (le_refl 25)

omit [FloatOps F] in
theorem Todo2_head (ov : Buf (Elt F) (oLoc d)) (k : Fin k1_t1_loop.trips) :
    Todo2 d L ov k.val = iprop(((oC2 L k).view.loc (VT d L) ↦[(oC2 L k).view.set]{fullShare} ov) ∗ Todo2 d L ov (k.val + 1)) := by
  unfold Todo2; exact Ring.bigSep_rangeSet_head (by have := k.isLt; have h25 : k1_t1_loop.trips = 25 := rfl; have h25' : Scf.trips k1_t1_loop.lb k1_t1_loop.ub k1_t1_loop.st = 25 := rfl; omega) k.isLt
theorem Done2_succ (yv : Buf (Elt F) (yLoc d)) (pay : S10000.Idx → Elt F .i32) (hpay : ∀ j, (pay j).toNat < 10000) (t : Fin k1_t1_loop.trips) :
    Done2 d L yv pay hpay (t.val + 1) = iprop((∃ f, ((oC2 L t).view.loc (VT d L) ↦[(oC2 L t).view.set]{fullShare} f)
        ∗ ⌜∀ x, View.read (Elt F) (oC2 L t).view f x = GPv d L yv pay hpay (400 * t.val + 160) (by have := t.isLt; have h25 : k1_t1_loop.trips = 25 := rfl; have h25' : Scf.trips k1_t1_loop.lb k1_t1_loop.ub k1_t1_loop.st = 25 := rfl; omega) x⌝) ∗ Done2 d L yv pay hpay t.val) := by
  unfold Done2; exact Ring.bigSep_rangeSet_last (Nat.succ_pos _) (by have := t.isLt; have h25 : k1_t1_loop.trips = 25 := rfl; have h25' : Scf.trips k1_t1_loop.lb k1_t1_loop.ub k1_t1_loop.st = 25 := rfl; omega)
theorem Done2_zero (yv : Buf (Elt F) (yLoc d)) (pay : S10000.Idx → Elt F .i32) (hpay : ∀ j, (pay j).toNat < 10000) :
    Done2 d L yv pay hpay 0 = (iprop(emp) : sProp 𝕄) := by
  unfold Done2; exact Ring.bigSep_rangeSet_empty (le_refl 0)
omit [FloatOps F] in
theorem Todo2_end (ov : Buf (Elt F) (oLoc d)) : Todo2 d L ov 25 = (iprop(emp) : sProp 𝕄) := by
  unfold Todo2; exact Ring.bigSep_rangeSet_empty (le_refl 25)

omit [FloatOps F] in
theorem Todo3_head (ov : Buf (Elt F) (oLoc d)) (k : Fin k1_t1_loop.trips) :
    Todo3 d L ov k.val = iprop(((oC3 L k).view.loc (VT d L) ↦[(oC3 L k).view.set]{fullShare} ov) ∗ Todo3 d L ov (k.val + 1)) := by
  unfold Todo3; exact Ring.bigSep_rangeSet_head (by have := k.isLt; have h25 : k1_t1_loop.trips = 25 := rfl; have h25' : Scf.trips k1_t1_loop.lb k1_t1_loop.ub k1_t1_loop.st = 25 := rfl; omega) k.isLt
theorem Done3_succ (yv : Buf (Elt F) (yLoc d)) (pay : S10000.Idx → Elt F .i32) (hpay : ∀ j, (pay j).toNat < 10000) (t : Fin k1_t1_loop.trips) :
    Done3 d L yv pay hpay (t.val + 1) = iprop((∃ f, ((oC3 L t).view.loc (VT d L) ↦[(oC3 L t).view.set]{fullShare} f)
        ∗ ⌜∀ x, View.read (Elt F) (oC3 L t).view f x = GPv d L yv pay hpay (400 * t.val + 240) (by have := t.isLt; have h25 : k1_t1_loop.trips = 25 := rfl; have h25' : Scf.trips k1_t1_loop.lb k1_t1_loop.ub k1_t1_loop.st = 25 := rfl; omega) x⌝) ∗ Done3 d L yv pay hpay t.val) := by
  unfold Done3; exact Ring.bigSep_rangeSet_last (Nat.succ_pos _) (by have := t.isLt; have h25 : k1_t1_loop.trips = 25 := rfl; have h25' : Scf.trips k1_t1_loop.lb k1_t1_loop.ub k1_t1_loop.st = 25 := rfl; omega)
theorem Done3_zero (yv : Buf (Elt F) (yLoc d)) (pay : S10000.Idx → Elt F .i32) (hpay : ∀ j, (pay j).toNat < 10000) :
    Done3 d L yv pay hpay 0 = (iprop(emp) : sProp 𝕄) := by
  unfold Done3; exact Ring.bigSep_rangeSet_empty (le_refl 0)
omit [FloatOps F] in
theorem Todo3_end (ov : Buf (Elt F) (oLoc d)) : Todo3 d L ov 25 = (iprop(emp) : sProp 𝕄) := by
  unfold Todo3; exact Ring.bigSep_rangeSet_empty (le_refl 25)

omit [FloatOps F] in
theorem Todo4_head (ov : Buf (Elt F) (oLoc d)) (k : Fin k1_t1_loop.trips) :
    Todo4 d L ov k.val = iprop(((oC4 L k).view.loc (VT d L) ↦[(oC4 L k).view.set]{fullShare} ov) ∗ Todo4 d L ov (k.val + 1)) := by
  unfold Todo4; exact Ring.bigSep_rangeSet_head (by have := k.isLt; have h25 : k1_t1_loop.trips = 25 := rfl; have h25' : Scf.trips k1_t1_loop.lb k1_t1_loop.ub k1_t1_loop.st = 25 := rfl; omega) k.isLt
theorem Done4_succ (yv : Buf (Elt F) (yLoc d)) (pay : S10000.Idx → Elt F .i32) (hpay : ∀ j, (pay j).toNat < 10000) (t : Fin k1_t1_loop.trips) :
    Done4 d L yv pay hpay (t.val + 1) = iprop((∃ f, ((oC4 L t).view.loc (VT d L) ↦[(oC4 L t).view.set]{fullShare} f)
        ∗ ⌜∀ x, View.read (Elt F) (oC4 L t).view f x = GPv d L yv pay hpay (400 * t.val + 320) (by have := t.isLt; have h25 : k1_t1_loop.trips = 25 := rfl; have h25' : Scf.trips k1_t1_loop.lb k1_t1_loop.ub k1_t1_loop.st = 25 := rfl; omega) x⌝) ∗ Done4 d L yv pay hpay t.val) := by
  unfold Done4; exact Ring.bigSep_rangeSet_last (Nat.succ_pos _) (by have := t.isLt; have h25 : k1_t1_loop.trips = 25 := rfl; have h25' : Scf.trips k1_t1_loop.lb k1_t1_loop.ub k1_t1_loop.st = 25 := rfl; omega)
theorem Done4_zero (yv : Buf (Elt F) (yLoc d)) (pay : S10000.Idx → Elt F .i32) (hpay : ∀ j, (pay j).toNat < 10000) :
    Done4 d L yv pay hpay 0 = (iprop(emp) : sProp 𝕄) := by
  unfold Done4; exact Ring.bigSep_rangeSet_empty (le_refl 0)
omit [FloatOps F] in
theorem Todo4_end (ov : Buf (Elt F) (oLoc d)) : Todo4 d L ov 25 = (iprop(emp) : sProp 𝕄) := by
  unfold Todo4; exact Ring.bigSep_rangeSet_empty (le_refl 25)

omit [FloatOps F] in
/-- a wait on one of the tile's own semaphores is recorded at no call's index -/
theorem wkey (W X : Waits sig (HIx 1)) (sm : SemLoc sig) (hX : ∀ p ∈ X, p ∈ W ∨ p.2 = none) :
    ∀ p ∈ insert (sm, (default : HIx 1)) X, p ∈ W ∨ p.2 = none := by
  intro p hp; rcases Finset.mem_insert.mp hp with hp | hp
  · exact .inr (hp ▸ rfl)
  · exact hX p hp

/-- what is left of the index scratch's full share beside the five slots' read tokens -/
def SRest (pay : S10000.Idx → Elt F .i32) : sProp 𝕄 :=
  iprop(((sV).view.loc (VT d L) ↦[(sV).view.set]{Transfers.shareDrop fullShare 11} svalOf d L pay)
    ∗ ((sV).view.loc (VT d L) ↦[(sV).view.set]{Transfers.shareTokN fullShare 0} svalOf d L pay)
    ∗ ((sV).view.loc (VT d L) ↦[(sV).view.set]{Transfers.shareTokN fullShare 1} svalOf d L pay)
    ∗ ((sV).view.loc (VT d L) ↦[(sV).view.set]{Transfers.shareTokN fullShare 2} svalOf d L pay)
    ∗ ((sV).view.loc (VT d L) ↦[(sV).view.set]{Transfers.shareTokN fullShare 3} svalOf d L pay)
    ∗ ((sV).view.loc (VT d L) ↦[(sV).view.set]{Transfers.shareTokN fullShare 4} svalOf d L pay)
    ∗ ((sV).view.loc (VT d L) ↦[(sV).view.set]{Transfers.shareTokN fullShare 5} svalOf d L pay))

omit [FloatOps F] in
/-- the index scratch's full share as the rest and the five slots' read tokens -/
theorem sToks (f : Buf (Elt F) ((sV).view.loc (VT d L))) :
    ((sV).view.loc (VT d L) ↦[(sV).view.set]{fullShare} f : sProp 𝕄) ⊣⊢ iprop(
      (((sV).view.loc (VT d L) ↦[(sV).view.set]{Transfers.shareDrop fullShare 11} f)
        ∗ ((sV).view.loc (VT d L) ↦[(sV).view.set]{Transfers.shareTokN fullShare 0} f)
        ∗ ((sV).view.loc (VT d L) ↦[(sV).view.set]{Transfers.shareTokN fullShare 1} f)
        ∗ ((sV).view.loc (VT d L) ↦[(sV).view.set]{Transfers.shareTokN fullShare 2} f)
        ∗ ((sV).view.loc (VT d L) ↦[(sV).view.set]{Transfers.shareTokN fullShare 3} f)
        ∗ ((sV).view.loc (VT d L) ↦[(sV).view.set]{Transfers.shareTokN fullShare 4} f)
        ∗ ((sV).view.loc (VT d L) ↦[(sV).view.set]{Transfers.shareTokN fullShare 5} f))
      ∗ ((sV).view.loc (VT d L) ↦[(sV).view.set]{Transfers.shareTokN fullShare 6} f)
      ∗ ((sV).view.loc (VT d L) ↦[(sV).view.set]{Transfers.shareTokN fullShare 7} f)
      ∗ ((sV).view.loc (VT d L) ↦[(sV).view.set]{Transfers.shareTokN fullShare 8} f)
      ∗ ((sV).view.loc (VT d L) ↦[(sV).view.set]{Transfers.shareTokN fullShare 9} f)
      ∗ ((sV).view.loc (VT d L) ↦[(sV).view.set]{Transfers.shareTokN fullShare 10} f)) := by
  have h : ((sV).view.loc (VT d L) ↦[(sV).view.set]{fullShare} f : sProp 𝕄) ⊣⊢ iprop(((sV).view.loc (VT d L) ↦[(sV).view.set]{Transfers.shareDrop fullShare 11} f) ∗ bigSep (Finset.range 11) fun i => (sV).view.loc (VT d L) ↦[(sV).view.set]{Transfers.shareTokN fullShare i} f) :=
    Transfers.pointsTo_toks_range (ℓ := (sV).view.loc (VT d L)) (S := (sV).view.set) (f := f) fullShare 11
  rw [show Finset.range 11 = {0, 1, 2, 3, 4, 5, 6, 7, 8, 9, 10} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  refine h.trans ?_
  constructor
  · iintro ⟨Hd, H0, H1, H2, H3, H4, H5, H6, H7, H8, H9, H10⟩
    isplitl [Hd H0 H1 H2 H3 H4 H5]
    · isplitl [Hd]; · iexact Hd
      isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    isplitl [H8]; · iexact H8
    isplitl [H9]; · iexact H9
    iexact H10
  · iintro ⟨⟨Hd, H0, H1, H2, H3, H4, H5⟩, H6, H7, H8, H9, H10⟩
    isplitl [Hd]; · iexact Hd
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

set_option maxHeartbeats 16000000 in
/-- The task's body from what it is dealt, in the body's spelling: every result chunk of the tile ends holding the rows
    of y its eighty index words name. -/
theorem tile_run (O : CellTallies nD τ sig (HIx 1)) (W : Waits sig (HIx 1))
    (q : PosShare TreeShare) (yv : Buf (Elt F) (yLoc d)) (iv : Buf (Elt F) (iLoc d)) (ov : Buf (Elt F) (oLoc d))
    (hin : ∀ j, (iv j).toNat < 10000)
    (s0 : Buf (Elt F) ((sV).view.loc (VT d L))) (a0 : Buf (Elt F) ((r0V).view.loc (VT d L))) (a1 : Buf (Elt F) ((r1V).view.loc (VT d L)))
    (a2 : Buf (Elt F) ((r2V).view.loc (VT d L))) (a3 : Buf (Elt F) ((r3V).view.loc (VT d L))) (a4 : Buf (Elt F) ((r4V).view.loc (VT d L))) :
    (iprop(Transfers.MayWaits (VT d L) (default : HIx 1) O
        ∗ ((yV).view.loc (VT d L) ↦{Transfers.shareTokN q 6} yv)
        ∗ ((yV).view.loc (VT d L) ↦{Transfers.shareTokN q 7} yv)
        ∗ ((yV).view.loc (VT d L) ↦{Transfers.shareTokN q 8} yv)
        ∗ ((yV).view.loc (VT d L) ↦{Transfers.shareTokN q 9} yv)
        ∗ ((yV).view.loc (VT d L) ↦{Transfers.shareTokN q 10} yv)
        ∗ ((iTileK L).view.loc (VT d L) ↦[(iTileK L).view.set]{fullShare} iv)
        ∗ ((sV).view.loc (VT d L) ↦[(sV).view.set]{fullShare} s0)
        ∗ ((r0V).view.loc (VT d L) ↦[(r0V).view.set]{fullShare} a0)
        ∗ ((r1V).view.loc (VT d L) ↦[(r1V).view.set]{fullShare} a1)
        ∗ ((r2V).view.loc (VT d L) ↦[(r2V).view.set]{fullShare} a2)
        ∗ ((r3V).view.loc (VT d L) ↦[(r3V).view.set]{fullShare} a3)
        ∗ ((r4V).view.loc (VT d L) ↦[(r4V).view.set]{fullShare} a4)
        ∗ (Todo0 d L ov 0 ∗ Todo1 d L ov 0 ∗ Todo2 d L ov 0 ∗ Todo3 d L ov 0 ∗ Todo4 d L ov 0)
        ∗ (semVal (VT d L, SemLoc.dma cc1_scratch6.sem) 0 ∗ semVal (VT d L, SemLoc.dma cc1_scratch7.sem) 0 ∗ semVal (VT d L, SemLoc.dma cc1_scratch8.sem) 0 ∗ semVal (VT d L, SemLoc.dma cc1_scratch9.sem) 0 ∗ semVal (VT d L, SemLoc.dma cc1_scratch10.sem) 0 ∗ semVal (VT d L, SemLoc.dma cc1_scratch11.sem) 0 ∗ semVal (VT d L, SemLoc.dma cc1_scratch12.sem) 0 ∗ semVal (VT d L, SemLoc.dma cc1_scratch13.sem) 0 ∗ semVal (VT d L, SemLoc.dma cc1_scratch14.sem) 0 ∗ semVal (VT d L, SemLoc.dma cc1_scratch15.sem) 0 ∗ semVal (VT d L, SemLoc.dma cc1_scoped0.sem) 0)
        ∗ owes (VT d L) O W) : sProp 𝕄)
      ⊢ wp frame (wpE (defs₀ (F := F)) 𝒱₀ (VT d L) none) Set.univ
          (cc1__gather_body L yV (Memref.isWhole_whole _) iV (Memref.isWhole_whole _) oV (Memref.isWhole_whole _)
            sV (Memref.isWhole_whole _) r0V (Memref.isWhole_whole _) r1V (Memref.isWhole_whole _) r2V (Memref.isWhole_whole _) r3V (Memref.isWhole_whole _) r4V (Memref.isWhole_whole _)
            cc1_scratch6 cc1_scratch7 cc1_scratch8 cc1_scratch9 cc1_scratch10 cc1_scratch11 cc1_scratch12 cc1_scratch13 cc1_scratch14 cc1_scratch15 cc1_scoped0)
          fun _ => iprop(((yV).view.loc (VT d L) ↦{Transfers.shareTokN q 6} yv)
            ∗ ((yV).view.loc (VT d L) ↦{Transfers.shareTokN q 7} yv)
            ∗ ((yV).view.loc (VT d L) ↦{Transfers.shareTokN q 8} yv)
            ∗ ((yV).view.loc (VT d L) ↦{Transfers.shareTokN q 9} yv)
            ∗ ((yV).view.loc (VT d L) ↦{Transfers.shareTokN q 10} yv)
            ∗ ((iTileK L).view.loc (VT d L) ↦[(iTileK L).view.set]{fullShare} iv)
            ∗ (∃ s, (sV).view.loc (VT d L) ↦[(sV).view.set]{fullShare} s)
            ∗ (∃ a, (r0V).view.loc (VT d L) ↦[(r0V).view.set]{fullShare} a)
            ∗ (∃ a, (r1V).view.loc (VT d L) ↦[(r1V).view.set]{fullShare} a)
            ∗ (∃ a, (r2V).view.loc (VT d L) ↦[(r2V).view.set]{fullShare} a)
            ∗ (∃ a, (r3V).view.loc (VT d L) ↦[(r3V).view.set]{fullShare} a)
            ∗ (∃ a, (r4V).view.loc (VT d L) ↦[(r4V).view.set]{fullShare} a)
            ∗ (Done0 d L yv (idxPay d L iv) (idxPay_lt d L iv hin) 25 ∗ Done1 d L yv (idxPay d L iv) (idxPay_lt d L iv hin) 25 ∗ Done2 d L yv (idxPay d L iv) (idxPay_lt d L iv hin) 25
                ∗ Done3 d L yv (idxPay d L iv) (idxPay_lt d L iv hin) 25 ∗ Done4 d L yv (idxPay d L iv) (idxPay_lt d L iv hin) 25)
            ∗ (semVal (VT d L, SemLoc.dma cc1_scratch6.sem) 0 ∗ semVal (VT d L, SemLoc.dma cc1_scratch7.sem) 0 ∗ semVal (VT d L, SemLoc.dma cc1_scratch8.sem) 0 ∗ semVal (VT d L, SemLoc.dma cc1_scratch9.sem) 0 ∗ semVal (VT d L, SemLoc.dma cc1_scratch10.sem) 0 ∗ semVal (VT d L, SemLoc.dma cc1_scratch11.sem) 0 ∗ semVal (VT d L, SemLoc.dma cc1_scratch12.sem) 0 ∗ semVal (VT d L, SemLoc.dma cc1_scratch13.sem) 0 ∗ semVal (VT d L, SemLoc.dma cc1_scratch14.sem) 0 ∗ semVal (VT d L, SemLoc.dma cc1_scratch15.sem) 0 ∗ semVal (VT d L, SemLoc.dma cc1_scoped0.sem) 0)
            ∗ ∃ W', owes (VT d L) O W') := by
  iintro ⟨#Hmw, HY0, HY1, HY2, HY3, HY4, HI, HS, HR0, HR1, HR2, HR3, HR4, ⟨HT0, HT1, HT2, HT3, HT4⟩, ⟨Hg0, Hg1, Hg2, Hg3, Hg4, Ho0, Ho1, Ho2, Ho3, Ho4, Hsc⟩, HO⟩
  have hpay := idxPay_lt d L iv hin
  sl_unfold [cc1__gather_body]
  sl_exec
  ihave HS' := (sToks d L _).1 $$ HS
  icases HS' with ⟨HSR, HS0, HS1, HS2, HS3, HS4⟩
  have hidx := fun g off h hs => idx_inb (F := F) d L g (idxPay d L iv) hpay off h hs
  sl_exec
  sl_for (inv d L q yv iv ov (idxPay d L iv) hpay O W) $$ [Hmw HY4 HR4 HT0 HT1 HT2 HT3 HT4 Hg4 Ho0 Ho1 Ho2 Ho3 Ho4 HI Hsc HO HS4 Hg0 HY0 HR0 HS0 Hg1 HY1 HR1 HS1 Hg2 HY2 HR2 HS2 Hg3 HY3 HR3 HS3]
  case region =>
    intro k u
    have h25 : k1_t1_loop.trips = 25 := rfl
    have h25' : Scf.trips k1_t1_loop.lb k1_t1_loop.ub k1_t1_loop.st = 25 := rfl
    have hk25 : k.val < 25 := by have := k.isLt; omega
    have hc1 := c1 k
    obtain ⟨hc4, hc6, hc8, hc10⟩ := c4 k
    have hidx := fun g off h hs => idx_inb (F := F) d L g (idxPay d L iv) hpay off h hs

    rcases Nat.eq_zero_or_pos k.val with hk0 | hkpos
    · have hc2 := c2' k hk0
      obtain ⟨hc3, hc5, hc7, hc9⟩ := c3 k (by omega)
      rw [inv_lt d L q yv iv ov (idxPay d L iv) hpay O W k.val hk25]
      unfold invBase invLoop
      rw [if_pos hk0, Todo0_head d L ov k, Todo1_head d L ov k, Todo2_head d L ov k, Todo3_head d L ov k, Todo4_head d L ov k]
      unfold GBO0 GBO1 GBO2 GBO3 IBO4
      iintro ⟨⟨#Hmw, HI, Hsc, ⟨%W', %hW', HO⟩, ⟨HC0, HT0⟩, ⟨HC1, HT1⟩, ⟨HC2, HT2⟩, ⟨HC3, HT3⟩, ⟨HC4, HT4⟩⟩, ⟨%a0, Hg0, HY0, HS0, HR0⟩, ⟨%a1, Hg1, HY1, HS1, HR1⟩, ⟨%a2, Hg2, HY2, HS2, HR2⟩, ⟨%a3, Hg3, HY3, HS3, HR3⟩, ⟨HY4, HS4, Hg4⟩, ⟨HD0, HD1, HD2, HD3, HD4⟩, ⟨Ho0, Ho1, Ho2, Ho3⟩, ⟨⟨%a4, HR4⟩, Ho4⟩⟩
      sl_exec
      sl_step
      rw [inv_lt d L q yv iv ov (idxPay d L iv) hpay O W (k.val + 1) (by omega)]
      unfold invBase invLoop
      rw [if_neg (by omega : ¬ k.val + 1 = 0), Done0_succ d L yv (idxPay d L iv) hpay k, Done1_succ d L yv (idxPay d L iv) hpay k, Done2_succ d L yv (idxPay d L iv) hpay k, Done3_succ d L yv (idxPay d L iv) hpay k, show k.val + 1 - 1 = k.val - 1 by omega]
      isplitl [HI Hsc HO HT0 HT1 HT2 HT3 HT4]
      · isplitr; · iexact Hmw
        isplitl [HI]; · iexact HI
        isplitl [Hsc]; · iexact Hsc
        isplitl [HO]
        · iexists _; isplitr
          swap; · iexact HO
          ipureintro
          repeat (first | exact hW' | apply wkey)
        isplitl [HT0]; · iexact HT0
        isplitl [HT1]; · iexact HT1
        isplitl [HT2]; · iexact HT2
        isplitl [HT3]; · iexact HT3
        iexact HT4
      isplitl [Hg0 HY0 HS0 HR0]
      · iexists ((r0V).view.writes (Elt F) a0 [⟨Rect.whole cc1_scratch1.ty.shape, GPvO d L yv (idxPay d L iv) hpay ![400 * k.val] (off_inb _ (by omega))⟩])
        iapply (Entails.of_eq (GBO0_congr d L q yv (idxPay d L iv) hpay (k1_off7 k) ![400 * (k.val + 1)] (k1_off7_inb k hc3) (off_inb _ (by omega)) (by rw [k1_off7_eq]; exact congrArg (fun n => (![n] : Fin 1 → ℕ)) (by omega)) _))
        unfold GBO0
        isplitl [Hg0]; · iexact Hg0
        isplitl [HY0]; · iexact HY0
        isplitl [HS0]; · iexact HS0
        iexact HR0
      isplitl [Hg1 HY1 HS1 HR1]
      · iexists ((r1V).view.writes (Elt F) a1 [⟨Rect.whole cc1_scratch2.ty.shape, GPvO d L yv (idxPay d L iv) hpay ![400 * k.val + 80] (off_inb _ (by omega))⟩])
        iapply (Entails.of_eq (GBO1_congr d L q yv (idxPay d L iv) hpay (k1_off9 k) ![400 * (k.val + 1) + 80] (k1_off9_inb k hc5) (off_inb _ (by omega)) (by rw [k1_off9_eq]; exact congrArg (fun n => (![n] : Fin 1 → ℕ)) (by omega)) _))
        unfold GBO1
        isplitl [Hg1]; · iexact Hg1
        isplitl [HY1]; · iexact HY1
        isplitl [HS1]; · iexact HS1
        iexact HR1
      isplitl [Hg2 HY2 HS2 HR2]
      · iexists ((r2V).view.writes (Elt F) a2 [⟨Rect.whole cc1_scratch3.ty.shape, GPvO d L yv (idxPay d L iv) hpay ![400 * k.val + 160] (off_inb _ (by omega))⟩])
        iapply (Entails.of_eq (GBO2_congr d L q yv (idxPay d L iv) hpay (k1_off11 k) ![400 * (k.val + 1) + 160] (k1_off11_inb k hc7) (off_inb _ (by omega)) (by rw [k1_off11_eq]; exact congrArg (fun n => (![n] : Fin 1 → ℕ)) (by omega)) _))
        unfold GBO2
        isplitl [Hg2]; · iexact Hg2
        isplitl [HY2]; · iexact HY2
        isplitl [HS2]; · iexact HS2
        iexact HR2
      isplitl [Hg3 HY3 HS3 HR3]
      · iexists ((r3V).view.writes (Elt F) a3 [⟨Rect.whole cc1_scratch4.ty.shape, GPvO d L yv (idxPay d L iv) hpay ![400 * k.val + 240] (off_inb _ (by omega))⟩])
        iapply (Entails.of_eq (GBO3_congr d L q yv (idxPay d L iv) hpay (k1_off13 k) ![400 * (k.val + 1) + 240] (k1_off13_inb k hc9) (off_inb _ (by omega)) (by rw [k1_off13_eq]; exact congrArg (fun n => (![n] : Fin 1 → ℕ)) (by omega)) _))
        unfold GBO3
        isplitl [Hg3]; · iexact Hg3
        isplitl [HY3]; · iexact HY3
        isplitl [HS3]; · iexact HS3
        iexact HR3
      isplitl [HY4 HS4 Hg4]
      · unfold IBO4; isplitl [HY4]; · iexact HY4
        isplitl [HS4]; · iexact HS4
        iexact Hg4
      isplitl [HC0 HD0 HC1 HD1 HC2 HD2 HC3 HD3 HD4]
      · isplitl [HC0 HD0]
        · isplitl [HC0]
          · iexists _; isplitl [HC0]; · iexact HC0
            ipureintro; intro x
            rw [View.read_writes_whole]
            exact (show ReadAs.same.apply (View.read (Elt F) (r0V).view ((r0V).view.writes (Elt F) a0 [⟨Rect.whole cc1_scratch1.ty.shape, GPvO d L yv (idxPay d L iv) hpay ![400 * k.val] (off_inb _ (by omega))⟩])) x = _ from
              (congrFun (View.read_writes_whole (r0V).view a0 _) x).trans (congrFun (GPvO_eq d L yv (idxPay d L iv) hpay _ _ _ _ rfl) x))
          iexact HD0
        isplitl [HC1 HD1]
        · isplitl [HC1]
          · iexists _; isplitl [HC1]; · iexact HC1
            ipureintro; intro x
            rw [View.read_writes_whole]
            exact (show ReadAs.same.apply (View.read (Elt F) (r1V).view ((r1V).view.writes (Elt F) a1 [⟨Rect.whole cc1_scratch2.ty.shape, GPvO d L yv (idxPay d L iv) hpay ![400 * k.val + 80] (off_inb _ (by omega))⟩])) x = _ from
              (congrFun (View.read_writes_whole (r1V).view a1 _) x).trans (congrFun (GPvO_eq d L yv (idxPay d L iv) hpay _ _ _ _ rfl) x))
          iexact HD1
        isplitl [HC2 HD2]
        · isplitl [HC2]
          · iexists _; isplitl [HC2]; · iexact HC2
            ipureintro; intro x
            rw [View.read_writes_whole]
            exact (show ReadAs.same.apply (View.read (Elt F) (r2V).view ((r2V).view.writes (Elt F) a2 [⟨Rect.whole cc1_scratch3.ty.shape, GPvO d L yv (idxPay d L iv) hpay ![400 * k.val + 160] (off_inb _ (by omega))⟩])) x = _ from
              (congrFun (View.read_writes_whole (r2V).view a2 _) x).trans (congrFun (GPvO_eq d L yv (idxPay d L iv) hpay _ _ _ _ rfl) x))
          iexact HD2
        isplitl [HC3 HD3]
        · isplitl [HC3]
          · iexists _; isplitl [HC3]; · iexact HC3
            ipureintro; intro x
            rw [View.read_writes_whole]
            exact (show ReadAs.same.apply (View.read (Elt F) (r3V).view ((r3V).view.writes (Elt F) a3 [⟨Rect.whole cc1_scratch4.ty.shape, GPvO d L yv (idxPay d L iv) hpay ![400 * k.val + 240] (off_inb _ (by omega))⟩])) x = _ from
              (congrFun (View.read_writes_whole (r3V).view a3 _) x).trans (congrFun (GPvO_eq d L yv (idxPay d L iv) hpay _ _ _ _ rfl) x))
          iexact HD3
        iexact HD4
      isplitl [Ho0 Ho1 Ho2 Ho3]
      · isplitl [Ho0]; · iexact Ho0
        isplitl [Ho1]; · iexact Ho1
        isplitl [Ho2]; · iexact Ho2
        iexact Ho3
      iexists k; iexists rfl; iexists a4
      iapply (Entails.of_eq (OFO4_congr d L ov yv (idxPay d L iv) hpay k (k1_off5 k) ![400 * k.val + 320] (k1_off5_inb k hc1) (off_inb _ (by omega)) (by rw [k1_off5_eq]) _))
      unfold OFO4; iexact Ho4

    · rcases Nat.lt_or_ge k.val 24 with hk24 | hk24
      · have hc2 := c2 k hkpos
        obtain ⟨hc3, hc5, hc7, hc9⟩ := c3 k hk24
        rw [inv_lt d L q yv iv ov (idxPay d L iv) hpay O W k.val hk25]
        unfold invBase invLoop
        rw [if_neg (by omega : ¬ k.val = 0), Todo0_head d L ov k, Todo1_head d L ov k, Todo2_head d L ov k, Todo3_head d L ov k, Todo4_head d L ov k]
        unfold GBO0 GBO1 GBO2 GBO3 IBO4 OFO4
        iintro ⟨⟨#Hmw, HI, Hsc, ⟨%W', %hW', HO⟩, ⟨HC0, HT0⟩, ⟨HC1, HT1⟩, ⟨HC2, HT2⟩, ⟨HC3, HT3⟩, ⟨HC4, HT4⟩⟩, ⟨%a0, Hg0, HY0, HS0, HR0⟩, ⟨%a1, Hg1, HY1, HS1, HR1⟩, ⟨%a2, Hg2, HY2, HS2, HR2⟩, ⟨%a3, Hg3, HY3, HS3, HR3⟩, ⟨HY4, HS4, Hg4⟩, ⟨HD0, HD1, HD2, HD3, HD4⟩, ⟨Ho0, Ho1, Ho2, Ho3⟩, ⟨%t, %ht, %a4, Ho4⟩⟩
        sl_exec
        sl_step
        rw [inv_lt d L q yv iv ov (idxPay d L iv) hpay O W (k.val + 1) (by omega)]
        unfold invBase invLoop
        rw [if_neg (by omega : ¬ k.val + 1 = 0), Done0_succ d L yv (idxPay d L iv) hpay k, Done1_succ d L yv (idxPay d L iv) hpay k, Done2_succ d L yv (idxPay d L iv) hpay k, Done3_succ d L yv (idxPay d L iv) hpay k, show k.val + 1 - 1 = t.val + 1 by omega, Done4_succ d L yv (idxPay d L iv) hpay t,
            show Done4 d L yv (idxPay d L iv) hpay t.val = Done4 d L yv (idxPay d L iv) hpay (k.val - 1) from by rw [show t.val = k.val - 1 by omega]]
        isplitl [HI Hsc HO HT0 HT1 HT2 HT3 HT4]
        · isplitr; · iexact Hmw
          isplitl [HI]; · iexact HI
          isplitl [Hsc]; · iexact Hsc
          isplitl [HO]
          · iexists _; isplitr
            swap; · iexact HO
            ipureintro
            repeat (first | exact hW' | apply wkey)
          isplitl [HT0]; · iexact HT0
          isplitl [HT1]; · iexact HT1
          isplitl [HT2]; · iexact HT2
          isplitl [HT3]; · iexact HT3
          iexact HT4
        isplitl [Hg0 HY0 HS0 HR0]
        · iexists ((r0V).view.writes (Elt F) a0 [⟨Rect.whole cc1_scratch1.ty.shape, GPvO d L yv (idxPay d L iv) hpay ![400 * k.val] (off_inb _ (by omega))⟩])
          iapply (Entails.of_eq (GBO0_congr d L q yv (idxPay d L iv) hpay (k1_off7 k) ![400 * (k.val + 1)] (k1_off7_inb k hc3) (off_inb _ (by omega)) (by rw [k1_off7_eq]; exact congrArg (fun n => (![n] : Fin 1 → ℕ)) (by omega)) _))
          unfold GBO0
          isplitl [Hg0]; · iexact Hg0
          isplitl [HY0]; · iexact HY0
          isplitl [HS0]; · iexact HS0
          iexact HR0
        isplitl [Hg1 HY1 HS1 HR1]
        · iexists ((r1V).view.writes (Elt F) a1 [⟨Rect.whole cc1_scratch2.ty.shape, GPvO d L yv (idxPay d L iv) hpay ![400 * k.val + 80] (off_inb _ (by omega))⟩])
          iapply (Entails.of_eq (GBO1_congr d L q yv (idxPay d L iv) hpay (k1_off9 k) ![400 * (k.val + 1) + 80] (k1_off9_inb k hc5) (off_inb _ (by omega)) (by rw [k1_off9_eq]; exact congrArg (fun n => (![n] : Fin 1 → ℕ)) (by omega)) _))
          unfold GBO1
          isplitl [Hg1]; · iexact Hg1
          isplitl [HY1]; · iexact HY1
          isplitl [HS1]; · iexact HS1
          iexact HR1
        isplitl [Hg2 HY2 HS2 HR2]
        · iexists ((r2V).view.writes (Elt F) a2 [⟨Rect.whole cc1_scratch3.ty.shape, GPvO d L yv (idxPay d L iv) hpay ![400 * k.val + 160] (off_inb _ (by omega))⟩])
          iapply (Entails.of_eq (GBO2_congr d L q yv (idxPay d L iv) hpay (k1_off11 k) ![400 * (k.val + 1) + 160] (k1_off11_inb k hc7) (off_inb _ (by omega)) (by rw [k1_off11_eq]; exact congrArg (fun n => (![n] : Fin 1 → ℕ)) (by omega)) _))
          unfold GBO2
          isplitl [Hg2]; · iexact Hg2
          isplitl [HY2]; · iexact HY2
          isplitl [HS2]; · iexact HS2
          iexact HR2
        isplitl [Hg3 HY3 HS3 HR3]
        · iexists ((r3V).view.writes (Elt F) a3 [⟨Rect.whole cc1_scratch4.ty.shape, GPvO d L yv (idxPay d L iv) hpay ![400 * k.val + 240] (off_inb _ (by omega))⟩])
          iapply (Entails.of_eq (GBO3_congr d L q yv (idxPay d L iv) hpay (k1_off13 k) ![400 * (k.val + 1) + 240] (k1_off13_inb k hc9) (off_inb _ (by omega)) (by rw [k1_off13_eq]; exact congrArg (fun n => (![n] : Fin 1 → ℕ)) (by omega)) _))
          unfold GBO3
          isplitl [Hg3]; · iexact Hg3
          isplitl [HY3]; · iexact HY3
          isplitl [HS3]; · iexact HS3
          iexact HR3
        isplitl [HY4 HS4 Hg4]
        · unfold IBO4; isplitl [HY4]; · iexact HY4
          isplitl [HS4]; · iexact HS4
          iexact Hg4
        isplitl [HC0 HD0 HC1 HD1 HC2 HD2 HC3 HD3 Ho4_dst HD4]
        · isplitl [HC0 HD0]
          · isplitl [HC0]
            · iexists _; isplitl [HC0]; · iexact HC0
              ipureintro; intro x
              rw [View.read_writes_whole]
              exact (show ReadAs.same.apply (View.read (Elt F) (r0V).view ((r0V).view.writes (Elt F) a0 [⟨Rect.whole cc1_scratch1.ty.shape, GPvO d L yv (idxPay d L iv) hpay ![400 * k.val] (off_inb _ (by omega))⟩])) x = _ from
                (congrFun (View.read_writes_whole (r0V).view a0 _) x).trans (congrFun (GPvO_eq d L yv (idxPay d L iv) hpay _ _ _ _ rfl) x))
            iexact HD0
          isplitl [HC1 HD1]
          · isplitl [HC1]
            · iexists _; isplitl [HC1]; · iexact HC1
              ipureintro; intro x
              rw [View.read_writes_whole]
              exact (show ReadAs.same.apply (View.read (Elt F) (r1V).view ((r1V).view.writes (Elt F) a1 [⟨Rect.whole cc1_scratch2.ty.shape, GPvO d L yv (idxPay d L iv) hpay ![400 * k.val + 80] (off_inb _ (by omega))⟩])) x = _ from
                (congrFun (View.read_writes_whole (r1V).view a1 _) x).trans (congrFun (GPvO_eq d L yv (idxPay d L iv) hpay _ _ _ _ rfl) x))
            iexact HD1
          isplitl [HC2 HD2]
          · isplitl [HC2]
            · iexists _; isplitl [HC2]; · iexact HC2
              ipureintro; intro x
              rw [View.read_writes_whole]
              exact (show ReadAs.same.apply (View.read (Elt F) (r2V).view ((r2V).view.writes (Elt F) a2 [⟨Rect.whole cc1_scratch3.ty.shape, GPvO d L yv (idxPay d L iv) hpay ![400 * k.val + 160] (off_inb _ (by omega))⟩])) x = _ from
                (congrFun (View.read_writes_whole (r2V).view a2 _) x).trans (congrFun (GPvO_eq d L yv (idxPay d L iv) hpay _ _ _ _ rfl) x))
            iexact HD2
          isplitl [HC3 HD3]
          · isplitl [HC3]
            · iexists _; isplitl [HC3]; · iexact HC3
              ipureintro; intro x
              rw [View.read_writes_whole]
              exact (show ReadAs.same.apply (View.read (Elt F) (r3V).view ((r3V).view.writes (Elt F) a3 [⟨Rect.whole cc1_scratch4.ty.shape, GPvO d L yv (idxPay d L iv) hpay ![400 * k.val + 240] (off_inb _ (by omega))⟩])) x = _ from
                (congrFun (View.read_writes_whole (r3V).view a3 _) x).trans (congrFun (GPvO_eq d L yv (idxPay d L iv) hpay _ _ _ _ rfl) x))
            iexact HD3
          · isplitl [Ho4_dst]
            · iexists _; isplitl [Ho4_dst]; · iexact Ho4_dst
              ipureintro; intro x
              rw [View.read_writes_whole, ReadAs.apply_same]
              exact (congrFun (View.read_writes_whole (r4V).view a4 _) x).trans (congrFun (GPvO_eq d L yv (idxPay d L iv) hpay _ _ _ _ rfl) x)
            iexact HD4
        isplitl [Ho0 Ho1 Ho2 Ho3]
        · isplitl [Ho0]; · iexact Ho0
          isplitl [Ho1]; · iexact Ho1
          isplitl [Ho2]; · iexact Ho2
          iexact Ho3
        iexists k; iexists rfl; iexists ((r4V).view.writes (Elt F) a4 [⟨Rect.whole cc1_scratch5.ty.shape, GPvO d L yv (idxPay d L iv) hpay ![400 * t.val + 320] (off_inb _ (by have := t.isLt; omega))⟩])
        iapply (Entails.of_eq (OFO4_congr d L ov yv (idxPay d L iv) hpay k (k1_off5 k) ![400 * k.val + 320] (k1_off5_inb k hc1) (off_inb _ (by omega)) (by rw [k1_off5_eq]) _))
        unfold OFO4; iexact Ho4

      · have hc2 := c2 k hkpos
        obtain ⟨hc3, hc5, hc7, hc9⟩ := c3' k (by omega)
        rw [inv_lt d L q yv iv ov (idxPay d L iv) hpay O W k.val hk25]
        unfold invBase invLoop
        rw [if_neg (by omega : ¬ k.val = 0), Todo0_head d L ov k, Todo1_head d L ov k, Todo2_head d L ov k, Todo3_head d L ov k, Todo4_head d L ov k]
        unfold GBO0 GBO1 GBO2 GBO3 IBO4 OFO4
        iintro ⟨⟨#Hmw, HI, Hsc, ⟨%W', %hW', HO⟩, ⟨HC0, HT0⟩, ⟨HC1, HT1⟩, ⟨HC2, HT2⟩, ⟨HC3, HT3⟩, ⟨HC4, HT4⟩⟩, ⟨%a0, Hg0, HY0, HS0, HR0⟩, ⟨%a1, Hg1, HY1, HS1, HR1⟩, ⟨%a2, Hg2, HY2, HS2, HR2⟩, ⟨%a3, Hg3, HY3, HS3, HR3⟩, ⟨HY4, HS4, Hg4⟩, ⟨HD0, HD1, HD2, HD3, HD4⟩, ⟨Ho0, Ho1, Ho2, Ho3⟩, ⟨%t, %ht, %a4, Ho4⟩⟩
        sl_exec
        sl_step
        have hk24e : k.val = 24 := by omega
        rw [inv_end d L q yv iv ov (idxPay d L iv) hpay O W (k.val + 1) (by omega)]
        unfold invBase invEnd
        rw [show Done0 d L yv (idxPay d L iv) hpay 24 = Done0 d L yv (idxPay d L iv) hpay k.val from by rw [hk24e],
          show Done1 d L yv (idxPay d L iv) hpay 24 = Done1 d L yv (idxPay d L iv) hpay k.val from by rw [hk24e],
          show Done2 d L yv (idxPay d L iv) hpay 24 = Done2 d L yv (idxPay d L iv) hpay k.val from by rw [hk24e],
          show Done3 d L yv (idxPay d L iv) hpay 24 = Done3 d L yv (idxPay d L iv) hpay k.val from by rw [hk24e],
          show Done4 d L yv (idxPay d L iv) hpay 24 = Done4 d L yv (idxPay d L iv) hpay (t.val + 1) from by rw [show t.val + 1 = 24 by omega],
          Done4_succ d L yv (idxPay d L iv) hpay t,
          show Done4 d L yv (idxPay d L iv) hpay t.val = Done4 d L yv (idxPay d L iv) hpay (k.val - 1) from by rw [show t.val = k.val - 1 by omega]]
        isplitl [HI Hsc HO HT0 HT1 HT2 HT3 HT4]
        · isplitr; · iexact Hmw
          isplitl [HI]; · iexact HI
          isplitl [Hsc]; · iexact Hsc
          isplitl [HO]
          · iexists _; isplitr
            swap; · iexact HO
            ipureintro
            repeat (first | exact hW' | apply wkey)
          isplitl [HT0]; · iexact HT0
          isplitl [HT1]; · iexact HT1
          isplitl [HT2]; · iexact HT2
          isplitl [HT3]; · iexact HT3
          iexact HT4
        isplitl [Ho0]
        · iexists k; iexists hk24e; iexists a0; unfold OFO0; iexact Ho0
        isplitl [Ho1]
        · iexists k; iexists hk24e; iexists a1; unfold OFO1; iexact Ho1
        isplitl [Ho2]
        · iexists k; iexists hk24e; iexists a2; unfold OFO2; iexact Ho2
        isplitl [Ho3]
        · iexists k; iexists hk24e; iexists a3; unfold OFO3; iexact Ho3
        isplitl [Ho4]
        · iexists k; iexists hk24e; iexists ((r4V).view.writes (Elt F) a4 [⟨Rect.whole cc1_scratch5.ty.shape, GPvO d L yv (idxPay d L iv) hpay ![400 * t.val + 320] (off_inb _ (by have := t.isLt; omega))⟩])
          iapply (Entails.of_eq (OFO4_congr d L ov yv (idxPay d L iv) hpay k (k1_off5 k) ![400 * k.val + 320] (k1_off5_inb k hc1) (off_inb _ (by omega)) (by rw [k1_off5_eq]) _))
          unfold OFO4; iexact Ho4
        isplitl [HY0 HS0 Hg0 HY1 HS1 Hg1 HY2 HS2 Hg2 HY3 HS3 Hg3 HY4 HS4 Hg4]
        · isplitl [HY0 HS0 Hg0]
          · unfold IBO0; isplitl [HY0]; · iexact HY0
            isplitl [HS0]; · iexact HS0
            iexact Hg0
          isplitl [HY1 HS1 Hg1]
          · unfold IBO1; isplitl [HY1]; · iexact HY1
            isplitl [HS1]; · iexact HS1
            iexact Hg1
          isplitl [HY2 HS2 Hg2]
          · unfold IBO2; isplitl [HY2]; · iexact HY2
            isplitl [HS2]; · iexact HS2
            iexact Hg2
          isplitl [HY3 HS3 Hg3]
          · unfold IBO3; isplitl [HY3]; · iexact HY3
            isplitl [HS3]; · iexact HS3
            iexact Hg3
          unfold IBO4; isplitl [HY4]; · iexact HY4
          isplitl [HS4]; · iexact HS4
          iexact Hg4
        isplitl [HD0]; · iexact HD0
        isplitl [HD1]; · iexact HD1
        isplitl [HD2]; · iexact HD2
        isplitl [HD3]; · iexact HD3
        isplitl [Ho4_dst]
        · iexists _; isplitl [Ho4_dst]; · iexact Ho4_dst
          ipureintro; intro x
          rw [View.read_writes_whole, ReadAs.apply_same]
          exact (congrFun (View.read_writes_whole (r4V).view a4 _) x).trans (congrFun (GPvO_eq d L yv (idxPay d L iv) hpay _ _ _ _ rfl) x)
        iexact HD4

  · rw [inv_lt d L q yv iv ov (idxPay d L iv) hpay O W 0 (by omega)]
    unfold invBase invLoop
    rw [if_pos rfl, Done0_zero, Done1_zero, Done2_zero, Done3_zero, show (0 : ℕ) - 1 = 0 from rfl, Done4_zero]
    isplitl [HI Hsc HO HT0 HT1 HT2 HT3 HT4]
    · isplitr; · iexact Hmw
      isplitl [HI]; · iexact HI
      isplitl [Hsc]; · iexact Hsc
      isplitl [HO]
      · iexists _; isplitr
        swap; · iexact HO
        ipureintro
        repeat (first | exact (fun p hp => Or.inl hp) | apply wkey)
      isplitl [HT0]; · iexact HT0
      isplitl [HT1]; · iexact HT1
      isplitl [HT2]; · iexact HT2
      isplitl [HT3]; · iexact HT3
      iexact HT4
    isplitl [Hg0 HY0 HS0 HR0]
    · iexists a0; unfold GBO0
      isplitl [Hg0]; · iexact Hg0
      isplitl [HY0]; · iexact HY0
      isplitl [HS0]; · iexact HS0
      iexact HR0
    isplitl [Hg1 HY1 HS1 HR1]
    · iexists a1; unfold GBO1
      isplitl [Hg1]; · iexact Hg1
      isplitl [HY1]; · iexact HY1
      isplitl [HS1]; · iexact HS1
      iexact HR1
    isplitl [Hg2 HY2 HS2 HR2]
    · iexists a2; unfold GBO2
      isplitl [Hg2]; · iexact Hg2
      isplitl [HY2]; · iexact HY2
      isplitl [HS2]; · iexact HS2
      iexact HR2
    isplitl [Hg3 HY3 HS3 HR3]
    · iexists a3; unfold GBO3
      isplitl [Hg3]; · iexact Hg3
      isplitl [HY3]; · iexact HY3
      isplitl [HS3]; · iexact HS3
      iexact HR3
    isplitl [HY4 HS4 Hg4]
    · unfold IBO4; isplitl [HY4]; · iexact HY4
      isplitl [HS4]; · iexact HS4
      iexact Hg4
    isplitl []
    · isplitl []; · iempintro
      isplitl []; · iempintro
      isplitl []; · iempintro
      isplitl []; · iempintro
      iempintro
    isplitl [Ho0 Ho1 Ho2 Ho3]
    · isplitl [Ho0]; · iexact Ho0
      isplitl [Ho1]; · iexact Ho1
      isplitl [Ho2]; · iexact Ho2
      iexact Ho3
    isplitl [HR4]; · iexists a4; iexact HR4
    iexact Ho4

  iintro %u
  have hexit : ¬ Scf.trips k1_t1_loop.lb k1_t1_loop.ub k1_t1_loop.st < 25 := by
    have h25' : Scf.trips k1_t1_loop.lb k1_t1_loop.ub k1_t1_loop.st = 25 := rfl
    omega
  rw [inv_end d L q yv iv ov (idxPay d L iv) hpay O W _ hexit u]
  unfold invBase invEnd OFO0 OFO1 OFO2 OFO3 OFO4 IBO0 IBO1 IBO2 IBO3 IBO4
  iintro ⟨⟨-, HI, Hsc, ⟨%W', %hW', HO⟩, -⟩, ⟨%t0, %ht0, %a0, Ho0⟩, ⟨%t1, %ht1, %a1, Ho1⟩, ⟨%t2, %ht2, %a2, Ho2⟩, ⟨%t3, %ht3, %a3, Ho3⟩, ⟨%t4, %ht4, %a4, Ho4⟩, ⟨⟨HY0, HS0, Hg0⟩, ⟨HY1, HS1, Hg1⟩, ⟨HY2, HS2, Hg2⟩, ⟨HY3, HS3, Hg3⟩, ⟨HY4, HS4, Hg4⟩⟩, ⟨HD0, HD1, HD2, HD3, HD4⟩⟩
  sl_exec
  sl_step
  rw [show Done0 d L yv (idxPay d L iv) hpay 25 = Done0 d L yv (idxPay d L iv) hpay (t0.val + 1) from by rw [show t0.val + 1 = 25 by omega], Done0_succ d L yv (idxPay d L iv) hpay t0,
    show Done0 d L yv (idxPay d L iv) hpay t0.val = Done0 d L yv (idxPay d L iv) hpay 24 from by rw [ht0],
    show Done1 d L yv (idxPay d L iv) hpay 25 = Done1 d L yv (idxPay d L iv) hpay (t1.val + 1) from by rw [show t1.val + 1 = 25 by omega], Done1_succ d L yv (idxPay d L iv) hpay t1,
    show Done1 d L yv (idxPay d L iv) hpay t1.val = Done1 d L yv (idxPay d L iv) hpay 24 from by rw [ht1],
    show Done2 d L yv (idxPay d L iv) hpay 25 = Done2 d L yv (idxPay d L iv) hpay (t2.val + 1) from by rw [show t2.val + 1 = 25 by omega], Done2_succ d L yv (idxPay d L iv) hpay t2,
    show Done2 d L yv (idxPay d L iv) hpay t2.val = Done2 d L yv (idxPay d L iv) hpay 24 from by rw [ht2],
    show Done3 d L yv (idxPay d L iv) hpay 25 = Done3 d L yv (idxPay d L iv) hpay (t3.val + 1) from by rw [show t3.val + 1 = 25 by omega], Done3_succ d L yv (idxPay d L iv) hpay t3,
    show Done3 d L yv (idxPay d L iv) hpay t3.val = Done3 d L yv (idxPay d L iv) hpay 24 from by rw [ht3],
    show Done4 d L yv (idxPay d L iv) hpay 25 = Done4 d L yv (idxPay d L iv) hpay (t4.val + 1) from by rw [show t4.val + 1 = 25 by omega], Done4_succ d L yv (idxPay d L iv) hpay t4,
    show Done4 d L yv (idxPay d L iv) hpay t4.val = Done4 d L yv (idxPay d L iv) hpay 24 from by rw [ht4]]
  isplitl [HY0]; · iexact HY0
  isplitl [HY1]; · iexact HY1
  isplitl [HY2]; · iexact HY2
  isplitl [HY3]; · iexact HY3
  isplitl [HY4]; · iexact HY4
  isplitl [HI]; · iexact HI
  isplitl [HSR HS0 HS1 HS2 HS3 HS4]
  · iexists (svalOf d L (idxPay d L iv))
    iapply (sToks d L _).2
    isplitl [HSR]; · iexact HSR
    isplitl [HS0]; · iexact HS0
    isplitl [HS1]; · iexact HS1
    isplitl [HS2]; · iexact HS2
    isplitl [HS3]; · iexact HS3
    iexact HS4
  isplitl [Ho0_src]; · iexists _; iexact Ho0_src
  isplitl [Ho1_src]; · iexists _; iexact Ho1_src
  isplitl [Ho2_src]; · iexists _; iexact Ho2_src
  isplitl [Ho3_src]; · iexists _; iexact Ho3_src
  isplitl [Ho4_src]; · iexists _; iexact Ho4_src
  isplitl [Ho0_dst HD0 Ho1_dst HD1 Ho2_dst HD2 Ho3_dst HD3 Ho4_dst HD4]
  · isplitl [Ho0_dst HD0]
    · isplitl [Ho0_dst]
      · iexists _; isplitl [Ho0_dst]; · iexact Ho0_dst
        ipureintro; intro x
        rw [View.read_writes_whole, ReadAs.apply_same]
        exact (congrFun (View.read_writes_whole (r0V).view a0 _) x).trans (congrFun (GPvO_eq d L yv (idxPay d L iv) hpay _ _ _ _ rfl) x)
      iexact HD0
    isplitl [Ho1_dst HD1]
    · isplitl [Ho1_dst]
      · iexists _; isplitl [Ho1_dst]; · iexact Ho1_dst
        ipureintro; intro x
        rw [View.read_writes_whole, ReadAs.apply_same]
        exact (congrFun (View.read_writes_whole (r1V).view a1 _) x).trans (congrFun (GPvO_eq d L yv (idxPay d L iv) hpay _ _ _ _ rfl) x)
      iexact HD1
    isplitl [Ho2_dst HD2]
    · isplitl [Ho2_dst]
      · iexists _; isplitl [Ho2_dst]; · iexact Ho2_dst
        ipureintro; intro x
        rw [View.read_writes_whole, ReadAs.apply_same]
        exact (congrFun (View.read_writes_whole (r2V).view a2 _) x).trans (congrFun (GPvO_eq d L yv (idxPay d L iv) hpay _ _ _ _ rfl) x)
      iexact HD2
    isplitl [Ho3_dst HD3]
    · isplitl [Ho3_dst]
      · iexists _; isplitl [Ho3_dst]; · iexact Ho3_dst
        ipureintro; intro x
        rw [View.read_writes_whole, ReadAs.apply_same]
        exact (congrFun (View.read_writes_whole (r3V).view a3 _) x).trans (congrFun (GPvO_eq d L yv (idxPay d L iv) hpay _ _ _ _ rfl) x)
      iexact HD3
    isplitl [Ho4_dst]
    · iexists _; isplitl [Ho4_dst]; · iexact Ho4_dst
      ipureintro; intro x
      rw [View.read_writes_whole, ReadAs.apply_same]
      exact (congrFun (View.read_writes_whole (r4V).view a4 _) x).trans (congrFun (GPvO_eq d L yv (idxPay d L iv) hpay _ _ _ _ rfl) x)
    iexact HD4
  isplitl [Hg0 Hg1 Hg2 Hg3 Hg4 Ho0 Ho1 Ho2 Ho3 Ho4 Hsc]
  · isplitl [Hg0]; · iexact Hg0
    isplitl [Hg1]; · iexact Hg1
    isplitl [Hg2]; · iexact Hg2
    isplitl [Hg3]; · iexact Hg3
    isplitl [Hg4]; · iexact Hg4
    isplitl [Ho0]; · iexact Ho0
    isplitl [Ho1]; · iexact Ho1
    isplitl [Ho2]; · iexact Ho2
    isplitl [Ho3]; · iexact Ho3
    isplitl [Ho4]; · iexact Ho4
    iexact Hsc
  iexists _; iexact HO

end Cert.Kernel.Hand
end
-- ==== Proof.TileBodyB.lean ====
/-
  The task of one vector subcore from what the launch deals it to what it hands back: the tile's eleven transfer
  semaphores and six scratch buffers out of its own, its share of y cut into read tokens and rejoined, its result
  rows as its five slots' runs of chunks, around the task's run.
-/
import proofs.«207968_g22119081574525_cont_sun_m_427_17_alg».proof.Proof.TileDefsB
import proofs.«207968_g22119081574525_cont_sun_m_427_17_alg».proof.Proof.TileIdxB
import proofs.«207968_g22119081574525_cont_sun_m_427_17_alg».proof.Proof.PartsB
import proofs.«207968_g22119081574525_cont_sun_m_427_17_alg».proof.Proof.PayB
import proofs.«207968_g22119081574525_cont_sun_m_427_17_alg».proof.Proof.TileJoinB
import proofs.«207968_g22119081574525_cont_sun_m_427_17_alg».proof.Proof.TileRunB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v4_scv : Memref Cert.Kernel.sig Kind.scVector Space.hbm Cert.Kernel.S320000 EltTy.i32)
local notation "oV" => (Memref.whole Cert.Kernel.main_v5_scv : Memref Cert.Kernel.sig Kind.scVector Space.hbm Cert.Kernel.S320000x128 EltTy.f32)
local notation "sV" => (Memref.whole Cert.Kernel.cc1_scratch0 : Memref Cert.Kernel.sig Kind.scVector Space.vmem Cert.Kernel.S10000 EltTy.i32)
local notation "r0V" => (Memref.whole Cert.Kernel.cc1_scratch1 : Memref Cert.Kernel.sig Kind.scVector Space.vmem Cert.Kernel.S80x128 EltTy.f32)
local notation "r1V" => (Memref.whole Cert.Kernel.cc1_scratch2 : Memref Cert.Kernel.sig Kind.scVector Space.vmem Cert.Kernel.S80x128 EltTy.f32)
local notation "r2V" => (Memref.whole Cert.Kernel.cc1_scratch3 : Memref Cert.Kernel.sig Kind.scVector Space.vmem Cert.Kernel.S80x128 EltTy.f32)
local notation "r3V" => (Memref.whole Cert.Kernel.cc1_scratch4 : Memref Cert.Kernel.sig Kind.scVector Space.vmem Cert.Kernel.S80x128 EltTy.f32)
local notation "r4V" => (Memref.whole Cert.Kernel.cc1_scratch5 : Memref Cert.Kernel.sig Kind.scVector Space.vmem Cert.Kernel.S80x128 EltTy.f32)

variable (d : Dev nD) (L : grid1.Coords)

/-! ## The subcore's own cells and buffers -/

/-- the eleven transfer semaphores the task names, as a family: cells 6 … 16 -/
abbrev dcell (d : Dev nD) (c : Fin τ.nSC) (i : Fin τ.nSub) (k : Fin 11) : GSem nD τ sig := (V d c i, .dma ⟨6 + k.val, by have := k.isLt; show 6 + k.val < 17; omega⟩)

/-- the eleven at zero, in the body's spelling -/
abbrev cells0 (d : Dev nD) (L : grid1.Coords) : sProp 𝕄 :=
  iprop(semVal (VT d L, SemLoc.dma cc1_scratch6.sem) 0 ∗ semVal (VT d L, SemLoc.dma cc1_scratch7.sem) 0 ∗ semVal (VT d L, SemLoc.dma cc1_scratch8.sem) 0
    ∗ semVal (VT d L, SemLoc.dma cc1_scratch9.sem) 0 ∗ semVal (VT d L, SemLoc.dma cc1_scratch10.sem) 0 ∗ semVal (VT d L, SemLoc.dma cc1_scratch11.sem) 0
    ∗ semVal (VT d L, SemLoc.dma cc1_scratch12.sem) 0 ∗ semVal (VT d L, SemLoc.dma cc1_scratch13.sem) 0 ∗ semVal (VT d L, SemLoc.dma cc1_scratch14.sem) 0
    ∗ semVal (VT d L, SemLoc.dma cc1_scratch15.sem) 0 ∗ semVal (VT d L, SemLoc.dma cc1_scoped0.sem) 0)

theorem dcell_mem (c : Fin τ.nSC) (i : Fin τ.nSub) (k : Fin 11) : dcell d c i k ∈ ownCells (V d c i) :=
  mem_ownCells.mpr ⟨rfl, (show ∀ s : DmaSem sig, (SemLoc.dma s : SemLoc sig).isScoped .scVector = true by decide) _⟩

/-- the subcore's own cells at zero: the eleven the task names, one by one, and the rest -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- the subcore's own buffers but the six scratch buffers -/
abbrev restRefs (L : grid1.Coords) : Finset (DevRef τ sig) :=
  ((((((ownRefs (τ := τ) (.scVector (cV L) (jV L))).erase ((Proc.scVector (cV L) (jV L)).devRef cc1_scratch0)).erase
    ((Proc.scVector (cV L) (jV L)).devRef cc1_scratch1)).erase ((Proc.scVector (cV L) (jV L)).devRef cc1_scratch2)).erase
    ((Proc.scVector (cV L) (jV L)).devRef cc1_scratch3)).erase ((Proc.scVector (cV L) (jV L)).devRef cc1_scratch4)).erase
    ((Proc.scVector (cV L) (jV L)).devRef cc1_scratch5)

/-- the six scratch buffers are among the subcore's own: they are them, at some contents, and the rest -/
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f) ∗ (∃ f, (VT d L).loc cc1_scratch3 ↦{fullShare} f)
          ∗ (∃ f, (VT d L).loc cc1_scratch4 ↦{fullShare} f) ∗ (∃ f, (VT d L).loc cc1_scratch5 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (i := (Proc.scVector (cV L) (jV L)).devRef cc1_scratch1) (by
      simp only [Finset.mem_erase]
      exact ⟨fun e => absurd (Proc.devRef_injective _ e) (show (cc1_scratch1 : Ref sig .scVector) ≠ cc1_scratch0 by decide), SparseCore.Cfg.mem_ownRefs_of_owner rfl⟩),
    SparseCore.bigSep_erase' (i := (Proc.scVector (cV L) (jV L)).devRef cc1_scratch2) (by
      simp only [Finset.mem_erase]
      exact ⟨fun e => absurd (Proc.devRef_injective _ e) (show (cc1_scratch2 : Ref sig .scVector) ≠ cc1_scratch1 by decide), fun e => absurd (Proc.devRef_injective _ e) (show (cc1_scratch2 : Ref sig .scVector) ≠ cc1_scratch0 by decide), SparseCore.Cfg.mem_ownRefs_of_owner rfl⟩),
    SparseCore.bigSep_erase' (i := (Proc.scVector (cV L) (jV L)).devRef cc1_scratch3) (by
      simp only [Finset.mem_erase]
      exact ⟨fun e => absurd (Proc.devRef_injective _ e) (show (cc1_scratch3 : Ref sig .scVector) ≠ cc1_scratch2 by decide), fun e => absurd (Proc.devRef_injective _ e) (show (cc1_scratch3 : Ref sig .scVector) ≠ cc1_scratch1 by decide), fun e => absurd (Proc.devRef_injective _ e) (show (cc1_scratch3 : Ref sig .scVector) ≠ cc1_scratch0 by decide), SparseCore.Cfg.mem_ownRefs_of_owner rfl⟩),
    SparseCore.bigSep_erase' (i := (Proc.scVector (cV L) (jV L)).devRef cc1_scratch4) (by
      simp only [Finset.mem_erase]
      exact ⟨fun e => absurd (Proc.devRef_injective _ e) (show (cc1_scratch4 : Ref sig .scVector) ≠ cc1_scratch3 by decide), fun e => absurd (Proc.devRef_injective _ e) (show (cc1_scratch4 : Ref sig .scVector) ≠ cc1_scratch2 by decide), fun e => absurd (Proc.devRef_injective _ e) (show (cc1_scratch4 : Ref sig .scVector) ≠ cc1_scratch1 by decide), fun e => absurd (Proc.devRef_injective _ e) (show (cc1_scratch4 : Ref sig .scVector) ≠ cc1_scratch0 by decide), SparseCore.Cfg.mem_ownRefs_of_owner rfl⟩),
    SparseCore.bigSep_erase' (i := (Proc.scVector (cV L) (jV L)).devRef cc1_scratch5) (by
      simp only [Finset.mem_erase]
      exact ⟨fun e => absurd (Proc.devRef_injective _ e) (show (cc1_scratch5 : Ref sig .scVector) ≠ cc1_scratch4 by decide), fun e => absurd (Proc.devRef_injective _ e) (show (cc1_scratch5 : Ref sig .scVector) ≠ cc1_scratch3 by decide), fun e => absurd (Proc.devRef_injective _ e) (show (cc1_scratch5 : Ref sig .scVector) ≠ cc1_scratch2 by decide), fun e => absurd (Proc.devRef_injective _ e) (show (cc1_scratch5 : Ref sig .scVector) ≠ cc1_scratch1 by decide), fun e => absurd (Proc.devRef_injective _ e) (show (cc1_scratch5 : Ref sig .scVector) ≠ cc1_scratch0 by decide), SparseCore.Cfg.mem_ownRefs_of_owner rfl⟩)]

/-! ## The pieces in the body's spelling -/

/-- a scratch buffer whole, as the subcore names it and as the body does -/
theorem pts_sV (f : Buf (Elt F) ((VT d L).loc cc1_scratch0)) :
    ((sV).view.loc (VT d L) ↦[(sV).view.set]{fullShare} f : sProp 𝕄) = (VT d L).loc cc1_scratch0 ↦{fullShare} f := by
  simp only [Memref.view_whole, View.set_whole]
theorem pts_r0V (f : Buf (Elt F) ((VT d L).loc cc1_scratch1)) :
    ((r0V).view.loc (VT d L) ↦[(r0V).view.set]{fullShare} f : sProp 𝕄) = (VT d L).loc cc1_scratch1 ↦{fullShare} f := by
  simp only [Memref.view_whole, View.set_whole]
theorem pts_r1V (f : Buf (Elt F) ((VT d L).loc cc1_scratch2)) :
    ((r1V).view.loc (VT d L) ↦[(r1V).view.set]{fullShare} f : sProp 𝕄) = (VT d L).loc cc1_scratch2 ↦{fullShare} f := by
  simp only [Memref.view_whole, View.set_whole]
theorem pts_r2V (f : Buf (Elt F) ((VT d L).loc cc1_scratch3)) :
    ((r2V).view.loc (VT d L) ↦[(r2V).view.set]{fullShare} f : sProp 𝕄) = (VT d L).loc cc1_scratch3 ↦{fullShare} f := by
  simp only [Memref.view_whole, View.set_whole]
theorem pts_r3V (f : Buf (Elt F) ((VT d L).loc cc1_scratch4)) :
    ((r3V).view.loc (VT d L) ↦[(r3V).view.set]{fullShare} f : sProp 𝕄) = (VT d L).loc cc1_scratch4 ↦{fullShare} f := by
  simp only [Memref.view_whole, View.set_whole]
theorem pts_r4V (f : Buf (Elt F) ((VT d L).loc cc1_scratch5)) :
    ((r4V).view.loc (VT d L) ↦[(r4V).view.set]{fullShare} f : sProp 𝕄) = (VT d L).loc cc1_scratch5 ↦{fullShare} f := by
  simp only [Memref.view_whole, View.set_whole]

/-- the tile's share of y as what stays with it, six tokens it does not use, and the five slots' read tokens -/
theorem yToks (q : PosShare TreeShare) (f : Buf (Elt F) (yLoc d)) :
    (yLoc d ↦{q} f : sProp 𝕄) ⊣⊢ iprop(
      (((yV).view.loc (VT d L) ↦{Transfers.shareDrop q 11} f)
        ∗ ((yV).view.loc (VT d L) ↦{Transfers.shareTokN q 0} f)
        ∗ ((yV).view.loc (VT d L) ↦{Transfers.shareTokN q 1} f)
        ∗ ((yV).view.loc (VT d L) ↦{Transfers.shareTokN q 2} f)
        ∗ ((yV).view.loc (VT d L) ↦{Transfers.shareTokN q 3} f)
        ∗ ((yV).view.loc (VT d L) ↦{Transfers.shareTokN q 4} f)
        ∗ ((yV).view.loc (VT d L) ↦{Transfers.shareTokN q 5} f))
      ∗ ((yV).view.loc (VT d L) ↦{Transfers.shareTokN q 6} f)
      ∗ ((yV).view.loc (VT d L) ↦{Transfers.shareTokN q 7} f)
      ∗ ((yV).view.loc (VT d L) ↦{Transfers.shareTokN q 8} f)
      ∗ ((yV).view.loc (VT d L) ↦{Transfers.shareTokN q 9} f)
      ∗ ((yV).view.loc (VT d L) ↦{Transfers.shareTokN q 10} f)) := by
  have h : (yLoc d ↦{q} f : sProp 𝕄) ⊣⊢ iprop(((yV).view.loc (VT d L) ↦{Transfers.shareDrop q 11} f)
      ∗ bigSep (Finset.range 11) fun i => (yV).view.loc (VT d L) ↦{Transfers.shareTokN q i} f) :=
    Transfers.pointsTo_toks_range (ℓ := yLoc d) (S := Finset.univ) (f := f) q 11
  rw [show Finset.range 11 = {0, 1, 2, 3, 4, 5, 6, 7, 8, 9, 10} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  refine h.trans ?_
  constructor
  · iintro ⟨Hd, H0, H1, H2, H3, H4, H5, H6, H7, H8, H9, H10⟩
    isplitl [Hd H0 H1 H2 H3 H4 H5]
    · isplitl [Hd]; · iexact Hd
      isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    isplitl [H8]; · iexact H8
    isplitl [H9]; · iexact H9
    iexact H10
  · iintro ⟨⟨Hd, H0, H1, H2, H3, H4, H5⟩, H6, H7, H8, H9, H10⟩
    isplitl [Hd]; · iexact Hd
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

variable [FloatOps F]

/-- The task on the vector subcore of tile (c, s) of device d, from what the launch deals it (its share of y, its
    entries of the flat edge row, its result rows, its scoped buffers and cells) to what it hands back. -/
theorem tile_body (hF : (K (F := F)).Facts) (d : Dev nD) (c : Fin 2) (s : Fin 16)
    (yv : Buf (Elt F) (yLoc d)) (iv : Buf (Elt F) (iLoc d)) (ov : Buf (Elt F) (oLoc d)) (hin : ∀ j, (iv j).toNat < 10000)
    (O : CellTallies nD τ sig (HIx 1)) (W : Waits sig (HIx 1)) (hO : ∀ g, O g none = 0) :
    (iprop(levAts (K (F := F)).L (K (F := F)).lev ∗ emp ∗ tilePts d c s yv iv ov
        ∗ scopedBufs (VT d (coordsV c s)) ∗ scopedSems0 (VT d (coordsV c s)) ∗ owes (VT d (coordsV c s)) O W) : sProp 𝕄)
      ⊢ wp frame (wpE (defs₀ (F := F)) 𝒱₀ (VT d (coordsV c s)) none) Set.univ
          (cc1__gather_body (coordsV c s) yV (Memref.isWhole_whole _) iV (Memref.isWhole_whole _) oV (Memref.isWhole_whole _)
            sV (Memref.isWhole_whole _) r0V (Memref.isWhole_whole _) r1V (Memref.isWhole_whole _) r2V (Memref.isWhole_whole _) r3V (Memref.isWhole_whole _) r4V (Memref.isWhole_whole _)
            cc1_scratch6 cc1_scratch7 cc1_scratch8 cc1_scratch9 cc1_scratch10 cc1_scratch11 cc1_scratch12 cc1_scratch13 cc1_scratch14 cc1_scratch15 cc1_scoped0)
          fun _ => iprop(tilePts d c s yv iv (outBuf d yv iv) ∗ scopedBufs (VT d (coordsV c s)) ∗ scopedSems0 (VT d (coordsV c s))
            ∗ ∃ W', ⌜∀ p ∈ W', p ∈ W ∨ p.2 = none ∨ p.2 = some (0 : Fin 1)⌝ ∗ owes (VT d (coordsV c s)) O W') := by
  rw [(K (F := F)).scopedBufs_V hF d (cV (coordsV c s)) (jV (coordsV c s)),
    SparseCore.Cfg.scopedSems0_V (Val := Elt F) d (cV (coordsV c s)) (jV (coordsV c s)), ownSems0_V, ownBufs_V]
  iintro ⟨#Hlv, -, ⟨Hy, Hi, Ho⟩, ⟨⟨%g0, HS⟩, ⟨%b0, HR0⟩, ⟨%b1, HR1⟩, ⟨%b2, HR2⟩, ⟨%b3, HR3⟩, ⟨%b4, HR4⟩, Hbufs⟩, ⟨HC, Hsems⟩, HO⟩
  ihave Hmw := (show levAts (K (F := F)).L (K (F := F)).lev ⊢ Transfers.MayWaits (VT d (coordsV c s)) (default : HIx 1) O from
    (K (F := F)).mayWaits_none (thr := VT d (coordsV c s)) hO) $$ Hlv
  ihave Hi' := (Entails.of_eq (pts_iTileK (F := F) d (coordsV c s) fullShare iv).symm) $$ Hi
  ihave Ho' := (Entails.of_eq (todo_eq (F := F) d (coordsV c s) ov)) $$ Ho
  ihave HS' := (Entails.of_eq (pts_sV (F := F) d (coordsV c s) _).symm) $$ HS
  ihave HR0' := (Entails.of_eq (pts_r0V (F := F) d (coordsV c s) _).symm) $$ HR0
  ihave HR1' := (Entails.of_eq (pts_r1V (F := F) d (coordsV c s) _).symm) $$ HR1
  ihave HR2' := (Entails.of_eq (pts_r2V (F := F) d (coordsV c s) _).symm) $$ HR2
  ihave HR3' := (Entails.of_eq (pts_r3V (F := F) d (coordsV c s) _).symm) $$ HR3
  ihave HR4' := (Entails.of_eq (pts_r4V (F := F) d (coordsV c s) _).symm) $$ HR4
  ihave Hy' := (yToks (F := F) d (coordsV c s) (yq c s) yv).1 $$ Hy
  icases Hy' with ⟨Hyr, Hy6, Hy7, Hy8, Hy9, Hy10⟩
  iapply (wp_wand_r Idealize.ShloMosaic.frame (wpE (defs₀ (F := F)) 𝒱₀ (VT d (coordsV c s)) none) Set.univ)
  isplitl [Hy6 Hy7 Hy8 Hy9 Hy10 Hi' HS' HR0' HR1' HR2' HR3' HR4' Ho' HC HO]
  · iapply (tile_run (F := F) d (coordsV c s) O W (yq c s) yv iv ov hin g0 b0 b1 b2 b3 b4)
    isplitr; · iexact Hmw
    isplitl [Hy6]; · iexact Hy6
    isplitl [Hy7]; · iexact Hy7
    isplitl [Hy8]; · iexact Hy8
    isplitl [Hy9]; · iexact Hy9
    isplitl [Hy10]; · iexact Hy10
    isplitl [Hi']; · iexact Hi'
    isplitl [HS']; · iexact HS'
    isplitl [HR0']; · iexact HR0'
    isplitl [HR1']; · iexact HR1'
    isplitl [HR2']; · iexact HR2'
    isplitl [HR3']; · iexact HR3'
    isplitl [HR4']; · iexact HR4'
    isplitl [Ho']; · iexact Ho'
    isplitl [HC]; · iexact HC
    iexact HO
  iintro %_ ⟨Hy6, Hy7, Hy8, Hy9, Hy10, Hi', ⟨%s1, HS'⟩, ⟨%a0, HR0'⟩, ⟨%a1, HR1'⟩, ⟨%a2, HR2'⟩, ⟨%a3, HR3'⟩, ⟨%a4, HR4'⟩, HD, HC, ⟨%W', HO⟩⟩
  ihave Hy := (yToks (F := F) d (coordsV c s) (yq c s) yv).2 $$ [Hyr Hy6 Hy7 Hy8 Hy9 Hy10]
  · isplitl [Hyr]; · iexact Hyr
    isplitl [Hy6]; · iexact Hy6
    isplitl [Hy7]; · iexact Hy7
    isplitl [Hy8]; · iexact Hy8
    isplitl [Hy9]; · iexact Hy9
    iexact Hy10
  ihave Ho := (done_join (F := F) d (coordsV c s) yv iv hin) $$ HD
  isplitl [Hy Hi' Ho]
  · isplitl [Hy]; · iexact Hy
    isplitl [Hi']; · iapply (Entails.of_eq (pts_iTileK (F := F) d (coordsV c s) fullShare iv)); iexact Hi'
    iexact Ho
  isplitl [HS' HR0' HR1' HR2' HR3' HR4' Hbufs]
  · isplitl [HS']; · iexists _; iapply (Entails.of_eq (pts_sV (F := F) d (coordsV c s) _)); iexact HS'
    isplitl [HR0']; · iexists _; iapply (Entails.of_eq (pts_r0V (F := F) d (coordsV c s) _)); iexact HR0'
    isplitl [HR1']; · iexists _; iapply (Entails.of_eq (pts_r1V (F := F) d (coordsV c s) _)); iexact HR1'
    isplitl [HR2']; · iexists _; iapply (Entails.of_eq (pts_r2V (F := F) d (coordsV c s) _)); iexact HR2'
    isplitl [HR3']; · iexists _; iapply (Entails.of_eq (pts_r3V (F := F) d (coordsV c s) _)); iexact HR3'
    isplitl [HR4']; · iexists _; iapply (Entails.of_eq (pts_r4V (F := F) d (coordsV c s) _)); iexact HR4'
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

end Cert.Kernel.Hand

end
-- ==== Proof.TileOblB.lean ====
/-
  The task of one vector subcore, as the launch theorem asks for it: from the tile's share of y, its entries of the
  edge list and its result rows to the result rows holding the gathered rows of y.
-/
import proofs.«207968_g22119081574525_cont_sun_m_427_17_alg».proof.Proof.LaunchB
import proofs.«207968_g22119081574525_cont_sun_m_427_17_alg».proof.Proof.TileBodyB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "yV" => (Memref.whole Cert.Kernel.main_v2_scv : Memref Cert.Kernel.sig Kind.scVector Space.hbm Cert.Kernel.S10000x128 EltTy.f32)
local notation "iV" => (Memref.whole Cert.Kernel.main_v4_scv : Memref Cert.Kernel.sig Kind.scVector Space.hbm Cert.Kernel.S320000 EltTy.i32)
local notation "oV" => (Memref.whole Cert.Kernel.main_v5_scv : Memref Cert.Kernel.sig Kind.scVector Space.hbm Cert.Kernel.S320000x128 EltTy.f32)
local notation "sV" => (Memref.whole Cert.Kernel.cc1_scratch0 : Memref Cert.Kernel.sig Kind.scVector Space.vmem Cert.Kernel.S10000 EltTy.i32)
local notation "r0V" => (Memref.whole Cert.Kernel.cc1_scratch1 : Memref Cert.Kernel.sig Kind.scVector Space.vmem Cert.Kernel.S80x128 EltTy.f32)
local notation "r1V" => (Memref.whole Cert.Kernel.cc1_scratch2 : Memref Cert.Kernel.sig Kind.scVector Space.vmem Cert.Kernel.S80x128 EltTy.f32)
local notation "r2V" => (Memref.whole Cert.Kernel.cc1_scratch3 : Memref Cert.Kernel.sig Kind.scVector Space.vmem Cert.Kernel.S80x128 EltTy.f32)
local notation "r3V" => (Memref.whole Cert.Kernel.cc1_scratch4 : Memref Cert.Kernel.sig Kind.scVector Space.vmem Cert.Kernel.S80x128 EltTy.f32)
local notation "r4V" => (Memref.whole Cert.Kernel.cc1_scratch5 : Memref Cert.Kernel.sig Kind.scVector Space.vmem Cert.Kernel.S80x128 EltTy.f32)

/-- every entry of the edge list's second row names a node -/
def PreOK (m : (ℓ : Loc nD τ sig) → Buf (Elt F) ℓ) : Prop := ∀ (d : Dev nD) (j : S320000.Idx), (ivOf m d j).toNat < 10000

theorem defs₀_vector (c : Fin τ.nSC) (s : Fin τ.nSub) :
    defs₀ (F := F) (.scVector c s) 1 ()
      = SparseCore.onTile hcore1 hsub1 (fun c s => cc1__gather_body (coordsV c s)
          yV (Memref.isWhole_whole _) iV (Memref.isWhole_whole _) oV (Memref.isWhole_whole _)
          sV (Memref.isWhole_whole _) r0V (Memref.isWhole_whole _) r1V (Memref.isWhole_whole _) r2V (Memref.isWhole_whole _) r3V (Memref.isWhole_whole _) r4V (Memref.isWhole_whole _)
          cc1_scratch6 cc1_scratch7 cc1_scratch8 cc1_scratch9 cc1_scratch10 cc1_scratch11 cc1_scratch12 cc1_scratch13 cc1_scratch14 cc1_scratch15 cc1_scoped0) ⟨⟩ c s := rfl

theorem tileObl (m : (ℓ : Loc nD τ sig) → Buf (Elt F) ℓ) (hpre : PreOK m) :
    (K (F := F)).TileObl (D (F := F)) 𝒱 (P (F := F) (yvOf m) (ivOf m) (ovOf m)) v₀ 0 := by
  intro d c i O W hO _ _
  simp only [show (P (F := F) (yvOf m) (ivOf m) (ovOf m)).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  simp only [go_def, td_def]
  unfold goP tdP
  have ec : Fin.cast nCore_zero c = (⟨((K (F := F)).core 0 c).val, hci.1⟩ : Fin 2) := Fin.ext rfl
  have ei : Fin.cast nSub_zero i = (⟨((K (F := F)).sub 0 i).val, hci.2⟩ : Fin 16) := Fin.ext rfl
  rw [ec, ei]
  exact tile_body facts d ⟨_, hci.1⟩ ⟨_, hci.2⟩ (yvOf m d) (ivOf m d) (ovOf m d) (hpre d) O W hO

end Cert.Kernel.Hand

end
-- ==== Proof.HostValB.lean ====
/-
  What the host operations of the kernel program's @main write, read at an index: the bias as eight equal rows,
  and row 1 of the edge list as a flat vector.
-/
import proofs.«207968_g22119081574525_cont_sun_m_427_17_alg».proof.Kernel
import proofs.«207968_g22119081574525_cont_sun_m_427_17_alg».proof.Proof.Gen.Kernel
import Idealize.ShloMosaic.Lib.ValueIdx
import Idealize.ShloMosaic.Lib.Pipeline.Value

noncomputable section

namespace Cert.Kernel.HostVal

open Cert.Kernel Cert.Kernel.Gen Idealize.ShloMosaic Idealize.ShloMosaic.ValueIdx

variable {F : FTy → Type} [FloatOps F]

/-- the bias reshaped to one row and laid along eight rows: entry (r, j) is b[j] -/
theorem v1_apply (b : FVec F S128 .f32) (r : Fin 8) (j : Fin 128) :
    broadcastInDim S8x128 ![0, 1] bcast_S1x128_S8x128_0_1 (shapeCast S1x128 b shapeCasts_S128_S1x128) (ix2 r j) = b (ix1 j) := by
  refine (broadcastInDim_apply _ _ _ (ix2 r j) (ix2 (0 : Fin 1) j) fun a => ?_).trans ?_
  · match a with
    | ⟨0, _⟩ => rfl
    | ⟨1, _⟩ => rfl
  · refine shapeCast_apply _ _ (ix2 (0 : Fin 1) j) (ix1 j) ?_
    rw [Shape.rowMajor_val_two, Shape.rowMajor_val_one]
    show j.val = (0 : ℕ) * 128 + j.val
    omega

/-- row 1 of the edge list, sliced and flattened: entry e is edge_index[1, e] -/
theorem v4_apply (ei : IVec S2x320000 32) (e : Fin 320000) :
    shapeCast S320000 (extractStridedSlice S1x320000 ![1, 0] ei slices_S2x320000_S1x320000_1_0) shapeCasts_S1x320000_S320000 (ix1 e)
      = ei (ix2 (1 : Fin 2) e) := by
  refine (shapeCast_apply _ _ (ix1 e) (ix2 (0 : Fin 1) e) ?_).trans ?_
  · rw [Shape.rowMajor_val_two, Shape.rowMajor_val_one]
    show (0 : ℕ) * 320000 + e.val = e.val
    omega
  · refine extractStridedSlice_apply _ _ _ _ (ix2 (1 : Fin 2) e) fun a => ?_
    match a with
    | ⟨0, _⟩ => rfl
    | ⟨1, _⟩ =>
      show e.val = 0 + e.val
      omega

end Cert.Kernel.HostVal

end
-- ==== Proof.AssembleB.lean ====
/-
  The word-level kernel's frame.  The program is the idealized one's text read at bit patterns: the same pipeline,
  the same gathers; under the precondition every word of the edge list names a node, so every gathered row exists,
  every transfer completes, and the four arguments end as launched.
-/
import proofs.«207968_g22119081574525_cont_sun_m_427_17_alg».proof.Defs
import proofs.«207968_g22119081574525_cont_sun_m_427_17_alg».proof.Proof.TileOblB
import proofs.«207968_g22119081574525_cont_sun_m_427_17_alg».proof.Proof.PreRange
import proofs.«207968_g22119081574525_cont_sun_m_427_17_alg».proof.Proof.HostValB

noncomputable section

namespace Cert.Proof.Parts

open Idealize.ShloMosaic Idealize.ShloMosaic.TcCoe Idealize.ShloMosaic.ValueIdx Idealize.SL.Sem

attribute [local instance] Cert.Pre_input_domain.Gen.facts

/-- Under the precondition every entry of the edge list's second row names a node. -/
theorem preOK_of_pre_k {F : FTy → Type} [FloatOps F]
    (m : (ℓ : Loc Cert.Kernel.nD Cert.Kernel.τ Cert.Kernel.sig) → Buf (Elt F) ℓ)
    (h : ∀ c : Dev Cert.Kernel.nD,
      Cert.Pre_input_domain.fn (F := F) (m ((c.tc : Thread Cert.Kernel.nD Cert.Kernel.τ).loc Cert.Kernel.main_arg0))
        (m ((c.tc : Thread Cert.Kernel.nD Cert.Kernel.τ).loc Cert.Kernel.main_arg1))
        (m ((c.tc : Thread Cert.Kernel.nD Cert.Kernel.τ).loc Cert.Kernel.main_arg2))
        (m ((c.tc : Thread Cert.Kernel.nD Cert.Kernel.τ).loc Cert.Kernel.main_arg3)) = fun _ => 1#1) :
    Cert.Kernel.Hand.PreOK m := by
  intro d j
  have hr := Cert.PreRange.range_of_pre _ _ _ _ (h d)
  obtain ⟨e, rfl⟩ : ∃ e : Fin 320000, j = ix1 e := ⟨j 0, eq_ix1 j⟩
  unfold Cert.Kernel.Hand.ivOf
  rw [Cert.Kernel.HostVal.v4_apply]
  exact hr _

/-- The kernel as printed runs and leaves its arguments as launched. -/
theorem frame_k : Cert.frame_Kernel (hKernel := Cert.Kernel.Gen.facts) (hPre_input_domain := Cert.Pre_input_domain.Gen.facts) :=
  fun m ρ hpre => (θ_run _ _ _).mono (fun _ h c => (h c).2)
    (Cert.Kernel.Hand.run_main (F := Bits) m ρ (Cert.Kernel.Hand.tileObl m (preOK_of_pre_k m hpre)))

end Cert.Proof.Parts

end
-- ==== Proof.lean ====
/-
  The kernel computes, for every edge e, row edge[1, e] of  y = x · Wᵀ + b :  a matrix product with the bias added,
  taken in five blocks of 2000 rows, and then a gather of the rows of y the edge list's second row names.  The
  reference gathers the rows of x first and multiplies afterwards.  The two agree because a product taken row by row
  commutes with a gather of rows: row e of (gather x) · Wᵀ + b is row edge[1, e] of x · Wᵀ + b.  The precondition
  puts every word of the edge list in [0, 10000), so every gathered row exists (and the reference's range mask is all
  ones).  The kernel as printed is the idealized kernel's text read at bit patterns; it runs and keeps its arguments.
-/
import proofs.«207968_g22119081574525_cont_sun_m_427_17_alg».proof.Defs
import proofs.«207968_g22119081574525_cont_sun_m_427_17_alg».proof.Proof.Gen.Kernel
import proofs.«207968_g22119081574525_cont_sun_m_427_17_alg».proof.Proof.Gen.Kernel.Skeleton
import proofs.«207968_g22119081574525_cont_sun_m_427_17_alg».proof.Proof.Gen.Kernel.Launch
import proofs.«207968_g22119081574525_cont_sun_m_427_17_alg».proof.Proof.Gen.Kernel.Points
import proofs.«207968_g22119081574525_cont_sun_m_427_17_alg».proof.Proof.Gen.KernelIdeal
import proofs.«207968_g22119081574525_cont_sun_m_427_17_alg».proof.Proof.Gen.KernelIdeal.Skeleton
import proofs.«207968_g22119081574525_cont_sun_m_427_17_alg».proof.Proof.Gen.KernelIdeal.Launch
import proofs.«207968_g22119081574525_cont_sun_m_427_17_alg».proof.Proof.Gen.KernelIdeal.Points
import proofs.«207968_g22119081574525_cont_sun_m_427_17_alg».proof.Proof.Gen.ReferenceIdeal
import proofs.«207968_g22119081574525_cont_sun_m_427_17_alg».proof.Proof.Gen.Pre_input_domain
import proofs.«207968_g22119081574525_cont_sun_m_427_17_alg».proof.Proof.AssembleI
import proofs.«207968_g22119081574525_cont_sun_m_427_17_alg».proof.Proof.AssembleB
import Idealize.ShloMosaic.Adequacy
import Idealize.ShloMosaic.Init

noncomputable section

namespace Cert.Proof

open Idealize.ShloMosaic Idealize.SL.Sem

/-- The five claims: the three frames, the idealization (no operation was rewritten), and the equality of the two
    results at the ideal instance. -/
theorem claim : Cert.Claim :=
  ⟨Cert.Kernel.Gen.facts, Cert.KernelIdeal.Gen.facts, Cert.ReferenceIdeal.Gen.facts, Cert.Pre_input_domain.Gen.facts,
    Cert.Proof.Parts.frame_k, Cert.Proof.Parts.frame_ki, Cert.Proof.Parts.frame_ri, trivial, Cert.Proof.Parts.algebraic⟩

end Cert.Proof

end
